-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x325x12x32 : Shape := ⟨4, ![16, 325, 12, 32]⟩
abbrev S16x325x325 : Shape := ⟨3, ![16, 325, 325]⟩
abbrev S3x384x256 : Shape := ⟨3, ![3, 384, 256]⟩
abbrev S256 : Shape := ⟨1, ![256]⟩
abbrev S3x256x256 : Shape := ⟨3, ![3, 256, 256]⟩
abbrev S3x256x128 : Shape := ⟨3, ![3, 256, 128]⟩
abbrev S128 : Shape := ⟨1, ![128]⟩
abbrev S_ : Shape := ⟨0, ![]⟩

class Facts : Prop where
  bcast_S_S16x325x12x32 : S_.BroadcastsInDim S16x325x12x32 (![] : Fin 0 → Fin S16x325x12x32.rank)
  reducesTo_S16x325x12x32_S_d0_1_2_3 : S16x325x12x32.ReducesTo [0, 1, 2, 3] S_
  h_S_ : 0 < S_.numel
  bcast_S_S16x325x325 : S_.BroadcastsInDim S16x325x325 (![] : Fin 0 → Fin S16x325x325.rank)
  reducesTo_S16x325x325_S_d0_1_2 : S16x325x325.ReducesTo [0, 1, 2] S_
  bcast_S_S3x384x256 : S_.BroadcastsInDim S3x384x256 (![] : Fin 0 → Fin S3x384x256.rank)
  reducesTo_S3x384x256_S_d0_1_2 : S3x384x256.ReducesTo [0, 1, 2] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256x128 : S_.BroadcastsInDim S3x256x128 (![] : Fin 0 → Fin S3x256x128.rank)
  reducesTo_S3x256x128_S_d0_1_2 : S3x256x128.ReducesTo [0, 1, 2] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S3x256x256 .f32) (main_arg5 : FVec F S256 .f32) (main_arg6 : FVec F S3x256x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S3x256x256 .f32 := Host.absf main_arg4
  let main_cst_6 : FVec F S_ .f32 := constant S_ .f32 0x7F800000#32
  let main_v20 : FVec F S3x256x256 .f32 := broadcastInDim S3x256x256 ![] bcast_S_S3x256x256 main_cst_6
  let main_v21 : IVec S3x256x256 1 := cmpf .olt main_v19 main_v20
  let main_c_7 : IVec S_ 1 := constantI S_ 1 1#1
  let main_v22 : IVec S_ 1 := (fun x v => Host.reduce IntOp.andi x v reducesTo_S3x256x256_S_d0_1_2 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S3x256x128 .f32 := Host.absf main_arg6
  let main_cst_10 : FVec F S_ .f32 := constant S_ .f32 0x7F800000#32
  let main_v30 : FVec F S3x256x128 .f32 := broadcastInDim S3x256x128 ![] bcast_S_S3x256x128 main_cst_10
  let main_v31 : IVec S3x256x128 1 := cmpf .olt main_v29 main_v30
  let main_c_11 : IVec S_ 1 := constantI S_ 1 1#1
  let main_v32 : IVec S_ 1 := (fun x v => Host.reduce IntOp.andi x v reducesTo_S3x256x128_S_d0_1_2 h_S_) main_v31 main_c_11
  let main_v33 : IVec S_ 1 := andi main_v28 main_v32
  fn_part2 (F := F) main_arg7 main_v33

def fn {F : FTy → Type} [FloatOps F] (main_arg0 : FVec F S16x325x12x32 .f32) (main_arg1 : FVec F S16x325x325 .f32) (main_arg2 : FVec F S3x384x256 .f32) (main_arg3 : FVec F S256 .f32) (main_arg4 : FVec F S3x256x256 .f32) (main_arg5 : FVec F S256 .f32) (main_arg6 : FVec F S3x256x128 .f32) (main_arg7 : FVec F S128 .f32) : IVec S_ 1 :=
  let main_v0 : FVec F S16x325x12x32 .f32 := Host.absf main_arg0
  let main_cst : FVec F S_ .f32 := constant S_ .f32 0x7F800000#32
  let main_v1 : FVec F S16x325x12x32 .f32 := broadcastInDim S16x325x12x32 ![] bcast_S_S16x325x12x32 main_cst
  let main_v2 : IVec S16x325x12x32 1 := cmpf .olt main_v0 main_v1
  let main_c : IVec S_ 1 := constantI S_ 1 1#1
  let main_v3 : IVec S_ 1 := (fun x v => Host.reduce IntOp.andi x v reducesTo_S16x325x12x32_S_d0_1_2_3 h_S_) main_v2 main_c
  let main_v4 : FVec F S16x325x325 .f32 := Host.absf main_arg1
  let main_cst_0 : FVec F S_ .f32 := constant S_ .f32 0x7F800000#32
  let main_v5 : FVec F S16x325x325 .f32 := broadcastInDim S16x325x325 ![] bcast_S_S16x325x325 main_cst_0
  let main_v6 : IVec S16x325x325 1 := cmpf .olt main_v4 main_v5
  let main_c_1 : IVec S_ 1 := constantI S_ 1 1#1
  let main_v7 : IVec S_ 1 := (fun x v => Host.reduce IntOp.andi x v reducesTo_S16x325x325_S_d0_1_2 h_S_) main_v6 main_c_1
  let main_v8 : IVec S_ 1 := andi main_v3 main_v7
  let main_v9 : FVec F S3x384x256 .f32 := Host.absf main_arg2
  let main_cst_2 : FVec F S_ .f32 := constant S_ .f32 0x7F800000#32
  let main_v10 : FVec F S3x384x256 .f32 := broadcastInDim S3x384x256 ![] bcast_S_S3x384x256 main_cst_2
  let main_v11 : IVec S3x384x256 1 := cmpf .olt main_v9 main_v10
  let main_c_3 : IVec S_ 1 := constantI S_ 1 1#1
  let main_v12 : IVec S_ 1 := (fun x v => Host.reduce IntOp.andi x v reducesTo_S3x384x256_S_d0_1_2 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S16x325x12x32 : Shape := ⟨4, ![16, 325, 12, 32]⟩
abbrev S16x325x325 : Shape := ⟨3, ![16, 325, 325]⟩
abbrev S3x384x256 : Shape := ⟨3, ![3, 384, 256]⟩
abbrev S256 : Shape := ⟨1, ![256]⟩
abbrev S3x256x256 : Shape := ⟨3, ![3, 256, 256]⟩
abbrev S3x256x128 : Shape := ⟨3, ![3, 256, 128]⟩
abbrev S128 : Shape := ⟨1, ![128]⟩
abbrev S16x325x384 : Shape := ⟨3, ![16, 325, 384]⟩
abbrev S_ : Shape := ⟨0, ![]⟩
abbrev S16x336x384 : Shape := ⟨3, ![16, 336, 384]⟩
abbrev S5376x384 : Shape := ⟨2, ![5376, 384]⟩
abbrev S1x384x256 : Shape := ⟨3, ![1, 384, 256]⟩
abbrev S384x256 : Shape := ⟨2, ![384, 256]⟩
abbrev S384x768 : Shape := ⟨2, ![384, 768]⟩
abbrev S1x256x256 : Shape := ⟨3, ![1, 256, 256]⟩
abbrev S256x256 : Shape := ⟨2, ![256, 256]⟩
abbrev S256x768 : Shape := ⟨2, ![256, 768]⟩
abbrev S1x256x128 : Shape := ⟨3, ![1, 256, 128]⟩
abbrev S256x128 : Shape := ⟨2, ![256, 128]⟩
abbrev S256x384 : Shape := ⟨2, ![256, 384]⟩
abbrev S16x336x336 : Shape := ⟨3, ![16, 336, 336]⟩
abbrev S16x325x128 : Shape := ⟨3, ![16, 325, 128]⟩
abbrev S2688x384 : Shape := ⟨2, ![2688, 384]⟩
abbrev S8x336x336 : Shape := ⟨3, ![8, 336, 336]⟩
abbrev S8x325x128 : Shape := ⟨3, ![8, 325, 128]⟩
abbrev S2688x256 : Shape := ⟨2, ![2688, 256]⟩
abbrev S1x336x336 : Shape := ⟨3, ![1, 336, 336]⟩
abbrev S336x336 : Shape := ⟨2, ![336, 336]⟩
abbrev S336 : Shape := ⟨1, ![336]⟩
abbrev S336x1 : Shape := ⟨2, ![336, 1]⟩
abbrev S1x336 : Shape := ⟨2, ![1, 336]⟩
abbrev S2688x768 : Shape := ⟨2, ![2688, 768]⟩
abbrev S336x256 : Shape := ⟨2, ![336, 256]⟩
abbrev S1x256 : Shape := ⟨2, ![1, 256]⟩
abbrev S336x128 : Shape := ⟨2, ![336, 128]⟩
abbrev S1x128 : Shape := ⟨2, ![1, 128]⟩
abbrev S325x128 : Shape := ⟨2, ![325, 128]⟩
abbrev S1x325x128 : Shape := ⟨3, ![1, 325, 128]⟩

abbrev nBuf : Space → Nat
  | .hbm => 52
  | .vmem => 14
  | .smem => 0
  | _ => 0

abbrev bufTy : (tb : Table) → Fin (tcTables nBuf tb) → BufTy
  | .hbm, ⟨0, _⟩ => ⟨S16x325x12x32, .f32⟩
  | .hbm, ⟨1, _⟩ => ⟨S16x325x325, .f32⟩
  | .hbm, ⟨2, _⟩ => ⟨S3x384x256, .f32⟩
  | .hbm, ⟨3, _⟩ => ⟨S256, .f32⟩
  | .hbm, ⟨4, _⟩ => ⟨S3x256x256, .f32⟩
  | .hbm, ⟨5, _⟩ => ⟨S256, .f32⟩
  | .hbm, ⟨6, _⟩ => ⟨S3x256x128, .f32⟩
  | .hbm, ⟨7, _⟩ => ⟨S128, .f32⟩
  | .hbm, ⟨8, _⟩ => ⟨S16x325x384, .f32⟩
  | .hbm, ⟨9, _⟩ => ⟨S16x325x384, .bf16⟩
  | .hbm, ⟨10, _⟩ => ⟨S_, .i32⟩
  | .hbm, ⟨11, _⟩ => ⟨S_, .bf16⟩
  | .hbm, ⟨12, _⟩ => ⟨S16x336x384, .bf16⟩
  | .hbm, ⟨13, _⟩ => ⟨S5376x384, .bf16⟩
  | .hbm, ⟨14, _⟩ => ⟨S1x384x256, .f32⟩
  | .hbm, ⟨15, _⟩ => ⟨S384x256, .f32⟩
  | .hbm, ⟨16, _⟩ => ⟨S1x384x256, .f32⟩
  | .hbm, ⟨17, _⟩ => ⟨S384x256, .f32⟩
  | .hbm, ⟨18, _⟩ => ⟨S384x256, .f32⟩
  | .hbm, ⟨19, _⟩ => ⟨S1x384x256, .f32⟩
  | .hbm, ⟨20, _⟩ => ⟨S384x256, .f32⟩
  | .hbm, ⟨21, _⟩ => ⟨S1x384x256, .f32⟩
  | .hbm, ⟨22, _⟩ => ⟨S384x256, .f32⟩
  | .hbm, ⟨23, _⟩ => ⟨S384x768, .f32⟩
  | .hbm, ⟨24, _⟩ => ⟨S384x768, .bf16⟩
  | .hbm, ⟨25, _⟩ => ⟨S1x256x256, .f32⟩
  | .hbm, ⟨26, _⟩ => ⟨S256x256, .f32⟩
  | .hbm, ⟨27, _⟩ => ⟨S1x256x256, .f32⟩
  | .hbm, ⟨28, _⟩ => ⟨S256x256, .f32⟩
  | .hbm, ⟨29, _⟩ => ⟨S256x256, .f32⟩
  | .hbm, ⟨30, _⟩ => ⟨S1x256x256, .f32⟩
  | .hbm, ⟨31, _⟩ => ⟨S256x256, .f32⟩
  | .hbm, ⟨32, _⟩ => ⟨S1x256x256, .f32⟩
  | .hbm, ⟨33, _⟩ => ⟨S256x256, .f32⟩
  | .hbm, ⟨34, _⟩ => ⟨S256x768, .f32⟩
  | .hbm, ⟨35, _⟩ => ⟨S256x768, .bf16⟩
  | .hbm, ⟨36, _⟩ => ⟨S1x256x128, .f32⟩
  | .hbm, ⟨37, _⟩ => ⟨S256x128, .f32⟩
  | .hbm, ⟨38, _⟩ => ⟨S1x256x128, .f32⟩
  | .hbm, ⟨39, _⟩ => ⟨S256x128, .f32⟩
  | .hbm, ⟨40, _⟩ => ⟨S256x128, .f32⟩
  | .hbm, ⟨41, _⟩ => ⟨S1x256x128, .f32⟩
  | .hbm, ⟨42, _⟩ => ⟨S256x128, .f32⟩
  | .hbm, ⟨43, _⟩ => ⟨S1x256x128, .f32⟩
  | .hbm, ⟨44, _⟩ => ⟨S256x128, .f32⟩
  | .hbm, ⟨45, _⟩ => ⟨S256x384, .f32⟩
  | .hbm, ⟨46, _⟩ => ⟨S256x384, .bf16⟩
  | .hbm, ⟨47, _⟩ => ⟨S16x325x325, .bf16⟩
  | .hbm, ⟨48, _⟩ => ⟨S_, .i32⟩
  | .hbm, ⟨49, _⟩ => ⟨S_, .bf16⟩
  | .hbm, ⟨50, _⟩ => ⟨S16x336x336, .bf16⟩
  | .hbm, ⟨51, _⟩ => ⟨S16x325x128, .f32⟩
  | .local _ .vmem, ⟨0, _⟩ => ⟨S2688x384, .bf16⟩
  | .local _ .vmem, ⟨1, _⟩ => ⟨S2688x384, .bf16⟩
  | .local _ .vmem, ⟨2, _⟩ => ⟨S8x336x336, .bf16⟩
  | .local _ .vmem, ⟨3, _⟩ => ⟨S8x336x336, .bf16⟩
  | .local _ .vmem, ⟨4, _⟩ => ⟨S384x768, .bf16⟩
  | .local _ .vmem, ⟨5, _⟩ => ⟨S256, .f32⟩
  | .local _ .vmem, ⟨6, _⟩ => ⟨S256x768, .bf16⟩
  | .local _ .vmem, ⟨7, _⟩ => ⟨S256, .f32⟩
  | .local _ .vmem, ⟨8, _⟩ => ⟨S256x384, .bf16⟩
  | .local _ .vmem, ⟨9, _⟩ => ⟨S128, .f32⟩
  | .local _ .vmem, ⟨10, _⟩ => ⟨S8x325x128, .f32⟩
  | .local _ .vmem, ⟨11, _⟩ => ⟨S8x325x128, .f32⟩
  | .local _ .vmem, ⟨12, _⟩ => ⟨S2688x256, .bf16⟩
  | .local _ .vmem, ⟨13, _⟩ => ⟨S2688x256, .bf16⟩
  | _, _ => ⟨S16x325x12x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_0 : Ref sig .tc := ⟨.hbm, 48, rfl⟩
abbrev main_call1_v0 : Ref sig .tc := ⟨.hbm, 49, rfl⟩
abbrev main_v38 : Ref sig .tc := ⟨.hbm, 50, rfl⟩
abbrev main_v39 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2688x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x336x336 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x325x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S16x325x12x32_S16x325x384 : S16x325x12x32.ShapeCasts S16x325x384
  bitsLt_bf16_f32 : FTy.bits .bf16 < FTy.bits .f32
  pads_S16x325x384_S16x336x384_000_0110_000 : S16x325x384.Pads (![0, 0, 0] : Fin 3 → Nat) ![0, 11, 0] ![0, 0, 0] S16x336x384
  h_S_ : 0 < S_.numel
  shapeCasts_S16x336x384_S5376x384 : S16x336x384.ShapeCasts S5376x384
  slices_S3x384x256_S1x384x256_0_0_0 : S3x384x256.Slices ![0, 0, 0] S1x384x256
  shapeCasts_S1x384x256_S384x256 : S1x384x256.ShapeCasts S384x256
  slices_S3x384x256_S1x384x256_2_0_0 : S3x384x256.Slices ![2, 0, 0] S1x384x256
  slices_S3x384x256_S1x384x256_1_0_0 : S3x384x256.Slices ![1, 0, 0] S1x384x256
  concatenates_S384x256_S384x256_S384x256_S384x768_d1 : Shape.Concatenates [S384x256, S384x256, S384x256] S384x768 1
  slices_S3x256x256_S1x256x256_0_0_0 : S3x256x256.Slices ![0, 0, 0] S1x256x256
  shapeCasts_S1x256x256_S256x256 : S1x256x256.ShapeCasts S256x256
  slices_S3x256x256_S1x256x256_2_0_0 : S3x256x256.Slices ![2, 0, 0] S1x256x256
  slices_S3x256x256_S1x256x256_1_0_0 : S3x256x256.Slices ![1, 0, 0] S1x256x256
  concatenates_S256x256_S256x256_S256x256_S256x768_d1 : Shape.Concatenates [S256x256, S256x256, S256x256] S256x768 1
  slices_S3x256x128_S1x256x128_0_0_0 : S3x256x128.Slices ![0, 0, 0] S1x256x128
  shapeCasts_S1x256x128_S256x128 : S1x256x128.ShapeCasts S256x128
  slices_S3x256x128_S1x256x128_2_0_0 : S3x256x128.Slices ![2, 0, 0] S1x256x128
  slices_S3x256x128_S1x256x128_1_0_0 : S3x256x128.Slices ![1, 0, 0] S1x256x128
  concatenates_S256x128_S256x128_S256x128_S256x384_d1 : Shape.Concatenates [S256x128, S256x128, S256x128] S256x384 1
  pads_S16x325x325_S16x336x336_000_0110_0110 : S16x325x325.Pads (![0, 0, 0] : Fin 3 → Nat) ![0, 11, 11] ![0, 0, 0] S16x336x336
  inb_S384x768_S384x768_0_0 : ∀ a, (![0, 0] : Fin 2 → Nat) a + S384x768.size a ≤ S384x768.size a
  h_S384x768 : 0 < S384x768.numel
  shapeCasts_S384x768_S384x768 : S384x768.ShapeCasts S384x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S8x336x336_S1x336x336_0_0_0 : ∀ a, (![0, 0, 0] : Fin 3 → Nat) a + S1x336x336.size a ≤ S8x336x336.size a
  h_S1x336x336 : 0 < S1x336x336.numel
  shapeCasts_S1x336x336_S336x336 : S1x336x336.ShapeCasts S336x336
  reduces_S336x336_S336 : S336x336.Reduces [1] S336
  shapeCasts_S336_S336x1 : S336.ShapeCasts S336x1
  broadcasts_S336x1_S336x336 : S336x1.Broadcasts S336x336
  shapeCasts_S336_S1x336 : S336.ShapeCasts S1x336
  broadcasts_S1x336_S336x336 : S1x336.Broadcasts S336x336
  inb_S8x336x336_S1x336x336_1_0_0 : ∀ a, (![1, 0, 0] : Fin 3 → Nat) a + S1x336x336.size a ≤ S8x336x336.size a
  inb_S8x336x336_S1x336x336_2_0_0 : ∀ a, (![2, 0, 0] : Fin 3 → Nat) a + S1x336x336.size a ≤ S8x336x336.size a
  inb_S8x336x336_S1x336x336_3_0_0 : ∀ a, (![3, 0, 0] : Fin 3 → Nat) a + S1x336x336.size a ≤ S8x336x336.size a
  inb_S8x336x336_S1x336x336_4_0_0 : ∀ a, (![4, 0, 0] : Fin 3 → Nat) a + S1x336x336.size a ≤ S8x336x336.size a
  inb_S8x336x336_S1x336x336_5_0_0 : ∀ a, (![5, 0, 0] : Fin 3 → Nat) a + S1x336x336.size a ≤ S8x336x336.size a
  inb_S8x336x336_S1x336x336_6_0_0 : ∀ a, (![6, 0, 0] : Fin 3 → Nat) a + S1x336x336.size a ≤ S8x336x336.size a
  inb_S8x336x336_S1x336x336_7_0_0 : ∀ a, (![7, 0, 0] : Fin 3 → Nat) a + S1x336x336.size a ≤ S8x336x336.size a
  inb_S2688x384_S2688x384_0_0 : ∀ a, (![0, 0] : Fin 2 → Nat) a + S2688x384.size a ≤ S2688x384.size a
  h_S2688x384 : 0 < S2688x384.numel
  shapeCasts_S2688x384_S2688x384 : S2688x384.ShapeCasts S2688x384
  inb_S256_S256_0 : ∀ a, (![0] : Fin 1 → Nat) a + S256.size a ≤ S256.size a
  h_S256 : 0 < S256.numel
  slices_S2688x768_o0_256_S336x256 : S2688x768.Slices ![0, 256] S336x256
  slices_S2688x768_o0_512_S336x256 : S2688x768.Slices ![0, 512] S336x256
  slices_S2688x768_o0_0_S336x256 : S2688x768.Slices ![0, 0] S336x256
  shapeCasts_S256_S1x256 : S256.ShapeCasts S1x256
  broadcasts_S1x256_S336x256 : S1x256.Broadcasts S336x256
  inb_S2688x256_S336x256_0_0 : ∀ a, (![0, 0] : Fin 2 → Nat) a + S336x256.size a ≤ S2688x256.size a
  h_S336x256 : 0 < S336x256.numel
  shapeCasts_S336x256_S336x256 : S336x256.ShapeCasts S336x256
  packedbf16_S2688x256_S336x256_0_0 : (Rect.unit (s := S2688x256) ![0, 0] S336x256.size inb_S2688x256_S336x256_0_0).PackedRows (EltTy.packing .bf16)
  slices_S2688x768_o336_256_S336x256 : S2688x768.Slices ![336, 256] S336x256
  slices_S2688x768_o336_512_S336x256 : S2688x768.Slices ![336, 512] S336x256
  slices_S2688x768_o336_0_S336x256 : S2688x768.Slices ![336, 0] S336x256
  inb_S2688x256_S336x256_336_0 : ∀ a, (![336, 0] : Fin 2 → Nat) a + S336x256.size a ≤ S2688x256.size a
  packedbf16_S2688x256_S336x256_336_0 : (Rect.unit (s := S2688x256) ![336, 0] S336x256.size inb_S2688x256_S336x256_336_0).PackedRows (EltTy.packing .bf16)
  slices_S2688x768_o672_256_S336x256 : S2688x768.Slices ![672, 256] S336x256
  slices_S2688x768_o672_512_S336x256 : S2688x768.Slices ![672, 512] S336x256
  slices_S2688x768_o672_0_S336x256 : S2688x768.Slices ![672, 0] S336x256
  inb_S2688x256_S336x256_672_0 : ∀ a, (![672, 0] : Fin 2 → Nat) a + S336x256.size a ≤ S2688x256.size a
  packedbf16_S2688x256_S336x256_672_0 : (Rect.unit (s := S2688x256) ![672, 0] S336x256.size inb_S2688x256_S336x256_672_0).PackedRows (EltTy.packing .bf16)
  slices_S2688x768_o1008_256_S336x256 : S2688x768.Slices ![1008, 256] S336x256
  slices_S2688x768_o1008_512_S336x256 : S2688x768.Slices ![1008, 512] S336x256
  slices_S2688x768_o1008_0_S336x256 : S2688x768.Slices ![1008, 0] S336x256
  inb_S2688x256_S336x256_1008_0 : ∀ a, (![1008, 0] : Fin 2 → Nat) a + S336x256.size a ≤ S2688x256.size a
  packedbf16_S2688x256_S336x256_1008_0 : (Rect.unit (s := S2688x256) ![1008, 0] S336x256.size inb_S2688x256_S336x256_1008_0).PackedRows (EltTy.packing .bf16)
  slices_S2688x768_o1344_256_S336x256 : S2688x768.Slices ![1344, 256] S336x256
  slices_S2688x768_o1344_512_S336x256 : S2688x768.Slices ![1344, 512] S336x256
  slices_S2688x768_o1344_0_S336x256 : S2688x768.Slices ![1344, 0] S336x256
  inb_S2688x256_S336x256_1344_0 : ∀ a, (![1344, 0] : Fin 2 → Nat) a + S336x256.size a ≤ S2688x256.size a
  packedbf16_S2688x256_S336x256_1344_0 : (Rect.unit (s := S2688x256) ![1344, 0] S336x256.size inb_S2688x256_S336x256_1344_0).PackedRows (EltTy.packing .bf16)
  slices_S2688x768_o1680_256_S336x256 : S2688x768.Slices ![1680, 256] S336x256
  slices_S2688x768_o1680_512_S336x256 : S2688x768.Slices ![1680, 512] S336x256
  slices_S2688x768_o1680_0_S336x256 : S2688x768.Slices ![1680, 0] S336x256
  inb_S2688x256_S336x256_1680_0 : ∀ a, (![1680, 0] : Fin 2 → Nat) a + S336x256.size a ≤ S2688x256.size a
  packedbf16_S2688x256_S336x256_1680_0 : (Rect.unit (s := S2688x256) ![1680, 0] S336x256.size inb_S2688x256_S336x256_1680_0).PackedRows (EltTy.packing .bf16)
  slices_S2688x768_o2016_256_S336x256 : S2688x768.Slices ![2016, 256] S336x256
  slices_S2688x768_o2016_512_S336x256 : S2688x768.Slices ![2016, 512] S336x256
  slices_S2688x768_o2016_0_S336x256 : S2688x768.Slices ![2016, 0] S336x256
  inb_S2688x256_S336x256_2016_0 : ∀ a, (![2016, 0] : Fin 2 → Nat) a + S336x256.size a ≤ S2688x256.size a
  packedbf16_S2688x256_S336x256_2016_0 : (Rect.unit (s := S2688x256) ![2016, 0] S336x256.size inb_S2688x256_S336x256_2016_0).PackedRows (EltTy.packing .bf16)
  slices_S2688x768_o2352_256_S336x256 : S2688x768.Slices ![2352, 256] S336x256
  slices_S2688x768_o2352_512_S336x256 : S2688x768.Slices ![2352, 512] S336x256
  slices_S2688x768_o2352_0_S336x256 : S2688x768.Slices ![2352, 0] S336x256
  inb_S2688x256_S336x256_2352_0 : ∀ a, (![2352, 0] : Fin 2 → Nat) a + S336x256.size a ≤ S2688x256.size a
  packedbf16_S2688x256_S336x256_2352_0 : (Rect.unit (s := S2688x256) ![2352, 0] S336x256.size inb_S2688x256_S336x256_2352_0).PackedRows (EltTy.packing .bf16)
  inb_S2688x256_S2688x256_0_0 : ∀ a, (![0, 0] : Fin 2 → Nat) a + S2688x256.size a ≤ S2688x256.size a
  h_S2688x256 : 0 < S2688x256.numel
  inb_S128_S128_0 : ∀ a, (![0] : Fin 1 → Nat) a + S128.size a ≤ S128.size a
  h_S128 : 0 < S128.numel
  slices_S2688x384_o0_128_S336x128 : S2688x384.Slices ![0, 128] S336x128
  slices_S2688x384_o0_256_S336x128 : S2688x384.Slices ![0, 256] S336x128
  slices_S2688x384_o0_0_S336x128 : S2688x384.Slices ![0, 0] S336x128
  shapeCasts_S128_S1x128 : S128.ShapeCasts S1x128
  broadcasts_S1x128_S336x128 : S1x128.Broadcasts S336x128
  slices_S336x128_o0_0_S325x128 : S336x128.Slices ![0, 0] S325x128
  inb_S8x325x128_S1x325x128_0_0_0 : ∀ a, (![0, 0, 0] : Fin 3 → Nat) a + S1x325x128.size a ≤ S8x325x128.size a
  h_S1x325x128 : 0 < S1x325x128.numel
  shapeCasts_S1x325x128_S325x128 : S1x325x128.ShapeCasts S325x128
  shapeCasts_S325x128_S1x325x128 : S325x128.ShapeCasts S1x325x128
  slices_S2688x384_o336_128_S336x128 : S2688x384.Slices ![336, 128] S336x128
  slices_S2688x384_o336_256_S336x128 : S2688x384.Slices ![336, 256] S336x128
  slices_S2688x384_o336_0_S336x128 : S2688x384.Slices ![336, 0] S336x128
  inb_S8x325x128_S1x325x128_1_0_0 : ∀ a, (![1, 0, 0] : Fin 3 → Nat) a + S1x325x128.size a ≤ S8x325x128.size a
  slices_S2688x384_o672_128_S336x128 : S2688x384.Slices ![672, 128] S336x128
  slices_S2688x384_o672_256_S336x128 : S2688x384.Slices ![672, 256] S336x128
  slices_S2688x384_o672_0_S336x128 : S2688x384.Slices ![672, 0] S336x128
  inb_S8x325x128_S1x325x128_2_0_0 : ∀ a, (![2, 0, 0] : Fin 3 → Nat) a + S1x325x128.size a ≤ S8x325x128.size a
  slices_S2688x384_o1008_128_S336x128 : S2688x384.Slices ![1008, 128] S336x128
  slices_S2688x384_o1008_256_S336x128 : S2688x384.Slices ![1008, 256] S336x128
  slices_S2688x384_o1008_0_S336x128 : S2688x384.Slices ![1008, 0] S336x128
  inb_S8x325x128_S1x325x128_3_0_0 : ∀ a, (![3, 0, 0] : Fin 3 → Nat) a + S1x325x128.size a ≤ S8x325x128.size a
  slices_S2688x384_o1344_128_S336x128 : S2688x384.Slices ![1344, 128] S336x128
  slices_S2688x384_o1344_256_S336x128 : S2688x384.Slices ![1344, 256] S336x128
  slices_S2688x384_o1344_0_S336x128 : S2688x384.Slices ![1344, 0] S336x128
  inb_S8x325x128_S1x325x128_4_0_0 : ∀ a, (![4, 0, 0] : Fin 3 → Nat) a + S1x325x128.size a ≤ S8x325x128.size a
  slices_S2688x384_o1680_128_S336x128 : S2688x384.Slices ![1680, 128] S336x128
  slices_S2688x384_o1680_256_S336x128 : S2688x384.Slices ![1680, 256] S336x128
  slices_S2688x384_o1680_0_S336x128 : S2688x384.Slices ![1680, 0] S336x128
  inb_S8x325x128_S1x325x128_5_0_0 : ∀ a, (![5, 0, 0] : Fin 3 → Nat) a + S1x325x128.size a ≤ S8x325x128.size a
  slices_S2688x384_o2016_128_S336x128 : S2688x384.Slices ![2016, 128] S336x128
  slices_S2688x384_o2016_256_S336x128 : S2688x384.Slices ![2016, 256] S336x128
  slices_S2688x384_o2016_0_S336x128 : S2688x384.Slices ![2016, 0] S336x128
  inb_S8x325x128_S1x325x128_6_0_0 : ∀ a, (![6, 0, 0] : Fin 3 → Nat) a + S1x325x128.size a ≤ S8x325x128.size a
  slices_S2688x384_o2352_128_S336x128 : S2688x384.Slices ![2352, 128] S336x128
  slices_S2688x384_o2352_256_S336x128 : S2688x384.Slices ![2352, 256] S336x128
  slices_S2688x384_o2352_0_S336x128 : S2688x384.Slices ![2352, 0] S336x128
  inb_S8x325x128_S1x325x128_7_0_0 : ∀ a, (![7, 0, 0] : Fin 3 → Nat) a + S1x325x128.size a ≤ S8x325x128.size a
  dot_S2688x384_S384x768_S2688x768_1_0_0_1_n_n_wf : DotDims.WF S2688x384 S384x768 S2688x768 [1] [0] [0] [1] [] []
  dot_S336x336_S336x256_S336x256_1_0_0_1_n_n_wf : DotDims.WF S336x336 S336x256 S336x256 [1] [0] [0] [1] [] []
  dot_S2688x256_S256x768_S2688x768_1_0_0_1_n_n_wf : DotDims.WF S2688x256 S256x768 S2688x768 [1] [0] [0] [1] [] []
  dot_S2688x256_S256x384_S2688x384_1_0_0_1_n_n_wf : DotDims.WF S2688x256 S256x384 S2688x384 [1] [0] [0] [1] [] []
  dot_S336x336_S336x128_S336x128_1_0_0_1_n_n_wf : DotDims.WF S336x336 S336x128 S336x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2688x384.size a ≤ S5376x384.size a
  hwx0_0 : ∀ i : grid0.Coords, EltTy.bits .bf16 = 32 ∨ (Rect.block (s := S5376x384) S2688x384.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x336x336.size a ≤ S16x336x336.size a
  hwx0_1 : ∀ i : grid0.Coords, EltTy.bits .bf16 = 32 ∨ (Rect.block (s := S16x336x336) S8x336x336.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x768.size a ≤ S384x768.size a
  hwx0_2 : ∀ i : grid0.Coords, EltTy.bits .bf16 = 32 ∨ (Rect.block (s := S384x768) S384x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x768.size a ≤ S256x768.size a
  hwx0_4 : ∀ i : grid0.Coords, EltTy.bits .bf16 = 32 ∨ (Rect.block (s := S256x768) S256x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x384.size a ≤ S256x384.size a
  hwx0_6 : ∀ i : grid0.Coords, EltTy.bits .bf16 = 32 ∨ (Rect.block (s := S256x384) S256x384.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x325x128.size a ≤ S16x325x128.size a
  hwx0_8 : ∀ i : grid0.Coords, EltTy.bits .f32 = 32 ∨ (Rect.block (s := S16x325x128) S8x325x128.size (cc0_transform_8 i) (hinb0_8 i)).WholeWords (EltTy.packing .f32)

variable [Facts₀]

def dot_S2688x384_S384x768_S2688x768_1_0_0_1_n_n : DotDims S2688x384 S384x768 S2688x768 where
  lhsContracting := [1]
  rhsContracting := [0]
  lhsNonContracting := [0]
  rhsNonContracting := [1]
  lhsBatch := []
  rhsBatch := []
  wf := dot_S2688x384_S384x768_S2688x768_1_0_0_1_n_n_wf
def dot_S336x336_S336x256_S336x256_1_0_0_1_n_n : DotDims S336x336 S336x256 S336x256 where
  lhsContracting := [1]
  rhsContracting := [0]
  lhsNonContracting := [0]
  rhsNonContracting := [1]
  lhsBatch := []
  rhsBatch := []
  wf := dot_S336x336_S336x256_S336x256_1_0_0_1_n_n_wf
def dot_S2688x256_S256x768_S2688x768_1_0_0_1_n_n : DotDims S2688x256 S256x768 S2688x768 where
  lhsContracting := [1]
  rhsContracting := [0]
  lhsNonContracting := [0]
  rhsNonContracting := [1]
  lhsBatch := []
  rhsBatch := []
  wf := dot_S2688x256_S256x768_S2688x768_1_0_0_1_n_n_wf
def dot_S2688x256_S256x384_S2688x384_1_0_0_1_n_n : DotDims S2688x256 S256x384 S2688x384 where
  lhsContracting := [1]
  rhsContracting := [0]
  lhsNonContracting := [0]
  rhsNonContracting := [1]
  lhsBatch := []
  rhsBatch := []
  wf := dot_S2688x256_S256x384_S2688x384_1_0_0_1_n_n_wf
def dot_S336x336_S336x128_S336x128_1_0_0_1_n_n : DotDims S336x336 S336x128 S336x128 where
  lhsContracting := [1]
  rhsContracting := [0]
  lhsNonContracting := [0]
  rhsNonContracting := [1]
  lhsBatch := []
  rhsBatch := []
  wf := dot_S336x336_S336x128_S336x128_1_0_0_1_n_n_wf

abbrev win0_0 : Pipeline.Window sig grid0 :=
  Pipeline.Window.ofSpec (Memref.whole main_v3) S2688x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S8x336x336.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S384x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S256x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S256x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v39) S8x325x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x325x12x32 : Shape := ⟨4, ![16, 325, 12, 32]⟩
abbrev S16x325x325 : Shape := ⟨3, ![16, 325, 325]⟩
abbrev S3x384x256 : Shape := ⟨3, ![3, 384, 256]⟩
abbrev S256 : Shape := ⟨1, ![256]⟩
abbrev S3x256x256 : Shape := ⟨3, ![3, 256, 256]⟩
abbrev S3x256x128 : Shape := ⟨3, ![3, 256, 128]⟩
abbrev S128 : Shape := ⟨1, ![128]⟩
abbrev S16x325x384 : Shape := ⟨3, ![16, 325, 384]⟩
abbrev S_ : Shape := ⟨0, ![]⟩
abbrev S16x325 : Shape := ⟨2, ![16, 325]⟩
abbrev S16x325x1 : Shape := ⟨3, ![16, 325, 1]⟩
abbrev S16x1x325 : Shape := ⟨3, ![16, 1, 325]⟩
abbrev S1x384x256 : Shape := ⟨3, ![1, 384, 256]⟩
abbrev S384x256 : Shape := ⟨2, ![384, 256]⟩
abbrev S16x325x256 : Shape := ⟨3, ![16, 325, 256]⟩
abbrev S1x1x256 : Shape := ⟨3, ![1, 1, 256]⟩
abbrev S1x256x256 : Shape := ⟨3, ![1, 256, 256]⟩
abbrev S256x256 : Shape := ⟨2, ![256, 256]⟩
abbrev S1x256x128 : Shape := ⟨3, ![1, 256, 128]⟩
abbrev S256x128 : Shape := ⟨2, ![256, 128]⟩
abbrev S16x325x128 : Shape := ⟨3, ![16, 325, 128]⟩
abbrev S1x1x128 : Shape := ⟨3, ![1, 1, 128]⟩

abbrev nBuf : Space → Nat
  | .hbm => 102
  | .vmem => 0
  | .smem => 0
  | _ => 0

abbrev bufTy : (tb : Table) → Fin (tcTables nBuf tb) → BufTy
  | .hbm, ⟨0, _⟩ => ⟨S16x325x12x32, .f32⟩
  | .hbm, ⟨1, _⟩ => ⟨S16x325x325, .f32⟩
  | .hbm, ⟨2, _⟩ => ⟨S3x384x256, .f32⟩
  | .hbm, ⟨3, _⟩ => ⟨S256, .f32⟩
  | .hbm, ⟨4, _⟩ => ⟨S3x256x256, .f32⟩
  | .hbm, ⟨5, _⟩ => ⟨S256, .f32⟩
  | .hbm, ⟨6, _⟩ => ⟨S3x256x128, .f32⟩
  | .hbm, ⟨7, _⟩ => ⟨S128, .f32⟩
  | .hbm, ⟨8, _⟩ => ⟨S16x325x384, .f32⟩
  | .hbm, ⟨9, _⟩ => ⟨S_, .f32⟩
  | .hbm, ⟨10, _⟩ => ⟨S16x325, .f32⟩
  | .hbm, ⟨11, _⟩ => ⟨S_, .f32⟩
  | .hbm, ⟨12, _⟩ => ⟨S16x325, .f32⟩
  | .hbm, ⟨13, _⟩ => ⟨S16x325, .i1⟩
  | .hbm, ⟨14, _⟩ => ⟨S_, .f32⟩
  | .hbm, ⟨15, _⟩ => ⟨S16x325, .f32⟩
  | .hbm, ⟨16, _⟩ => ⟨S16x325, .i1⟩
  | .hbm, ⟨17, _⟩ => ⟨S_, .f32⟩
  | .hbm, ⟨18, _⟩ => ⟨S_, .f32⟩
  | .hbm, ⟨19, _⟩ => ⟨S16x325, .f32⟩
  | .hbm, ⟨20, _⟩ => ⟨S16x325, .f32⟩
  | .hbm, ⟨21, _⟩ => ⟨S16x325, .f32⟩
  | .hbm, ⟨22, _⟩ => ⟨S_, .f32⟩
  | .hbm, ⟨23, _⟩ => ⟨S16x325, .f32⟩
  | .hbm, ⟨24, _⟩ => ⟨S16x325, .f32⟩
  | .hbm, ⟨25, _⟩ => ⟨S_, .f32⟩
  | .hbm, ⟨26, _⟩ => ⟨S_, .f32⟩
  | .hbm, ⟨27, _⟩ => ⟨S16x325, .f32⟩
  | .hbm, ⟨28, _⟩ => ⟨S16x325, .f32⟩
  | .hbm, ⟨29, _⟩ => ⟨S16x325x1, .f32⟩
  | .hbm, ⟨30, _⟩ => ⟨S16x325x325, .f32⟩
  | .hbm, ⟨31, _⟩ => ⟨S16x325x325, .f32⟩
  | .hbm, ⟨32, _⟩ => ⟨S16x1x325, .f32⟩
  | .hbm, ⟨33, _⟩ => ⟨S16x325x325, .f32⟩
  | .hbm, ⟨34, _⟩ => ⟨S16x325x325, .f32⟩
  | .hbm, ⟨35, _⟩ => ⟨S16x325x325, .f32⟩
  | .hbm, ⟨36, _⟩ => ⟨S1x384x256, .f32⟩
  | .hbm, ⟨37, _⟩ => ⟨S384x256, .f32⟩
  | .hbm, ⟨38, _⟩ => ⟨S16x325x256, .f32⟩
  | .hbm, ⟨39, _⟩ => ⟨S16x325x384, .f32⟩
  | .hbm, ⟨40, _⟩ => ⟨S1x384x256, .f32⟩
  | .hbm, ⟨41, _⟩ => ⟨S384x256, .f32⟩
  | .hbm, ⟨42, _⟩ => ⟨S16x325x256, .f32⟩
  | .hbm, ⟨43, _⟩ => ⟨S16x325x256, .f32⟩
  | .hbm, ⟨44, _⟩ => ⟨S16x325x384, .f32⟩
  | .hbm, ⟨45, _⟩ => ⟨S_, .f32⟩
  | .hbm, ⟨46, _⟩ => ⟨S16x325x384, .f32⟩
  | .hbm, ⟨47, _⟩ => ⟨S16x325x384, .f32⟩
  | .hbm, ⟨48, _⟩ => ⟨S16x325x384, .f32⟩
  | .hbm, ⟨49, _⟩ => ⟨S1x384x256, .f32⟩
  | .hbm, ⟨50, _⟩ => ⟨S384x256, .f32⟩
  | .hbm, ⟨51, _⟩ => ⟨S16x325x256, .f32⟩
  | .hbm, ⟨52, _⟩ => ⟨S16x325x256, .f32⟩
  | .hbm, ⟨53, _⟩ => ⟨S1x1x256, .f32⟩
  | .hbm, ⟨54, _⟩ => ⟨S16x325x256, .f32⟩
  | .hbm, ⟨55, _⟩ => ⟨S16x325x256, .f32⟩
  | .hbm, ⟨56, _⟩ => ⟨S_, .f32⟩
  | .hbm, ⟨57, _⟩ => ⟨S16x325x256, .f32⟩
  | .hbm, ⟨58, _⟩ => ⟨S16x325x256, .f32⟩
  | .hbm, ⟨59, _⟩ => ⟨S1x256x256, .f32⟩
  | .hbm, ⟨60, _⟩ => ⟨S256x256, .f32⟩
  | .hbm, ⟨61, _⟩ => ⟨S16x325x256, .f32⟩
  | .hbm, ⟨62, _⟩ => ⟨S16x325x256, .f32⟩
  | .hbm, ⟨63, _⟩ => ⟨S1x256x256, .f32⟩
  | .hbm, ⟨64, _⟩ => ⟨S256x256, .f32⟩
  | .hbm, ⟨65, _⟩ => ⟨S16x325x256, .f32⟩
  | .hbm, ⟨66, _⟩ => ⟨S16x325x256, .f32⟩
  | .hbm, ⟨67, _⟩ => ⟨S16x325x256, .f32⟩
  | .hbm, ⟨68, _⟩ => ⟨S_, .f32⟩
  | .hbm, ⟨69, _⟩ => ⟨S16x325x256, .f32⟩
  | .hbm, ⟨70, _⟩ => ⟨S16x325x256, .f32⟩
  | .hbm, ⟨71, _⟩ => ⟨S16x325x256, .f32⟩
  | .hbm, ⟨72, _⟩ => ⟨S1x256x256, .f32⟩
  | .hbm, ⟨73, _⟩ => ⟨S256x256, .f32⟩
  | .hbm, ⟨74, _⟩ => ⟨S16x325x256, .f32⟩
  | .hbm, ⟨75, _⟩ => ⟨S16x325x256, .f32⟩
  | .hbm, ⟨76, _⟩ => ⟨S1x1x256, .f32⟩
  | .hbm, ⟨77, _⟩ => ⟨S16x325x256, .f32⟩
  | .hbm, ⟨78, _⟩ => ⟨S16x325x256, .f32⟩
  | .hbm, ⟨79, _⟩ => ⟨S_, .f32⟩
  | .hbm, ⟨80, _⟩ => ⟨S16x325x256, .f32⟩
  | .hbm, ⟨81, _⟩ => ⟨S16x325x256, .f32⟩
  | .hbm, ⟨82, _⟩ => ⟨S1x256x128, .f32⟩
  | .hbm, ⟨83, _⟩ => ⟨S256x128, .f32⟩
  | .hbm, ⟨84, _⟩ => ⟨S16x325x128, .f32⟩
  | .hbm, ⟨85, _⟩ => ⟨S16x325x256, .f32⟩
  | .hbm, ⟨86, _⟩ => ⟨S1x256x128, .f32⟩
  | .hbm, ⟨87, _⟩ => ⟨S256x128, .f32⟩
  | .hbm, ⟨88, _⟩ => ⟨S16x325x128, .f32⟩
  | .hbm, ⟨89, _⟩ => ⟨S16x325x128, .f32⟩
  | .hbm, ⟨90, _⟩ => ⟨S16x325x256, .f32⟩
  | .hbm, ⟨91, _⟩ => ⟨S_, .f32⟩
  | .hbm, ⟨92, _⟩ => ⟨S16x325x256, .f32⟩
  | .hbm, ⟨93, _⟩ => ⟨S16x325x256, .f32⟩
  | .hbm, ⟨94, _⟩ => ⟨S16x325x256, .f32⟩
  | .hbm, ⟨95, _⟩ => ⟨S1x256x128, .f32⟩
  | .hbm, ⟨96, _⟩ => ⟨S256x128, .f32⟩
  | .hbm, ⟨97, _⟩ => ⟨S16x325x128, .f32⟩
  | .hbm, ⟨98, _⟩ => ⟨S16x325x128, .f32⟩
  | .hbm, ⟨99, _⟩ => ⟨S1x1x128, .f32⟩
  | .hbm, ⟨100, _⟩ => ⟨S16x325x128, .f32⟩
  | .hbm, ⟨101, _⟩ => ⟨S16x325x128, .f32⟩
  | _, _ => ⟨S16x325x12x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call2_cst : Ref sig .tc := ⟨.hbm, 56, rfl⟩
abbrev main_call2_v0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call3_cst : Ref sig .tc := ⟨.hbm, 79, rfl⟩
abbrev main_call3_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_7 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]

class Facts₀ : Prop where
  shapeCasts_S16x325x12x32_S16x325x384 : S16x325x12x32.ShapeCasts S16x325x384
  reducesTo_S16x325x325_S16x325_d2 : S16x325x325.ReducesTo [2] S16x325
  h_S_ : 0 < S_.numel
  bcast_S_S16x325 : S_.BroadcastsInDim S16x325 (![] : Fin 0 → Fin S16x325.rank)
  bcast_S16x325_S16x325x1_0_1 : S16x325.BroadcastsInDim S16x325x1 (![0, 1] : Fin 2 → Fin S16x325x1.rank)
  bcast_S16x325x1_S16x325x325_0_1_2 : S16x325x1.BroadcastsInDim S16x325x325 (![0, 1, 2] : Fin 3 → Fin S16x325x325.rank)
  bcast_S16x325_S16x1x325_0_2 : S16x325.BroadcastsInDim S16x1x325 (![0, 2] : Fin 2 → Fin S16x1x325.rank)
  bcast_S16x1x325_S16x325x325_0_1_2 : S16x1x325.BroadcastsInDim S16x325x325 (![0, 1, 2] : Fin 3 → Fin S16x325x325.rank)
  slices_S3x384x256_S1x384x256_0_0_0 : S3x384x256.Slices ![0, 0, 0] S1x384x256
  shapeCasts_S1x384x256_S384x256 : S1x384x256.ShapeCasts S384x256
  slices_S3x384x256_S1x384x256_1_0_0 : S3x384x256.Slices ![1, 0, 0] S1x384x256
  bcast_S_S16x325x384 : S_.BroadcastsInDim S16x325x384 (![] : Fin 0 → Fin S16x325x384.rank)
  slices_S3x384x256_S1x384x256_2_0_0 : S3x384x256.Slices ![2, 0, 0] S1x384x256
  bcast_S256_S1x1x256_2 : S256.BroadcastsInDim S1x1x256 (![2] : Fin 1 → Fin S1x1x256.rank)
  bcast_S1x1x256_S16x325x256_0_1_2 : S1x1x256.BroadcastsInDim S16x325x256 (![0, 1, 2] : Fin 3 → Fin S16x325x256.rank)
  bcast_S_S16x325x256 : S_.BroadcastsInDim S16x325x256 (![] : Fin 0 → Fin S16x325x256.rank)
  slices_S3x256x256_S1x256x256_0_0_0 : S3x256x256.Slices ![0, 0, 0] S1x256x256
  shapeCasts_S1x256x256_S256x256 : S1x256x256.ShapeCasts S256x256
  slices_S3x256x256_S1x256x256_1_0_0 : S3x256x256.Slices ![1, 0, 0] S1x256x256
  slices_S3x256x256_S1x256x256_2_0_0 : S3x256x256.Slices ![2, 0, 0] S1x256x256
  slices_S3x256x128_S1x256x128_0_0_0 : S3x256x128.Slices ![0, 0, 0] S1x256x128
  shapeCasts_S1x256x128_S256x128 : S1x256x128.ShapeCasts S256x128
  slices_S3x256x128_S1x256x128_1_0_0 : S3x256x128.Slices ![1, 0, 0] S1x256x128
  slices_S3x256x128_S1x256x128_2_0_0 : S3x256x128.Slices ![2, 0, 0] S1x256x128
  bcast_S128_S1x1x128_2 : S128.BroadcastsInDim S1x1x128 (![2] : Fin 1 → Fin S1x1x128.rank)
  bcast_S1x1x128_S16x325x128_0_1_2 : S1x1x128.BroadcastsInDim S16x325x128 (![0, 1, 2] : Fin 3 → Fin S16x325x128.rank)
  dot_S16x325x384_S384x256_S16x325x256_2_0_01_1_n_n_wf : DotDims.WF S16x325x384 S384x256 S16x325x256 [2] [0] [0, 1] [1] [] []
  dot_S16x325x325_S16x325x384_S16x325x384_2_1_1_2_0_0_wf : DotDims.WF S16x325x325 S16x325x384 S16x325x384 [2] [1] [1] [2] [0] [0]
  dot_S16x325x256_S256x256_S16x325x256_2_0_01_1_n_n_wf : DotDims.WF S16x325x256 S256x256 S16x325x256 [2] [0] [0, 1] [1] [] []
  dot_S16x325x325_S16x325x256_S16x325x256_2_1_1_2_0_0_wf : DotDims.WF S16x325x325 S16x325x256 S16x325x256 [2] [1] [1] [2] [0] [0]
  dot_S16x325x256_S256x128_S16x325x128_2_0_01_1_n_n_wf : DotDims.WF S16x325x256 S256x128 S16x325x128 [2] [0] [0, 1] [1] [] []

variable [Facts₀]

def dot_S16x325x384_S384x256_S16x325x256_2_0_01_1_n_n : DotDims S16x325x384 S384x256 S16x325x256 where
  lhsContracting := [2]
  rhsContracting := [0]
  lhsNonContracting := [0, 1]
  rhsNonContracting := [1]
  lhsBatch := []
  rhsBatch := []
  wf := dot_S16x325x384_S384x256_S16x325x256_2_0_01_1_n_n_wf
def dot_S16x325x325_S16x325x384_S16x325x384_2_1_1_2_0_0 : DotDims S16x325x325 S16x325x384 S16x325x384 where
  lhsContracting := [2]
  rhsContracting := [1]
  lhsNonContracting := [1]
  rhsNonContracting := [2]
  lhsBatch := [0]
  rhsBatch := [0]
  wf := dot_S16x325x325_S16x325x384_S16x325x384_2_1_1_2_0_0_wf
def dot_S16x325x256_S256x256_S16x325x256_2_0_01_1_n_n : DotDims S16x325x256 S256x256 S16x325x256 where
  lhsContracting := [2]
  rhsContracting := [0]
  lhsNonContracting := [0, 1]
  rhsNonContracting := [1]
  lhsBatch := []
  rhsBatch := []
  wf := dot_S16x325x256_S256x256_S16x325x256_2_0_01_1_n_n_wf
def dot_S16x325x325_S16x325x256_S16x325x256_2_1_1_2_0_0 : DotDims S16x325x325 S16x325x256 S16x325x256 where
  lhsContracting := [2]
  rhsContracting := [1]
  lhsNonContracting := [1]
  rhsNonContracting := [2]
  lhsBatch := [0]
  rhsBatch := [0]
  wf := dot_S16x325x325_S16x325x256_S16x325x256_2_1_1_2_0_0_wf
def dot_S16x325x256_S256x128_S16x325x128_2_0_01_1_n_n : DotDims S16x325x256 S256x128 S16x325x128 where
  lhsContracting := [2]
  rhsContracting := [0]
  lhsNonContracting := [0, 1]
  rhsNonContracting := [1]
  lhsBatch := []
  rhsBatch := []
  wf := dot_S16x325x256_S256x128_S16x325x128_2_0_01_1_n_n_wf

class Facts : Prop extends Facts₀ where

variable [Facts]
-- ==== Proof.KKit.lean ====
/-
  @main up to its one region, and the frame from a frame run.

  Core `c`'s buffers when the region is entered are what the host operations before it leave (`V`): the reshape,
  casts and zero-padding of the node features and of the adjacency, and the three stacked weight matrices
  `[W₀ − W₂ | W₁ | W₂]`.  None of these operations writes an argument array (`V_main_argK`).  Window `w`'s block at
  grid point `t` is read off its array there (`iblk`), and an input window's staging buffer holds that block at every
  point.  `frame_of`: a run that ends with every array of the region at what the proof data compute and every other
  buffer as the region found it leaves the eight argument arrays as launched.
-/
import proofs.«146035_g81071802679316_cont_sun_m_195_36_alg».proof.Proof.Gen.Kernel.Launch
import proofs.«146035_g81071802679316_cont_sun_m_195_36_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Kit

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the four stretches of host operations. -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- @main up to the region: the four stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩)
    main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: a staged argument array ends at its launch contents because an input window's array
    is never written, an argument no window stages because the region passes it by, and no host operation writes
    either. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).1 7).trans (((dats 0 c).arrAt_in 7 rfl _).trans ((hA c 7).trans (V_main_arg7 m c)))⟩) h

end Cert.Kernel.Kit

end
-- ==== Proof.KBody.lean ====
/-
  The kernel body run once at symbolic operands.

  From the eight input windows' staging buffers held whole at the contents `x1 … x8` (node features, padded
  adjacency, the three stacked weight matrices and the three biases), the output window's staging buffer and the
  two scratch buffers at anything, the body runs to its return: the inputs are handed back as they were, the two
  scratch buffers at something, and the output's buffer at a block of values that depends on `x1 … x8` only —
  every row of each scratch buffer is stored before it is loaded, and every entry of the output block is stored —,
  which the run finds as the witness of a subtype.
-/
import proofs.«146035_g81071802679316_cont_sun_m_195_36_alg».proof.Proof.Gen.Kernel.Skeleton
import proofs.«146035_g81071802679316_cont_sun_m_195_36_alg».proof.Proof.Gen.Kernel.Launch
import Idealize.ShloMosaic.Lib.Pipeline.Frame
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- What the body leaves in the output window's staging buffer, as a function of the input blocks, WITH the proof that
    the body runs from the input blocks to it. -/
noncomputable def kernelRun (c : Dev nD) (i : grid0.Coords)
    (arg1 : Memref sig .tc .vmem S2688x384 .bf16) (harg1 : arg1.IsWhole) (arg2 : Memref sig .tc .vmem S8x336x336 .bf16) (harg2 : arg2.IsWhole)
    (arg3 : Memref sig .tc .vmem S384x768 .bf16) (harg3 : arg3.IsWhole) (arg4 : Memref sig .tc .vmem S256 .f32) (harg4 : arg4.IsWhole)
    (arg5 : Memref sig .tc .vmem S256x768 .bf16) (harg5 : arg5.IsWhole) (arg6 : Memref sig .tc .vmem S256 .f32) (harg6 : arg6.IsWhole)
    (arg7 : Memref sig .tc .vmem S256x384 .bf16) (harg7 : arg7.IsWhole) (arg8 : Memref sig .tc .vmem S128 .f32) (harg8 : arg8.IsWhole)
    (arg9 : Memref sig .tc .vmem S8x325x128 .f32) (harg9 : arg9.IsWhole) (arg10 : Memref sig .tc .vmem S2688x256 .bf16) (harg10 : arg10.IsWhole)
    (arg11 : Memref sig .tc .vmem S2688x256 .bf16) (harg11 : arg11.IsWhole)
    (x1 : Vec F S2688x384 .bf16) (x2 : Vec F S8x336x336 .bf16) (x3 : Vec F S384x768 .bf16) (x4 : Vec F S256 .f32)
    (x5 : Vec F S256x768 .bf16) (x6 : Vec F S256 .f32) (x7 : Vec F S256x384 .bf16) (x8 : Vec F S128 .f32) :
    { W : Vec F S8x325x128 .f32 //
      ∀ (E : Set ℕ) (K : PUnit → sProp 𝕄),
        iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare x5 ∗ owns (c : Thread nD τ) arg6 fullShare x6
          ∗ owns (c : Thread nD τ) arg7 fullShare x7 ∗ owns (c : Thread nD τ) arg8 fullShare x8
          ∗ (∃ d, owns (c : Thread nD τ) arg9 fullShare d) ∗ (∃ d, owns (c : Thread nD τ) arg10 fullShare d) ∗ (∃ d, owns (c : Thread nD τ) arg11 fullShare d)
          ∗ (iprop(owns (c : Thread nD τ) arg1 fullShare x1 ∗ owns (c : Thread nD τ) arg2 fullShare x2 ∗ owns (c : Thread nD τ) arg3 fullShare x3
              ∗ owns (c : Thread nD τ) arg4 fullShare x4 ∗ owns (c : Thread nD τ) arg5 fullShare x5 ∗ owns (c : Thread nD τ) arg6 fullShare x6
              ∗ owns (c : Thread nD τ) arg7 fullShare x7 ∗ owns (c : Thread nD τ) arg8 fullShare x8
              ∗ owns (c : Thread nD τ) arg9 fullShare W ∗ (∃ d, owns (c : Thread nD τ) arg10 fullShare d) ∗ (∃ d, owns (c : Thread nD τ) arg11 fullShare d)) -∗ K ⟨⟩))
        ⊢ wp frame (wpE (defs₀ (F := F)) Variants.none c none) E
            (cc0__net_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
      ⟨%d9, %f9, -, H9⟩, ⟨%d10, %f10, -, H10⟩, ⟨%d11, %f11, -, H11⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    sl_exec_parts!
    sl_step
    iapply Hk
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    isplitl [H8]
    · iexists _; isplitr; swap; · iexact H8
      ipureintro; exact hf8
    isplitl [H9]
    · iexists _; isplitr; swap; · iexact H9
      ipureintro; rfl
    isplitl [H10]
    · iexists _; iexists _; isplitr; swap; · iexact H10
      ipureintro; rfl
    iexists _; iexists _; isplitr; swap; · iexact H11
    ipureintro; rfl

end Cert.Kernel.Body

end
-- ==== Proof.KFrame.lean ====
/-
  The frame of the program with the kernel: its proof data, the body at every grid point, the run.

  After the body at grid point `t` an input window's staging buffer still holds its block, and the output window's
  holds the block of values the body run finds from the eight input blocks at `t` (`outBlk`).  The two scratch
  buffers and the generator register pass from point to point at anything: the body stores every row of a scratch
  buffer before it loads it.  With these data the library's frame run applies: every weakly fair execution of @main
  terminates, the result array ends block by block at `outBlk`, and every other buffer as the region found it; read
  at the argument arrays, that is the frame.
-/
import proofs.«146035_g81071802679316_cont_sun_m_195_36_alg».proof.Proof.KKit
import proofs.«146035_g81071802679316_cont_sun_m_195_36_alg».proof.Proof.KBody
import Idealize.ShloMosaic.Lib.Pipeline.Frame

set_option maxRecDepth 16384

noncomputable section

namespace Cert.Kernel.Frame

open Cert.Kernel Cert.Kernel.Gen Cert.Kernel.Kit Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The body's run at point `t`, on the staging memrefs the pipeline calls it with and the input blocks there. -/
def runAt (c : Dev nD) (t : Fin cfg0.N) :=
  kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) (iblk m c 7 t)

/-- What the body leaves in the output window's staging buffer at point `t`. -/
def outBlk (c : Dev nD) (t : Fin cfg0.N) : Vec F S8x325x128 .f32 := (runAt m c t).1

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk m c t
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- A scoped buffer held whole at something is its whole memref owned at something, -/
theorem scratch_in (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  iintro ⟨%f, H⟩; iexists f; rw [owns_whole]; iexact H
/-- and back. -/
theorem scratch_out (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  have h : ∀ d : Buf (Elt F) ((c : Thread nD τ).loc b),
      (owns (c : Thread nD τ) (Memref.whole b) fullShare d : sProp 𝕄) = (((c : Thread nD τ).loc b) ↦{fullShare} d) :=
    fun d => owns_whole _ _ _ _
  simp only [h]; exact .rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
/-- The body at any point: every input window's memref holds its block, so the body run applies; the scratch buffers
    come out of the invariant and go back into it, the generator register and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8,
    show (dats m 0 c).Φ t.castSucc = Pipeline.ΦA spec0 c from rfl]
  unfold Pipeline.ΦA
  rw [scopedRest0_eq c]
  unfold outBlk
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runAt m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iapply (scratch_in c cc0_scratch0); iexact HS0
  isplitl [HS1]; · iapply (scratch_in c cc0_scratch1); iexact HS1
  iintro ⟨H0, H1, H2, H3, H4, H5, H6, H7, H8, HS0, HS1⟩
  isplitl [HS0 HS1 Hg]
  · isplitr [Hg]
    · isplitl [HS0]
      · iapply (scratch_out c cc0_scratch0); iexact HS0
      · iapply (scratch_out c cc0_scratch1); iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and every
    final state has every array of the pipeline at what the library computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Frame

end
-- ==== Proof.KIKit.lean ====
/-
  @main up to its one region, and the frame from a frame run.

  Core `c`'s buffers when the region is entered are what the host operations before it leave (`V`): the reshape,
  casts and zero-padding of the node features and of the adjacency, and the three stacked weight matrices
  `[W₀ − W₂ | W₁ | W₂]`.  None of these operations writes an argument array (`V_main_argK`).  Window `w`'s block at
  grid point `t` is read off its array there (`iblk`), and an input window's staging buffer holds that block at every
  point.  `frame_of`: a run that ends with every array of the region at what the proof data compute and every other
  buffer as the region found it leaves the eight argument arrays as launched.
-/
import proofs.«146035_g81071802679316_cont_sun_m_195_36_alg».proof.Proof.Gen.KernelIdeal.Launch
import proofs.«146035_g81071802679316_cont_sun_m_195_36_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Kit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the four stretches of host operations. -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- @main up to the region: the four stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩)
    main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: a staged argument array ends at its launch contents because an input window's array
    is never written, an argument no window stages because the region passes it by, and no host operation writes
    either. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).1 7).trans (((dats 0 c).arrAt_in 7 rfl _).trans ((hA c 7).trans (V_main_arg7 m c)))⟩) h

end Cert.KernelIdeal.Kit

end
-- ==== Proof.KIBody.lean ====
/-
  The kernel body run once at symbolic operands.

  From the eight input windows' staging buffers held whole at the contents `x1 … x8` (node features, padded
  adjacency, the three stacked weight matrices and the three biases), the output window's staging buffer and the
  two scratch buffers at anything, the body runs to its return: the inputs are handed back as they were, the two
  scratch buffers at something, and the output's buffer at a block of values that depends on `x1 … x8` only —
  every row of each scratch buffer is stored before it is loaded, and every entry of the output block is stored —,
  which the run finds as the witness of a subtype.
-/
import proofs.«146035_g81071802679316_cont_sun_m_195_36_alg».proof.Proof.Gen.KernelIdeal.Skeleton
import proofs.«146035_g81071802679316_cont_sun_m_195_36_alg».proof.Proof.Gen.KernelIdeal.Launch
import Idealize.ShloMosaic.Lib.Pipeline.Frame
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- What the body leaves in the output window's staging buffer, as a function of the input blocks, WITH the proof that
    the body runs from the input blocks to it. -/
noncomputable def kernelRun (c : Dev nD) (i : grid0.Coords)
    (arg1 : Memref sig .tc .vmem S2688x384 .bf16) (harg1 : arg1.IsWhole) (arg2 : Memref sig .tc .vmem S8x336x336 .bf16) (harg2 : arg2.IsWhole)
    (arg3 : Memref sig .tc .vmem S384x768 .bf16) (harg3 : arg3.IsWhole) (arg4 : Memref sig .tc .vmem S256 .f32) (harg4 : arg4.IsWhole)
    (arg5 : Memref sig .tc .vmem S256x768 .bf16) (harg5 : arg5.IsWhole) (arg6 : Memref sig .tc .vmem S256 .f32) (harg6 : arg6.IsWhole)
    (arg7 : Memref sig .tc .vmem S256x384 .bf16) (harg7 : arg7.IsWhole) (arg8 : Memref sig .tc .vmem S128 .f32) (harg8 : arg8.IsWhole)
    (arg9 : Memref sig .tc .vmem S8x325x128 .f32) (harg9 : arg9.IsWhole) (arg10 : Memref sig .tc .vmem S2688x256 .bf16) (harg10 : arg10.IsWhole)
    (arg11 : Memref sig .tc .vmem S2688x256 .bf16) (harg11 : arg11.IsWhole)
    (x1 : Vec F S2688x384 .bf16) (x2 : Vec F S8x336x336 .bf16) (x3 : Vec F S384x768 .bf16) (x4 : Vec F S256 .f32)
    (x5 : Vec F S256x768 .bf16) (x6 : Vec F S256 .f32) (x7 : Vec F S256x384 .bf16) (x8 : Vec F S128 .f32) :
    { W : Vec F S8x325x128 .f32 //
      ∀ (E : Set ℕ) (K : PUnit → sProp 𝕄),
        iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare x5 ∗ owns (c : Thread nD τ) arg6 fullShare x6
          ∗ owns (c : Thread nD τ) arg7 fullShare x7 ∗ owns (c : Thread nD τ) arg8 fullShare x8
          ∗ (∃ d, owns (c : Thread nD τ) arg9 fullShare d) ∗ (∃ d, owns (c : Thread nD τ) arg10 fullShare d) ∗ (∃ d, owns (c : Thread nD τ) arg11 fullShare d)
          ∗ (iprop(owns (c : Thread nD τ) arg1 fullShare x1 ∗ owns (c : Thread nD τ) arg2 fullShare x2 ∗ owns (c : Thread nD τ) arg3 fullShare x3
              ∗ owns (c : Thread nD τ) arg4 fullShare x4 ∗ owns (c : Thread nD τ) arg5 fullShare x5 ∗ owns (c : Thread nD τ) arg6 fullShare x6
              ∗ owns (c : Thread nD τ) arg7 fullShare x7 ∗ owns (c : Thread nD τ) arg8 fullShare x8
              ∗ owns (c : Thread nD τ) arg9 fullShare W ∗ (∃ d, owns (c : Thread nD τ) arg10 fullShare d) ∗ (∃ d, owns (c : Thread nD τ) arg11 fullShare d)) -∗ K ⟨⟩))
        ⊢ wp frame (wpE (defs₀ (F := F)) Variants.none c none) E
            (cc0__net_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
      ⟨%d9, %f9, -, H9⟩, ⟨%d10, %f10, -, H10⟩, ⟨%d11, %f11, -, H11⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    sl_exec_parts!
    sl_step
    iapply Hk
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    isplitl [H8]
    · iexists _; isplitr; swap; · iexact H8
      ipureintro; exact hf8
    isplitl [H9]
    · iexists _; isplitr; swap; · iexact H9
      ipureintro; rfl
    isplitl [H10]
    · iexists _; iexists _; isplitr; swap; · iexact H10
      ipureintro; rfl
    iexists _; iexists _; isplitr; swap; · iexact H11
    ipureintro; rfl

end Cert.KernelIdeal.Body

end
-- ==== Proof.KIFrame.lean ====
/-
  The frame of the program with the kernel: its proof data, the body at every grid point, the run.

  After the body at grid point `t` an input window's staging buffer still holds its block, and the output window's
  holds the block of values the body run finds from the eight input blocks at `t` (`outBlk`).  The two scratch
  buffers and the generator register pass from point to point at anything: the body stores every row of a scratch
  buffer before it loads it.  With these data the library's frame run applies: every weakly fair execution of @main
  terminates, the result array ends block by block at `outBlk`, and every other buffer as the region found it; read
  at the argument arrays, that is the frame.
-/
import proofs.«146035_g81071802679316_cont_sun_m_195_36_alg».proof.Proof.KIKit
import proofs.«146035_g81071802679316_cont_sun_m_195_36_alg».proof.Proof.KIBody
import Idealize.ShloMosaic.Lib.Pipeline.Frame

set_option maxRecDepth 16384

noncomputable section

namespace Cert.KernelIdeal.Frame

open Cert.KernelIdeal Cert.KernelIdeal.Gen Cert.KernelIdeal.Kit Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The body's run at point `t`, on the staging memrefs the pipeline calls it with and the input blocks there. -/
def runAt (c : Dev nD) (t : Fin cfg0.N) :=
  kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) (iblk m c 7 t)

/-- What the body leaves in the output window's staging buffer at point `t`. -/
def outBlk (c : Dev nD) (t : Fin cfg0.N) : Vec F S8x325x128 .f32 := (runAt m c t).1

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk m c t
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- A scoped buffer held whole at something is its whole memref owned at something, -/
theorem scratch_in (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  iintro ⟨%f, H⟩; iexists f; rw [owns_whole]; iexact H
/-- and back. -/
theorem scratch_out (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  have h : ∀ d : Buf (Elt F) ((c : Thread nD τ).loc b),
      (owns (c : Thread nD τ) (Memref.whole b) fullShare d : sProp 𝕄) = (((c : Thread nD τ).loc b) ↦{fullShare} d) :=
    fun d => owns_whole _ _ _ _
  simp only [h]; exact .rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
/-- The body at any point: every input window's memref holds its block, so the body run applies; the scratch buffers
    come out of the invariant and go back into it, the generator register and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8,
    show (dats m 0 c).Φ t.castSucc = Pipeline.ΦA spec0 c from rfl]
  unfold Pipeline.ΦA
  rw [scopedRest0_eq c]
  unfold outBlk
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runAt m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iapply (scratch_in c cc0_scratch0); iexact HS0
  isplitl [HS1]; · iapply (scratch_in c cc0_scratch1); iexact HS1
  iintro ⟨H0, H1, H2, H3, H4, H5, H6, H7, H8, HS0, HS1⟩
  isplitl [HS0 HS1 Hg]
  · isplitr [Hg]
    · isplitl [HS0]
      · iapply (scratch_out c cc0_scratch0); iexact HS0
      · iapply (scratch_out c cc0_scratch1); iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and every
    final state has every array of the pipeline at what the library computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Frame

end
-- ==== Proof.Spec.lean ====
/-
  The network both programs compute, stated over the real numbers with Mathlib's matrices.

  For one graph with adjacency matrix `A` (n × n): the degree of a node is its row sum, the inverse root degree is
  `(√deg)⁻¹` where the degree is positive and `0` elsewhere, and the scaled Laplacian is
  `L s m = -(A s m · dinv s · dinv m)`.  A Chebyshev layer of order three with weights `W 0, W 1, W 2` and bias `b` maps
  node features `x` to `x·W₀ + (L·x)·W₁ + (2·L·(L·x) − x)·W₂ + b`; the network is three such layers with
  `max(·, 0)` between them.
-/
import Mathlib.Data.Matrix.Mul
import Mathlib.Analysis.SpecialFunctions.Sqrt

noncomputable section

namespace Cert.Spec

open Matrix

variable {n fi fo : ℕ}

/-- The degree of node `s`: the sum of row `s` of the adjacency matrix. -/
def deg (A : Matrix (Fin n) (Fin n) ℝ) (s : Fin n) : ℝ := ∑ m, A s m

/-- The inverse root degree, `0` where the degree is not positive. -/
def dinv (A : Matrix (Fin n) (Fin n) ℝ) (s : Fin n) : ℝ :=
  if 0 < deg A s then (Real.sqrt (deg A s))⁻¹ else 0

/-- The scaled Laplacian `-(D^{-1/2} A D^{-1/2})`. -/
def lap (A : Matrix (Fin n) (Fin n) ℝ) : Matrix (Fin n) (Fin n) ℝ :=
  fun s m => -(A s m * dinv A s * dinv A m)

/-- One Chebyshev layer of order three: `x·W₀ + (L·x)·W₁ + (2·L·(L·x) − x)·W₂ + b`. -/
def cheb (L : Matrix (Fin n) (Fin n) ℝ) (x : Matrix (Fin n) (Fin fi) ℝ)
    (W : Fin 3 → Matrix (Fin fi) (Fin fo) ℝ) (b : Fin fo → ℝ) : Matrix (Fin n) (Fin fo) ℝ :=
  fun s o => (x * W 0 + (L * x) * W 1 + ((2 : ℝ) • (L * (L * x)) - x) * W 2) s o + b o

/-- The same layer as the kernel arranges it: project first with the stacked weights
    `[W₀ − W₂ | W₁ | W₂]`, then propagate: `p₀ + L·(p₁ + 2·L·p₂) + b`. -/
def chebProj (L : Matrix (Fin n) (Fin n) ℝ) (x : Matrix (Fin n) (Fin fi) ℝ)
    (W : Fin 3 → Matrix (Fin fi) (Fin fo) ℝ) (b : Fin fo → ℝ) : Matrix (Fin n) (Fin fo) ℝ :=
  fun s o => (x * (W 0 - W 2) + L * (x * W 1 + (2 : ℝ) • (L * (x * W 2)))) s o + b o

/-- `max(·, 0)` entry by entry. -/
def relu {a c : ℕ} (x : Matrix (Fin a) (Fin c) ℝ) : Matrix (Fin a) (Fin c) ℝ := fun s o => max (x s o) 0

/-- The three-layer network on one graph. -/
def net {f1 f2 f3 : ℕ} (A : Matrix (Fin n) (Fin n) ℝ) (x : Matrix (Fin n) (Fin fi) ℝ)
    (W1 : Fin 3 → Matrix (Fin fi) (Fin f1) ℝ) (b1 : Fin f1 → ℝ)
    (W2 : Fin 3 → Matrix (Fin f1) (Fin f2) ℝ) (b2 : Fin f2 → ℝ)
    (W3 : Fin 3 → Matrix (Fin f2) (Fin f3) ℝ) (b3 : Fin f3 → ℝ) : Matrix (Fin n) (Fin f3) ℝ :=
  cheb (lap A) (relu (cheb (lap A) (relu (cheb (lap A) x W1 b1)) W2 b2)) W3 b3

/-- Projecting first and propagating afterwards is the same layer: matrix products associate and distribute over
    sums and differences of real matrices. -/
theorem chebProj_eq_cheb (L : Matrix (Fin n) (Fin n) ℝ) (x : Matrix (Fin n) (Fin fi) ℝ)
    (W : Fin 3 → Matrix (Fin fi) (Fin fo) ℝ) (b : Fin fo → ℝ) : chebProj L x W b = cheb L x W b := by
  funext s o
  unfold chebProj cheb
  congr 1
  have h : x * (W 0 - W 2) + L * (x * W 1 + (2 : ℝ) • (L * (x * W 2)))
      = x * W 0 + (L * x) * W 1 + ((2 : ℝ) • (L * (L * x)) - x) * W 2 := by
    simp only [Matrix.mul_sub, Matrix.mul_add, Matrix.sub_mul, Matrix.mul_smul, Matrix.smul_mul, Matrix.mul_assoc]
    abel
  rw [h]

end Cert.Spec

end
-- ==== Proof.SpecIdx.lean ====
/-
  The network of `Spec.lean` read off the programs' argument arrays.

  An argument array whose entries are all real is given by a real-valued function of its index.  From such functions:
  graph `b`'s node features are the 12 × 32 trailing axes of `X[b, s, ·, ·]` flattened row-major into 384 columns, its
  adjacency matrix is `A[b, ·, ·]`, a layer's three weight matrices are `W[k, ·, ·]` and its bias is `b[·]`.  `outArr`
  is the network's result `[16, 325, 128]` as an array of extended reals, entry by entry the coercion of the real
  network on graph `i 0` at node `i 1`, output feature `i 2`.
-/
import Idealize.ShloMosaic.Lib.ValueIdx
import Idealize.ShloMosaic.PureOps.Ideal
import proofs.«146035_g81071802679316_cont_sun_m_195_36_alg».proof.Proof.Spec

noncomputable section

namespace Cert.Spec

open Idealize.ShloMosaic Idealize.ShloMosaic.ValueIdx

abbrev SX : Shape := ⟨4, ![16, 325, 12, 32]⟩
abbrev SA : Shape := ⟨3, ![16, 325, 325]⟩
abbrev SOut : Shape := ⟨3, ![16, 325, 128]⟩

/-- Graph `b`'s node features: `X[b, s, f / 32, f % 32]`. -/
def xmat (X : SX.Idx → ℝ) (b : Fin 16) : Matrix (Fin 325) (Fin 384) ℝ :=
  fun s f => X (ix4 b s ⟨f.val / 32, by have := f.isLt; omega⟩ ⟨f.val % 32, Nat.mod_lt _ (by norm_num)⟩)

/-- Graph `b`'s adjacency matrix `A[b, ·, ·]`. -/
def amat (A : SA.Idx → ℝ) (b : Fin 16) : Matrix (Fin 325) (Fin 325) ℝ := fun s m => A (ix3 b s m)

/-- A layer's weight matrix `W[k, ·, ·]`. -/
def wmat {fi fo : ℕ} (W : (⟨3, ![3, fi, fo]⟩ : Shape).Idx → ℝ) (k : Fin 3) : Matrix (Fin fi) (Fin fo) ℝ :=
  fun i o => W (ix3 k i o)

/-- A layer's bias `b[·]`. -/
def bvec {fo : ℕ} (b : (⟨1, ![fo]⟩ : Shape).Idx → ℝ) (o : Fin fo) : ℝ := b (ix1 o)

/-- The network's result as an array of extended reals. -/
def outArr (X : SX.Idx → ℝ) (A : SA.Idx → ℝ)
    (W1 : (⟨3, ![3, 384, 256]⟩ : Shape).Idx → ℝ) (b1 : (⟨1, ![256]⟩ : Shape).Idx → ℝ)
    (W2 : (⟨3, ![3, 256, 256]⟩ : Shape).Idx → ℝ) (b2 : (⟨1, ![256]⟩ : Shape).Idx → ℝ)
    (W3 : (⟨3, ![3, 256, 128]⟩ : Shape).Idx → ℝ) (b3 : (⟨1, ![128]⟩ : Shape).Idx → ℝ) : SOut.Idx → EReal :=
  fun i => ((net (amat A (i 0)) (xmat X (i 0)) (wmat W1) (bvec b1) (wmat W2) (bvec b2) (wmat W3) (bvec b3) (i 1) (i 2) : ℝ) : EReal)

end Cert.Spec

end
-- ==== Proof.KIAlg.lean ====
/-
  The kernel's result array from its blocks, and the kernel's run.

  The result `[16, 325, 128]` is written back in two blocks of eight graphs: grid point `t` writes rows
  `8·t … 8·t + 7` of the leading axis, whole in the other two.  Suppose the block the body leaves at point `t` is, at
  local graph `g`, node `s` and output feature `o`, the real network of the specification on graph `8·t + g`, read as
  an extended real.  Then what point `t` writes back is the network's array read through that point's rectangle; the
  two rectangles cover the array, graph `r` lying in the block of point `r / 8`; so the array ends holding the
  network on every graph.  Every weakly fair execution of the program therefore ends with the result array at the
  network and the eight argument arrays as launched.
-/
import proofs.«146035_g81071802679316_cont_sun_m_195_36_alg».proof.Proof.KIFrame
import proofs.«146035_g81071802679316_cont_sun_m_195_36_alg».proof.Proof.SpecIdx
import Idealize.ShloMosaic.Lib.Pipeline.Value
import Idealize.ShloMosaic.Lib.ValueIdx
import Idealize.ShloMosaic.PureOps.Ideal

set_option maxRecDepth 16384

noncomputable section

namespace Cert.KernelIdeal.Alg

open Cert.KernelIdeal Cert.KernelIdeal.Gen Cert.KernelIdeal.Kit Cert.KernelIdeal.Frame
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)
variable (X : Dev nD → Cert.Spec.SX.Idx → ℝ) (A : Dev nD → Cert.Spec.SA.Idx → ℝ)
  (W1 : Dev nD → (⟨3, ![3, 384, 256]⟩ : Shape).Idx → ℝ) (b1 : Dev nD → (⟨1, ![256]⟩ : Shape).Idx → ℝ)
  (W2 : Dev nD → (⟨3, ![3, 256, 256]⟩ : Shape).Idx → ℝ) (b2 : Dev nD → (⟨1, ![256]⟩ : Shape).Idx → ℝ)
  (W3 : Dev nD → (⟨3, ![3, 256, 128]⟩ : Shape).Idx → ℝ) (b3 : Dev nD → (⟨1, ![128]⟩ : Shape).Idx → ℝ)

/-- The specification's network on core `c`'s real arrays, as the contents of the result array. -/
abbrev netBuf (c : Dev nD) : Buf (Elt Ideal) ((c.tc : Thread nD τ).loc main_v39) :=
  Cert.Spec.outArr (X c) (A c) (W1 c) (b1 c) (W2 c) (b2 c) (W3 c) (b3 c)

/-- Local graph `g` of grid point `t` is graph `8·t + g` of sixteen. -/
theorem row_lt (t : Fin cfg0.N) (g : Fin 8) : 8 * t.val + g.val < 16 := by
  have ht : t.val < 2 := lt_of_lt_of_eq t.isLt N_0
  have hg := g.isLt
  omega

/-- The hypothesis on the body: the block it leaves at point `t` is the network on graphs `8·t … 8·t + 7`. -/
abbrev BlockIsNet : Prop :=
  ∀ (c : Dev nD) (t : Fin cfg0.N) (g : Fin 8) (s : Fin 325) (o : Fin 128),
    outBlk (F := Ideal) m c t (ix3 g s o)
      = Cert.Spec.outArr (X c) (A c) (W1 c) (b1 c) (W2 c) (b2 c) (W3 c) (b3 c) (ix3 ⟨8 * t.val + g.val, row_lt t g⟩ s o)

/-- The result window over the grid: point `t`'s block has index `(t, 0, 0)` and sizes `(8, 325, 128)`, uncut. -/
theorem win8_facts : ∀ t : Fin grid0.N,
    (win0_8.index t 0 = t.val ∧ win0_8.index t 1 = 0 ∧ win0_8.index t 2 = 0)
    ∧ (win0_8.xsize (grid0.coords t) 0 = 8 ∧ win0_8.xsize (grid0.coords t) 1 = 325 ∧ win0_8.xsize (grid0.coords t) 2 = 128) := by
  decide +kernel

/-- What point `t` writes back is the network's array read through the point's rectangle. -/
theorem flushed_eq (hblk : BlockIsNet m X A W1 b1 W2 b2 W3 b3) (c : Dev nD) (t : Fin cfg0.N) :
    (dats m 0 c).flushed 8 t = ((cfg0.win 8).blk t).view.read (Elt Ideal) (netBuf X A W1 b1 W2 b2 W3 b3 c) := by
  show (cfg0.win 8).cut (grid0.coords t) ((dats m 0 c).after 8 t) = _
  rw [after0_8]
  funext y
  obtain ⟨⟨hi0, hi1, hi2⟩, -⟩ := win8_facts t
  have e1 : (cfg0.win 8).xinj (grid0.coords t) y
      = ix3 (⟨(y 0).val, (y 0).isLt⟩ : Fin 8) (⟨(y 1).val, (y 1).isLt⟩ : Fin 325) (⟨(y 2).val, (y 2).isLt⟩ : Fin 128) :=
    funext fun a => Fin.ext (by match a with | ⟨0, _⟩ => rfl | ⟨1, _⟩ => rfl | ⟨2, _⟩ => rfl)
  refine (congrArg (outBlk (F := Ideal) m c t) e1).trans ?_
  rw [hblk c t, View.read_apply]
  show Cert.Spec.outArr (X c) (A c) (W1 c) (b1 c) (W2 c) (b2 c) (W3 c) (b3 c) _
    = Cert.Spec.outArr (X c) (A c) (W1 c) (b1 c) (W2 c) (b2 c) (W3 c) (b3 c) _
  congr 1
  funext a
  apply Fin.ext
  match a with
  | ⟨0, _⟩ => show 8 * t.val + (y 0).val = win0_8.index t 0 * 8 + 1 * (y 0).val; rw [hi0]; omega
  | ⟨1, _⟩ => show (y 1).val = win0_8.index t 1 * 325 + 1 * (y 1).val; rw [hi1]; omega
  | ⟨2, _⟩ => show (y 2).val = win0_8.index t 2 * 128 + 1 * (y 2).val; rw [hi2]; omega

/-- The result array ends holding the network: graph `r` lies in the block of point `r / 8`. -/
theorem final_out (hblk : BlockIsNet m X A W1 b1 W2 b2 W3 b3) (c : Dev nD) :
    (dats m 0 c).arrAt 8 cfg0.N = netBuf X A W1 b1 W2 b2 W3 b3 c := by
  refine (dats m 0 c).arrAt_eq_of_cover 8 (netBuf X A W1 b1 W2 b2 W3 b3 c) (fun t _ => flushed_eq m X A W1 b1 W2 b2 W3 b3 hblk c t) fun i => ?_
  have h0 : (i 0 : Nat) < 16 := (i 0).isLt
  have h1 : (i 1 : Nat) < 325 := (i 1).isLt
  have h2 : (i 2 : Nat) < 128 := (i 2).isLt
  obtain ⟨T, hT⟩ : ∃ T : Fin cfg0.N, T.val = (i 0 : Nat) / 8 :=
    ⟨⟨(i 0 : Nat) / 8, by rw [show cfg0.N = 2 from N_0]; omega⟩, rfl⟩
  obtain ⟨⟨hi0, hi1, hi2⟩, hx0, hx1, hx2⟩ := win8_facts T
  refine ⟨T, flush0_8 T, ?_⟩
  show i ∈ ((View.whole main_v39).slice (win0_8.rect T)).set
  rw [View.set_slice_whole, Rect.mem_set_unit]
  intro a
  match a with
  | ⟨0, _⟩ =>
    show win0_8.index T 0 * win0_8.size 0 ≤ (i 0 : Nat) ∧ (i 0 : Nat) < win0_8.index T 0 * win0_8.size 0 + win0_8.xsize (grid0.coords T) 0
    rw [hi0, hx0, show win0_8.size 0 = 8 from rfl, hT]
    omega
  | ⟨1, _⟩ =>
    show win0_8.index T 1 * win0_8.size 1 ≤ (i 1 : Nat) ∧ (i 1 : Nat) < win0_8.index T 1 * win0_8.size 1 + win0_8.xsize (grid0.coords T) 1
    rw [hi1, hx1]
    omega
  | ⟨2, _⟩ =>
    show win0_8.index T 2 * win0_8.size 2 ≤ (i 2 : Nat) ∧ (i 2 : Nat) < win0_8.index T 2 * win0_8.size 2 + win0_8.xsize (grid0.coords T) 2
    rw [hi2, hx2]
    omega

/-- The run: the result array ends at the network, the eight argument arrays as launched. -/
theorem kernel_run (hblk : BlockIsNet m X A W1 b1 W2 b2 W3 b3) :
    θ_run defs (onTc (τ := τ) (main (F := Ideal))) ⟨m, fun _ => 0, ρ⟩ (fun r => ∀ c : Dev nD,
      r.2.mem ((c.tc : Thread nD τ).loc main_v39) = Cert.Spec.outArr (X c) (A c) (W1 c) (b1 c) (W2 c) (b2 c) (W3 c) (b3 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 8).trans (final_out m X A W1 b1 W2 b2 W3 b3 hblk c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).1 7).trans (((dats m 0 c).arrAt_in 7 rfl _).trans ((A_eq m c 7).trans (V_main_arg7 m c)))⟩) (run_main m ρ)

end Cert.KernelIdeal.Alg

end
-- ==== Proof.KIValue.lean ====
/-
  The block of values the body leaves, as an explicit function of the eight input blocks.

  Per grid point: the three stacked weight matrices are loaded whole; graph `g`'s Laplacian `lapK g` is computed from
  the `g`-th [1, 336, 336] slab of the adjacency block; `p1` is the stacked projection of the node-feature block; the
  first scratch buffer ends at `h1`, the canon of eight stores of one graph's hidden rows each (rows `336 g … 336 g + 335`);
  `p2` projects `h1`, the second scratch buffer ends at `h2` likewise; `p3` projects `h2`, and the output block is the
  canon of the eight graphs' first 325 rows.  `witness_eq`: this is what the body run finds.
-/
import proofs.«146035_g81071802679316_cont_sun_m_195_36_alg».proof.Proof.KIBody
import Idealize.ShloMosaic.Lib.Pipeline.Value

set_option maxRecDepth 16384

noncomputable section

namespace Cert.KernelIdeal.Value

open Cert.KernelIdeal Cert.KernelIdeal.Gen Cert.KernelIdeal.Body
open Idealize.ShloMosaic Idealize.ShloMosaic.TcCoe
open Idealize.SL.Sem

variable {F : FTy → Type} [FloatOps F]

/-! ## The pieces -/

def wK1 (x3 : Vec F S384x768 .bf16) : FVec F S384x768 .bf16 := k0_pay2 x3
def wK2 (x5 : Vec F S256x768 .bf16) : FVec F S256x768 .bf16 := k0_pay3 x5
def wK3 (x7 : Vec F S256x384 .bf16) : FVec F S256x384 .bf16 := k0_pay4 x7

/-- The `0`-th slab of the adjacency block. -/
def slab0 (x2 : Vec F S8x336x336 .bf16) : Vec F S1x336x336 .bf16 :=
  View.ld x2 (Rect.unit (s := S8x336x336) ![0, 0, 0] S1x336x336.size inb_S8x336x336_S1x336x336_0_0_0)
/-- Graph `0`'s Laplacian. -/
def lapK0 (x2 : Vec F S8x336x336 .bf16) : FVec F S336x336 .bf16 := k0_pay5 (slab0 x2)
/-- The `1`-th slab of the adjacency block. -/
def slab1 (x2 : Vec F S8x336x336 .bf16) : Vec F S1x336x336 .bf16 :=
  View.ld x2 (Rect.unit (s := S8x336x336) ![1, 0, 0] S1x336x336.size inb_S8x336x336_S1x336x336_1_0_0)
/-- Graph `1`'s Laplacian. -/
def lapK1 (x2 : Vec F S8x336x336 .bf16) : FVec F S336x336 .bf16 := k0_pay11 (k0_pay6 (slab1 x2)) (k0_pay7 (slab1 x2)) (k0_pay8 (slab1 x2)) (k0_pay9 (slab1 x2)) k0_pay10
/-- The `2`-th slab of the adjacency block. -/
def slab2 (x2 : Vec F S8x336x336 .bf16) : Vec F S1x336x336 .bf16 :=
  View.ld x2 (Rect.unit (s := S8x336x336) ![2, 0, 0] S1x336x336.size inb_S8x336x336_S1x336x336_2_0_0)
/-- Graph `2`'s Laplacian. -/
def lapK2 (x2 : Vec F S8x336x336 .bf16) : FVec F S336x336 .bf16 := k0_pay12 (slab2 x2)
/-- The `3`-th slab of the adjacency block. -/
def slab3 (x2 : Vec F S8x336x336 .bf16) : Vec F S1x336x336 .bf16 :=
  View.ld x2 (Rect.unit (s := S8x336x336) ![3, 0, 0] S1x336x336.size inb_S8x336x336_S1x336x336_3_0_0)
/-- Graph `3`'s Laplacian. -/
def lapK3 (x2 : Vec F S8x336x336 .bf16) : FVec F S336x336 .bf16 := k0_pay17 (k0_pay13 (slab3 x2)) (k0_pay14 (slab3 x2)) (k0_pay15 (slab3 x2)) (k0_pay16 (slab3 x2))
/-- The `4`-th slab of the adjacency block. -/
def slab4 (x2 : Vec F S8x336x336 .bf16) : Vec F S1x336x336 .bf16 :=
  View.ld x2 (Rect.unit (s := S8x336x336) ![4, 0, 0] S1x336x336.size inb_S8x336x336_S1x336x336_4_0_0)
/-- Graph `4`'s Laplacian. -/
def lapK4 (x2 : Vec F S8x336x336 .bf16) : FVec F S336x336 .bf16 := k0_pay18 (slab4 x2)
/-- The `5`-th slab of the adjacency block. -/
def slab5 (x2 : Vec F S8x336x336 .bf16) : Vec F S1x336x336 .bf16 :=
  View.ld x2 (Rect.unit (s := S8x336x336) ![5, 0, 0] S1x336x336.size inb_S8x336x336_S1x336x336_5_0_0)
/-- Graph `5`'s Laplacian. -/
def lapK5 (x2 : Vec F S8x336x336 .bf16) : FVec F S336x336 .bf16 := k0_pay22 (k0_pay19 (slab5 x2)) (k0_pay20 (slab5 x2)) (k0_pay21 (slab5 x2)) (FloatOps.ofBits .f32 0#32)
/-- The `6`-th slab of the adjacency block. -/
def slab6 (x2 : Vec F S8x336x336 .bf16) : Vec F S1x336x336 .bf16 :=
  View.ld x2 (Rect.unit (s := S8x336x336) ![6, 0, 0] S1x336x336.size inb_S8x336x336_S1x336x336_6_0_0)
/-- Graph `6`'s Laplacian. -/
def lapK6 (x2 : Vec F S8x336x336 .bf16) : FVec F S336x336 .bf16 := k0_pay23 (slab6 x2)
/-- The `7`-th slab of the adjacency block. -/
def slab7 (x2 : Vec F S8x336x336 .bf16) : Vec F S1x336x336 .bf16 :=
  View.ld x2 (Rect.unit (s := S8x336x336) ![7, 0, 0] S1x336x336.size inb_S8x336x336_S1x336x336_7_0_0)
/-- Graph `7`'s Laplacian. -/
def lapK7 (x2 : Vec F S8x336x336 .bf16) : FVec F S336x336 .bf16 := k0_pay27 (k0_pay24 (slab7 x2)) (k0_pay25 (slab7 x2)) k0_pay26

/-- The first layer's stacked projection of the node-feature block. -/
def p1 (x1 : Vec F S2688x384 .bf16) (x3 : Vec F S384x768 .bf16) : FVec F S2688x768 .f32 := k0_pay28 (wK1 x3) x1

/-- The first scratch buffer's eight stores, last first. -/
def pieces1 (x1 : Vec F S2688x384 .bf16) (x2 : Vec F S8x336x336 .bf16) (x3 : Vec F S384x768 .bf16) (x4 : Vec F S256 .f32) : List (View.Piece (Elt F) S2688x256 .bf16) :=
  [⟨Rect.unit (s := S2688x256) ![2352, 0] S336x256.size inb_S2688x256_S336x256_2352_0, k0_pay42 (k0_pay41 (lapK7 x2) x4 (p1 x1 x3))⟩,
    ⟨Rect.unit (s := S2688x256) ![2016, 0] S336x256.size inb_S2688x256_S336x256_2016_0, k0_pay40 (lapK6 x2) x4 (p1 x1 x3)⟩,
    ⟨Rect.unit (s := S2688x256) ![1680, 0] S336x256.size inb_S2688x256_S336x256_1680_0, k0_pay39 (k0_pay37 (lapK5 x2) (p1 x1 x3)) (k0_pay38 x4)⟩,
    ⟨Rect.unit (s := S2688x256) ![1344, 0] S336x256.size inb_S2688x256_S336x256_1344_0, k0_pay36 (lapK4 x2) x4 (p1 x1 x3)⟩,
    ⟨Rect.unit (s := S2688x256) ![1008, 0] S336x256.size inb_S2688x256_S336x256_1008_0, k0_pay35 (lapK3 x2) x4 (p1 x1 x3) (k0_pay34 (lapK3 x2) (p1 x1 x3))⟩,
    ⟨Rect.unit (s := S2688x256) ![672, 0] S336x256.size inb_S2688x256_S336x256_672_0, k0_pay33 (lapK2 x2) x4 (p1 x1 x3)⟩,
    ⟨Rect.unit (s := S2688x256) ![336, 0] S336x256.size inb_S2688x256_S336x256_336_0, k0_pay32 (lapK1 x2) x4 (p1 x1 x3) (k0_pay30 (wK1 x3) x1) (k0_pay31 (wK1 x3) x1) (constant S336x256 .f32 0#32)⟩,
    ⟨Rect.unit (s := S2688x256) ![0, 0] S336x256.size inb_S2688x256_S336x256_0_0, k0_pay29 (wK1 x3) (lapK0 x2) x1 x4⟩]
/-- What the first scratch buffer holds after them. -/
def h1 (x1 : Vec F S2688x384 .bf16) (x2 : Vec F S8x336x336 .bf16) (x3 : Vec F S384x768 .bf16) (x4 : Vec F S256 .f32) : Vec F S2688x256 .bf16 := View.canon (pieces1 x1 x2 x3 x4)

def p2 (x1 : Vec F S2688x384 .bf16) (x2 : Vec F S8x336x336 .bf16) (x3 : Vec F S384x768 .bf16) (x4 : Vec F S256 .f32) (x5 : Vec F S256x768 .bf16) : FVec F S2688x768 .f32 := k0_pay43 (wK2 x5) (h1 x1 x2 x3 x4)

def pieces2 (x1 : Vec F S2688x384 .bf16) (x2 : Vec F S8x336x336 .bf16) (x3 : Vec F S384x768 .bf16) (x4 : Vec F S256 .f32) (x5 : Vec F S256x768 .bf16) (x6 : Vec F S256 .f32) : List (View.Piece (Elt F) S2688x256 .bf16) :=
  [⟨Rect.unit (s := S2688x256) ![2352, 0] S336x256.size inb_S2688x256_S336x256_2352_0, k0_pay54 (lapK7 x2) x6 (p2 x1 x2 x3 x4 x5)⟩,
    ⟨Rect.unit (s := S2688x256) ![2016, 0] S336x256.size inb_S2688x256_S336x256_2016_0, k0_pay53 (lapK6 x2) x6 (p2 x1 x2 x3 x4 x5) (k0_pay51 (p2 x1 x2 x3 x4 x5)) (k0_pay52 (lapK6 x2) (p2 x1 x2 x3 x4 x5)) (FloatOps.ofBits .f32 1073741824#32)⟩,
    ⟨Rect.unit (s := S2688x256) ![1680, 0] S336x256.size inb_S2688x256_S336x256_1680_0, k0_pay50 (lapK5 x2) x6 (p2 x1 x2 x3 x4 x5)⟩,
    ⟨Rect.unit (s := S2688x256) ![1344, 0] S336x256.size inb_S2688x256_S336x256_1344_0, k0_pay49 (lapK4 x2) x6 (p2 x1 x2 x3 x4 x5)⟩,
    ⟨Rect.unit (s := S2688x256) ![1008, 0] S336x256.size inb_S2688x256_S336x256_1008_0, k0_pay48 (lapK3 x2) x6 (p2 x1 x2 x3 x4 x5)⟩,
    ⟨Rect.unit (s := S2688x256) ![672, 0] S336x256.size inb_S2688x256_S336x256_672_0, k0_pay47 (lapK2 x2) x6 (p2 x1 x2 x3 x4 x5)⟩,
    ⟨Rect.unit (s := S2688x256) ![336, 0] S336x256.size inb_S2688x256_S336x256_336_0, k0_pay46 (k0_pay45 (wK2 x5) (lapK1 x2) (h1 x1 x2 x3 x4) x6)⟩,
    ⟨Rect.unit (s := S2688x256) ![0, 0] S336x256.size inb_S2688x256_S336x256_0_0, k0_pay44 (wK2 x5) (lapK0 x2) (h1 x1 x2 x3 x4) x6⟩]
def h2 (x1 : Vec F S2688x384 .bf16) (x2 : Vec F S8x336x336 .bf16) (x3 : Vec F S384x768 .bf16) (x4 : Vec F S256 .f32) (x5 : Vec F S256x768 .bf16) (x6 : Vec F S256 .f32) : Vec F S2688x256 .bf16 := View.canon (pieces2 x1 x2 x3 x4 x5 x6)

def p3 (x1 : Vec F S2688x384 .bf16) (x2 : Vec F S8x336x336 .bf16) (x3 : Vec F S384x768 .bf16) (x4 : Vec F S256 .f32) (x5 : Vec F S256x768 .bf16) (x6 : Vec F S256 .f32) (x7 : Vec F S256x384 .bf16) : FVec F S2688x384 .f32 := k0_pay55 (wK3 x7) (h2 x1 x2 x3 x4 x5 x6)

/-- The output block's eight stores, last first. -/
def pieces3 (x1 : Vec F S2688x384 .bf16) (x2 : Vec F S8x336x336 .bf16) (x3 : Vec F S384x768 .bf16) (x4 : Vec F S256 .f32) (x5 : Vec F S256x768 .bf16) (x6 : Vec F S256 .f32) (x7 : Vec F S256x384 .bf16) (x8 : Vec F S128 .f32) : List (View.Piece (Elt F) S8x325x128 .f32) :=
  [⟨Rect.unit (s := S8x325x128) ![7, 0, 0] S1x325x128.size inb_S8x325x128_S1x325x128_7_0_0, k0_pay1 (lapK7 x2) x8 (p3 x1 x2 x3 x4 x5 x6 x7) (k0_pay67 (lapK7 x2) (p3 x1 x2 x3 x4 x5 x6 x7))⟩,
    ⟨Rect.unit (s := S8x325x128) ![6, 0, 0] S1x325x128.size inb_S8x325x128_S1x325x128_6_0_0, k0_pay66 (lapK6 x2) x8 (p3 x1 x2 x3 x4 x5 x6 x7)⟩,
    ⟨Rect.unit (s := S8x325x128) ![5, 0, 0] S1x325x128.size inb_S8x325x128_S1x325x128_5_0_0, k0_pay65 (lapK5 x2) x8 (p3 x1 x2 x3 x4 x5 x6 x7)⟩,
    ⟨Rect.unit (s := S8x325x128) ![4, 0, 0] S1x325x128.size inb_S8x325x128_S1x325x128_4_0_0, k0_pay64 (lapK4 x2) x8 (p3 x1 x2 x3 x4 x5 x6 x7)⟩,
    ⟨Rect.unit (s := S8x325x128) ![3, 0, 0] S1x325x128.size inb_S8x325x128_S1x325x128_3_0_0, k0_pay63 (lapK3 x2) x8 (p3 x1 x2 x3 x4 x5 x6 x7)⟩,
    ⟨Rect.unit (s := S8x325x128) ![2, 0, 0] S1x325x128.size inb_S8x325x128_S1x325x128_2_0_0, k0_pay62 (k0_pay60 (lapK2 x2) (p3 x1 x2 x3 x4 x5 x6 x7)) (k0_pay61 x8)⟩,
    ⟨Rect.unit (s := S8x325x128) ![1, 0, 0] S1x325x128.size inb_S8x325x128_S1x325x128_1_0_0, k0_pay59 (lapK1 x2) x8 (p3 x1 x2 x3 x4 x5 x6 x7)⟩,
    ⟨Rect.unit (s := S8x325x128) ![0, 0, 0] S1x325x128.size inb_S8x325x128_S1x325x128_0_0_0, k0_pay58 (lapK0 x2) x8 (p3 x1 x2 x3 x4 x5 x6 x7) (k0_pay56 (wK3 x7) (h2 x1 x2 x3 x4 x5 x6)) (k0_pay57 (wK3 x7) (lapK0 x2) (h2 x1 x2 x3 x4 x5 x6))⟩]
/-- The output block. -/
def outK (x1 : Vec F S2688x384 .bf16) (x2 : Vec F S8x336x336 .bf16) (x3 : Vec F S384x768 .bf16) (x4 : Vec F S256 .f32) (x5 : Vec F S256x768 .bf16) (x6 : Vec F S256 .f32) (x7 : Vec F S256x384 .bf16) (x8 : Vec F S128 .f32) : Vec F S8x325x128 .f32 := View.canon (pieces3 x1 x2 x3 x4 x5 x6 x7 x8)

/-! ## The run's witness is `outK` -/

theorem hz1 : (![0] : Fin 1 → ℕ) = fun _ => 0 := by funext a; fin_cases a; rfl
theorem hz2 : (![0, 0] : Fin 2 → ℕ) = fun _ => 0 := by funext a; fin_cases a <;> rfl

/-! Each value the run names is the corresponding value above: a whole load of a whole memref held at the raw contents
    that read `x` reads `x`, a load through a slab's rectangle reads the slab, and a whole load of what a list of stores
    left reads the canon of the stores. -/

theorem sl_r (c : Dev nD) (arg3 : Memref sig .tc .vmem S384x768 .bf16) (harg3 : arg3.IsWhole) (x3 : Vec F S384x768 .bf16) :
    kernelRun.sl.r c arg3 harg3 x3 = wK1 x3 := by
  unfold kernelRun.sl.r wK1
  simp only [View.readAt_eq_ld, harg3.read_unread, View.ld_unit_zero (S := S384x768) hz2]
  try rfl

theorem sl_r_1 (c : Dev nD) (arg5 : Memref sig .tc .vmem S256x768 .bf16) (harg5 : arg5.IsWhole) (x5 : Vec F S256x768 .bf16) :
    kernelRun.sl.r_1 c arg5 harg5 x5 = wK2 x5 := by
  unfold kernelRun.sl.r_1 wK2
  simp only [View.readAt_eq_ld, harg5.read_unread, View.ld_unit_zero (S := S256x768) hz2]
  try rfl

theorem sl_r_2 (c : Dev nD) (arg7 : Memref sig .tc .vmem S256x384 .bf16) (harg7 : arg7.IsWhole) (x7 : Vec F S256x384 .bf16) :
    kernelRun.sl.r_2 c arg7 harg7 x7 = wK3 x7 := by
  unfold kernelRun.sl.r_2 wK3
  simp only [View.readAt_eq_ld, harg7.read_unread, View.ld_unit_zero (S := S256x384) hz2]
  try rfl

theorem sl_r_3 (c : Dev nD) (arg2 : Memref sig .tc .vmem S8x336x336 .bf16) (harg2 : arg2.IsWhole) (x2 : Vec F S8x336x336 .bf16) :
    kernelRun.sl.r_3 c arg2 harg2 x2 = lapK0 x2 := by
  unfold kernelRun.sl.r_3 lapK0 slab0
  simp only [View.readAt_eq_ld, harg2.read_unread]
  try rfl

theorem sl_r_4 (c : Dev nD) (arg2 : Memref sig .tc .vmem S8x336x336 .bf16) (harg2 : arg2.IsWhole) (x2 : Vec F S8x336x336 .bf16) :
    kernelRun.sl.r_4 c arg2 harg2 x2 = k0_pay6 (slab1 x2) := by
  unfold kernelRun.sl.r_4 slab1
  simp only [View.readAt_eq_ld, harg2.read_unread]
  try rfl

theorem sl_r_5 (c : Dev nD) (arg2 : Memref sig .tc .vmem S8x336x336 .bf16) (harg2 : arg2.IsWhole) (x2 : Vec F S8x336x336 .bf16) :
    kernelRun.sl.r_5 c arg2 harg2 x2 = k0_pay7 (slab1 x2) := by
  unfold kernelRun.sl.r_5 slab1
  simp only [View.readAt_eq_ld, harg2.read_unread]
  try rfl

theorem sl_r_6 (c : Dev nD) (arg2 : Memref sig .tc .vmem S8x336x336 .bf16) (harg2 : arg2.IsWhole) (x2 : Vec F S8x336x336 .bf16) :
    kernelRun.sl.r_6 c arg2 harg2 x2 = k0_pay8 (slab1 x2) := by
  unfold kernelRun.sl.r_6 slab1
  simp only [View.readAt_eq_ld, harg2.read_unread]
  try rfl

theorem sl_r_7 (c : Dev nD) (arg2 : Memref sig .tc .vmem S8x336x336 .bf16) (harg2 : arg2.IsWhole) (x2 : Vec F S8x336x336 .bf16) :
    kernelRun.sl.r_7 c arg2 harg2 x2 = k0_pay9 (slab1 x2) := by
  unfold kernelRun.sl.r_7 slab1
  simp only [View.readAt_eq_ld, harg2.read_unread]
  try rfl

theorem sl_r_9 (c : Dev nD) (arg2 : Memref sig .tc .vmem S8x336x336 .bf16) (harg2 : arg2.IsWhole) (x2 : Vec F S8x336x336 .bf16) :
    kernelRun.sl.r_9 c arg2 harg2 x2 = lapK2 x2 := by
  unfold kernelRun.sl.r_9 lapK2 slab2
  simp only [View.readAt_eq_ld, harg2.read_unread]
  try rfl

theorem sl_r_10 (c : Dev nD) (arg2 : Memref sig .tc .vmem S8x336x336 .bf16) (harg2 : arg2.IsWhole) (x2 : Vec F S8x336x336 .bf16) :
    kernelRun.sl.r_10 c arg2 harg2 x2 = k0_pay13 (slab3 x2) := by
  unfold kernelRun.sl.r_10 slab3
  simp only [View.readAt_eq_ld, harg2.read_unread]
  try rfl

theorem sl_r_11 (c : Dev nD) (arg2 : Memref sig .tc .vmem S8x336x336 .bf16) (harg2 : arg2.IsWhole) (x2 : Vec F S8x336x336 .bf16) :
    kernelRun.sl.r_11 c arg2 harg2 x2 = k0_pay14 (slab3 x2) := by
  unfold kernelRun.sl.r_11 slab3
  simp only [View.readAt_eq_ld, harg2.read_unread]
  try rfl

theorem sl_r_12 (c : Dev nD) (arg2 : Memref sig .tc .vmem S8x336x336 .bf16) (harg2 : arg2.IsWhole) (x2 : Vec F S8x336x336 .bf16) :
    kernelRun.sl.r_12 c arg2 harg2 x2 = k0_pay15 (slab3 x2) := by
  unfold kernelRun.sl.r_12 slab3
  simp only [View.readAt_eq_ld, harg2.read_unread]
  try rfl

theorem sl_r_13 (c : Dev nD) (arg2 : Memref sig .tc .vmem S8x336x336 .bf16) (harg2 : arg2.IsWhole) (x2 : Vec F S8x336x336 .bf16) :
    kernelRun.sl.r_13 c arg2 harg2 x2 = k0_pay16 (slab3 x2) := by
  unfold kernelRun.sl.r_13 slab3
  simp only [View.readAt_eq_ld, harg2.read_unread]
  try rfl

theorem sl_r_15 (c : Dev nD) (arg2 : Memref sig .tc .vmem S8x336x336 .bf16) (harg2 : arg2.IsWhole) (x2 : Vec F S8x336x336 .bf16) :
    kernelRun.sl.r_15 c arg2 harg2 x2 = lapK4 x2 := by
  unfold kernelRun.sl.r_15 lapK4 slab4
  simp only [View.readAt_eq_ld, harg2.read_unread]
  try rfl

theorem sl_r_16 (c : Dev nD) (arg2 : Memref sig .tc .vmem S8x336x336 .bf16) (harg2 : arg2.IsWhole) (x2 : Vec F S8x336x336 .bf16) :
    kernelRun.sl.r_16 c arg2 harg2 x2 = k0_pay19 (slab5 x2) := by
  unfold kernelRun.sl.r_16 slab5
  simp only [View.readAt_eq_ld, harg2.read_unread]
  try rfl

theorem sl_r_17 (c : Dev nD) (arg2 : Memref sig .tc .vmem S8x336x336 .bf16) (harg2 : arg2.IsWhole) (x2 : Vec F S8x336x336 .bf16) :
    kernelRun.sl.r_17 c arg2 harg2 x2 = k0_pay20 (slab5 x2) := by
  unfold kernelRun.sl.r_17 slab5
  simp only [View.readAt_eq_ld, harg2.read_unread]
  try rfl

theorem sl_r_18 (c : Dev nD) (arg2 : Memref sig .tc .vmem S8x336x336 .bf16) (harg2 : arg2.IsWhole) (x2 : Vec F S8x336x336 .bf16) :
    kernelRun.sl.r_18 c arg2 harg2 x2 = k0_pay21 (slab5 x2) := by
  unfold kernelRun.sl.r_18 slab5
  simp only [View.readAt_eq_ld, harg2.read_unread]
  try rfl

theorem sl_r_20 (c : Dev nD) (arg2 : Memref sig .tc .vmem S8x336x336 .bf16) (harg2 : arg2.IsWhole) (x2 : Vec F S8x336x336 .bf16) :
    kernelRun.sl.r_20 c arg2 harg2 x2 = lapK6 x2 := by
  unfold kernelRun.sl.r_20 lapK6 slab6
  simp only [View.readAt_eq_ld, harg2.read_unread]
  try rfl

theorem sl_r_21 (c : Dev nD) (arg2 : Memref sig .tc .vmem S8x336x336 .bf16) (harg2 : arg2.IsWhole) (x2 : Vec F S8x336x336 .bf16) :
    kernelRun.sl.r_21 c arg2 harg2 x2 = k0_pay24 (slab7 x2) := by
  unfold kernelRun.sl.r_21 slab7
  simp only [View.readAt_eq_ld, harg2.read_unread]
  try rfl

theorem sl_r_22 (c : Dev nD) (arg2 : Memref sig .tc .vmem S8x336x336 .bf16) (harg2 : arg2.IsWhole) (x2 : Vec F S8x336x336 .bf16) :
    kernelRun.sl.r_22 c arg2 harg2 x2 = k0_pay25 (slab7 x2) := by
  unfold kernelRun.sl.r_22 slab7
  simp only [View.readAt_eq_ld, harg2.read_unread]
  try rfl

theorem sl_r_8 (c : Dev nD) (arg2 : Memref sig .tc .vmem S8x336x336 .bf16) (harg2 : arg2.IsWhole) (x2 : Vec F S8x336x336 .bf16) :
    kernelRun.sl.r_8 c arg2 harg2 x2 = lapK1 x2 := by
  unfold kernelRun.sl.r_8 lapK1
  simp only [sl_r_4, sl_r_5, sl_r_6, sl_r_7]
  try rfl

theorem sl_r_14 (c : Dev nD) (arg2 : Memref sig .tc .vmem S8x336x336 .bf16) (harg2 : arg2.IsWhole) (x2 : Vec F S8x336x336 .bf16) :
    kernelRun.sl.r_14 c arg2 harg2 x2 = lapK3 x2 := by
  unfold kernelRun.sl.r_14 lapK3
  simp only [sl_r_10, sl_r_11, sl_r_12, sl_r_13]
  try rfl

theorem sl_r_19 (c : Dev nD) (arg2 : Memref sig .tc .vmem S8x336x336 .bf16) (harg2 : arg2.IsWhole) (x2 : Vec F S8x336x336 .bf16) :
    kernelRun.sl.r_19 c arg2 harg2 x2 = lapK5 x2 := by
  unfold kernelRun.sl.r_19 lapK5
  simp only [kernelRun.sl.cst_49, sl_r_16, sl_r_17, sl_r_18]
  try rfl

theorem sl_r_23 (c : Dev nD) (arg2 : Memref sig .tc .vmem S8x336x336 .bf16) (harg2 : arg2.IsWhole) (x2 : Vec F S8x336x336 .bf16) :
    kernelRun.sl.r_23 c arg2 harg2 x2 = lapK7 x2 := by
  unfold kernelRun.sl.r_23 lapK7
  simp only [sl_r_21, sl_r_22]
  try rfl

theorem sl_r_24 (c : Dev nD) (arg4 : Memref sig .tc .vmem S256 .f32) (harg4 : arg4.IsWhole) (x4 : Vec F S256 .f32) :
    kernelRun.sl.r_24 c arg4 harg4 x4 = x4 := by
  unfold kernelRun.sl.r_24
  simp only [View.readAt_eq_ld, harg4.read_unread, View.ld_unit_zero (S := S256) hz1]
  try rfl

theorem sl_r_32 (c : Dev nD) (arg6 : Memref sig .tc .vmem S256 .f32) (harg6 : arg6.IsWhole) (x6 : Vec F S256 .f32) :
    kernelRun.sl.r_32 c arg6 harg6 x6 = x6 := by
  unfold kernelRun.sl.r_32
  simp only [View.readAt_eq_ld, harg6.read_unread, View.ld_unit_zero (S := S256) hz1]
  try rfl

theorem sl_r_37 (c : Dev nD) (arg8 : Memref sig .tc .vmem S128 .f32) (harg8 : arg8.IsWhole) (x8 : Vec F S128 .f32) :
    kernelRun.sl.r_37 c arg8 harg8 x8 = x8 := by
  unfold kernelRun.sl.r_37
  simp only [View.readAt_eq_ld, harg8.read_unread, View.ld_unit_zero (S := S128) hz1]
  try rfl

theorem sl_r_25 (c : Dev nD) (arg1 : Memref sig .tc .vmem S2688x384 .bf16) (harg1 : arg1.IsWhole) (arg3 : Memref sig .tc .vmem S384x768 .bf16) (harg3 : arg3.IsWhole) (x1 : Vec F S2688x384 .bf16) (x3 : Vec F S384x768 .bf16) :
    kernelRun.sl.r_25 c arg1 harg1 arg3 harg3 x1 x3 = p1 x1 x3 := by
  unfold kernelRun.sl.r_25 p1
  simp only [sl_r, View.readAt_eq_ld, harg1.read_unread, View.ld_unit_zero (S := S2688x384) hz2]
  try rfl

theorem sl_r_26 (c : Dev nD) (arg1 : Memref sig .tc .vmem S2688x384 .bf16) (harg1 : arg1.IsWhole) (arg3 : Memref sig .tc .vmem S384x768 .bf16) (harg3 : arg3.IsWhole) (x1 : Vec F S2688x384 .bf16) (x3 : Vec F S384x768 .bf16) :
    kernelRun.sl.r_26 c arg1 harg1 arg3 harg3 x1 x3 = k0_pay30 (wK1 x3) x1 := by
  unfold kernelRun.sl.r_26
  simp only [sl_r, View.readAt_eq_ld, harg1.read_unread, View.ld_unit_zero (S := S2688x384) hz2]
  try rfl

theorem sl_r_27 (c : Dev nD) (arg1 : Memref sig .tc .vmem S2688x384 .bf16) (harg1 : arg1.IsWhole) (arg3 : Memref sig .tc .vmem S384x768 .bf16) (harg3 : arg3.IsWhole) (x1 : Vec F S2688x384 .bf16) (x3 : Vec F S384x768 .bf16) :
    kernelRun.sl.r_27 c arg1 harg1 arg3 harg3 x1 x3 = k0_pay31 (wK1 x3) x1 := by
  unfold kernelRun.sl.r_27
  simp only [sl_r, View.readAt_eq_ld, harg1.read_unread, View.ld_unit_zero (S := S2688x384) hz2]
  try rfl

theorem sl_r_28 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (x1 : Vec F S2688x384 .bf16) (x2 : Vec F S8x336x336 .bf16) (x3 : Vec F S384x768 .bf16) :
    kernelRun.sl.r_28 c arg1 harg1 arg2 harg2 arg3 harg3 x1 x2 x3 = k0_pay34 (lapK3 x2) (p1 x1 x3) := by
  unfold kernelRun.sl.r_28
  simp only [sl_r_14, sl_r_25]
  try rfl

theorem sl_r_29 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (x1 : Vec F S2688x384 .bf16) (x2 : Vec F S8x336x336 .bf16) (x3 : Vec F S384x768 .bf16) :
    kernelRun.sl.r_29 c arg1 harg1 arg2 harg2 arg3 harg3 x1 x2 x3 = k0_pay37 (lapK5 x2) (p1 x1 x3) := by
  unfold kernelRun.sl.r_29
  simp only [sl_r_19, sl_r_25]
  try rfl

theorem sl_r_30 (c : Dev nD) (arg4 : Memref sig .tc .vmem S256 .f32) (harg4 : arg4.IsWhole) (x4 : Vec F S256 .f32) :
    kernelRun.sl.r_30 c arg4 harg4 x4 = k0_pay38 x4 := by
  unfold kernelRun.sl.r_30
  simp only [sl_r_24]
  try rfl

theorem sl_r_31 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (x1 : Vec F S2688x384 .bf16) (x2 : Vec F S8x336x336 .bf16) (x3 : Vec F S384x768 .bf16) (x4 : Vec F S256 .f32) :
    kernelRun.sl.r_31 c arg1 harg1 arg2 harg2 arg3 harg3 arg4 harg4 x1 x2 x3 x4 = k0_pay41 (lapK7 x2) x4 (p1 x1 x3) := by
  unfold kernelRun.sl.r_31
  simp only [sl_r_23, sl_r_24, sl_r_25]
  try rfl

theorem sl_H10_1 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (x1 : Vec F S2688x384 .bf16) (x2 : Vec F S8x336x336 .bf16) (x3 : Vec F S384x768 .bf16) (x4 : Vec F S256 .f32) :
    kernelRun.sl.H10_1 c arg1 harg1 arg2 harg2 arg3 harg3 arg4 harg4 x1 x2 x3 x4 = [⟨Rect.unit (s := S2688x256) ![0, 0] S336x256.size inb_S2688x256_S336x256_0_0, k0_pay29 (wK1 x3) (lapK0 x2) x1 x4⟩] := by
  unfold kernelRun.sl.H10_1
  simp only [sl_r, sl_r_3, View.readAt_eq_ld, harg1.read_unread, harg4.read_unread, View.ld_unit_zero (S := S2688x384) hz2, View.ld_unit_zero (S := S256) hz1]
  try rfl

theorem sl_H10_3 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (x1 : Vec F S2688x384 .bf16) (x2 : Vec F S8x336x336 .bf16) (x3 : Vec F S384x768 .bf16) (x4 : Vec F S256 .f32) :
    kernelRun.sl.H10_3 c arg1 harg1 arg2 harg2 arg3 harg3 arg4 harg4 x1 x2 x3 x4 = [⟨Rect.unit (s := S2688x256) ![672, 0] S336x256.size inb_S2688x256_S336x256_672_0, k0_pay33 (lapK2 x2) x4 (p1 x1 x3)⟩,
      ⟨Rect.unit (s := S2688x256) ![336, 0] S336x256.size inb_S2688x256_S336x256_336_0, k0_pay32 (lapK1 x2) x4 (p1 x1 x3) (k0_pay30 (wK1 x3) x1) (k0_pay31 (wK1 x3) x1) (constant S336x256 .f32 0#32)⟩,
      ⟨Rect.unit (s := S2688x256) ![0, 0] S336x256.size inb_S2688x256_S336x256_0_0, k0_pay29 (wK1 x3) (lapK0 x2) x1 x4⟩] := by
  unfold kernelRun.sl.H10_3
  simp only [kernelRun.sl.cst_79, sl_H10_1, sl_r_9, sl_r_24, sl_r_25, sl_r_8, sl_r_26, sl_r_27]
  try rfl

theorem sl_H10_5 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (x1 : Vec F S2688x384 .bf16) (x2 : Vec F S8x336x336 .bf16) (x3 : Vec F S384x768 .bf16) (x4 : Vec F S256 .f32) :
    kernelRun.sl.H10_5 c arg1 harg1 arg2 harg2 arg3 harg3 arg4 harg4 x1 x2 x3 x4 = [⟨Rect.unit (s := S2688x256) ![1344, 0] S336x256.size inb_S2688x256_S336x256_1344_0, k0_pay36 (lapK4 x2) x4 (p1 x1 x3)⟩,
      ⟨Rect.unit (s := S2688x256) ![1008, 0] S336x256.size inb_S2688x256_S336x256_1008_0, k0_pay35 (lapK3 x2) x4 (p1 x1 x3) (k0_pay34 (lapK3 x2) (p1 x1 x3))⟩,
      ⟨Rect.unit (s := S2688x256) ![672, 0] S336x256.size inb_S2688x256_S336x256_672_0, k0_pay33 (lapK2 x2) x4 (p1 x1 x3)⟩,
      ⟨Rect.unit (s := S2688x256) ![336, 0] S336x256.size inb_S2688x256_S336x256_336_0, k0_pay32 (lapK1 x2) x4 (p1 x1 x3) (k0_pay30 (wK1 x3) x1) (k0_pay31 (wK1 x3) x1) (constant S336x256 .f32 0#32)⟩,
      ⟨Rect.unit (s := S2688x256) ![0, 0] S336x256.size inb_S2688x256_S336x256_0_0, k0_pay29 (wK1 x3) (lapK0 x2) x1 x4⟩] := by
  unfold kernelRun.sl.H10_5
  simp only [sl_H10_3, sl_r_15, sl_r_24, sl_r_25, sl_r_14, sl_r_28]
  try rfl

theorem sl_H10_7 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (x1 : Vec F S2688x384 .bf16) (x2 : Vec F S8x336x336 .bf16) (x3 : Vec F S384x768 .bf16) (x4 : Vec F S256 .f32) :
    kernelRun.sl.H10_7 c arg1 harg1 arg2 harg2 arg3 harg3 arg4 harg4 x1 x2 x3 x4 = [⟨Rect.unit (s := S2688x256) ![2016, 0] S336x256.size inb_S2688x256_S336x256_2016_0, k0_pay40 (lapK6 x2) x4 (p1 x1 x3)⟩,
      ⟨Rect.unit (s := S2688x256) ![1680, 0] S336x256.size inb_S2688x256_S336x256_1680_0, k0_pay39 (k0_pay37 (lapK5 x2) (p1 x1 x3)) (k0_pay38 x4)⟩,
      ⟨Rect.unit (s := S2688x256) ![1344, 0] S336x256.size inb_S2688x256_S336x256_1344_0, k0_pay36 (lapK4 x2) x4 (p1 x1 x3)⟩,
      ⟨Rect.unit (s := S2688x256) ![1008, 0] S336x256.size inb_S2688x256_S336x256_1008_0, k0_pay35 (lapK3 x2) x4 (p1 x1 x3) (k0_pay34 (lapK3 x2) (p1 x1 x3))⟩,
      ⟨Rect.unit (s := S2688x256) ![672, 0] S336x256.size inb_S2688x256_S336x256_672_0, k0_pay33 (lapK2 x2) x4 (p1 x1 x3)⟩,
      ⟨Rect.unit (s := S2688x256) ![336, 0] S336x256.size inb_S2688x256_S336x256_336_0, k0_pay32 (lapK1 x2) x4 (p1 x1 x3) (k0_pay30 (wK1 x3) x1) (k0_pay31 (wK1 x3) x1) (constant S336x256 .f32 0#32)⟩,
      ⟨Rect.unit (s := S2688x256) ![0, 0] S336x256.size inb_S2688x256_S336x256_0_0, k0_pay29 (wK1 x3) (lapK0 x2) x1 x4⟩] := by
  unfold kernelRun.sl.H10_7
  simp only [sl_H10_5, sl_r_20, sl_r_24, sl_r_25, sl_r_29, sl_r_30]
  try rfl

theorem sl_H10_8 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (x1 : Vec F S2688x384 .bf16) (x2 : Vec F S8x336x336 .bf16) (x3 : Vec F S384x768 .bf16) (x4 : Vec F S256 .f32) :
    kernelRun.sl.H10_8 c arg1 harg1 arg2 harg2 arg3 harg3 arg4 harg4 x1 x2 x3 x4 = pieces1 x1 x2 x3 x4 := by
  unfold kernelRun.sl.H10_8 pieces1
  simp only [sl_H10_7, sl_r_31]
  try rfl

theorem sl_v346 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (arg10 : Memref sig .tc .vmem S2688x256 .bf16) (x1 : Vec F S2688x384 .bf16) (x2 : Vec F S8x336x336 .bf16) (x3 : Vec F S384x768 .bf16) (x4 : Vec F S256 .f32) :
    kernelRun.sl.v346 c arg1 harg1 arg2 harg2 arg3 harg3 arg4 harg4 arg10 x1 x2 x3 x4 = h1 x1 x2 x3 x4 := by
  unfold kernelRun.sl.v346 h1
  rw [sl_H10_8, View.readCov_eq_canon']
  exact View.ld_unit_zero (S := S2688x256) hz2 _ _

theorem sl_r_33 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (arg5 : Memref sig .tc .vmem S256x768 .bf16) (harg5 : arg5.IsWhole) (arg10 : Memref sig .tc .vmem S2688x256 .bf16) (x1 : Vec F S2688x384 .bf16) (x2 : Vec F S8x336x336 .bf16) (x3 : Vec F S384x768 .bf16) (x4 : Vec F S256 .f32) (x5 : Vec F S256x768 .bf16) :
    kernelRun.sl.r_33 c arg1 harg1 arg2 harg2 arg3 harg3 arg4 harg4 arg5 harg5 arg10 x1 x2 x3 x4 x5 = p2 x1 x2 x3 x4 x5 := by
  unfold kernelRun.sl.r_33 p2
  simp only [sl_r_1, sl_v346]
  try rfl

theorem sl_r_34 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (arg5 : Memref sig .tc .vmem S256x768 .bf16) (harg5 : arg5.IsWhole) (arg6 : Memref sig .tc .vmem S256 .f32) (harg6 : arg6.IsWhole) (arg10 : Memref sig .tc .vmem S2688x256 .bf16) (x1 : Vec F S2688x384 .bf16) (x2 : Vec F S8x336x336 .bf16) (x3 : Vec F S384x768 .bf16) (x4 : Vec F S256 .f32) (x5 : Vec F S256x768 .bf16) (x6 : Vec F S256 .f32) :
    kernelRun.sl.r_34 c arg1 harg1 arg2 harg2 arg3 harg3 arg4 harg4 arg5 harg5 arg6 harg6 arg10 x1 x2 x3 x4 x5 x6 = k0_pay45 (wK2 x5) (lapK1 x2) (h1 x1 x2 x3 x4) x6 := by
  unfold kernelRun.sl.r_34
  simp only [sl_r_1, sl_r_8, sl_v346, View.readAt_eq_ld, harg6.read_unread, View.ld_unit_zero (S := S256) hz1]
  try rfl

theorem sl_r_35 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (arg5 : Memref sig .tc .vmem S256x768 .bf16) (harg5 : arg5.IsWhole) (arg10 : Memref sig .tc .vmem S2688x256 .bf16) (x1 : Vec F S2688x384 .bf16) (x2 : Vec F S8x336x336 .bf16) (x3 : Vec F S384x768 .bf16) (x4 : Vec F S256 .f32) (x5 : Vec F S256x768 .bf16) :
    kernelRun.sl.r_35 c arg1 harg1 arg2 harg2 arg3 harg3 arg4 harg4 arg5 harg5 arg10 x1 x2 x3 x4 x5 = k0_pay51 (p2 x1 x2 x3 x4 x5) := by
  unfold kernelRun.sl.r_35
  simp only [sl_r_33]
  try rfl

theorem sl_r_36 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (arg5 : Memref sig .tc .vmem S256x768 .bf16) (harg5 : arg5.IsWhole) (arg10 : Memref sig .tc .vmem S2688x256 .bf16) (x1 : Vec F S2688x384 .bf16) (x2 : Vec F S8x336x336 .bf16) (x3 : Vec F S384x768 .bf16) (x4 : Vec F S256 .f32) (x5 : Vec F S256x768 .bf16) :
    kernelRun.sl.r_36 c arg1 harg1 arg2 harg2 arg3 harg3 arg4 harg4 arg5 harg5 arg10 x1 x2 x3 x4 x5 = k0_pay52 (lapK6 x2) (p2 x1 x2 x3 x4 x5) := by
  unfold kernelRun.sl.r_36
  simp only [sl_r_20, sl_r_33]
  try rfl

theorem sl_H11_1 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (arg5 : Memref sig .tc .vmem S256x768 .bf16) (harg5 : arg5.IsWhole) (arg6 : Memref sig .tc .vmem S256 .f32) (harg6 : arg6.IsWhole) (arg10 : Memref sig .tc .vmem S2688x256 .bf16) (x1 : Vec F S2688x384 .bf16) (x2 : Vec F S8x336x336 .bf16) (x3 : Vec F S384x768 .bf16) (x4 : Vec F S256 .f32) (x5 : Vec F S256x768 .bf16) (x6 : Vec F S256 .f32) :
    kernelRun.sl.H11_1 c arg1 harg1 arg2 harg2 arg3 harg3 arg4 harg4 arg5 harg5 arg6 harg6 arg10 x1 x2 x3 x4 x5 x6 = [⟨Rect.unit (s := S2688x256) ![0, 0] S336x256.size inb_S2688x256_S336x256_0_0, k0_pay44 (wK2 x5) (lapK0 x2) (h1 x1 x2 x3 x4) x6⟩] := by
  unfold kernelRun.sl.H11_1
  simp only [sl_r_1, sl_r_3, sl_v346, View.readAt_eq_ld, harg6.read_unread, View.ld_unit_zero (S := S256) hz1]
  try rfl

theorem sl_H11_4 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (arg5 : Memref sig .tc .vmem S256x768 .bf16) (harg5 : arg5.IsWhole) (arg6 : Memref sig .tc .vmem S256 .f32) (harg6 : arg6.IsWhole) (arg10 : Memref sig .tc .vmem S2688x256 .bf16) (x1 : Vec F S2688x384 .bf16) (x2 : Vec F S8x336x336 .bf16) (x3 : Vec F S384x768 .bf16) (x4 : Vec F S256 .f32) (x5 : Vec F S256x768 .bf16) (x6 : Vec F S256 .f32) :
    kernelRun.sl.H11_4 c arg1 harg1 arg2 harg2 arg3 harg3 arg4 harg4 arg5 harg5 arg6 harg6 arg10 x1 x2 x3 x4 x5 x6 = [⟨Rect.unit (s := S2688x256) ![1008, 0] S336x256.size inb_S2688x256_S336x256_1008_0, k0_pay48 (lapK3 x2) x6 (p2 x1 x2 x3 x4 x5)⟩,
      ⟨Rect.unit (s := S2688x256) ![672, 0] S336x256.size inb_S2688x256_S336x256_672_0, k0_pay47 (lapK2 x2) x6 (p2 x1 x2 x3 x4 x5)⟩,
      ⟨Rect.unit (s := S2688x256) ![336, 0] S336x256.size inb_S2688x256_S336x256_336_0, k0_pay46 (k0_pay45 (wK2 x5) (lapK1 x2) (h1 x1 x2 x3 x4) x6)⟩,
      ⟨Rect.unit (s := S2688x256) ![0, 0] S336x256.size inb_S2688x256_S336x256_0_0, k0_pay44 (wK2 x5) (lapK0 x2) (h1 x1 x2 x3 x4) x6⟩] := by
  unfold kernelRun.sl.H11_4
  simp only [sl_H11_1, sl_r_14, sl_r_32, sl_r_33, sl_r_9, sl_r_34]
  try rfl

theorem sl_H11_6 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (arg5 : Memref sig .tc .vmem S256x768 .bf16) (harg5 : arg5.IsWhole) (arg6 : Memref sig .tc .vmem S256 .f32) (harg6 : arg6.IsWhole) (arg10 : Memref sig .tc .vmem S2688x256 .bf16) (x1 : Vec F S2688x384 .bf16) (x2 : Vec F S8x336x336 .bf16) (x3 : Vec F S384x768 .bf16) (x4 : Vec F S256 .f32) (x5 : Vec F S256x768 .bf16) (x6 : Vec F S256 .f32) :
    kernelRun.sl.H11_6 c arg1 harg1 arg2 harg2 arg3 harg3 arg4 harg4 arg5 harg5 arg6 harg6 arg10 x1 x2 x3 x4 x5 x6 = [⟨Rect.unit (s := S2688x256) ![1680, 0] S336x256.size inb_S2688x256_S336x256_1680_0, k0_pay50 (lapK5 x2) x6 (p2 x1 x2 x3 x4 x5)⟩,
      ⟨Rect.unit (s := S2688x256) ![1344, 0] S336x256.size inb_S2688x256_S336x256_1344_0, k0_pay49 (lapK4 x2) x6 (p2 x1 x2 x3 x4 x5)⟩,
      ⟨Rect.unit (s := S2688x256) ![1008, 0] S336x256.size inb_S2688x256_S336x256_1008_0, k0_pay48 (lapK3 x2) x6 (p2 x1 x2 x3 x4 x5)⟩,
      ⟨Rect.unit (s := S2688x256) ![672, 0] S336x256.size inb_S2688x256_S336x256_672_0, k0_pay47 (lapK2 x2) x6 (p2 x1 x2 x3 x4 x5)⟩,
      ⟨Rect.unit (s := S2688x256) ![336, 0] S336x256.size inb_S2688x256_S336x256_336_0, k0_pay46 (k0_pay45 (wK2 x5) (lapK1 x2) (h1 x1 x2 x3 x4) x6)⟩,
      ⟨Rect.unit (s := S2688x256) ![0, 0] S336x256.size inb_S2688x256_S336x256_0_0, k0_pay44 (wK2 x5) (lapK0 x2) (h1 x1 x2 x3 x4) x6⟩] := by
  unfold kernelRun.sl.H11_6
  simp only [sl_H11_4, sl_r_19, sl_r_15, sl_r_32, sl_r_33]
  try rfl

theorem sl_H11_8 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (arg5 : Memref sig .tc .vmem S256x768 .bf16) (harg5 : arg5.IsWhole) (arg6 : Memref sig .tc .vmem S256 .f32) (harg6 : arg6.IsWhole) (arg10 : Memref sig .tc .vmem S2688x256 .bf16) (x1 : Vec F S2688x384 .bf16) (x2 : Vec F S8x336x336 .bf16) (x3 : Vec F S384x768 .bf16) (x4 : Vec F S256 .f32) (x5 : Vec F S256x768 .bf16) (x6 : Vec F S256 .f32) :
    kernelRun.sl.H11_8 c arg1 harg1 arg2 harg2 arg3 harg3 arg4 harg4 arg5 harg5 arg6 harg6 arg10 x1 x2 x3 x4 x5 x6 = pieces2 x1 x2 x3 x4 x5 x6 := by
  unfold kernelRun.sl.H11_8 pieces2
  simp only [kernelRun.sl.cst_155, sl_H11_6, sl_r_23, sl_r_20, sl_r_32, sl_r_33, sl_r_35, sl_r_36]
  try rfl

theorem sl_v509 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (arg5 : Memref sig .tc .vmem S256x768 .bf16) (harg5 : arg5.IsWhole) (arg6 : Memref sig .tc .vmem S256 .f32) (harg6 : arg6.IsWhole) (arg10 : Memref sig .tc .vmem S2688x256 .bf16) (arg11 : Memref sig .tc .vmem S2688x256 .bf16) (x1 : Vec F S2688x384 .bf16) (x2 : Vec F S8x336x336 .bf16) (x3 : Vec F S384x768 .bf16) (x4 : Vec F S256 .f32) (x5 : Vec F S256x768 .bf16) (x6 : Vec F S256 .f32) :
    kernelRun.sl.v509 c arg1 harg1 arg2 harg2 arg3 harg3 arg4 harg4 arg5 harg5 arg6 harg6 arg10 arg11 x1 x2 x3 x4 x5 x6 = h2 x1 x2 x3 x4 x5 x6 := by
  unfold kernelRun.sl.v509 h2
  rw [sl_H11_8, View.readCov_eq_canon']
  exact View.ld_unit_zero (S := S2688x256) hz2 _ _

theorem sl_r_38 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (arg5 : Memref sig .tc .vmem S256x768 .bf16) (harg5 : arg5.IsWhole) (arg6 : Memref sig .tc .vmem S256 .f32) (harg6 : arg6.IsWhole) (arg7 : Memref sig .tc .vmem S256x384 .bf16) (harg7 : arg7.IsWhole) (arg10 : Memref sig .tc .vmem S2688x256 .bf16) (arg11 : Memref sig .tc .vmem S2688x256 .bf16) (x1 : Vec F S2688x384 .bf16) (x2 : Vec F S8x336x336 .bf16) (x3 : Vec F S384x768 .bf16) (x4 : Vec F S256 .f32) (x5 : Vec F S256x768 .bf16) (x6 : Vec F S256 .f32) (x7 : Vec F S256x384 .bf16) :
    kernelRun.sl.r_38 c arg1 harg1 arg2 harg2 arg3 harg3 arg4 harg4 arg5 harg5 arg6 harg6 arg7 harg7 arg10 arg11 x1 x2 x3 x4 x5 x6 x7 = p3 x1 x2 x3 x4 x5 x6 x7 := by
  unfold kernelRun.sl.r_38 p3
  simp only [sl_r_2, sl_v509]
  try rfl

theorem sl_r_39 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (arg5 : Memref sig .tc .vmem S256x768 .bf16) (harg5 : arg5.IsWhole) (arg6 : Memref sig .tc .vmem S256 .f32) (harg6 : arg6.IsWhole) (arg7 : Memref sig .tc .vmem S256x384 .bf16) (harg7 : arg7.IsWhole) (arg10 : Memref sig .tc .vmem S2688x256 .bf16) (arg11 : Memref sig .tc .vmem S2688x256 .bf16) (x1 : Vec F S2688x384 .bf16) (x2 : Vec F S8x336x336 .bf16) (x3 : Vec F S384x768 .bf16) (x4 : Vec F S256 .f32) (x5 : Vec F S256x768 .bf16) (x6 : Vec F S256 .f32) (x7 : Vec F S256x384 .bf16) :
    kernelRun.sl.r_39 c arg1 harg1 arg2 harg2 arg3 harg3 arg4 harg4 arg5 harg5 arg6 harg6 arg7 harg7 arg10 arg11 x1 x2 x3 x4 x5 x6 x7 = k0_pay56 (wK3 x7) (h2 x1 x2 x3 x4 x5 x6) := by
  unfold kernelRun.sl.r_39
  simp only [sl_r_2, sl_v509]
  try rfl

theorem sl_r_40 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (arg5 : Memref sig .tc .vmem S256x768 .bf16) (harg5 : arg5.IsWhole) (arg6 : Memref sig .tc .vmem S256 .f32) (harg6 : arg6.IsWhole) (arg7 : Memref sig .tc .vmem S256x384 .bf16) (harg7 : arg7.IsWhole) (arg10 : Memref sig .tc .vmem S2688x256 .bf16) (arg11 : Memref sig .tc .vmem S2688x256 .bf16) (x1 : Vec F S2688x384 .bf16) (x2 : Vec F S8x336x336 .bf16) (x3 : Vec F S384x768 .bf16) (x4 : Vec F S256 .f32) (x5 : Vec F S256x768 .bf16) (x6 : Vec F S256 .f32) (x7 : Vec F S256x384 .bf16) :
    kernelRun.sl.r_40 c arg1 harg1 arg2 harg2 arg3 harg3 arg4 harg4 arg5 harg5 arg6 harg6 arg7 harg7 arg10 arg11 x1 x2 x3 x4 x5 x6 x7 = k0_pay57 (wK3 x7) (lapK0 x2) (h2 x1 x2 x3 x4 x5 x6) := by
  unfold kernelRun.sl.r_40
  simp only [sl_r_2, sl_r_3, sl_v509]
  try rfl

theorem sl_r_41 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (arg5 : Memref sig .tc .vmem S256x768 .bf16) (harg5 : arg5.IsWhole) (arg6 : Memref sig .tc .vmem S256 .f32) (harg6 : arg6.IsWhole) (arg7 : Memref sig .tc .vmem S256x384 .bf16) (harg7 : arg7.IsWhole) (arg10 : Memref sig .tc .vmem S2688x256 .bf16) (arg11 : Memref sig .tc .vmem S2688x256 .bf16) (x1 : Vec F S2688x384 .bf16) (x2 : Vec F S8x336x336 .bf16) (x3 : Vec F S384x768 .bf16) (x4 : Vec F S256 .f32) (x5 : Vec F S256x768 .bf16) (x6 : Vec F S256 .f32) (x7 : Vec F S256x384 .bf16) :
    kernelRun.sl.r_41 c arg1 harg1 arg2 harg2 arg3 harg3 arg4 harg4 arg5 harg5 arg6 harg6 arg7 harg7 arg10 arg11 x1 x2 x3 x4 x5 x6 x7 = k0_pay60 (lapK2 x2) (p3 x1 x2 x3 x4 x5 x6 x7) := by
  unfold kernelRun.sl.r_41
  simp only [sl_r_9, sl_r_38]
  try rfl

theorem sl_r_42 (c : Dev nD) (arg8 : Memref sig .tc .vmem S128 .f32) (harg8 : arg8.IsWhole) (x8 : Vec F S128 .f32) :
    kernelRun.sl.r_42 c arg8 harg8 x8 = k0_pay61 x8 := by
  unfold kernelRun.sl.r_42
  simp only [sl_r_37]
  try rfl

theorem sl_r_43 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (arg5 : Memref sig .tc .vmem S256x768 .bf16) (harg5 : arg5.IsWhole) (arg6 : Memref sig .tc .vmem S256 .f32) (harg6 : arg6.IsWhole) (arg7 : Memref sig .tc .vmem S256x384 .bf16) (harg7 : arg7.IsWhole) (arg10 : Memref sig .tc .vmem S2688x256 .bf16) (arg11 : Memref sig .tc .vmem S2688x256 .bf16) (x1 : Vec F S2688x384 .bf16) (x2 : Vec F S8x336x336 .bf16) (x3 : Vec F S384x768 .bf16) (x4 : Vec F S256 .f32) (x5 : Vec F S256x768 .bf16) (x6 : Vec F S256 .f32) (x7 : Vec F S256x384 .bf16) :
    kernelRun.sl.r_43 c arg1 harg1 arg2 harg2 arg3 harg3 arg4 harg4 arg5 harg5 arg6 harg6 arg7 harg7 arg10 arg11 x1 x2 x3 x4 x5 x6 x7 = k0_pay67 (lapK7 x2) (p3 x1 x2 x3 x4 x5 x6 x7) := by
  unfold kernelRun.sl.r_43
  simp only [sl_r_23, sl_r_38]
  try rfl

theorem sl_H9_2 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (arg5 : Memref sig .tc .vmem S256x768 .bf16) (harg5 : arg5.IsWhole) (arg6 : Memref sig .tc .vmem S256 .f32) (harg6 : arg6.IsWhole) (arg7 : Memref sig .tc .vmem S256x384 .bf16) (harg7 : arg7.IsWhole) (arg8 : Memref sig .tc .vmem S128 .f32) (harg8 : arg8.IsWhole) (arg10 : Memref sig .tc .vmem S2688x256 .bf16) (arg11 : Memref sig .tc .vmem S2688x256 .bf16) (x1 : Vec F S2688x384 .bf16) (x2 : Vec F S8x336x336 .bf16) (x3 : Vec F S384x768 .bf16) (x4 : Vec F S256 .f32) (x5 : Vec F S256x768 .bf16) (x6 : Vec F S256 .f32) (x7 : Vec F S256x384 .bf16) (x8 : Vec F S128 .f32) :
    kernelRun.sl.H9_2 c arg1 harg1 arg2 harg2 arg3 harg3 arg4 harg4 arg5 harg5 arg6 harg6 arg7 harg7 arg8 harg8 arg10 arg11 x1 x2 x3 x4 x5 x6 x7 x8 = [⟨Rect.unit (s := S8x325x128) ![1, 0, 0] S1x325x128.size inb_S8x325x128_S1x325x128_1_0_0, k0_pay59 (lapK1 x2) x8 (p3 x1 x2 x3 x4 x5 x6 x7)⟩,
      ⟨Rect.unit (s := S8x325x128) ![0, 0, 0] S1x325x128.size inb_S8x325x128_S1x325x128_0_0_0, k0_pay58 (lapK0 x2) x8 (p3 x1 x2 x3 x4 x5 x6 x7) (k0_pay56 (wK3 x7) (h2 x1 x2 x3 x4 x5 x6)) (k0_pay57 (wK3 x7) (lapK0 x2) (h2 x1 x2 x3 x4 x5 x6))⟩] := by
  unfold kernelRun.sl.H9_2
  simp only [sl_r_8, sl_r_37, sl_r_38, sl_r_3, sl_r_39, sl_r_40]
  try rfl

theorem sl_H9_5 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (arg5 : Memref sig .tc .vmem S256x768 .bf16) (harg5 : arg5.IsWhole) (arg6 : Memref sig .tc .vmem S256 .f32) (harg6 : arg6.IsWhole) (arg7 : Memref sig .tc .vmem S256x384 .bf16) (harg7 : arg7.IsWhole) (arg8 : Memref sig .tc .vmem S128 .f32) (harg8 : arg8.IsWhole) (arg10 : Memref sig .tc .vmem S2688x256 .bf16) (arg11 : Memref sig .tc .vmem S2688x256 .bf16) (x1 : Vec F S2688x384 .bf16) (x2 : Vec F S8x336x336 .bf16) (x3 : Vec F S384x768 .bf16) (x4 : Vec F S256 .f32) (x5 : Vec F S256x768 .bf16) (x6 : Vec F S256 .f32) (x7 : Vec F S256x384 .bf16) (x8 : Vec F S128 .f32) :
    kernelRun.sl.H9_5 c arg1 harg1 arg2 harg2 arg3 harg3 arg4 harg4 arg5 harg5 arg6 harg6 arg7 harg7 arg8 harg8 arg10 arg11 x1 x2 x3 x4 x5 x6 x7 x8 = [⟨Rect.unit (s := S8x325x128) ![4, 0, 0] S1x325x128.size inb_S8x325x128_S1x325x128_4_0_0, k0_pay64 (lapK4 x2) x8 (p3 x1 x2 x3 x4 x5 x6 x7)⟩,
      ⟨Rect.unit (s := S8x325x128) ![3, 0, 0] S1x325x128.size inb_S8x325x128_S1x325x128_3_0_0, k0_pay63 (lapK3 x2) x8 (p3 x1 x2 x3 x4 x5 x6 x7)⟩,
      ⟨Rect.unit (s := S8x325x128) ![2, 0, 0] S1x325x128.size inb_S8x325x128_S1x325x128_2_0_0, k0_pay62 (k0_pay60 (lapK2 x2) (p3 x1 x2 x3 x4 x5 x6 x7)) (k0_pay61 x8)⟩,
      ⟨Rect.unit (s := S8x325x128) ![1, 0, 0] S1x325x128.size inb_S8x325x128_S1x325x128_1_0_0, k0_pay59 (lapK1 x2) x8 (p3 x1 x2 x3 x4 x5 x6 x7)⟩,
      ⟨Rect.unit (s := S8x325x128) ![0, 0, 0] S1x325x128.size inb_S8x325x128_S1x325x128_0_0_0, k0_pay58 (lapK0 x2) x8 (p3 x1 x2 x3 x4 x5 x6 x7) (k0_pay56 (wK3 x7) (h2 x1 x2 x3 x4 x5 x6)) (k0_pay57 (wK3 x7) (lapK0 x2) (h2 x1 x2 x3 x4 x5 x6))⟩] := by
  unfold kernelRun.sl.H9_5
  simp only [sl_H9_2, sl_r_15, sl_r_14, sl_r_37, sl_r_38, sl_r_41, sl_r_42]
  try rfl

theorem sl_H9_8 (c : Dev nD) (arg1 : Memref sig .tc .vmem S2688x384 .bf16) (harg1 : arg1.IsWhole) (arg2 : Memref sig .tc .vmem S8x336x336 .bf16) (harg2 : arg2.IsWhole) (arg3 : Memref sig .tc .vmem S384x768 .bf16) (harg3 : arg3.IsWhole) (arg4 : Memref sig .tc .vmem S256 .f32) (harg4 : arg4.IsWhole) (arg5 : Memref sig .tc .vmem S256x768 .bf16) (harg5 : arg5.IsWhole) (arg6 : Memref sig .tc .vmem S256 .f32) (harg6 : arg6.IsWhole) (arg7 : Memref sig .tc .vmem S256x384 .bf16) (harg7 : arg7.IsWhole) (arg8 : Memref sig .tc .vmem S128 .f32) (harg8 : arg8.IsWhole) (arg10 : Memref sig .tc .vmem S2688x256 .bf16) (arg11 : Memref sig .tc .vmem S2688x256 .bf16) (x1 : Vec F S2688x384 .bf16) (x2 : Vec F S8x336x336 .bf16) (x3 : Vec F S384x768 .bf16) (x4 : Vec F S256 .f32) (x5 : Vec F S256x768 .bf16) (x6 : Vec F S256 .f32) (x7 : Vec F S256x384 .bf16) (x8 : Vec F S128 .f32) :
    kernelRun.sl.H9_8 c arg1 harg1 arg2 harg2 arg3 harg3 arg4 harg4 arg5 harg5 arg6 harg6 arg7 harg7 arg8 harg8 arg10 arg11 x1 x2 x3 x4 x5 x6 x7 x8 = pieces3 x1 x2 x3 x4 x5 x6 x7 x8 := by
  unfold kernelRun.sl.H9_8 pieces3
  simp only [sl_H9_5, sl_r_23, sl_r_20, sl_r_19, sl_r_37, sl_r_38, sl_r_43]
  try rfl

set_option maxHeartbeats 1000000 in
/-- What the body run finds in the output window's staging buffer is `outK` of the input blocks. -/
theorem witness_eq (c : Dev nD) (i : grid0.Coords)
    (arg1 : Memref sig .tc .vmem S2688x384 .bf16) (harg1 : arg1.IsWhole) (arg2 : Memref sig .tc .vmem S8x336x336 .bf16) (harg2 : arg2.IsWhole)
    (arg3 : Memref sig .tc .vmem S384x768 .bf16) (harg3 : arg3.IsWhole) (arg4 : Memref sig .tc .vmem S256 .f32) (harg4 : arg4.IsWhole)
    (arg5 : Memref sig .tc .vmem S256x768 .bf16) (harg5 : arg5.IsWhole) (arg6 : Memref sig .tc .vmem S256 .f32) (harg6 : arg6.IsWhole)
    (arg7 : Memref sig .tc .vmem S256x384 .bf16) (harg7 : arg7.IsWhole) (arg8 : Memref sig .tc .vmem S128 .f32) (harg8 : arg8.IsWhole)
    (arg9 : Memref sig .tc .vmem S8x325x128 .f32) (harg9 : arg9.IsWhole) (arg10 : Memref sig .tc .vmem S2688x256 .bf16) (harg10 : arg10.IsWhole)
    (arg11 : Memref sig .tc .vmem S2688x256 .bf16) (harg11 : arg11.IsWhole)
    (x1 : Vec F S2688x384 .bf16) (x2 : Vec F S8x336x336 .bf16) (x3 : Vec F S384x768 .bf16) (x4 : Vec F S256 .f32) (x5 : Vec F S256x768 .bf16) (x6 : Vec F S256 .f32) (x7 : Vec F S256x384 .bf16) (x8 : Vec F S128 .f32) :
    (kernelRun (F := F) c i arg1 harg1 arg2 harg2 arg3 harg3 arg4 harg4 arg5 harg5 arg6 harg6 arg7 harg7 arg8 harg8 arg9 harg9 arg10 harg10 arg11 harg11 x1 x2 x3 x4 x5 x6 x7 x8).1
      = outK x1 x2 x3 x4 x5 x6 x7 x8 := by
  unfold kernelRun
  dsimp only
  rw [View.read_writes_junk_eq_canon, sl_H9_8]
  rfl

end Cert.KernelIdeal.Value

end
-- ==== Proof.KHostBias.lean ====
/-
  The three bias vectors as the kernel's region finds them.

  A bias is an argument of the program that no host operation writes, and its window's block is the whole vector at
  both grid points.  So when the argument holds real entries, entry `j` of the block is the real bias at `j`.
-/
import proofs.«146035_g81071802679316_cont_sun_m_195_36_alg».proof.Proof.KIKit
import proofs.«146035_g81071802679316_cont_sun_m_195_36_alg».proof.Proof.SpecIdx
import Idealize.ShloMosaic.Lib.ValueIdx
import Idealize.ShloMosaic.Lib.Pipeline.Value
import Idealize.ShloMosaic.Lib.StableHlo.Run
import Idealize.ShloMosaic.PureOps.Ideal

set_option maxRecDepth 16384

noncomputable section

namespace Cert.KHost

open Cert.KernelIdeal Cert.KernelIdeal.Gen Cert.KernelIdeal.Kit
open Idealize.ShloMosaic Idealize.ShloMosaic.TcCoe Idealize.ShloMosaic.Tactic
open Idealize.ShloMosaic.ValueIdx

variable (m : (ℓ : Loc nD τ sig) → Buf (Elt Ideal) ℓ)

/-- The bias window's one block starts at entry 0 at both grid points. -/
theorem bias1_index : ∀ t : Fin cfg0.N, win0_3.index t (0 : Fin 1) = 0 :=
  (by decide +kernel : ∀ t : Fin grid0.N, _)

/-- The first layer's bias as the region finds it: the block is the whole vector, untouched by the host
    operations, so entry `j` of the block is entry `j` of the real bias. -/
theorem bias1_blk (c : Dev nD) (t : Fin cfg0.N) (b : (⟨1, ![256]⟩ : Shape).Idx → ℝ)
    (h : m ((c.tc : Thread nD τ).loc main_arg3) = fun i => ((b i : ℝ) : EReal)) (j : Fin 256) :
    iblk m c 3 t (ValueIdx.ix1 j) = ((Cert.Spec.bvec b j : ℝ) : EReal) := by
  unfold iblk
  show V m c main_arg3 (((cfg0.win 3).blk t).view.emb (ix1 j)) = _
  have e : ((cfg0.win 3).blk t).view.emb (ix1 j) = ix1 j := by
    funext a; apply Fin.ext
    match a with
    | ⟨0, _⟩ => show win0_3.index t (0 : Fin 1) * 256 + 1 * j.val = j.val; rw [bias1_index t]; omega
  rw [e, V_main_arg3, h]
  rfl

/-- The bias window's one block starts at entry 0 at both grid points. -/
theorem bias2_index : ∀ t : Fin cfg0.N, win0_5.index t (0 : Fin 1) = 0 :=
  (by decide +kernel : ∀ t : Fin grid0.N, _)

/-- The second layer's bias as the region finds it: the block is the whole vector, untouched by the host
    operations, so entry `j` of the block is entry `j` of the real bias. -/
theorem bias2_blk (c : Dev nD) (t : Fin cfg0.N) (b : (⟨1, ![256]⟩ : Shape).Idx → ℝ)
    (h : m ((c.tc : Thread nD τ).loc main_arg5) = fun i => ((b i : ℝ) : EReal)) (j : Fin 256) :
    iblk m c 5 t (ValueIdx.ix1 j) = ((Cert.Spec.bvec b j : ℝ) : EReal) := by
  unfold iblk
  show V m c main_arg5 (((cfg0.win 5).blk t).view.emb (ix1 j)) = _
  have e : ((cfg0.win 5).blk t).view.emb (ix1 j) = ix1 j := by
    funext a; apply Fin.ext
    match a with
    | ⟨0, _⟩ => show win0_5.index t (0 : Fin 1) * 256 + 1 * j.val = j.val; rw [bias2_index t]; omega
  rw [e, V_main_arg5, h]
  rfl

/-- The bias window's one block starts at entry 0 at both grid points. -/
theorem bias3_index : ∀ t : Fin cfg0.N, win0_7.index t (0 : Fin 1) = 0 :=
  (by decide +kernel : ∀ t : Fin grid0.N, _)

/-- The third layer's bias as the region finds it: the block is the whole vector, untouched by the host
    operations, so entry `j` of the block is entry `j` of the real bias. -/
theorem bias3_blk (c : Dev nD) (t : Fin cfg0.N) (b : (⟨1, ![128]⟩ : Shape).Idx → ℝ)
    (h : m ((c.tc : Thread nD τ).loc main_arg7) = fun i => ((b i : ℝ) : EReal)) (j : Fin 128) :
    iblk m c 7 t (ValueIdx.ix1 j) = ((Cert.Spec.bvec b j : ℝ) : EReal) := by
  unfold iblk
  show V m c main_arg7 (((cfg0.win 7).blk t).view.emb (ix1 j)) = _
  have e : ((cfg0.win 7).blk t).view.emb (ix1 j) = ix1 j := by
    funext a; apply Fin.ext
    match a with
    | ⟨0, _⟩ => show win0_7.index t (0 : Fin 1) * 128 + 1 * j.val = j.val; rw [bias3_index t]; omega
  rw [e, V_main_arg7, h]
  rfl

end Cert.KHost

end
-- ==== Proof.KHostAdj.lean ====
/-
  The adjacency blocks as the kernel's region finds them.

  The host operations leave the adjacency array cast (the identity on exact values) and padded with zeros from
  [16, 325, 325] to [16, 336, 336].  The window's block at grid point `t` is the eight graphs `8 t … 8 t + 7`, whole.
  So entry `(g, r, q)` of the block is `A[8 t + g, r, q]` when both `r` and `q` are below 325, and `0` in the padding.
-/
import proofs.«146035_g81071802679316_cont_sun_m_195_36_alg».proof.Proof.KIKit
import proofs.«146035_g81071802679316_cont_sun_m_195_36_alg».proof.Proof.SpecIdx
import Idealize.ShloMosaic.Lib.ValueIdx
import Idealize.ShloMosaic.Lib.Pipeline.Value
import Idealize.ShloMosaic.Lib.StableHlo.Run
import Idealize.ShloMosaic.PureOps.Ideal
import Idealize.ShloMosaic.Lib.KernelVsHost

set_option maxRecDepth 16384

noncomputable section

namespace Cert.KHost

open Cert.KernelIdeal Cert.KernelIdeal.Gen Cert.KernelIdeal.Kit
open Idealize.ShloMosaic Idealize.ShloMosaic.TcCoe Idealize.ShloMosaic.Tactic
open Idealize.ShloMosaic.ValueIdx

variable (m : (ℓ : Loc nD τ sig) → Buf (Elt Ideal) ℓ)

/-- A grid point is one of two. -/
theorem point_lt (t : Fin cfg0.N) : t.val < 2 :=
  Nat.lt_of_lt_of_eq t.isLt N_0

/-- The adjacency window's block index: the grid point on the graph axis, `0` on the two node axes. -/
theorem adj_index : ∀ t : Fin cfg0.N, win0_1.index t (0 : Fin 3) = t.val ∧ win0_1.index t (1 : Fin 3) = 0 ∧ win0_1.index t (2 : Fin 3) = 0 :=
  (by decide +kernel : ∀ t : Fin grid0.N, _)

/-- The padded adjacency array is the host operations' term of the adjacency argument: a cast, then a pad of eleven
    trailing rows and columns with the converted integer zero. -/
theorem adj_arr (c : Dev nD) : (V m c main_v38 : S16x336x336.Idx → EReal)
    = pad S16x336x336 ![0, 0, 0] ![0, 11, 11] ![0, 0, 0]
        (truncf .bf16 (m ((c.tc : Thread nD τ).loc main_arg1) : FVec Ideal S16x325x325 .f32) bitsLt_bf16_f32 : FVec Ideal S16x325x325 .bf16)
        (sitofp (F := Ideal) .bf16 (constantI S_ 32 0#32)) pads_S16x325x325_S16x336x336_000_0110_0110 h_S_ := by
  dsimp only [Cert.KernelIdeal.Kit.V]
  simp only [hostOps0, hostOps0_1, hostOps0_2, hostOps0_3, List.flatten_cons, List.flatten_nil, List.append_nil, List.cons_append, List.nil_append]
  after_results
  rfl

/-- The pad read at `(g, r, q)`: the operand where both node coordinates are below 325, the padding value elsewhere. -/
theorem pad_adj_apply (x : S16x325x325.Idx → EReal) (v : S_.Idx → EReal) (g : Fin 16) (r q : Fin 336) :
    pad S16x336x336 ![0, 0, 0] ![0, 11, 11] ![0, 0, 0] x v pads_S16x325x325_S16x336x336_000_0110_0110 h_S_ (ix3 g r q)
      = if h : r.val < 325 ∧ q.val < 325 then x (ix3 g ⟨r.val, h.1⟩ ⟨q.val, h.2⟩) else v (Shape.Idx.first h_S_) := by
  by_cases h : r.val < 325 ∧ q.val < 325
  · rw [dif_pos h]
    refine pad_apply_of_inside _ _ _ x v _ h_S_ (ix3 g r q) (ix3 g ⟨r.val, h.1⟩ ⟨q.val, h.2⟩) fun a => ?_
    match a with
    | ⟨0, _⟩ => show g.val = 0 + g.val * (0 + 1); omega
    | ⟨1, _⟩ => show r.val = 0 + r.val * (0 + 1); omega
    | ⟨2, _⟩ => show q.val = 0 + q.val * (0 + 1); omega
  · rw [dif_neg h]
    by_cases hr : r.val < 325
    · refine pad_apply_of_not_inside _ _ _ x v _ h_S_ (ix3 g r q) (2 : Fin 3) ?_
      show ¬(0 ≤ q.val ∧ (q.val - 0) % (0 + 1) = 0 ∧ (q.val - 0) / (0 + 1) < 325)
      omega
    · refine pad_apply_of_not_inside _ _ _ x v _ h_S_ (ix3 g r q) (1 : Fin 3) ?_
      show ¬(0 ≤ r.val ∧ (r.val - 0) % (0 + 1) = 0 ∧ (r.val - 0) / (0 + 1) < 325)
      omega

/-- The padding value, the integer zero converted, is the real zero. -/
theorem pad_value (i : S_.Idx) : sitofp (F := Ideal) .bf16 (constantI S_ 32 0#32) i = ((0 : ℝ) : EReal) := by
  show ((((0#32 : BitVec 32).toInt : ℤ) : ℝ) : EReal) = _
  simp

/-- The adjacency block at grid point `t`: graph `8 t + g`'s adjacency matrix inside the 325 × 325 corner, zero in the
    padding. -/
theorem adj_blk (c : Dev nD) (t : Fin cfg0.N) (A : Cert.Spec.SA.Idx → ℝ)
    (h : m ((c.tc : Thread nD τ).loc main_arg1) = fun i => ((A i : ℝ) : EReal)) (g : Fin 8) (r q : Fin 336) :
    iblk m c 1 t (ValueIdx.ix3 g r q)
      = ((if h : r.val < 325 ∧ q.val < 325 then
            Cert.Spec.amat A ⟨8 * t.val + g.val, by have := point_lt t; omega⟩ ⟨r.val, h.1⟩ ⟨q.val, h.2⟩ else 0 : ℝ) : EReal) := by
  unfold iblk
  show V m c main_v38 (((cfg0.win 1).blk t).view.emb (ix3 g r q)) = _
  obtain ⟨e0, e1, e2⟩ := adj_index t
  have ht := point_lt t
  have e : ((cfg0.win 1).blk t).view.emb (ix3 g r q) = ix3 (⟨8 * t.val + g.val, by omega⟩ : Fin 16) r q := by
    funext a; apply Fin.ext
    match a with
    | ⟨0, _⟩ => show win0_1.index t (0 : Fin 3) * 8 + 1 * g.val = 8 * t.val + g.val; omega
    | ⟨1, _⟩ => show win0_1.index t (1 : Fin 3) * 336 + 1 * r.val = r.val; omega
    | ⟨2, _⟩ => show win0_1.index t (2 : Fin 3) * 336 + 1 * q.val = q.val; omega
  rw [e, adj_arr, pad_adj_apply, h]
  by_cases hh : r.val < 325 ∧ q.val < 325
  · rw [dif_pos hh, dif_pos hh]; rfl
  · rw [dif_neg hh, dif_neg hh]; exact pad_value _

end Cert.KHost

end
-- ==== Proof.KHostFeat.lean ====
/-
  The node-feature blocks as the kernel's region finds them.

  The host operations flatten the two trailing axes of the features, [16, 325, 12, 32] to [16, 325, 384] (column
  `k` is entry `(k / 32, k % 32)`), cast, pad the node axis with zeros from 325 to 336, and stack the sixteen graphs'
  rows into [5376, 384].  The window's block at grid point `t` is rows `2688 t … 2688 t + 2687`: row `r` of the block
  is node `r % 336` of graph `8 t + r / 336`, a zero row when `r % 336` is in the padding.
-/
import proofs.«146035_g81071802679316_cont_sun_m_195_36_alg».proof.Proof.KIKit
import proofs.«146035_g81071802679316_cont_sun_m_195_36_alg».proof.Proof.SpecIdx
import Idealize.ShloMosaic.Lib.ValueIdx
import Idealize.ShloMosaic.Lib.Pipeline.Value
import Idealize.ShloMosaic.Lib.StableHlo.Run
import Idealize.ShloMosaic.PureOps.Ideal
import Idealize.ShloMosaic.Lib.KernelVsHost
import proofs.«146035_g81071802679316_cont_sun_m_195_36_alg».proof.Proof.KHostAdj

set_option maxRecDepth 16384

noncomputable section

namespace Cert.KHost

open Cert.KernelIdeal Cert.KernelIdeal.Gen Cert.KernelIdeal.Kit
open Idealize.ShloMosaic Idealize.ShloMosaic.TcCoe Idealize.ShloMosaic.Tactic
open Idealize.ShloMosaic.ValueIdx

variable (m : (ℓ : Loc nD τ sig) → Buf (Elt Ideal) ℓ)

/-- The feature window's block index: the grid point on the row axis, `0` on the column axis. -/
theorem feat_index : ∀ t : Fin cfg0.N, win0_0.index t (0 : Fin 2) = t.val ∧ win0_0.index t (1 : Fin 2) = 0 :=
  (by decide +kernel : ∀ t : Fin grid0.N, _)

/-- The stacked feature array is the host operations' term of the feature argument: flatten the trailing axes, cast,
    pad eleven trailing rows per graph with the converted integer zero, stack the graphs. -/
theorem feat_arr (c : Dev nD) : (V m c main_v3 : S5376x384.Idx → EReal)
    = shapeCast S5376x384
        (pad S16x336x384 ![0, 0, 0] ![0, 11, 0] ![0, 0, 0]
          (truncf .bf16 (shapeCast S16x325x384 (m ((c.tc : Thread nD τ).loc main_arg0) : FVec Ideal S16x325x12x32 .f32)
              shapeCasts_S16x325x12x32_S16x325x384 : FVec Ideal S16x325x384 .f32) bitsLt_bf16_f32 : FVec Ideal S16x325x384 .bf16)
          (sitofp (F := Ideal) .bf16 (constantI S_ 32 0#32)) pads_S16x325x384_S16x336x384_000_0110_000 h_S_)
        shapeCasts_S16x336x384_S5376x384 := by
  dsimp only [Cert.KernelIdeal.Kit.V]
  simp only [hostOps0, hostOps0_1, hostOps0_2, hostOps0_3, List.flatten_cons, List.flatten_nil, List.append_nil, List.cons_append, List.nil_append]
  after_results
  rfl

/-- Stacking the graphs: row `g · 336 + s` of the stacked array is row `s` of graph `g`. -/
theorem stack_apply (y : S16x336x384.Idx → EReal) (R : Fin 5376) (k : Fin 384) (g : Fin 16) (s : Fin 336)
    (hR : R.val = g.val * 336 + s.val) :
    shapeCast S5376x384 y shapeCasts_S16x336x384_S5376x384 (ix2 R k) = y (ix3 g s k) := by
  refine shapeCast_apply y shapeCasts_S16x336x384_S5376x384 (ix2 R k) (ix3 g s k) ?_
  rewrite [Shape.rowMajor_val_three, Shape.rowMajor_val_two]
  show (g.val * 336 + s.val) * 384 + k.val = R.val * 384 + k.val
  rw [hR]

/-- The pad read at `(g, s, k)`: the operand where the node coordinate is below 325, the padding value elsewhere. -/
theorem pad_feat_apply (x : S16x325x384.Idx → EReal) (v : S_.Idx → EReal) (g : Fin 16) (s : Fin 336) (k : Fin 384) :
    pad S16x336x384 ![0, 0, 0] ![0, 11, 0] ![0, 0, 0] x v pads_S16x325x384_S16x336x384_000_0110_000 h_S_ (ix3 g s k)
      = if h : s.val < 325 then x (ix3 g ⟨s.val, h⟩ k) else v (Shape.Idx.first h_S_) := by
  by_cases h : s.val < 325
  · rw [dif_pos h]
    refine pad_apply_of_inside _ _ _ x v _ h_S_ (ix3 g s k) (ix3 g ⟨s.val, h⟩ k) fun a => ?_
    match a with
    | ⟨0, _⟩ => show g.val = 0 + g.val * (0 + 1); omega
    | ⟨1, _⟩ => show s.val = 0 + s.val * (0 + 1); omega
    | ⟨2, _⟩ => show k.val = 0 + k.val * (0 + 1); omega
  · rw [dif_neg h]
    refine pad_apply_of_not_inside _ _ _ x v _ h_S_ (ix3 g s k) (1 : Fin 3) ?_
    show ¬(0 ≤ s.val ∧ (s.val - 0) % (0 + 1) = 0 ∧ (s.val - 0) / (0 + 1) < 325)
    omega

/-- Flattening the trailing axes: column `k` of the flattened features is entry `(k / 32, k % 32)`. -/
theorem flatten_apply (x : S16x325x12x32.Idx → EReal) (g : Fin 16) (s : Fin 325) (k : Fin 384) :
    shapeCast S16x325x384 x shapeCasts_S16x325x12x32_S16x325x384 (ix3 g s k)
      = x (ix4 g s ⟨k.val / 32, by have := k.isLt; omega⟩ ⟨k.val % 32, Nat.mod_lt _ (by norm_num)⟩) := by
  refine shapeCast_apply x shapeCasts_S16x325x12x32_S16x325x384 (ix3 g s k) _ ?_
  rewrite [Shape.rowMajor_val_four, Shape.rowMajor_val_three]
  show ((g.val * 325 + s.val) * 12 + k.val / 32) * 32 + k.val % 32 = (g.val * 325 + s.val) * 384 + k.val
  omega

/-- The feature block at grid point `t`: row `r` is node `r % 336` of graph `8 t + r / 336`, zero in the padding. -/
theorem feat_blk (c : Dev nD) (t : Fin cfg0.N) (X : Cert.Spec.SX.Idx → ℝ)
    (h : m ((c.tc : Thread nD τ).loc main_arg0) = fun i => ((X i : ℝ) : EReal)) (r : Fin 2688) (k : Fin 384) :
    iblk m c 0 t (ValueIdx.ix2 r k)
      = ((if h : r.val % 336 < 325 then
            Cert.Spec.xmat X ⟨8 * t.val + r.val / 336, by have := point_lt t; have := r.isLt; omega⟩ ⟨r.val % 336, h⟩ k else 0 : ℝ) : EReal) := by
  unfold iblk
  show V m c main_v3 (((cfg0.win 0).blk t).view.emb (ix2 r k)) = _
  obtain ⟨e0, e1⟩ := feat_index t
  have ht := point_lt t
  have hr := r.isLt
  have e : ((cfg0.win 0).blk t).view.emb (ix2 r k) = ix2 (⟨t.val * 2688 + r.val, by omega⟩ : Fin 5376) k := by
    funext a; apply Fin.ext
    match a with
    | ⟨0, _⟩ => show win0_0.index t (0 : Fin 2) * 2688 + 1 * r.val = t.val * 2688 + r.val; omega
    | ⟨1, _⟩ => show win0_0.index t (1 : Fin 2) * 384 + 1 * k.val = k.val; omega
  rw [e, feat_arr,
    stack_apply _ _ k (⟨8 * t.val + r.val / 336, by omega⟩ : Fin 16) (⟨r.val % 336, Nat.mod_lt _ (by norm_num)⟩ : Fin 336)
      (by show t.val * 2688 + r.val = (8 * t.val + r.val / 336) * 336 + r.val % 336; omega),
    pad_feat_apply]
  by_cases hh : r.val % 336 < 325
  · rw [dif_pos hh, dif_pos hh, truncf_apply, flatten_apply, h]; rfl
  · rw [dif_neg hh, dif_neg hh]; exact pad_value _

end Cert.KHost

end
-- ==== Proof.KHostStack.lean ====
/-
  Reading a host operation of several operands.

  An operation of a literal family of operands leaves in its result buffer its function of the operands' contents;
  once the family is read at its literal positions each operand's contents are those of its own buffer, and the
  operations before it can be read in turn.
-/
import proofs.«146035_g81071802679316_cont_sun_m_195_36_alg».proof.Proof.KIKit
import proofs.«146035_g81071802679316_cont_sun_m_195_36_alg».proof.Proof.SpecIdx
import Idealize.ShloMosaic.Lib.ValueIdx
import Idealize.ShloMosaic.Lib.Pipeline.Value
import Idealize.ShloMosaic.Lib.StableHlo.Run
import Idealize.ShloMosaic.PureOps.Ideal
import Idealize.ShloMosaic.Lib.KernelVsHost

set_option maxRecDepth 16384

noncomputable section

namespace Cert.KHost

open Cert.KernelIdeal Cert.KernelIdeal.Gen Cert.KernelIdeal.Kit
open Idealize.ShloMosaic Idealize.ShloMosaic.TcCoe Idealize.ShloMosaic.Tactic
open Idealize.ShloMosaic.ValueIdx

variable (m : (ℓ : Loc nD τ sig) → Buf (Elt Ideal) ℓ)

/-- A family of three read at its literal positions. -/
theorem vec3_zero {α : Type} (a b c : α) : (![a, b, c] : Fin 3 → α) 0 = a := rfl
theorem vec3_one {α : Type} (a b c : α) : (![a, b, c] : Fin 3 → α) 1 = b := rfl
theorem vec3_two {α : Type} (a b c : α) : (![a, b, c] : Fin 3 → α) 2 = c := rfl

/-- One more round of reading each operation's result at its own buffer and any other buffer as it was. -/
macro "host_rewrites" : tactic =>
  `(tactic| (repeat (first
               | rw [Idealize.ShloMosaic.StableHlo.nullary_result] | rw [Idealize.ShloMosaic.StableHlo.unary_result]
               | rw [Idealize.ShloMosaic.StableHlo.binary_result]
               | rw [Idealize.ShloMosaic.StableHlo.reshape_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.reshape_result_ne]; rotate_left; decide)
               | (rw [Idealize.ShloMosaic.StableHlo.nary_result_ne]; rotate_left; decide))))

/-- A buffer after the host operations as the operations' term, through one operation of three literal operands. -/
macro "host_results3" : tactic =>
  `(tactic| (after_results
             dsimp only [Cert.KHost.vec3_zero, Cert.KHost.vec3_one, Cert.KHost.vec3_two]
             host_rewrites))

end Cert.KHost

end
-- ==== Proof.KReal.lean ====
/-
  The kernel's arrangement of one Chebyshev layer, over the real numbers.

  Per graph the kernel works on 336 rows: the 325 nodes and 11 rows of zeros.  The Laplacian is padded with zeros to
  336 × 336, and the three weight matrices of a layer are stacked side by side as `[W₀ − W₂ | W₁ | W₂]`.  A layer first
  projects the features with the stacked weights, `p = h · [W₀ − W₂ | W₁ | W₂]`, and then propagates,
  `p₀ + L·(p₁ + 2·(L·p₂)) + b`.

  A sum over the 336 padded rows whose terms carry a factor from the padded Laplacian is the sum over the 325 nodes,
  because the padded columns of the Laplacian are zero.  On the rows of the nodes the padded layer is therefore the
  projected form of the Chebyshev layer, which is the layer itself.
-/
import Mathlib.Data.Matrix.Mul
import Mathlib.Algebra.BigOperators.Fin
import proofs.«146035_g81071802679316_cont_sun_m_195_36_alg».proof.Proof.Spec

noncomputable section

namespace Cert.KReal

open Matrix

/-- The Laplacian padded with zeros from 325 × 325 to 336 × 336. -/
def lapPad (A : Matrix (Fin 325) (Fin 325) ℝ) (r q : Fin 336) : ℝ :=
  if h : r.val < 325 ∧ q.val < 325 then Cert.Spec.lap A ⟨r, h.1⟩ ⟨q, h.2⟩ else 0

/-- The stacked weights `[W₀ − W₂ | W₁ | W₂]`: three blocks of `fo` columns. -/
def wStack {fi fo : ℕ} (W : Fin 3 → Matrix (Fin fi) (Fin fo) ℝ) (k : Fin fi) (c : Fin (3 * fo)) : ℝ :=
  if h0 : c.val < fo then W 0 k ⟨c, h0⟩ - W 2 k ⟨c, h0⟩
  else if h1 : c.val < 2 * fo then W 1 k ⟨c.val - fo, by omega⟩
  else W 2 k ⟨c.val - 2 * fo, by omega⟩

/-- The projection of the padded features with a weight matrix. -/
def projPad {fi w : ℕ} (h : Fin 336 → Fin fi → ℝ) (Ws : Fin fi → Fin w → ℝ) (r : Fin 336) (c : Fin w) : ℝ :=
  ∑ k, h r k * Ws k c

/-- One layer as the kernel arranges it: `p₀ + L·(p₁ + 2·(L·p₂)) + b` on the projections `p = h · Ws`. -/
def layerPad {fi fo : ℕ} (L : Fin 336 → Fin 336 → ℝ) (h : Fin 336 → Fin fi → ℝ)
    (Ws : Fin fi → Fin (3 * fo) → ℝ) (b : Fin fo → ℝ) (r : Fin 336) (c : Fin fo) : ℝ :=
  projPad h Ws r ⟨c, by omega⟩
    + (∑ k, L r k * (projPad h Ws k ⟨fo + c, by omega⟩
        + 2 * ∑ j, L k j * projPad h Ws j ⟨2 * fo + c, by omega⟩))
    + b c

/-- A sum over `n + d` indices whose last `d` terms vanish is the sum over the first `n`. -/
theorem sum_castAdd_of_zero {n d : ℕ} (f : Fin (n + d) → ℝ) (hf : ∀ j : Fin d, f (Fin.natAdd n j) = 0) :
    ∑ k, f k = ∑ m : Fin n, f (Fin.castAdd d m) := by
  rw [Fin.sum_univ_add]
  simp only [hf, Finset.sum_const_zero, add_zero]

/-- The padded columns of the padded Laplacian are zero. -/
theorem lapPad_col_ge (A : Matrix (Fin 325) (Fin 325) ℝ) (r q : Fin 336) (hq : 325 ≤ q.val) :
    lapPad A r q = 0 := by
  unfold lapPad
  rw [dif_neg]
  intro h
  omega

/-- On the nodes the padded Laplacian is the Laplacian. -/
theorem lapPad_lt (A : Matrix (Fin 325) (Fin 325) ℝ) (r q : Fin 336) (hr : r.val < 325) (hq : q.val < 325) :
    lapPad A r q = Cert.Spec.lap A ⟨r, hr⟩ ⟨q, hq⟩ := by
  unfold lapPad
  rw [dif_pos ⟨hr, hq⟩]

/-- A sum over the padded rows against a row of the padded Laplacian is the sum over the nodes. -/
theorem sum_lapPad (A : Matrix (Fin 325) (Fin 325) ℝ) (r : Fin 336) (hr : r.val < 325) (g : Fin 336 → ℝ) :
    ∑ k, lapPad A r k * g k = ∑ m : Fin 325, Cert.Spec.lap A ⟨r, hr⟩ m * g ⟨m.val, by omega⟩ := by
  have h := sum_castAdd_of_zero (n := 325) (d := 11) (fun k => lapPad A r k * g k) (by
    intro j
    rw [lapPad_col_ge A r _ (by simp only [Fin.coe_natAdd]; omega), zero_mul])
  refine h.trans (Finset.sum_congr rfl ?_)
  intro m _
  rw [lapPad_lt A r _ hr (by simp only [Fin.coe_castAdd]; exact m.isLt)]
  rfl

/-- The first block of the stacked weights is `W₀ − W₂`. -/
theorem wStack_col0 {fi fo : ℕ} (W : Fin 3 → Matrix (Fin fi) (Fin fo) ℝ) (k : Fin fi) (c : Fin fo)
    (hc : c.val < 3 * fo) : wStack W k ⟨c, hc⟩ = W 0 k c - W 2 k c := by
  unfold wStack
  rw [dif_pos c.isLt]

/-- The second block of the stacked weights is `W₁`. -/
theorem wStack_col1 {fi fo : ℕ} (W : Fin 3 → Matrix (Fin fi) (Fin fo) ℝ) (k : Fin fi) (c : Fin fo)
    (hc : fo + c.val < 3 * fo) : wStack W k ⟨fo + c, hc⟩ = W 1 k c := by
  unfold wStack
  have h0 : ¬ fo + c.val < fo := by omega
  have h1 : fo + c.val < 2 * fo := by omega
  rw [dif_neg h0, dif_pos h1]
  congr 1
  exact Fin.ext (by simp)

/-- The third block of the stacked weights is `W₂`. -/
theorem wStack_col2 {fi fo : ℕ} (W : Fin 3 → Matrix (Fin fi) (Fin fo) ℝ) (k : Fin fi) (c : Fin fo)
    (hc : 2 * fo + c.val < 3 * fo) : wStack W k ⟨2 * fo + c, hc⟩ = W 2 k c := by
  unfold wStack
  have h0 : ¬ 2 * fo + c.val < fo := by omega
  have h1 : ¬ 2 * fo + c.val < 2 * fo := by omega
  rw [dif_neg h0, dif_neg h1]
  congr 1
  exact Fin.ext (by simp)

/-- The projection with the first block: `h · (W₀ − W₂)`. -/
theorem projPad_col0 {fi fo : ℕ} (h : Fin 336 → Fin fi → ℝ) (W : Fin 3 → Matrix (Fin fi) (Fin fo) ℝ)
    (r : Fin 336) (c : Fin fo) (hc : c.val < 3 * fo) :
    projPad h (wStack W) r ⟨c, hc⟩ = ∑ k, h r k * (W 0 k c - W 2 k c) := by
  unfold projPad
  exact Finset.sum_congr rfl (fun k _ => by rw [wStack_col0])

/-- The projection with the second block: `h · W₁`. -/
theorem projPad_col1 {fi fo : ℕ} (h : Fin 336 → Fin fi → ℝ) (W : Fin 3 → Matrix (Fin fi) (Fin fo) ℝ)
    (r : Fin 336) (c : Fin fo) (hc : fo + c.val < 3 * fo) :
    projPad h (wStack W) r ⟨fo + c, hc⟩ = ∑ k, h r k * W 1 k c := by
  unfold projPad
  exact Finset.sum_congr rfl (fun k _ => by rw [wStack_col1])

/-- The projection with the third block: `h · W₂`. -/
theorem projPad_col2 {fi fo : ℕ} (h : Fin 336 → Fin fi → ℝ) (W : Fin 3 → Matrix (Fin fi) (Fin fo) ℝ)
    (r : Fin 336) (c : Fin fo) (hc : 2 * fo + c.val < 3 * fo) :
    projPad h (wStack W) r ⟨2 * fo + c, hc⟩ = ∑ k, h r k * W 2 k c := by
  unfold projPad
  exact Finset.sum_congr rfl (fun k _ => by rw [wStack_col2])

/-- On the rows of the nodes, the padded layer with the padded Laplacian and the stacked weights is the Chebyshev
    layer on the nodes' features: the padded columns of the Laplacian drop the padded rows out of both propagation
    sums, and the three blocks of the stacked weights give the three projections of the projected form. -/
theorem layerPad_eq (A : Matrix (Fin 325) (Fin 325) ℝ) {fi fo : ℕ} (h : Fin 336 → Fin fi → ℝ)
    (W : Fin 3 → Matrix (Fin fi) (Fin fo) ℝ) (b : Fin fo → ℝ) (r : Fin 336) (hr : r.val < 325) (c : Fin fo) :
    layerPad (lapPad A) h (wStack W) b r c
      = Cert.Spec.cheb (Cert.Spec.lap A) (fun s k => h ⟨s.val, by omega⟩ k) W b ⟨r, hr⟩ c := by
  refine Eq.trans ?_ (congrFun (congrFun (Cert.Spec.chebProj_eq_cheb (Cert.Spec.lap A)
    (fun s k => h ⟨s.val, by omega⟩ k) W b) ⟨r, hr⟩) c)
  unfold layerPad Cert.Spec.chebProj
  rw [sum_lapPad A r hr]
  simp only [Matrix.add_apply, Matrix.mul_apply, Matrix.smul_apply, Matrix.sub_apply, smul_eq_mul]
  rw [projPad_col0]
  congr 1
  congr 1
  refine Finset.sum_congr rfl (fun m _ => ?_)
  rw [projPad_col1, sum_lapPad A ⟨m.val, by omega⟩ m.isLt]
  congr 1
  congr 1
  congr 1
  refine Finset.sum_congr rfl (fun j _ => ?_)
  rw [projPad_col2]
  rfl

end Cert.KReal

end
-- ==== Proof.KHostW1.lean ====
/-
  The first layer's stacked weights as the kernel's region finds them.

  The host operations cut the three matrices `W₀, W₁, W₂` out of the layer's weight array [3, 384, 256], subtract
  `W₂` from `W₀`, put `W₀ − W₂`, `W₁` and `W₂` side by side into [384, 768] and cast.  The window's block is the
  whole array at both grid points.  So entry `(k, j)` of the block is `W₀[k, j] − W₂[k, j]` for `j` below 256,
  `W₁[k, j − 256]` for `j` below 512 and `W₂[k, j − 512]` above.
-/
import proofs.«146035_g81071802679316_cont_sun_m_195_36_alg».proof.Proof.KIKit
import proofs.«146035_g81071802679316_cont_sun_m_195_36_alg».proof.Proof.SpecIdx
import Idealize.ShloMosaic.Lib.ValueIdx
import Idealize.ShloMosaic.Lib.Pipeline.Value
import Idealize.ShloMosaic.Lib.StableHlo.Run
import Idealize.ShloMosaic.PureOps.Ideal
import Idealize.ShloMosaic.Lib.KernelVsHost
import proofs.«146035_g81071802679316_cont_sun_m_195_36_alg».proof.Proof.KHostStack
import proofs.«146035_g81071802679316_cont_sun_m_195_36_alg».proof.Proof.KReal

set_option maxRecDepth 16384

noncomputable section

namespace Cert.KHost

open Cert.KernelIdeal Cert.KernelIdeal.Gen Cert.KernelIdeal.Kit
open Idealize.ShloMosaic Idealize.ShloMosaic.TcCoe Idealize.ShloMosaic.Tactic
open Idealize.ShloMosaic.ValueIdx

variable (m : (ℓ : Loc nD τ sig) → Buf (Elt Ideal) ℓ)

/-- The window's one block starts at entry `(0, 0)` at both grid points. -/
theorem wstack1_index : ∀ t : Fin cfg0.N, win0_2.index t (0 : Fin 2) = 0 ∧ win0_2.index t (1 : Fin 2) = 0 :=
  (by decide +kernel : ∀ t : Fin grid0.N, _)

set_option maxHeartbeats 1000000 in
/-- The stacked array is the host operations' term of the weight argument. -/
theorem wstack1_arr (c : Dev nD) : (V m c main_v14 : S384x768.Idx → EReal)
    = truncf .bf16 (concatenate S384x768 1
        [⟨S384x256, subf (shapeCast S384x256 (extractStridedSlice S1x384x256 ![0, 0, 0] (m ((c.tc : Thread nD τ).loc main_arg2) : FVec Ideal S3x384x256 .f32) slices_S3x384x256_S1x384x256_0_0_0) shapeCasts_S1x384x256_S384x256)
            (shapeCast S384x256 (extractStridedSlice S1x384x256 ![2, 0, 0] (m ((c.tc : Thread nD τ).loc main_arg2) : FVec Ideal S3x384x256 .f32) slices_S3x384x256_S1x384x256_2_0_0) shapeCasts_S1x384x256_S384x256)⟩,
         ⟨S384x256, shapeCast S384x256 (extractStridedSlice S1x384x256 ![1, 0, 0] (m ((c.tc : Thread nD τ).loc main_arg2) : FVec Ideal S3x384x256 .f32) slices_S3x384x256_S1x384x256_1_0_0) shapeCasts_S1x384x256_S384x256⟩,
         ⟨S384x256, shapeCast S384x256 (extractStridedSlice S1x384x256 ![2, 0, 0] (m ((c.tc : Thread nD τ).loc main_arg2) : FVec Ideal S3x384x256 .f32) slices_S3x384x256_S1x384x256_2_0_0) shapeCasts_S1x384x256_S384x256⟩]
        concatenates_S384x256_S384x256_S384x256_S384x768_d1 : FVec Ideal S384x768 .f32) bitsLt_bf16_f32 := by
  dsimp only [Cert.KernelIdeal.Kit.V]
  simp only [hostOps0, hostOps0_1, hostOps0_2, hostOps0_3, List.flatten_cons, List.flatten_nil, List.append_nil, List.cons_append, List.nil_append]
  host_results3
  rfl

/-- Matrix `o` cut out of the weight array and read at `(k, j)`. -/
theorem wcut1_apply (W : S3x384x256.Idx → EReal) (o : Nat) (ho : o < 3) (h : S3x384x256.Slices ![o, 0, 0] S1x384x256) (k : Fin 384) (j : Fin 256) :
    shapeCast S384x256 (extractStridedSlice S1x384x256 ![o, 0, 0] W h) shapeCasts_S1x384x256_S384x256 (ix2 k j) = W (ix3 (⟨o, ho⟩ : Fin 3) k j) := by
  refine (shapeCast_apply _ shapeCasts_S1x384x256_S384x256 (ix2 k j) (ix3 (0 : Fin 1) k j) ?_).trans ?_
  · rewrite [Shape.rowMajor_val_three, Shape.rowMajor_val_two]
    show (0 * 384 + k.val) * 256 + j.val = k.val * 256 + j.val
    omega
  · refine extractStridedSlice_apply _ W h (ix3 (0 : Fin 1) k j) (ix3 (⟨o, ho⟩ : Fin 3) k j) fun a => ?_
    match a with
    | ⟨0, _⟩ => show o = o + 0; omega
    | ⟨1, _⟩ => show k.val = 0 + k.val; omega
    | ⟨2, _⟩ => show j.val = 0 + j.val; omega

/-- Three matrices side by side read at `(k, j)`: the one whose 256 columns hold `j`. -/
theorem wconcat1_apply (x0 x1 x2 : S384x256.Idx → EReal) (k : Fin 384) (j : Fin 768) :
    concatenate S384x768 1 [⟨S384x256, x0⟩, ⟨S384x256, x1⟩, ⟨S384x256, x2⟩] concatenates_S384x256_S384x256_S384x256_S384x768_d1 (ix2 k j)
      = if h0 : j.val < 256 then x0 (ix2 k ⟨j.val, h0⟩)
        else if h1 : j.val < 512 then x1 (ix2 k ⟨j.val - 256, by omega⟩)
        else x2 (ix2 k ⟨j.val - 512, by have := j.isLt; omega⟩) := by
  have hj := j.isLt
  by_cases h0 : j.val < 256
  · rw [dif_pos h0]
    refine concatenate_apply_piece (t := S384x768) (1 : Fin 2) [⟨S384x256, x0⟩, ⟨S384x256, x1⟩, ⟨S384x256, x2⟩] concatenates_S384x256_S384x256_S384x256_S384x768_d1 (ix2 k j) 0 (show 0 < 3 by omega) S384x256 x0 rfl rfl 0 rfl
      (ix2 k ⟨j.val, h0⟩) (fun b hb => ?_) ?_
    · match b with
      | ⟨0, _⟩ => rfl
      | ⟨1, _⟩ => exact absurd rfl hb
    · show 0 + j.val = j.val; omega
  · rw [dif_neg h0]
    by_cases h1 : j.val < 512
    · rw [dif_pos h1]
      refine concatenate_apply_piece (t := S384x768) (1 : Fin 2) [⟨S384x256, x0⟩, ⟨S384x256, x1⟩, ⟨S384x256, x2⟩] concatenates_S384x256_S384x256_S384x256_S384x768_d1 (ix2 k j) 1 (show 1 < 3 by omega) S384x256 x1 rfl rfl 256 rfl
        (ix2 k ⟨j.val - 256, by omega⟩) (fun b hb => ?_) ?_
      · match b with
        | ⟨0, _⟩ => rfl
        | ⟨1, _⟩ => exact absurd rfl hb
      · show 256 + (j.val - 256) = j.val; omega
    · rw [dif_neg h1]
      refine concatenate_apply_piece (t := S384x768) (1 : Fin 2) [⟨S384x256, x0⟩, ⟨S384x256, x1⟩, ⟨S384x256, x2⟩] concatenates_S384x256_S384x256_S384x256_S384x768_d1 (ix2 k j) 2 (show 2 < 3 by omega) S384x256 x2 rfl rfl 512 rfl
        (ix2 k ⟨j.val - 512, by omega⟩) (fun b hb => ?_) ?_
      · match b with
        | ⟨0, _⟩ => rfl
        | ⟨1, _⟩ => exact absurd rfl hb
      · show 512 + (j.val - 512) = j.val; omega

/-- The stacked weights' block, entry by entry: `W₀ − W₂`, `W₁`, `W₂` in three groups of 256 columns. -/
theorem wstack1_blk_cases (c : Dev nD) (t : Fin cfg0.N) (W : (⟨3, ![3, 384, 256]⟩ : Shape).Idx → ℝ)
    (h : m ((c.tc : Thread nD τ).loc main_arg2) = fun i => ((W i : ℝ) : EReal)) (k : Fin 384) (j : Fin 768) :
    iblk m c 2 t (ValueIdx.ix2 k j)
      = ((if h0 : j.val < 256 then Cert.Spec.wmat W 0 k ⟨j.val, h0⟩ - Cert.Spec.wmat W 2 k ⟨j.val, h0⟩
          else if h1 : j.val < 512 then Cert.Spec.wmat W 1 k ⟨j.val - 256, by omega⟩
          else Cert.Spec.wmat W 2 k ⟨j.val - 512, by have := j.isLt; omega⟩ : ℝ) : EReal) := by
  unfold iblk
  show V m c main_v14 (((cfg0.win 2).blk t).view.emb (ix2 k j)) = _
  obtain ⟨e0, e1⟩ := wstack1_index t
  have e : ((cfg0.win 2).blk t).view.emb (ix2 k j) = ix2 k j := by
    funext a; apply Fin.ext
    match a with
    | ⟨0, _⟩ => show win0_2.index t (0 : Fin 2) * 384 + 1 * k.val = k.val; omega
    | ⟨1, _⟩ => show win0_2.index t (1 : Fin 2) * 768 + 1 * j.val = j.val; omega
  rw [e, wstack1_arr, truncf_apply, wconcat1_apply]
  by_cases h0 : j.val < 256
  · rw [dif_pos h0, dif_pos h0, subf_apply, wcut1_apply _ 0 (by norm_num), wcut1_apply _ 2 (by norm_num), h, EReal.coe_sub]
    rfl
  · rw [dif_neg h0, dif_neg h0]
    by_cases h1 : j.val < 512
    · rw [dif_pos h1, dif_pos h1, wcut1_apply _ 1 (by norm_num), h]
      rfl
    · rw [dif_neg h1, dif_neg h1, wcut1_apply _ 2 (by norm_num), h]
      rfl

/-- The same block as the stacked weight matrix `[W₀ − W₂ | W₁ | W₂]` of the layer's real arrangement. -/
theorem wstack1_blk (c : Dev nD) (t : Fin cfg0.N) (W : (⟨3, ![3, 384, 256]⟩ : Shape).Idx → ℝ)
    (h : m ((c.tc : Thread nD τ).loc main_arg2) = fun i => ((W i : ℝ) : EReal)) (k : Fin 384) (j : Fin 768) :
    iblk m c 2 t (ValueIdx.ix2 k j) = ((Cert.KReal.wStack (fo := 256) (Cert.Spec.wmat W) k j : ℝ) : EReal) := by
  rw [wstack1_blk_cases m c t W h k j]
  rfl

end Cert.KHost

end
-- ==== Proof.KHostW2.lean ====
/-
  The second layer's stacked weights as the kernel's region finds them.

  The host operations cut the three matrices `W₀, W₁, W₂` out of the layer's weight array [3, 256, 256], subtract
  `W₂` from `W₀`, put `W₀ − W₂`, `W₁` and `W₂` side by side into [256, 768] and cast.  The window's block is the
  whole array at both grid points.  So entry `(k, j)` of the block is `W₀[k, j] − W₂[k, j]` for `j` below 256,
  `W₁[k, j − 256]` for `j` below 512 and `W₂[k, j − 512]` above.
-/
import proofs.«146035_g81071802679316_cont_sun_m_195_36_alg».proof.Proof.KIKit
import proofs.«146035_g81071802679316_cont_sun_m_195_36_alg».proof.Proof.SpecIdx
import Idealize.ShloMosaic.Lib.ValueIdx
import Idealize.ShloMosaic.Lib.Pipeline.Value
import Idealize.ShloMosaic.Lib.StableHlo.Run
import Idealize.ShloMosaic.PureOps.Ideal
import Idealize.ShloMosaic.Lib.KernelVsHost
import proofs.«146035_g81071802679316_cont_sun_m_195_36_alg».proof.Proof.KHostStack
import proofs.«146035_g81071802679316_cont_sun_m_195_36_alg».proof.Proof.KReal

set_option maxRecDepth 16384

noncomputable section

namespace Cert.KHost

open Cert.KernelIdeal Cert.KernelIdeal.Gen Cert.KernelIdeal.Kit
open Idealize.ShloMosaic Idealize.ShloMosaic.TcCoe Idealize.ShloMosaic.Tactic
open Idealize.ShloMosaic.ValueIdx

variable (m : (ℓ : Loc nD τ sig) → Buf (Elt Ideal) ℓ)

/-- The window's one block starts at entry `(0, 0)` at both grid points. -/
theorem wstack2_index : ∀ t : Fin cfg0.N, win0_4.index t (0 : Fin 2) = 0 ∧ win0_4.index t (1 : Fin 2) = 0 :=
  (by decide +kernel : ∀ t : Fin grid0.N, _)

set_option maxHeartbeats 1000000 in
/-- The stacked array is the host operations' term of the weight argument. -/
theorem wstack2_arr (c : Dev nD) : (V m c main_v25 : S256x768.Idx → EReal)
    = truncf .bf16 (concatenate S256x768 1
        [⟨S256x256, subf (shapeCast S256x256 (extractStridedSlice S1x256x256 ![0, 0, 0] (m ((c.tc : Thread nD τ).loc main_arg4) : FVec Ideal S3x256x256 .f32) slices_S3x256x256_S1x256x256_0_0_0) shapeCasts_S1x256x256_S256x256)
            (shapeCast S256x256 (extractStridedSlice S1x256x256 ![2, 0, 0] (m ((c.tc : Thread nD τ).loc main_arg4) : FVec Ideal S3x256x256 .f32) slices_S3x256x256_S1x256x256_2_0_0) shapeCasts_S1x256x256_S256x256)⟩,
         ⟨S256x256, shapeCast S256x256 (extractStridedSlice S1x256x256 ![1, 0, 0] (m ((c.tc : Thread nD τ).loc main_arg4) : FVec Ideal S3x256x256 .f32) slices_S3x256x256_S1x256x256_1_0_0) shapeCasts_S1x256x256_S256x256⟩,
         ⟨S256x256, shapeCast S256x256 (extractStridedSlice S1x256x256 ![2, 0, 0] (m ((c.tc : Thread nD τ).loc main_arg4) : FVec Ideal S3x256x256 .f32) slices_S3x256x256_S1x256x256_2_0_0) shapeCasts_S1x256x256_S256x256⟩]
        concatenates_S256x256_S256x256_S256x256_S256x768_d1 : FVec Ideal S256x768 .f32) bitsLt_bf16_f32 := by
  dsimp only [Cert.KernelIdeal.Kit.V]
  simp only [hostOps0, hostOps0_1, hostOps0_2, hostOps0_3, List.flatten_cons, List.flatten_nil, List.append_nil, List.cons_append, List.nil_append]
  host_results3
  rfl

/-- Matrix `o` cut out of the weight array and read at `(k, j)`. -/
theorem wcut2_apply (W : S3x256x256.Idx → EReal) (o : Nat) (ho : o < 3) (h : S3x256x256.Slices ![o, 0, 0] S1x256x256) (k : Fin 256) (j : Fin 256) :
    shapeCast S256x256 (extractStridedSlice S1x256x256 ![o, 0, 0] W h) shapeCasts_S1x256x256_S256x256 (ix2 k j) = W (ix3 (⟨o, ho⟩ : Fin 3) k j) := by
  refine (shapeCast_apply _ shapeCasts_S1x256x256_S256x256 (ix2 k j) (ix3 (0 : Fin 1) k j) ?_).trans ?_
  · rewrite [Shape.rowMajor_val_three, Shape.rowMajor_val_two]
    show (0 * 256 + k.val) * 256 + j.val = k.val * 256 + j.val
    omega
  · refine extractStridedSlice_apply _ W h (ix3 (0 : Fin 1) k j) (ix3 (⟨o, ho⟩ : Fin 3) k j) fun a => ?_
    match a with
    | ⟨0, _⟩ => show o = o + 0; omega
    | ⟨1, _⟩ => show k.val = 0 + k.val; omega
    | ⟨2, _⟩ => show j.val = 0 + j.val; omega

/-- Three matrices side by side read at `(k, j)`: the one whose 256 columns hold `j`. -/
theorem wconcat2_apply (x0 x1 x2 : S256x256.Idx → EReal) (k : Fin 256) (j : Fin 768) :
    concatenate S256x768 1 [⟨S256x256, x0⟩, ⟨S256x256, x1⟩, ⟨S256x256, x2⟩] concatenates_S256x256_S256x256_S256x256_S256x768_d1 (ix2 k j)
      = if h0 : j.val < 256 then x0 (ix2 k ⟨j.val, h0⟩)
        else if h1 : j.val < 512 then x1 (ix2 k ⟨j.val - 256, by omega⟩)
        else x2 (ix2 k ⟨j.val - 512, by have := j.isLt; omega⟩) := by
  have hj := j.isLt
  by_cases h0 : j.val < 256
  · rw [dif_pos h0]
    refine concatenate_apply_piece (t := S256x768) (1 : Fin 2) [⟨S256x256, x0⟩, ⟨S256x256, x1⟩, ⟨S256x256, x2⟩] concatenates_S256x256_S256x256_S256x256_S256x768_d1 (ix2 k j) 0 (show 0 < 3 by omega) S256x256 x0 rfl rfl 0 rfl
      (ix2 k ⟨j.val, h0⟩) (fun b hb => ?_) ?_
    · match b with
      | ⟨0, _⟩ => rfl
      | ⟨1, _⟩ => exact absurd rfl hb
    · show 0 + j.val = j.val; omega
  · rw [dif_neg h0]
    by_cases h1 : j.val < 512
    · rw [dif_pos h1]
      refine concatenate_apply_piece (t := S256x768) (1 : Fin 2) [⟨S256x256, x0⟩, ⟨S256x256, x1⟩, ⟨S256x256, x2⟩] concatenates_S256x256_S256x256_S256x256_S256x768_d1 (ix2 k j) 1 (show 1 < 3 by omega) S256x256 x1 rfl rfl 256 rfl
        (ix2 k ⟨j.val - 256, by omega⟩) (fun b hb => ?_) ?_
      · match b with
        | ⟨0, _⟩ => rfl
        | ⟨1, _⟩ => exact absurd rfl hb
      · show 256 + (j.val - 256) = j.val; omega
    · rw [dif_neg h1]
      refine concatenate_apply_piece (t := S256x768) (1 : Fin 2) [⟨S256x256, x0⟩, ⟨S256x256, x1⟩, ⟨S256x256, x2⟩] concatenates_S256x256_S256x256_S256x256_S256x768_d1 (ix2 k j) 2 (show 2 < 3 by omega) S256x256 x2 rfl rfl 512 rfl
        (ix2 k ⟨j.val - 512, by omega⟩) (fun b hb => ?_) ?_
      · match b with
        | ⟨0, _⟩ => rfl
        | ⟨1, _⟩ => exact absurd rfl hb
      · show 512 + (j.val - 512) = j.val; omega

/-- The stacked weights' block, entry by entry: `W₀ − W₂`, `W₁`, `W₂` in three groups of 256 columns. -/
theorem wstack2_blk_cases (c : Dev nD) (t : Fin cfg0.N) (W : (⟨3, ![3, 256, 256]⟩ : Shape).Idx → ℝ)
    (h : m ((c.tc : Thread nD τ).loc main_arg4) = fun i => ((W i : ℝ) : EReal)) (k : Fin 256) (j : Fin 768) :
    iblk m c 4 t (ValueIdx.ix2 k j)
      = ((if h0 : j.val < 256 then Cert.Spec.wmat W 0 k ⟨j.val, h0⟩ - Cert.Spec.wmat W 2 k ⟨j.val, h0⟩
          else if h1 : j.val < 512 then Cert.Spec.wmat W 1 k ⟨j.val - 256, by omega⟩
          else Cert.Spec.wmat W 2 k ⟨j.val - 512, by have := j.isLt; omega⟩ : ℝ) : EReal) := by
  unfold iblk
  show V m c main_v25 (((cfg0.win 4).blk t).view.emb (ix2 k j)) = _
  obtain ⟨e0, e1⟩ := wstack2_index t
  have e : ((cfg0.win 4).blk t).view.emb (ix2 k j) = ix2 k j := by
    funext a; apply Fin.ext
    match a with
    | ⟨0, _⟩ => show win0_4.index t (0 : Fin 2) * 256 + 1 * k.val = k.val; omega
    | ⟨1, _⟩ => show win0_4.index t (1 : Fin 2) * 768 + 1 * j.val = j.val; omega
  rw [e, wstack2_arr, truncf_apply, wconcat2_apply]
  by_cases h0 : j.val < 256
  · rw [dif_pos h0, dif_pos h0, subf_apply, wcut2_apply _ 0 (by norm_num), wcut2_apply _ 2 (by norm_num), h, EReal.coe_sub]
    rfl
  · rw [dif_neg h0, dif_neg h0]
    by_cases h1 : j.val < 512
    · rw [dif_pos h1, dif_pos h1, wcut2_apply _ 1 (by norm_num), h]
      rfl
    · rw [dif_neg h1, dif_neg h1, wcut2_apply _ 2 (by norm_num), h]
      rfl

/-- The same block as the stacked weight matrix `[W₀ − W₂ | W₁ | W₂]` of the layer's real arrangement. -/
theorem wstack2_blk (c : Dev nD) (t : Fin cfg0.N) (W : (⟨3, ![3, 256, 256]⟩ : Shape).Idx → ℝ)
    (h : m ((c.tc : Thread nD τ).loc main_arg4) = fun i => ((W i : ℝ) : EReal)) (k : Fin 256) (j : Fin 768) :
    iblk m c 4 t (ValueIdx.ix2 k j) = ((Cert.KReal.wStack (fo := 256) (Cert.Spec.wmat W) k j : ℝ) : EReal) := by
  rw [wstack2_blk_cases m c t W h k j]
  rfl

end Cert.KHost

end
-- ==== Proof.KHostW3.lean ====
/-
  The third layer's stacked weights as the kernel's region finds them.

  The host operations cut the three matrices `W₀, W₁, W₂` out of the layer's weight array [3, 256, 128], subtract
  `W₂` from `W₀`, put `W₀ − W₂`, `W₁` and `W₂` side by side into [256, 384] and cast.  The window's block is the
  whole array at both grid points.  So entry `(k, j)` of the block is `W₀[k, j] − W₂[k, j]` for `j` below 128,
  `W₁[k, j − 128]` for `j` below 256 and `W₂[k, j − 256]` above.
-/
import proofs.«146035_g81071802679316_cont_sun_m_195_36_alg».proof.Proof.KIKit
import proofs.«146035_g81071802679316_cont_sun_m_195_36_alg».proof.Proof.SpecIdx
import Idealize.ShloMosaic.Lib.ValueIdx
import Idealize.ShloMosaic.Lib.Pipeline.Value
import Idealize.ShloMosaic.Lib.StableHlo.Run
import Idealize.ShloMosaic.PureOps.Ideal
import Idealize.ShloMosaic.Lib.KernelVsHost
import proofs.«146035_g81071802679316_cont_sun_m_195_36_alg».proof.Proof.KHostStack
import proofs.«146035_g81071802679316_cont_sun_m_195_36_alg».proof.Proof.KReal

set_option maxRecDepth 16384

noncomputable section

namespace Cert.KHost

open Cert.KernelIdeal Cert.KernelIdeal.Gen Cert.KernelIdeal.Kit
open Idealize.ShloMosaic Idealize.ShloMosaic.TcCoe Idealize.ShloMosaic.Tactic
open Idealize.ShloMosaic.ValueIdx

variable (m : (ℓ : Loc nD τ sig) → Buf (Elt Ideal) ℓ)

/-- The window's one block starts at entry `(0, 0)` at both grid points. -/
theorem wstack3_index : ∀ t : Fin cfg0.N, win0_6.index t (0 : Fin 2) = 0 ∧ win0_6.index t (1 : Fin 2) = 0 :=
  (by decide +kernel : ∀ t : Fin grid0.N, _)

set_option maxHeartbeats 1000000 in
/-- The stacked array is the host operations' term of the weight argument. -/
theorem wstack3_arr (c : Dev nD) : (V m c main_v36 : S256x384.Idx → EReal)
    = truncf .bf16 (concatenate S256x384 1
        [⟨S256x128, subf (shapeCast S256x128 (extractStridedSlice S1x256x128 ![0, 0, 0] (m ((c.tc : Thread nD τ).loc main_arg6) : FVec Ideal S3x256x128 .f32) slices_S3x256x128_S1x256x128_0_0_0) shapeCasts_S1x256x128_S256x128)
            (shapeCast S256x128 (extractStridedSlice S1x256x128 ![2, 0, 0] (m ((c.tc : Thread nD τ).loc main_arg6) : FVec Ideal S3x256x128 .f32) slices_S3x256x128_S1x256x128_2_0_0) shapeCasts_S1x256x128_S256x128)⟩,
         ⟨S256x128, shapeCast S256x128 (extractStridedSlice S1x256x128 ![1, 0, 0] (m ((c.tc : Thread nD τ).loc main_arg6) : FVec Ideal S3x256x128 .f32) slices_S3x256x128_S1x256x128_1_0_0) shapeCasts_S1x256x128_S256x128⟩,
         ⟨S256x128, shapeCast S256x128 (extractStridedSlice S1x256x128 ![2, 0, 0] (m ((c.tc : Thread nD τ).loc main_arg6) : FVec Ideal S3x256x128 .f32) slices_S3x256x128_S1x256x128_2_0_0) shapeCasts_S1x256x128_S256x128⟩]
        concatenates_S256x128_S256x128_S256x128_S256x384_d1 : FVec Ideal S256x384 .f32) bitsLt_bf16_f32 := by
  dsimp only [Cert.KernelIdeal.Kit.V]
  simp only [hostOps0, hostOps0_1, hostOps0_2, hostOps0_3, List.flatten_cons, List.flatten_nil, List.append_nil, List.cons_append, List.nil_append]
  host_results3
  rfl

/-- Matrix `o` cut out of the weight array and read at `(k, j)`. -/
theorem wcut3_apply (W : S3x256x128.Idx → EReal) (o : Nat) (ho : o < 3) (h : S3x256x128.Slices ![o, 0, 0] S1x256x128) (k : Fin 256) (j : Fin 128) :
    shapeCast S256x128 (extractStridedSlice S1x256x128 ![o, 0, 0] W h) shapeCasts_S1x256x128_S256x128 (ix2 k j) = W (ix3 (⟨o, ho⟩ : Fin 3) k j) := by
  refine (shapeCast_apply _ shapeCasts_S1x256x128_S256x128 (ix2 k j) (ix3 (0 : Fin 1) k j) ?_).trans ?_
  · rewrite [Shape.rowMajor_val_three, Shape.rowMajor_val_two]
    show (0 * 256 + k.val) * 128 + j.val = k.val * 128 + j.val
    omega
  · refine extractStridedSlice_apply _ W h (ix3 (0 : Fin 1) k j) (ix3 (⟨o, ho⟩ : Fin 3) k j) fun a => ?_
    match a with
    | ⟨0, _⟩ => show o = o + 0; omega
    | ⟨1, _⟩ => show k.val = 0 + k.val; omega
    | ⟨2, _⟩ => show j.val = 0 + j.val; omega

/-- Three matrices side by side read at `(k, j)`: the one whose 128 columns hold `j`. -/
theorem wconcat3_apply (x0 x1 x2 : S256x128.Idx → EReal) (k : Fin 256) (j : Fin 384) :
    concatenate S256x384 1 [⟨S256x128, x0⟩, ⟨S256x128, x1⟩, ⟨S256x128, x2⟩] concatenates_S256x128_S256x128_S256x128_S256x384_d1 (ix2 k j)
      = if h0 : j.val < 128 then x0 (ix2 k ⟨j.val, h0⟩)
        else if h1 : j.val < 256 then x1 (ix2 k ⟨j.val - 128, by omega⟩)
        else x2 (ix2 k ⟨j.val - 256, by have := j.isLt; omega⟩) := by
  have hj := j.isLt
  by_cases h0 : j.val < 128
  · rw [dif_pos h0]
    refine concatenate_apply_piece (t := S256x384) (1 : Fin 2) [⟨S256x128, x0⟩, ⟨S256x128, x1⟩, ⟨S256x128, x2⟩] concatenates_S256x128_S256x128_S256x128_S256x384_d1 (ix2 k j) 0 (show 0 < 3 by omega) S256x128 x0 rfl rfl 0 rfl
      (ix2 k ⟨j.val, h0⟩) (fun b hb => ?_) ?_
    · match b with
      | ⟨0, _⟩ => rfl
      | ⟨1, _⟩ => exact absurd rfl hb
    · show 0 + j.val = j.val; omega
  · rw [dif_neg h0]
    by_cases h1 : j.val < 256
    · rw [dif_pos h1]
      refine concatenate_apply_piece (t := S256x384) (1 : Fin 2) [⟨S256x128, x0⟩, ⟨S256x128, x1⟩, ⟨S256x128, x2⟩] concatenates_S256x128_S256x128_S256x128_S256x384_d1 (ix2 k j) 1 (show 1 < 3 by omega) S256x128 x1 rfl rfl 128 rfl
        (ix2 k ⟨j.val - 128, by omega⟩) (fun b hb => ?_) ?_
      · match b with
        | ⟨0, _⟩ => rfl
        | ⟨1, _⟩ => exact absurd rfl hb
      · show 128 + (j.val - 128) = j.val; omega
    · rw [dif_neg h1]
      refine concatenate_apply_piece (t := S256x384) (1 : Fin 2) [⟨S256x128, x0⟩, ⟨S256x128, x1⟩, ⟨S256x128, x2⟩] concatenates_S256x128_S256x128_S256x128_S256x384_d1 (ix2 k j) 2 (show 2 < 3 by omega) S256x128 x2 rfl rfl 256 rfl
        (ix2 k ⟨j.val - 256, by omega⟩) (fun b hb => ?_) ?_
      · match b with
        | ⟨0, _⟩ => rfl
        | ⟨1, _⟩ => exact absurd rfl hb
      · show 256 + (j.val - 256) = j.val; omega

/-- The stacked weights' block, entry by entry: `W₀ − W₂`, `W₁`, `W₂` in three groups of 128 columns. -/
theorem wstack3_blk_cases (c : Dev nD) (t : Fin cfg0.N) (W : (⟨3, ![3, 256, 128]⟩ : Shape).Idx → ℝ)
    (h : m ((c.tc : Thread nD τ).loc main_arg6) = fun i => ((W i : ℝ) : EReal)) (k : Fin 256) (j : Fin 384) :
    iblk m c 6 t (ValueIdx.ix2 k j)
      = ((if h0 : j.val < 128 then Cert.Spec.wmat W 0 k ⟨j.val, h0⟩ - Cert.Spec.wmat W 2 k ⟨j.val, h0⟩
          else if h1 : j.val < 256 then Cert.Spec.wmat W 1 k ⟨j.val - 128, by omega⟩
          else Cert.Spec.wmat W 2 k ⟨j.val - 256, by have := j.isLt; omega⟩ : ℝ) : EReal) := by
  unfold iblk
  show V m c main_v36 (((cfg0.win 6).blk t).view.emb (ix2 k j)) = _
  obtain ⟨e0, e1⟩ := wstack3_index t
  have e : ((cfg0.win 6).blk t).view.emb (ix2 k j) = ix2 k j := by
    funext a; apply Fin.ext
    match a with
    | ⟨0, _⟩ => show win0_6.index t (0 : Fin 2) * 256 + 1 * k.val = k.val; omega
    | ⟨1, _⟩ => show win0_6.index t (1 : Fin 2) * 384 + 1 * j.val = j.val; omega
  rw [e, wstack3_arr, truncf_apply, wconcat3_apply]
  by_cases h0 : j.val < 128
  · rw [dif_pos h0, dif_pos h0, subf_apply, wcut3_apply _ 0 (by norm_num), wcut3_apply _ 2 (by norm_num), h, EReal.coe_sub]
    rfl
  · rw [dif_neg h0, dif_neg h0]
    by_cases h1 : j.val < 256
    · rw [dif_pos h1, dif_pos h1, wcut3_apply _ 1 (by norm_num), h]
      rfl
    · rw [dif_neg h1, dif_neg h1, wcut3_apply _ 2 (by norm_num), h]
      rfl

/-- The same block as the stacked weight matrix `[W₀ − W₂ | W₁ | W₂]` of the layer's real arrangement. -/
theorem wstack3_blk (c : Dev nD) (t : Fin cfg0.N) (W : (⟨3, ![3, 256, 128]⟩ : Shape).Idx → ℝ)
    (h : m ((c.tc : Thread nD τ).loc main_arg6) = fun i => ((W i : ℝ) : EReal)) (k : Fin 256) (j : Fin 384) :
    iblk m c 6 t (ValueIdx.ix2 k j) = ((Cert.KReal.wStack (fo := 128) (Cert.Spec.wmat W) k j : ℝ) : EReal) := by
  rw [wstack3_blk_cases m c t W h k j]
  rfl

end Cert.KHost

end
-- ==== Proof.KHost.lean ====
/-
  The kernel's nine operands as its region finds them, gathered: the three biases, the zero-padded adjacency blocks,
  the zero-padded node-feature blocks and the three stacked weight matrices `[W₀ − W₂ | W₁ | W₂]`, each read entry by
  entry as the coercion of a real number when the program's arguments hold real entries.
-/
import proofs.«146035_g81071802679316_cont_sun_m_195_36_alg».proof.Proof.KHostBias
import proofs.«146035_g81071802679316_cont_sun_m_195_36_alg».proof.Proof.KHostAdj
import proofs.«146035_g81071802679316_cont_sun_m_195_36_alg».proof.Proof.KHostFeat
import proofs.«146035_g81071802679316_cont_sun_m_195_36_alg».proof.Proof.KHostStack
import proofs.«146035_g81071802679316_cont_sun_m_195_36_alg».proof.Proof.KHostW1
import proofs.«146035_g81071802679316_cont_sun_m_195_36_alg».proof.Proof.KHostW2
import proofs.«146035_g81071802679316_cont_sun_m_195_36_alg».proof.Proof.KHostW3
-- ==== Proof.KRealNet.lean ====
/-
  The kernel's arrangement of the three-layer network, over the real numbers.

  The network is three padded layers with `max(·, 0)` between them.  A padded layer reads its input only on the rows
  of the nodes (the padded columns of the Laplacian are zero), so whatever the hidden states hold on the 11 padded rows
  never reaches a node's row: on the rows of the nodes the padded network is the network on the nodes' features.
-/
import proofs.«146035_g81071802679316_cont_sun_m_195_36_alg».proof.Proof.KReal

noncomputable section

namespace Cert.KReal

open Matrix

/-- The three padded layers with `max(·, 0)` between them. -/
def netPad (A : Matrix (Fin 325) (Fin 325) ℝ) (x : Fin 336 → Fin 384 → ℝ)
    (W1 : Fin 3 → Matrix (Fin 384) (Fin 256) ℝ) (b1 : Fin 256 → ℝ)
    (W2 : Fin 3 → Matrix (Fin 256) (Fin 256) ℝ) (b2 : Fin 256 → ℝ)
    (W3 : Fin 3 → Matrix (Fin 256) (Fin 128) ℝ) (b3 : Fin 128 → ℝ) (r : Fin 336) (c : Fin 128) : ℝ :=
  layerPad (lapPad A)
    (fun r k => max (layerPad (lapPad A)
      (fun r k => max (layerPad (lapPad A) x (wStack W1) b1 r k) 0) (wStack W2) b2 r k) 0)
    (wStack W3) b3 r c

/-- A padded layer followed by `max(·, 0)`, read on the rows of the nodes, is the Chebyshev layer followed by
    `max(·, 0)`. -/
theorem relu_layerPad_eq (A : Matrix (Fin 325) (Fin 325) ℝ) {fi fo : ℕ} (h : Fin 336 → Fin fi → ℝ)
    (W : Fin 3 → Matrix (Fin fi) (Fin fo) ℝ) (b : Fin fo → ℝ) :
    (fun (s : Fin 325) (k : Fin fo) => max (layerPad (lapPad A) h (wStack W) b ⟨s.val, by omega⟩ k) 0)
      = Cert.Spec.relu (Cert.Spec.cheb (Cert.Spec.lap A) (fun s k => h ⟨s.val, by omega⟩ k) W b) := by
  funext s k
  rw [layerPad_eq A h W b ⟨s.val, by omega⟩ s.isLt k]
  rfl

/-- On the rows of the nodes the padded network is the network on the nodes' features. -/
theorem netPad_eq (A : Matrix (Fin 325) (Fin 325) ℝ) (x : Fin 336 → Fin 384 → ℝ)
    (W1 : Fin 3 → Matrix (Fin 384) (Fin 256) ℝ) (b1 : Fin 256 → ℝ)
    (W2 : Fin 3 → Matrix (Fin 256) (Fin 256) ℝ) (b2 : Fin 256 → ℝ)
    (W3 : Fin 3 → Matrix (Fin 256) (Fin 128) ℝ) (b3 : Fin 128 → ℝ)
    (r : Fin 336) (hr : r.val < 325) (c : Fin 128) :
    netPad A x W1 b1 W2 b2 W3 b3 r c
      = Cert.Spec.net A (fun s k => x ⟨s.val, by omega⟩ k) W1 b1 W2 b2 W3 b3 ⟨r, hr⟩ c := by
  have key : (fun (s : Fin 325) (k : Fin 256) => max (layerPad (lapPad A)
        (fun r k => max (layerPad (lapPad A) x (wStack W1) b1 r k) 0) (wStack W2) b2 ⟨s.val, by omega⟩ k) 0)
      = Cert.Spec.relu (Cert.Spec.cheb (Cert.Spec.lap A)
          (Cert.Spec.relu (Cert.Spec.cheb (Cert.Spec.lap A) (fun s k => x ⟨s.val, by omega⟩ k) W1 b1)) W2 b2) := by
    refine (relu_layerPad_eq A _ W2 b2).trans ?_
    exact congrArg (fun z => Cert.Spec.relu (Cert.Spec.cheb (Cert.Spec.lap A) z W2 b2))
      (relu_layerPad_eq A x W1 b1)
  unfold netPad Cert.Spec.net
  refine (layerPad_eq A _ W3 b3 r hr c).trans ?_
  exact congrArg (fun z => Cert.Spec.cheb (Cert.Spec.lap A) z W3 b3 ⟨r, hr⟩ c) key

end Cert.KReal

end
-- ==== Proof.KRealChain.lean ====
/-
  The three layers over the stacked rows of one grid point, over the real numbers.

  A grid point holds 8 graphs of 336 padded rows each, 2688 rows in all: the global row `R` belongs to graph
  `R / 336` and is its local row `R % 336`; graph `g`'s rows start at the offset `336 · g`.  The projections are
  taken on all 2688 rows at once, the propagation graph by graph with that graph's padded Laplacian.  Read on the rows
  of one graph, each stacked layer is the padded layer on that graph's rows, so the stacked chain of three layers is the
  padded network of each graph, and on the rows of the nodes it is the network.
-/
import proofs.«146035_g81071802679316_cont_sun_m_195_36_alg».proof.Proof.KRealNet

noncomputable section

namespace Cert.KReal

open Matrix

/-- The projection of all stacked rows with a weight matrix. -/
def projR {fi w : ℕ} (xr : Fin 2688 → Fin fi → ℝ) (wr : Fin fi → Fin w → ℝ) (R : Fin 2688) (j : Fin w) : ℝ :=
  ∑ k, xr R k * wr k j

/-- A hidden layer's propagation on the graph whose rows start at offset `o`, from the stacked projections
    (three bands of 256 columns): `max(p₀ + L·(p₁ + 2·(L·p₂)) + b, 0)`. -/
def hidG (Lr : Fin 336 → Fin 336 → ℝ) (Pr : Fin 2688 → Fin 768 → ℝ) (br : Fin 256 → ℝ) (o : ℕ)
    (ho : o + 336 ≤ 2688) (r : Fin 336) (c : Fin 256) : ℝ :=
  max (Pr ⟨o + r.val, by omega⟩ ⟨c.val, by omega⟩
    + (∑ k : Fin 336, Lr r k * (Pr ⟨o + k.val, by omega⟩ ⟨256 + c.val, by omega⟩
        + 2 * ∑ j : Fin 336, Lr k j * Pr ⟨o + j.val, by omega⟩ ⟨512 + c.val, by omega⟩))
    + br c) 0

/-- The last layer's propagation on the graph whose rows start at offset `o` (three bands of 128 columns), with no
    `max`. -/
def outG (Lr : Fin 336 → Fin 336 → ℝ) (Pr : Fin 2688 → Fin 384 → ℝ) (br : Fin 128 → ℝ) (o : ℕ)
    (ho : o + 336 ≤ 2688) (r : Fin 336) (c : Fin 128) : ℝ :=
  Pr ⟨o + r.val, by omega⟩ ⟨c.val, by omega⟩
    + (∑ k : Fin 336, Lr r k * (Pr ⟨o + k.val, by omega⟩ ⟨128 + c.val, by omega⟩
        + 2 * ∑ j : Fin 336, Lr k j * Pr ⟨o + j.val, by omega⟩ ⟨256 + c.val, by omega⟩))
    + br c

/-- A hidden layer on all stacked rows: row `R` is local row `R % 336` of graph `R / 336`. -/
def hidR (Lr : Fin 8 → Fin 336 → Fin 336 → ℝ) (Pr : Fin 2688 → Fin 768 → ℝ) (br : Fin 256 → ℝ)
    (R : Fin 2688) (c : Fin 256) : ℝ :=
  hidG (Lr ⟨R.val / 336, by omega⟩) Pr br (336 * (R.val / 336)) (by omega) ⟨R.val % 336, by omega⟩ c

/-- The chain of three stacked layers, read on graph `g`. -/
def outR (Lr : Fin 8 → Fin 336 → Fin 336 → ℝ) (xr : Fin 2688 → Fin 384 → ℝ)
    (wr1 : Fin 384 → Fin 768 → ℝ) (b1 : Fin 256 → ℝ) (wr2 : Fin 256 → Fin 768 → ℝ) (b2 : Fin 256 → ℝ)
    (wr3 : Fin 256 → Fin 384 → ℝ) (b3 : Fin 128 → ℝ) (g : Fin 8) (r : Fin 336) (c : Fin 128) : ℝ :=
  outG (Lr g) (projR (hidR Lr (projR (hidR Lr (projR xr wr1) b1) wr2) b2) wr3) b3 (336 * g.val) (by omega) r c

/-- A hidden layer's propagation from the projections of the stacked rows is the padded layer on the graph's rows,
    followed by `max(·, 0)`.  (`768 = 3 · 256` and `512 = 2 · 256` by evaluation.) -/
theorem hidG_projR (Lr : Fin 336 → Fin 336 → ℝ) {fi : ℕ} (xr : Fin 2688 → Fin fi → ℝ)
    (wr : Fin fi → Fin 768 → ℝ) (br : Fin 256 → ℝ) (o : ℕ) (ho : o + 336 ≤ 2688) (r : Fin 336) (c : Fin 256) :
    hidG Lr (projR xr wr) br o ho r c
      = max (layerPad (fo := 256) Lr (fun r k => xr ⟨o + r.val, by omega⟩ k) wr br r c) 0 := rfl

/-- The last layer's propagation from the projections of the stacked rows is the padded layer on the graph's rows.
    (`384 = 3 · 128` and `256 = 2 · 128` by evaluation.) -/
theorem outG_projR (Lr : Fin 336 → Fin 336 → ℝ) {fi : ℕ} (xr : Fin 2688 → Fin fi → ℝ)
    (wr : Fin fi → Fin 384 → ℝ) (br : Fin 128 → ℝ) (o : ℕ) (ho : o + 336 ≤ 2688) (r : Fin 336) (c : Fin 128) :
    outG Lr (projR xr wr) br o ho r c
      = layerPad (fo := 128) Lr (fun r k => xr ⟨o + r.val, by omega⟩ k) wr br r c := rfl

/-- `hidG` respects equal Laplacians, offsets and rows. -/
theorem hidG_congr (Lr Lr' : Fin 336 → Fin 336 → ℝ) (Pr : Fin 2688 → Fin 768 → ℝ) (br : Fin 256 → ℝ)
    (o o' : ℕ) (ho : o + 336 ≤ 2688) (ho' : o' + 336 ≤ 2688) (r r' : Fin 336) (c : Fin 256)
    (hL : Lr = Lr') (hoo : o = o') (hrr : r = r') :
    hidG Lr Pr br o ho r c = hidG Lr' Pr br o' ho' r' c := by
  subst hL; subst hoo; subst hrr; rfl

/-- The stacked hidden layer at local row `r` of graph `g`: `(336·g + r) / 336 = g` and `(336·g + r) % 336 = r`. -/
theorem hidR_row (Lr : Fin 8 → Fin 336 → Fin 336 → ℝ) (Pr : Fin 2688 → Fin 768 → ℝ) (br : Fin 256 → ℝ)
    (g : Fin 8) (r : Fin 336) (c : Fin 256) (hR : 336 * g.val + r.val < 2688) :
    hidR Lr Pr br ⟨336 * g.val + r.val, hR⟩ c = hidG (Lr g) Pr br (336 * g.val) (by omega) r c := by
  have hq : (336 * g.val + r.val) / 336 = g.val := by omega
  have hm : (336 * g.val + r.val) % 336 = r.val := by omega
  unfold hidR
  exact hidG_congr _ _ Pr br _ _ _ _ _ _ c (congrArg Lr (Fin.ext hq)) (congrArg (fun z => 336 * z) hq)
    (Fin.ext hm)

/-- The stacked hidden layer of projected features, read on the rows of graph `g`, is the padded layer on that
    graph's rows followed by `max(·, 0)`. -/
theorem hidR_projR_row (Lr : Fin 8 → Fin 336 → Fin 336 → ℝ) {fi : ℕ} (xr : Fin 2688 → Fin fi → ℝ)
    (wr : Fin fi → Fin 768 → ℝ) (br : Fin 256 → ℝ) (g : Fin 8) (r : Fin 336) (c : Fin 256)
    (hR : 336 * g.val + r.val < 2688) :
    hidR Lr (projR xr wr) br ⟨336 * g.val + r.val, hR⟩ c
      = max (layerPad (fo := 256) (Lr g) (fun r k => xr ⟨336 * g.val + r.val, by omega⟩ k) wr br r c) 0 := by
  rw [hidR_row]
  rfl

/-- The same for all rows of graph `g` at once. -/
theorem hidR_projR_rows (Lr : Fin 8 → Fin 336 → Fin 336 → ℝ) {fi : ℕ} (xr : Fin 2688 → Fin fi → ℝ)
    (wr : Fin fi → Fin 768 → ℝ) (br : Fin 256 → ℝ) (g : Fin 8) :
    (fun (r : Fin 336) (c : Fin 256) => hidR Lr (projR xr wr) br ⟨336 * g.val + r.val, by omega⟩ c)
      = fun r c => max (layerPad (fo := 256) (Lr g)
          (fun r k => xr ⟨336 * g.val + r.val, by omega⟩ k) wr br r c) 0 := by
  funext r c
  exact hidR_projR_row Lr xr wr br g r c _

/-- The chain of three stacked layers with the padded Laplacians and the stacked weights, read on the rows of graph
    `g`, is that graph's padded network. -/
theorem chain_eq_netPad (A : Fin 8 → Matrix (Fin 325) (Fin 325) ℝ) (xr : Fin 2688 → Fin 384 → ℝ)
    (W1 : Fin 3 → Matrix (Fin 384) (Fin 256) ℝ) (b1 : Fin 256 → ℝ)
    (W2 : Fin 3 → Matrix (Fin 256) (Fin 256) ℝ) (b2 : Fin 256 → ℝ)
    (W3 : Fin 3 → Matrix (Fin 256) (Fin 128) ℝ) (b3 : Fin 128 → ℝ)
    (g : Fin 8) (ho : 336 * g.val + 336 ≤ 2688) (r : Fin 336) (c : Fin 128) :
    outG (lapPad (A g))
        (projR (hidR (fun g => lapPad (A g))
          (projR (hidR (fun g => lapPad (A g)) (projR xr (wStack (fo := 256) W1)) b1) (wStack (fo := 256) W2)) b2)
          (wStack (fo := 128) W3)) b3 (336 * g.val) ho r c
      = netPad (A g) (fun r k => xr ⟨336 * g.val + r.val, by omega⟩ k) W1 b1 W2 b2 W3 b3 r c := by
  have e1 := hidR_projR_rows (fun g => lapPad (A g)) xr (wStack (fo := 256) W1) b1 g
  have e2 := hidR_projR_rows (fun g => lapPad (A g))
    (hidR (fun g => lapPad (A g)) (projR xr (wStack (fo := 256) W1)) b1) (wStack (fo := 256) W2) b2 g
  unfold netPad
  refine (outG_projR _ _ _ b3 _ ho r c).trans ?_
  refine congrArg (fun z => layerPad (fo := 128) (lapPad (A g)) z (wStack W3) b3 r c) ?_
  refine e2.trans ?_
  exact congrArg (fun z => (fun (r : Fin 336) (c : Fin 256) =>
    max (layerPad (fo := 256) (lapPad (A g)) z (wStack W2) b2 r c) 0)) e1

/-- THE CHAIN: on the row of node `s` of graph `g`, the chain of three stacked layers is the network of graph `g`
    on that graph's rows of features. -/
theorem chain_eq_net (A : Fin 8 → Matrix (Fin 325) (Fin 325) ℝ) (xr : Fin 2688 → Fin 384 → ℝ)
    (W1 : Fin 3 → Matrix (Fin 384) (Fin 256) ℝ) (b1 : Fin 256 → ℝ)
    (W2 : Fin 3 → Matrix (Fin 256) (Fin 256) ℝ) (b2 : Fin 256 → ℝ)
    (W3 : Fin 3 → Matrix (Fin 256) (Fin 128) ℝ) (b3 : Fin 128 → ℝ)
    (g : Fin 8) (ho : 336 * g.val + 336 ≤ 2688) (s : Fin 325) (hs : s.val < 336) (c : Fin 128) :
    outG (lapPad (A g))
        (projR (hidR (fun g => lapPad (A g))
          (projR (hidR (fun g => lapPad (A g)) (projR xr (wStack (fo := 256) W1)) b1) (wStack (fo := 256) W2)) b2)
          (wStack (fo := 128) W3)) b3 (336 * g.val) ho ⟨s.val, hs⟩ c
      = Cert.Spec.net (A g) (fun s k => xr ⟨336 * g.val + s.val, by omega⟩ k) W1 b1 W2 b2 W3 b3 s c := by
  rw [chain_eq_netPad]
  exact netPad_eq (A g) _ W1 b1 W2 b2 W3 b3 ⟨s.val, hs⟩ s.isLt c

/-- The chain under the name `outR`. -/
theorem outR_eq_net (A : Fin 8 → Matrix (Fin 325) (Fin 325) ℝ) (xr : Fin 2688 → Fin 384 → ℝ)
    (W1 : Fin 3 → Matrix (Fin 384) (Fin 256) ℝ) (b1 : Fin 256 → ℝ)
    (W2 : Fin 3 → Matrix (Fin 256) (Fin 256) ℝ) (b2 : Fin 256 → ℝ)
    (W3 : Fin 3 → Matrix (Fin 256) (Fin 128) ℝ) (b3 : Fin 128 → ℝ)
    (g : Fin 8) (s : Fin 325) (hs : s.val < 336) (c : Fin 128) :
    outR (fun g => lapPad (A g)) xr (wStack (fo := 256) W1) b1 (wStack (fo := 256) W2) b2
        (wStack (fo := 128) W3) b3 g ⟨s.val, hs⟩ c
      = Cert.Spec.net (A g) (fun s k => xr ⟨336 * g.val + s.val, by omega⟩ k) W1 b1 W2 b2 W3 b3 s c :=
  chain_eq_net A xr W1 b1 W2 b2 W3 b3 g (by omega) s hs c

/-- The chain for any real Laplacians and stacked weights that are, entry by entry, the padded Laplacians and the
    stacked weights. -/
theorem chain_eq_net_of (A : Fin 8 → Matrix (Fin 325) (Fin 325) ℝ) (Lr : Fin 8 → Fin 336 → Fin 336 → ℝ)
    (xr : Fin 2688 → Fin 384 → ℝ)
    (W1 : Fin 3 → Matrix (Fin 384) (Fin 256) ℝ) (wr1 : Fin 384 → Fin 768 → ℝ) (b1 : Fin 256 → ℝ)
    (W2 : Fin 3 → Matrix (Fin 256) (Fin 256) ℝ) (wr2 : Fin 256 → Fin 768 → ℝ) (b2 : Fin 256 → ℝ)
    (W3 : Fin 3 → Matrix (Fin 256) (Fin 128) ℝ) (wr3 : Fin 256 → Fin 384 → ℝ) (b3 : Fin 128 → ℝ)
    (hL : ∀ g r q, Lr g r q = lapPad (A g) r q)
    (hw1 : ∀ k j, wr1 k j = wStack (fo := 256) W1 k j)
    (hw2 : ∀ k j, wr2 k j = wStack (fo := 256) W2 k j)
    (hw3 : ∀ k j, wr3 k j = wStack (fo := 128) W3 k j)
    (g : Fin 8) (ho : 336 * g.val + 336 ≤ 2688) (s : Fin 325) (hs : s.val < 336) (c : Fin 128) :
    outG (Lr g) (projR (hidR Lr (projR (hidR Lr (projR xr wr1) b1) wr2) b2) wr3) b3 (336 * g.val) ho
        ⟨s.val, hs⟩ c
      = Cert.Spec.net (A g) (fun s k => xr ⟨336 * g.val + s.val, by omega⟩ k) W1 b1 W2 b2 W3 b3 s c := by
  have eL : Lr = fun g => lapPad (A g) := by funext g r q; exact hL g r q
  have e1 : wr1 = wStack (fo := 256) W1 := by funext k j; exact hw1 k j
  have e2 : wr2 = wStack (fo := 256) W2 := by funext k j; exact hw2 k j
  have e3 : wr3 = wStack (fo := 128) W3 := by funext k j; exact hw3 k j
  subst eL; subst e1; subst e2; subst e3
  exact chain_eq_net A xr W1 b1 W2 b2 W3 b3 g ho s hs c

end Cert.KReal

end
-- ==== Proof.KPayDefs.lean ====
/-
  One graph's layer, written once.

  Per grid point the kernel's body multiplies the stacked node features of eight graphs by the layer's stacked weights,
  `p = x · [W₀ − W₂ | W₁ | W₂]` (2688 rows, three column bands of the layer's width), and then, for the graph whose rows
  start at row `o` of `p`, forms

      acc = p[o.., band 0] + L · bf16(p[o.., band 1] + 2 · (L · bf16(p[o.., band 2])))

  with `L` that graph's 336 × 336 Laplacian, adds the bias row to every row, and stores the result: after `max(·, 0)`
  and a narrowing to bf16 for the two hidden layers (band width 256), and its first 325 rows as a `[1, 325, 128]` block
  for the last layer (band width 128).  The definitions below are these values as functions of `L`, `p`, the bias and
  the row offset `o`, in the operations the body itself uses, for every float instance.
-/
import proofs.«146035_g81071802679316_cont_sun_m_195_36_alg».proof.Proof.Gen.KernelIdeal.Skeleton

noncomputable section

namespace Cert.KPay

open Idealize.ShloMosaic Cert.KernelIdeal Cert.KernelIdeal.Gen

variable {F : FTy → Type} [FloatOps F]

/-- A graph's Laplacian from its loaded `[1, 336, 336]` adjacency block. -/
abbrev lapOf (a : Vec F S1x336x336 .bf16) : FVec F S336x336 .bf16 := k0_pay5 a

/-! ## Band width 256: the two hidden layers -/

/-- `L · bf16(p[o.., 512..768])`. -/
def prop2 (L : FVec F S336x336 .bf16) (p : FVec F S2688x768 .f32) (o : ℕ)
    (h2 : S2688x768.Slices ![o, 512] S336x256) : FVec F S336x256 .f32 :=
  matmul dot_S336x336_S336x256_S336x256_1_0_0_1_n_n none L
    (truncf .bf16 (extractStridedSlice S336x256 ![o, 512] p h2) bitsLt_bf16_f32)
    (constant S336x256 .f32 0x00000000#32)

/-- `bf16(p[o.., 256..512] + 2 · (L · bf16(p[o.., 512..768])))`. -/
def mid (L : FVec F S336x336 .bf16) (p : FVec F S2688x768 .f32) (o : ℕ)
    (h1 : S2688x768.Slices ![o, 256] S336x256) (h2 : S2688x768.Slices ![o, 512] S336x256) : FVec F S336x256 .bf16 :=
  truncf .bf16
    (addf (extractStridedSlice S336x256 ![o, 256] p h1)
      (mulf (broadcast S336x256 (Scalar.ofBits .f32 0x40000000#32)) (prop2 L p o h2)))
    bitsLt_bf16_f32

/-- `p[o.., 0..256] + L · mid`. -/
def acc (L : FVec F S336x336 .bf16) (p : FVec F S2688x768 .f32) (o : ℕ)
    (h0 : S2688x768.Slices ![o, 0] S336x256) (h1 : S2688x768.Slices ![o, 256] S336x256)
    (h2 : S2688x768.Slices ![o, 512] S336x256) : FVec F S336x256 .f32 :=
  addf (extractStridedSlice S336x256 ![o, 0] p h0)
    (matmul dot_S336x336_S336x256_S336x256_1_0_0_1_n_n none L (mid L p o h1 h2) (constant S336x256 .f32 0x00000000#32))

/-- The bias row copied to all 336 rows. -/
def biasRows (b : Vec F S256 .f32) : FVec F S336x256 .f32 :=
  broadcastTo S336x256 (shapeCast S1x256 b shapeCasts_S256_S1x256) broadcasts_S1x256_S336x256

/-- `bf16(max(acc + bias, 0))`, before the store's shape cast. -/
def hidPre (L : FVec F S336x336 .bf16) (p : FVec F S2688x768 .f32) (b : Vec F S256 .f32) (o : ℕ)
    (h0 : S2688x768.Slices ![o, 0] S336x256) (h1 : S2688x768.Slices ![o, 256] S336x256)
    (h2 : S2688x768.Slices ![o, 512] S336x256) : FVec F S336x256 .bf16 :=
  truncf .bf16
    (maximumf (addf (acc L p o h0 h1 h2) (biasRows b)) (broadcast S336x256 (Scalar.ofBits .f32 0x00000000#32)))
    bitsLt_bf16_f32

/-- What a hidden layer stores into rows `o .. o + 335` of its scratch buffer. -/
def hid (L : FVec F S336x336 .bf16) (p : FVec F S2688x768 .f32) (b : Vec F S256 .f32) (o : ℕ)
    (h0 : S2688x768.Slices ![o, 0] S336x256) (h1 : S2688x768.Slices ![o, 256] S336x256)
    (h2 : S2688x768.Slices ![o, 512] S336x256) : FVec F S336x256 .bf16 :=
  shapeCast S336x256 (hidPre L p b o h0 h1 h2) shapeCasts_S336x256_S336x256

/-! ## Band width 128: the last layer -/

/-- `L · bf16(p[o.., 256..384])`. -/
def prop2o (L : FVec F S336x336 .bf16) (p : FVec F S2688x384 .f32) (o : ℕ)
    (h2 : S2688x384.Slices ![o, 256] S336x128) : FVec F S336x128 .f32 :=
  matmul dot_S336x336_S336x128_S336x128_1_0_0_1_n_n none L
    (truncf .bf16 (extractStridedSlice S336x128 ![o, 256] p h2) bitsLt_bf16_f32)
    (constant S336x128 .f32 0x00000000#32)

/-- `bf16(p[o.., 128..256] + 2 · (L · bf16(p[o.., 256..384])))`. -/
def mido (L : FVec F S336x336 .bf16) (p : FVec F S2688x384 .f32) (o : ℕ)
    (h1 : S2688x384.Slices ![o, 128] S336x128) (h2 : S2688x384.Slices ![o, 256] S336x128) : FVec F S336x128 .bf16 :=
  truncf .bf16
    (addf (extractStridedSlice S336x128 ![o, 128] p h1)
      (mulf (broadcast S336x128 (Scalar.ofBits .f32 0x40000000#32)) (prop2o L p o h2)))
    bitsLt_bf16_f32

/-- `p[o.., 0..128] + L · mido`. -/
def acco (L : FVec F S336x336 .bf16) (p : FVec F S2688x384 .f32) (o : ℕ)
    (h0 : S2688x384.Slices ![o, 0] S336x128) (h1 : S2688x384.Slices ![o, 128] S336x128)
    (h2 : S2688x384.Slices ![o, 256] S336x128) : FVec F S336x128 .f32 :=
  addf (extractStridedSlice S336x128 ![o, 0] p h0)
    (matmul dot_S336x336_S336x128_S336x128_1_0_0_1_n_n none L (mido L p o h1 h2) (constant S336x128 .f32 0x00000000#32))

/-- The last layer's bias row copied to all 336 rows. -/
def biasRowso (b : Vec F S128 .f32) : FVec F S336x128 .f32 :=
  broadcastTo S336x128 (shapeCast S1x128 b shapeCasts_S128_S1x128) broadcasts_S1x128_S336x128

/-- What the last layer stores as one graph's `[1, 325, 128]` block of the result: the first 325 rows of
    `acco + bias`. -/
def out3 (L : FVec F S336x336 .bf16) (p : FVec F S2688x384 .f32) (b : Vec F S128 .f32) (o : ℕ)
    (h0 : S2688x384.Slices ![o, 0] S336x128) (h1 : S2688x384.Slices ![o, 128] S336x128)
    (h2 : S2688x384.Slices ![o, 256] S336x128) : FVec F S1x325x128 .f32 :=
  shapeCast S1x325x128
    (extractStridedSlice S325x128 ![0, 0] (addf (acco L p o h0 h1 h2) (biasRowso b)) slices_S336x128_o0_0_S325x128)
    shapeCasts_S325x128_S1x325x128

end Cert.KPay

end
-- ==== Proof.KPayStores1.lean ====
/-
  The eight Laplacians and the first hidden layer's eight stores are the uniform values.

  The body computes graph `g`'s Laplacian and its stored hidden block by the same operations for every `g`; only the
  grouping of the operations into named intermediate values differs from graph to graph.  Each equation below puts one
  graph's intermediate values back together: its Laplacian is `lapOf` of its loaded adjacency block, and the value stored into rows
  `336 g .. 336 g + 335` of the first scratch buffer is `hid` at row offset `336 g` of that graph's Laplacian, the
  projection `p` and the bias.  Both sides are the same operations applied to the same operands, for every float instance.
-/
import proofs.«146035_g81071802679316_cont_sun_m_195_36_alg».proof.Proof.KPayDefs

noncomputable section

namespace Cert.KPay

open Idealize.ShloMosaic Cert.KernelIdeal Cert.KernelIdeal.Gen

variable {F : FTy → Type} [FloatOps F]

/-! ## The Laplacians of graphs 0 to 7 -/

theorem lap0 (a : Vec F S1x336x336 .bf16) : k0_pay5 a = lapOf a := rfl
theorem lap1 (a : Vec F S1x336x336 .bf16) :
    k0_pay11 (k0_pay6 a) (k0_pay7 a) (k0_pay8 a) (k0_pay9 a) (k0_pay10 (F := F)) = lapOf a := rfl
theorem lap2 (a : Vec F S1x336x336 .bf16) : k0_pay12 a = lapOf a := rfl
theorem lap3 (a : Vec F S1x336x336 .bf16) :
    k0_pay17 (k0_pay13 a) (k0_pay14 a) (k0_pay15 a) (k0_pay16 a) = lapOf a := rfl
theorem lap4 (a : Vec F S1x336x336 .bf16) : k0_pay18 a = lapOf a := rfl
theorem lap5 (a : Vec F S1x336x336 .bf16) :
    k0_pay22 (k0_pay19 a) (k0_pay20 a) (k0_pay21 a) (Scalar.ofBits .f32 0x00000000#32) = lapOf a := rfl
theorem lap6 (a : Vec F S1x336x336 .bf16) : k0_pay23 a = lapOf a := rfl
theorem lap7 (a : Vec F S1x336x336 .bf16) :
    k0_pay27 (k0_pay24 a) (k0_pay25 a) (k0_pay26 (F := F)) = lapOf a := rfl

/-! ## The first hidden layer: `p = k0_pay28 w x` -/

section Layer1
variable (L : FVec F S336x336 .bf16) (w : FVec F S384x768 .bf16) (x : Vec F S2688x384 .bf16)
  (p : FVec F S2688x768 .f32) (b : Vec F S256 .f32)

theorem store1_0 : k0_pay29 w L x b = hid L (k0_pay28 w x) b 0 slices_S2688x768_o0_0_S336x256 slices_S2688x768_o0_256_S336x256 slices_S2688x768_o0_512_S336x256 := rfl
theorem store1_1 :
    k0_pay32 L b (k0_pay28 w x) (k0_pay30 w x) (k0_pay31 w x) (constant S336x256 .f32 0x00000000#32)
      = hid L (k0_pay28 w x) b 336 slices_S2688x768_o336_0_S336x256 slices_S2688x768_o336_256_S336x256 slices_S2688x768_o336_512_S336x256 := rfl
theorem store1_2 : k0_pay33 L b p = hid L p b 672 slices_S2688x768_o672_0_S336x256 slices_S2688x768_o672_256_S336x256 slices_S2688x768_o672_512_S336x256 := rfl
theorem store1_3 : k0_pay35 L b p (k0_pay34 L p) = hid L p b 1008 slices_S2688x768_o1008_0_S336x256 slices_S2688x768_o1008_256_S336x256 slices_S2688x768_o1008_512_S336x256 := rfl
theorem store1_4 : k0_pay36 L b p = hid L p b 1344 slices_S2688x768_o1344_0_S336x256 slices_S2688x768_o1344_256_S336x256 slices_S2688x768_o1344_512_S336x256 := rfl
theorem store1_5 : k0_pay39 (k0_pay37 L p) (k0_pay38 b) = hid L p b 1680 slices_S2688x768_o1680_0_S336x256 slices_S2688x768_o1680_256_S336x256 slices_S2688x768_o1680_512_S336x256 := rfl
theorem store1_6 : k0_pay40 L b p = hid L p b 2016 slices_S2688x768_o2016_0_S336x256 slices_S2688x768_o2016_256_S336x256 slices_S2688x768_o2016_512_S336x256 := rfl
theorem store1_7 : k0_pay42 (k0_pay41 L b p) = hid L p b 2352 slices_S2688x768_o2352_0_S336x256 slices_S2688x768_o2352_256_S336x256 slices_S2688x768_o2352_512_S336x256 := rfl

end Layer1

end Cert.KPay

end
-- ==== Proof.KPayStores2.lean ====
/-
  The second hidden layer's eight stores are the uniform values.

  The value stored into rows `336 g .. 336 g + 335` of the second scratch buffer is `hid` at row offset `336 g` of graph
  `g`'s Laplacian, the second projection `p` and the second bias: the same operations on the same operands, whatever
  the float instance, however the operations are grouped into named intermediate values.
-/
import proofs.«146035_g81071802679316_cont_sun_m_195_36_alg».proof.Proof.KPayDefs

noncomputable section

namespace Cert.KPay

open Idealize.ShloMosaic Cert.KernelIdeal Cert.KernelIdeal.Gen

variable {F : FTy → Type} [FloatOps F]

/-! ## The second hidden layer: `p = k0_pay43 w x` -/

section Layer2
variable (L : FVec F S336x336 .bf16) (w : FVec F S256x768 .bf16) (x : Vec F S2688x256 .bf16)
  (p : FVec F S2688x768 .f32) (b : Vec F S256 .f32)

theorem store2_0 : k0_pay44 w L x b = hid L (k0_pay43 w x) b 0 slices_S2688x768_o0_0_S336x256 slices_S2688x768_o0_256_S336x256 slices_S2688x768_o0_512_S336x256 := rfl
theorem store2_1 : k0_pay46 (k0_pay45 w L x b) = hid L (k0_pay43 w x) b 336 slices_S2688x768_o336_0_S336x256 slices_S2688x768_o336_256_S336x256 slices_S2688x768_o336_512_S336x256 := rfl
theorem store2_2 : k0_pay47 L b p = hid L p b 672 slices_S2688x768_o672_0_S336x256 slices_S2688x768_o672_256_S336x256 slices_S2688x768_o672_512_S336x256 := rfl
theorem store2_3 : k0_pay48 L b p = hid L p b 1008 slices_S2688x768_o1008_0_S336x256 slices_S2688x768_o1008_256_S336x256 slices_S2688x768_o1008_512_S336x256 := rfl
theorem store2_4 : k0_pay49 L b p = hid L p b 1344 slices_S2688x768_o1344_0_S336x256 slices_S2688x768_o1344_256_S336x256 slices_S2688x768_o1344_512_S336x256 := rfl
theorem store2_5 : k0_pay50 L b p = hid L p b 1680 slices_S2688x768_o1680_0_S336x256 slices_S2688x768_o1680_256_S336x256 slices_S2688x768_o1680_512_S336x256 := rfl
theorem store2_6 :
    k0_pay53 L b p (k0_pay51 p) (k0_pay52 L p) (Scalar.ofBits .f32 0x40000000#32) = hid L p b 2016 slices_S2688x768_o2016_0_S336x256 slices_S2688x768_o2016_256_S336x256 slices_S2688x768_o2016_512_S336x256 := rfl
theorem store2_7 : k0_pay54 L b p = hid L p b 2352 slices_S2688x768_o2352_0_S336x256 slices_S2688x768_o2352_256_S336x256 slices_S2688x768_o2352_512_S336x256 := rfl

end Layer2

end Cert.KPay

end
-- ==== Proof.KPayStores3.lean ====
/-
  The last layer's eight stores are the uniform values.

  The `[1, 325, 128]` block stored as graph `g`'s part of the result is `out3` at row offset `336 g` of that graph's
  Laplacian, the third projection `p` and the third bias: the same operations on the same operands, whatever the float
  instance, however the operations are grouped into named intermediate values.
-/
import proofs.«146035_g81071802679316_cont_sun_m_195_36_alg».proof.Proof.KPayDefs

noncomputable section

namespace Cert.KPay

open Idealize.ShloMosaic Cert.KernelIdeal Cert.KernelIdeal.Gen

variable {F : FTy → Type} [FloatOps F]

/-! ## The last layer: `p = k0_pay55 w x` -/

section Layer3
variable (L : FVec F S336x336 .bf16) (w : FVec F S256x384 .bf16) (x : Vec F S2688x256 .bf16)
  (p : FVec F S2688x384 .f32) (b : Vec F S128 .f32)

theorem store3_0 :
    k0_pay58 L b (k0_pay55 w x) (k0_pay56 w x) (k0_pay57 w L x) = out3 L (k0_pay55 w x) b 0 slices_S2688x384_o0_0_S336x128 slices_S2688x384_o0_128_S336x128 slices_S2688x384_o0_256_S336x128 := rfl
theorem store3_1 : k0_pay59 L b p = out3 L p b 336 slices_S2688x384_o336_0_S336x128 slices_S2688x384_o336_128_S336x128 slices_S2688x384_o336_256_S336x128 := rfl
theorem store3_2 : k0_pay62 (k0_pay60 L p) (k0_pay61 b) = out3 L p b 672 slices_S2688x384_o672_0_S336x128 slices_S2688x384_o672_128_S336x128 slices_S2688x384_o672_256_S336x128 := rfl
theorem store3_3 : k0_pay63 L b p = out3 L p b 1008 slices_S2688x384_o1008_0_S336x128 slices_S2688x384_o1008_128_S336x128 slices_S2688x384_o1008_256_S336x128 := rfl
theorem store3_4 : k0_pay64 L b p = out3 L p b 1344 slices_S2688x384_o1344_0_S336x128 slices_S2688x384_o1344_128_S336x128 slices_S2688x384_o1344_256_S336x128 := rfl
theorem store3_5 : k0_pay65 L b p = out3 L p b 1680 slices_S2688x384_o1680_0_S336x128 slices_S2688x384_o1680_128_S336x128 slices_S2688x384_o1680_256_S336x128 := rfl
theorem store3_6 : k0_pay66 L b p = out3 L p b 2016 slices_S2688x384_o2016_0_S336x128 slices_S2688x384_o2016_128_S336x128 slices_S2688x384_o2016_256_S336x128 := rfl
theorem store3_7 : k0_pay1 L b p (k0_pay67 L p) = out3 L p b 2352 slices_S2688x384_o2352_0_S336x128 slices_S2688x384_o2352_128_S336x128 slices_S2688x384_o2352_256_S336x128 := rfl

end Layer3

end Cert.KPay

end
-- ==== Proof.KPayCanon.lean ====
/-
  What eight stores of one graph's rows each leave in a buffer.

  A scratch buffer of 2688 rows receives eight stores, graph `g`'s 336 rows at rows `336 g .. 336 g + 335`; the
  result block `[8, 325, 128]` receives eight stores, graph `g`'s `[1, 325, 128]` block at leading index `g`.  The
  rectangles are disjoint, so whatever the order of the stores the buffer read at row `336 g + r` (at leading index
  `g`) is graph `g`'s stored value at row `r`.
-/
import proofs.«146035_g81071802679316_cont_sun_m_195_36_alg».proof.Proof.Gen.KernelIdeal.Skeleton
import Idealize.ShloMosaic.Lib.Pipeline.Value
import Idealize.ShloMosaic.Lib.ValueIdx

noncomputable section

namespace Cert.KPay

open Idealize.ShloMosaic Idealize.ShloMosaic.ValueIdx Cert.KernelIdeal Cert.KernelIdeal.Gen

/-- Stores none of which covers an index do not change what the earlier stores left there. -/
theorem canon_skip {Val : EltTy → Type} [∀ e, Nonempty (Val e)] {S : Shape} {e : EltTy}
    (pre post : List (View.Piece Val S e)) (y : S.Idx) (h : ∀ q ∈ pre, y ∉ q.1.set) :
    View.canon (pre ++ post) y = View.canon post y := by
  induction pre with
  | nil => rfl
  | cons q pre ih =>
    rw [List.cons_append, View.canon_cons_of_not_mem _ _ (h q (by simp))]
    exact ih (fun q' hq' => h q' (by simp [hq']))

variable {F : FTy → Type} [FloatOps F]

/-! ## A scratch buffer: eight blocks of 336 rows -/

/-- Row `R` is outside the block of rows `o .. o + 335` when it is below `o` or at least `o + 336`. -/
theorem not_mem_rows {o R : ℕ} (inb : ∀ a, (![o, 0] : Fin 2 → ℕ) a + S336x256.size a ≤ S2688x256.size a)
    (hR : R < 2688) (c : Fin 256) (h : R < o ∨ o + 336 ≤ R) :
    (ix2 (⟨R, hR⟩ : Fin 2688) c : S2688x256.Idx) ∉ (Rect.unit (s := S2688x256) ![o, 0] S336x256.size inb).set := by
  rw [Rect.mem_set_unit]
  intro hm
  have h0 := hm 0
  change o ≤ R ∧ R < o + 336 at h0
  omega

/-- Row `o + r` of the buffer is row `r` of the block of rows `o .. o + 335`. -/
theorem emb_rows {o : ℕ} (inb : ∀ a, (![o, 0] : Fin 2 → ℕ) a + S336x256.size a ≤ S2688x256.size a)
    (r : Fin 336) (c : Fin 256) (hR : o + r.val < 2688) :
    (Rect.unit (s := S2688x256) ![o, 0] S336x256.size inb).emb (ix2 r c) = ix2 (⟨o + r.val, hR⟩ : Fin 2688) c := by
  funext a
  refine Fin.ext ?_
  match a with
  | ⟨0, _⟩ => show o + 1 * r.val = o + r.val; omega
  | ⟨1, _⟩ => show 0 + 1 * c.val = c.val; omega

/-- The eight stores of a scratch buffer, last first. -/
def rowPieces (w7 w6 w5 w4 w3 w2 w1 w0 : FVec F S336x256 .bf16) : List (View.Piece (Elt F) S2688x256 .bf16) :=
  [⟨Rect.unit (s := S2688x256) ![2352, 0] S336x256.size inb_S2688x256_S336x256_2352_0, w7⟩,
    ⟨Rect.unit (s := S2688x256) ![2016, 0] S336x256.size inb_S2688x256_S336x256_2016_0, w6⟩,
    ⟨Rect.unit (s := S2688x256) ![1680, 0] S336x256.size inb_S2688x256_S336x256_1680_0, w5⟩,
    ⟨Rect.unit (s := S2688x256) ![1344, 0] S336x256.size inb_S2688x256_S336x256_1344_0, w4⟩,
    ⟨Rect.unit (s := S2688x256) ![1008, 0] S336x256.size inb_S2688x256_S336x256_1008_0, w3⟩,
    ⟨Rect.unit (s := S2688x256) ![672, 0] S336x256.size inb_S2688x256_S336x256_672_0, w2⟩,
    ⟨Rect.unit (s := S2688x256) ![336, 0] S336x256.size inb_S2688x256_S336x256_336_0, w1⟩,
    ⟨Rect.unit (s := S2688x256) ![0, 0] S336x256.size inb_S2688x256_S336x256_0_0, w0⟩]

section
variable (w7 w6 w5 w4 w3 w2 w1 w0 : FVec F S336x256 .bf16) (r : Fin 336) (c : Fin 256)

/-- Rows `0 .. 335` hold graph 0's stored block. -/
theorem rowPieces_0 (hR : 0 + r.val < 2688) :
    View.canon (rowPieces w7 w6 w5 w4 w3 w2 w1 w0) (ix2 (⟨0 + r.val, hR⟩ : Fin 2688) c) = w0 (ix2 r c) := by
  have e : rowPieces w7 w6 w5 w4 w3 w2 w1 w0
      = [⟨Rect.unit (s := S2688x256) ![2352, 0] S336x256.size inb_S2688x256_S336x256_2352_0, w7⟩, ⟨Rect.unit (s := S2688x256) ![2016, 0] S336x256.size inb_S2688x256_S336x256_2016_0, w6⟩, ⟨Rect.unit (s := S2688x256) ![1680, 0] S336x256.size inb_S2688x256_S336x256_1680_0, w5⟩, ⟨Rect.unit (s := S2688x256) ![1344, 0] S336x256.size inb_S2688x256_S336x256_1344_0, w4⟩, ⟨Rect.unit (s := S2688x256) ![1008, 0] S336x256.size inb_S2688x256_S336x256_1008_0, w3⟩, ⟨Rect.unit (s := S2688x256) ![672, 0] S336x256.size inb_S2688x256_S336x256_672_0, w2⟩, ⟨Rect.unit (s := S2688x256) ![336, 0] S336x256.size inb_S2688x256_S336x256_336_0, w1⟩]
        ++ (⟨Rect.unit (s := S2688x256) ![0, 0] S336x256.size inb_S2688x256_S336x256_0_0, w0⟩ : View.Piece (Elt F) S2688x256 .bf16)
          :: [] := rfl
  rw [e, canon_skip _ _ _ (fun q hq => by
    simp only [List.mem_cons, List.not_mem_nil, or_false] at hq
    rcases hq with rfl | rfl | rfl | rfl | rfl | rfl | rfl
    · exact not_mem_rows inb_S2688x256_S336x256_2352_0 _ _ (by have := r.isLt; omega)
    · exact not_mem_rows inb_S2688x256_S336x256_2016_0 _ _ (by have := r.isLt; omega)
    · exact not_mem_rows inb_S2688x256_S336x256_1680_0 _ _ (by have := r.isLt; omega)
    · exact not_mem_rows inb_S2688x256_S336x256_1344_0 _ _ (by have := r.isLt; omega)
    · exact not_mem_rows inb_S2688x256_S336x256_1008_0 _ _ (by have := r.isLt; omega)
    · exact not_mem_rows inb_S2688x256_S336x256_672_0 _ _ (by have := r.isLt; omega)
    · exact not_mem_rows inb_S2688x256_S336x256_336_0 _ _ (by have := r.isLt; omega)),
    ← emb_rows inb_S2688x256_S336x256_0_0 r c hR]
  exact View.canon_cons_emb _ _ _ _

/-- Rows `336 .. 671` hold graph 1's stored block. -/
theorem rowPieces_1 (hR : 336 + r.val < 2688) :
    View.canon (rowPieces w7 w6 w5 w4 w3 w2 w1 w0) (ix2 (⟨336 + r.val, hR⟩ : Fin 2688) c) = w1 (ix2 r c) := by
  have e : rowPieces w7 w6 w5 w4 w3 w2 w1 w0
      = [⟨Rect.unit (s := S2688x256) ![2352, 0] S336x256.size inb_S2688x256_S336x256_2352_0, w7⟩, ⟨Rect.unit (s := S2688x256) ![2016, 0] S336x256.size inb_S2688x256_S336x256_2016_0, w6⟩, ⟨Rect.unit (s := S2688x256) ![1680, 0] S336x256.size inb_S2688x256_S336x256_1680_0, w5⟩, ⟨Rect.unit (s := S2688x256) ![1344, 0] S336x256.size inb_S2688x256_S336x256_1344_0, w4⟩, ⟨Rect.unit (s := S2688x256) ![1008, 0] S336x256.size inb_S2688x256_S336x256_1008_0, w3⟩, ⟨Rect.unit (s := S2688x256) ![672, 0] S336x256.size inb_S2688x256_S336x256_672_0, w2⟩]
        ++ (⟨Rect.unit (s := S2688x256) ![336, 0] S336x256.size inb_S2688x256_S336x256_336_0, w1⟩ : View.Piece (Elt F) S2688x256 .bf16)
          :: [⟨Rect.unit (s := S2688x256) ![0, 0] S336x256.size inb_S2688x256_S336x256_0_0, w0⟩] := rfl
  rw [e, canon_skip _ _ _ (fun q hq => by
    simp only [List.mem_cons, List.not_mem_nil, or_false] at hq
    rcases hq with rfl | rfl | rfl | rfl | rfl | rfl
    · exact not_mem_rows inb_S2688x256_S336x256_2352_0 _ _ (by have := r.isLt; omega)
    · exact not_mem_rows inb_S2688x256_S336x256_2016_0 _ _ (by have := r.isLt; omega)
    · exact not_mem_rows inb_S2688x256_S336x256_1680_0 _ _ (by have := r.isLt; omega)
    · exact not_mem_rows inb_S2688x256_S336x256_1344_0 _ _ (by have := r.isLt; omega)
    · exact not_mem_rows inb_S2688x256_S336x256_1008_0 _ _ (by have := r.isLt; omega)
    · exact not_mem_rows inb_S2688x256_S336x256_672_0 _ _ (by have := r.isLt; omega)),
    ← emb_rows inb_S2688x256_S336x256_336_0 r c hR]
  exact View.canon_cons_emb _ _ _ _

/-- Rows `672 .. 1007` hold graph 2's stored block. -/
theorem rowPieces_2 (hR : 672 + r.val < 2688) :
    View.canon (rowPieces w7 w6 w5 w4 w3 w2 w1 w0) (ix2 (⟨672 + r.val, hR⟩ : Fin 2688) c) = w2 (ix2 r c) := by
  have e : rowPieces w7 w6 w5 w4 w3 w2 w1 w0
      = [⟨Rect.unit (s := S2688x256) ![2352, 0] S336x256.size inb_S2688x256_S336x256_2352_0, w7⟩, ⟨Rect.unit (s := S2688x256) ![2016, 0] S336x256.size inb_S2688x256_S336x256_2016_0, w6⟩, ⟨Rect.unit (s := S2688x256) ![1680, 0] S336x256.size inb_S2688x256_S336x256_1680_0, w5⟩, ⟨Rect.unit (s := S2688x256) ![1344, 0] S336x256.size inb_S2688x256_S336x256_1344_0, w4⟩, ⟨Rect.unit (s := S2688x256) ![1008, 0] S336x256.size inb_S2688x256_S336x256_1008_0, w3⟩]
        ++ (⟨Rect.unit (s := S2688x256) ![672, 0] S336x256.size inb_S2688x256_S336x256_672_0, w2⟩ : View.Piece (Elt F) S2688x256 .bf16)
          :: [⟨Rect.unit (s := S2688x256) ![336, 0] S336x256.size inb_S2688x256_S336x256_336_0, w1⟩, ⟨Rect.unit (s := S2688x256) ![0, 0] S336x256.size inb_S2688x256_S336x256_0_0, w0⟩] := rfl
  rw [e, canon_skip _ _ _ (fun q hq => by
    simp only [List.mem_cons, List.not_mem_nil, or_false] at hq
    rcases hq with rfl | rfl | rfl | rfl | rfl
    · exact not_mem_rows inb_S2688x256_S336x256_2352_0 _ _ (by have := r.isLt; omega)
    · exact not_mem_rows inb_S2688x256_S336x256_2016_0 _ _ (by have := r.isLt; omega)
    · exact not_mem_rows inb_S2688x256_S336x256_1680_0 _ _ (by have := r.isLt; omega)
    · exact not_mem_rows inb_S2688x256_S336x256_1344_0 _ _ (by have := r.isLt; omega)
    · exact not_mem_rows inb_S2688x256_S336x256_1008_0 _ _ (by have := r.isLt; omega)),
    ← emb_rows inb_S2688x256_S336x256_672_0 r c hR]
  exact View.canon_cons_emb _ _ _ _

/-- Rows `1008 .. 1343` hold graph 3's stored block. -/
theorem rowPieces_3 (hR : 1008 + r.val < 2688) :
    View.canon (rowPieces w7 w6 w5 w4 w3 w2 w1 w0) (ix2 (⟨1008 + r.val, hR⟩ : Fin 2688) c) = w3 (ix2 r c) := by
  have e : rowPieces w7 w6 w5 w4 w3 w2 w1 w0
      = [⟨Rect.unit (s := S2688x256) ![2352, 0] S336x256.size inb_S2688x256_S336x256_2352_0, w7⟩, ⟨Rect.unit (s := S2688x256) ![2016, 0] S336x256.size inb_S2688x256_S336x256_2016_0, w6⟩, ⟨Rect.unit (s := S2688x256) ![1680, 0] S336x256.size inb_S2688x256_S336x256_1680_0, w5⟩, ⟨Rect.unit (s := S2688x256) ![1344, 0] S336x256.size inb_S2688x256_S336x256_1344_0, w4⟩]
        ++ (⟨Rect.unit (s := S2688x256) ![1008, 0] S336x256.size inb_S2688x256_S336x256_1008_0, w3⟩ : View.Piece (Elt F) S2688x256 .bf16)
          :: [⟨Rect.unit (s := S2688x256) ![672, 0] S336x256.size inb_S2688x256_S336x256_672_0, w2⟩, ⟨Rect.unit (s := S2688x256) ![336, 0] S336x256.size inb_S2688x256_S336x256_336_0, w1⟩, ⟨Rect.unit (s := S2688x256) ![0, 0] S336x256.size inb_S2688x256_S336x256_0_0, w0⟩] := rfl
  rw [e, canon_skip _ _ _ (fun q hq => by
    simp only [List.mem_cons, List.not_mem_nil, or_false] at hq
    rcases hq with rfl | rfl | rfl | rfl
    · exact not_mem_rows inb_S2688x256_S336x256_2352_0 _ _ (by have := r.isLt; omega)
    · exact not_mem_rows inb_S2688x256_S336x256_2016_0 _ _ (by have := r.isLt; omega)
    · exact not_mem_rows inb_S2688x256_S336x256_1680_0 _ _ (by have := r.isLt; omega)
    · exact not_mem_rows inb_S2688x256_S336x256_1344_0 _ _ (by have := r.isLt; omega)),
    ← emb_rows inb_S2688x256_S336x256_1008_0 r c hR]
  exact View.canon_cons_emb _ _ _ _

/-- Rows `1344 .. 1679` hold graph 4's stored block. -/
theorem rowPieces_4 (hR : 1344 + r.val < 2688) :
    View.canon (rowPieces w7 w6 w5 w4 w3 w2 w1 w0) (ix2 (⟨1344 + r.val, hR⟩ : Fin 2688) c) = w4 (ix2 r c) := by
  have e : rowPieces w7 w6 w5 w4 w3 w2 w1 w0
      = [⟨Rect.unit (s := S2688x256) ![2352, 0] S336x256.size inb_S2688x256_S336x256_2352_0, w7⟩, ⟨Rect.unit (s := S2688x256) ![2016, 0] S336x256.size inb_S2688x256_S336x256_2016_0, w6⟩, ⟨Rect.unit (s := S2688x256) ![1680, 0] S336x256.size inb_S2688x256_S336x256_1680_0, w5⟩]
        ++ (⟨Rect.unit (s := S2688x256) ![1344, 0] S336x256.size inb_S2688x256_S336x256_1344_0, w4⟩ : View.Piece (Elt F) S2688x256 .bf16)
          :: [⟨Rect.unit (s := S2688x256) ![1008, 0] S336x256.size inb_S2688x256_S336x256_1008_0, w3⟩, ⟨Rect.unit (s := S2688x256) ![672, 0] S336x256.size inb_S2688x256_S336x256_672_0, w2⟩, ⟨Rect.unit (s := S2688x256) ![336, 0] S336x256.size inb_S2688x256_S336x256_336_0, w1⟩, ⟨Rect.unit (s := S2688x256) ![0, 0] S336x256.size inb_S2688x256_S336x256_0_0, w0⟩] := rfl
  rw [e, canon_skip _ _ _ (fun q hq => by
    simp only [List.mem_cons, List.not_mem_nil, or_false] at hq
    rcases hq with rfl | rfl | rfl
    · exact not_mem_rows inb_S2688x256_S336x256_2352_0 _ _ (by have := r.isLt; omega)
    · exact not_mem_rows inb_S2688x256_S336x256_2016_0 _ _ (by have := r.isLt; omega)
    · exact not_mem_rows inb_S2688x256_S336x256_1680_0 _ _ (by have := r.isLt; omega)),
    ← emb_rows inb_S2688x256_S336x256_1344_0 r c hR]
  exact View.canon_cons_emb _ _ _ _

/-- Rows `1680 .. 2015` hold graph 5's stored block. -/
theorem rowPieces_5 (hR : 1680 + r.val < 2688) :
    View.canon (rowPieces w7 w6 w5 w4 w3 w2 w1 w0) (ix2 (⟨1680 + r.val, hR⟩ : Fin 2688) c) = w5 (ix2 r c) := by
  have e : rowPieces w7 w6 w5 w4 w3 w2 w1 w0
      = [⟨Rect.unit (s := S2688x256) ![2352, 0] S336x256.size inb_S2688x256_S336x256_2352_0, w7⟩, ⟨Rect.unit (s := S2688x256) ![2016, 0] S336x256.size inb_S2688x256_S336x256_2016_0, w6⟩]
        ++ (⟨Rect.unit (s := S2688x256) ![1680, 0] S336x256.size inb_S2688x256_S336x256_1680_0, w5⟩ : View.Piece (Elt F) S2688x256 .bf16)
          :: [⟨Rect.unit (s := S2688x256) ![1344, 0] S336x256.size inb_S2688x256_S336x256_1344_0, w4⟩, ⟨Rect.unit (s := S2688x256) ![1008, 0] S336x256.size inb_S2688x256_S336x256_1008_0, w3⟩, ⟨Rect.unit (s := S2688x256) ![672, 0] S336x256.size inb_S2688x256_S336x256_672_0, w2⟩, ⟨Rect.unit (s := S2688x256) ![336, 0] S336x256.size inb_S2688x256_S336x256_336_0, w1⟩, ⟨Rect.unit (s := S2688x256) ![0, 0] S336x256.size inb_S2688x256_S336x256_0_0, w0⟩] := rfl
  rw [e, canon_skip _ _ _ (fun q hq => by
    simp only [List.mem_cons, List.not_mem_nil, or_false] at hq
    rcases hq with rfl | rfl
    · exact not_mem_rows inb_S2688x256_S336x256_2352_0 _ _ (by have := r.isLt; omega)
    · exact not_mem_rows inb_S2688x256_S336x256_2016_0 _ _ (by have := r.isLt; omega)),
    ← emb_rows inb_S2688x256_S336x256_1680_0 r c hR]
  exact View.canon_cons_emb _ _ _ _

/-- Rows `2016 .. 2351` hold graph 6's stored block. -/
theorem rowPieces_6 (hR : 2016 + r.val < 2688) :
    View.canon (rowPieces w7 w6 w5 w4 w3 w2 w1 w0) (ix2 (⟨2016 + r.val, hR⟩ : Fin 2688) c) = w6 (ix2 r c) := by
  have e : rowPieces w7 w6 w5 w4 w3 w2 w1 w0
      = [⟨Rect.unit (s := S2688x256) ![2352, 0] S336x256.size inb_S2688x256_S336x256_2352_0, w7⟩]
        ++ (⟨Rect.unit (s := S2688x256) ![2016, 0] S336x256.size inb_S2688x256_S336x256_2016_0, w6⟩ : View.Piece (Elt F) S2688x256 .bf16)
          :: [⟨Rect.unit (s := S2688x256) ![1680, 0] S336x256.size inb_S2688x256_S336x256_1680_0, w5⟩, ⟨Rect.unit (s := S2688x256) ![1344, 0] S336x256.size inb_S2688x256_S336x256_1344_0, w4⟩, ⟨Rect.unit (s := S2688x256) ![1008, 0] S336x256.size inb_S2688x256_S336x256_1008_0, w3⟩, ⟨Rect.unit (s := S2688x256) ![672, 0] S336x256.size inb_S2688x256_S336x256_672_0, w2⟩, ⟨Rect.unit (s := S2688x256) ![336, 0] S336x256.size inb_S2688x256_S336x256_336_0, w1⟩, ⟨Rect.unit (s := S2688x256) ![0, 0] S336x256.size inb_S2688x256_S336x256_0_0, w0⟩] := rfl
  rw [e, canon_skip _ _ _ (fun q hq => by
    simp only [List.mem_cons, List.not_mem_nil, or_false] at hq
    rcases hq with rfl
    · exact not_mem_rows inb_S2688x256_S336x256_2352_0 _ _ (by have := r.isLt; omega)),
    ← emb_rows inb_S2688x256_S336x256_2016_0 r c hR]
  exact View.canon_cons_emb _ _ _ _

/-- Rows `2352 .. 2687` hold graph 7's stored block. -/
theorem rowPieces_7 (hR : 2352 + r.val < 2688) :
    View.canon (rowPieces w7 w6 w5 w4 w3 w2 w1 w0) (ix2 (⟨2352 + r.val, hR⟩ : Fin 2688) c) = w7 (ix2 r c) := by
  have e : rowPieces w7 w6 w5 w4 w3 w2 w1 w0
      = []
        ++ (⟨Rect.unit (s := S2688x256) ![2352, 0] S336x256.size inb_S2688x256_S336x256_2352_0, w7⟩ : View.Piece (Elt F) S2688x256 .bf16)
          :: [⟨Rect.unit (s := S2688x256) ![2016, 0] S336x256.size inb_S2688x256_S336x256_2016_0, w6⟩, ⟨Rect.unit (s := S2688x256) ![1680, 0] S336x256.size inb_S2688x256_S336x256_1680_0, w5⟩, ⟨Rect.unit (s := S2688x256) ![1344, 0] S336x256.size inb_S2688x256_S336x256_1344_0, w4⟩, ⟨Rect.unit (s := S2688x256) ![1008, 0] S336x256.size inb_S2688x256_S336x256_1008_0, w3⟩, ⟨Rect.unit (s := S2688x256) ![672, 0] S336x256.size inb_S2688x256_S336x256_672_0, w2⟩, ⟨Rect.unit (s := S2688x256) ![336, 0] S336x256.size inb_S2688x256_S336x256_336_0, w1⟩, ⟨Rect.unit (s := S2688x256) ![0, 0] S336x256.size inb_S2688x256_S336x256_0_0, w0⟩] := rfl
  rw [e, canon_skip _ _ _ (fun q hq => absurd hq List.not_mem_nil),
    ← emb_rows inb_S2688x256_S336x256_2352_0 r c hR]
  exact View.canon_cons_emb _ _ _ _

end

/-! ## The result block: eight blocks of one leading index -/

/-- Leading index `G` is outside the block at leading index `g ≠ G`. -/
theorem not_mem_lead {g G : ℕ} (inb : ∀ a, (![g, 0, 0] : Fin 3 → ℕ) a + S1x325x128.size a ≤ S8x325x128.size a)
    (hG : G < 8) (r : Fin 325) (c : Fin 128) (h : G ≠ g) :
    (ix3 (⟨G, hG⟩ : Fin 8) r c : S8x325x128.Idx) ∉ (Rect.unit (s := S8x325x128) ![g, 0, 0] S1x325x128.size inb).set := by
  rw [Rect.mem_set_unit]
  intro hm
  have h0 := hm 0
  change g ≤ G ∧ G < g + 1 at h0
  omega

/-- Leading index `g` of the result block is the block stored there. -/
theorem emb_lead {g : ℕ} (inb : ∀ a, (![g, 0, 0] : Fin 3 → ℕ) a + S1x325x128.size a ≤ S8x325x128.size a)
    (u : Fin 1) (r : Fin 325) (c : Fin 128) (hG : g < 8) :
    (Rect.unit (s := S8x325x128) ![g, 0, 0] S1x325x128.size inb).emb (ix3 u r c) = ix3 (⟨g, hG⟩ : Fin 8) r c := by
  funext a
  refine Fin.ext ?_
  match a with
  | ⟨0, _⟩ => show g + 1 * u.val = g; omega
  | ⟨1, _⟩ => show 0 + 1 * r.val = r.val; omega
  | ⟨2, _⟩ => show 0 + 1 * c.val = c.val; omega

/-- The eight stores of the result block, last first. -/
def outPieces (w7 w6 w5 w4 w3 w2 w1 w0 : FVec F S1x325x128 .f32) : List (View.Piece (Elt F) S8x325x128 .f32) :=
  [⟨Rect.unit (s := S8x325x128) ![7, 0, 0] S1x325x128.size inb_S8x325x128_S1x325x128_7_0_0, w7⟩,
    ⟨Rect.unit (s := S8x325x128) ![6, 0, 0] S1x325x128.size inb_S8x325x128_S1x325x128_6_0_0, w6⟩,
    ⟨Rect.unit (s := S8x325x128) ![5, 0, 0] S1x325x128.size inb_S8x325x128_S1x325x128_5_0_0, w5⟩,
    ⟨Rect.unit (s := S8x325x128) ![4, 0, 0] S1x325x128.size inb_S8x325x128_S1x325x128_4_0_0, w4⟩,
    ⟨Rect.unit (s := S8x325x128) ![3, 0, 0] S1x325x128.size inb_S8x325x128_S1x325x128_3_0_0, w3⟩,
    ⟨Rect.unit (s := S8x325x128) ![2, 0, 0] S1x325x128.size inb_S8x325x128_S1x325x128_2_0_0, w2⟩,
    ⟨Rect.unit (s := S8x325x128) ![1, 0, 0] S1x325x128.size inb_S8x325x128_S1x325x128_1_0_0, w1⟩,
    ⟨Rect.unit (s := S8x325x128) ![0, 0, 0] S1x325x128.size inb_S8x325x128_S1x325x128_0_0_0, w0⟩]

section
variable (w7 w6 w5 w4 w3 w2 w1 w0 : FVec F S1x325x128 .f32) (u : Fin 1) (r : Fin 325) (c : Fin 128)

/-- Leading index `0` holds graph 0's stored block. -/
theorem outPieces_0 :
    View.canon (outPieces w7 w6 w5 w4 w3 w2 w1 w0) (ix3 (⟨0, by omega⟩ : Fin 8) r c) = w0 (ix3 u r c) := by
  have e : outPieces w7 w6 w5 w4 w3 w2 w1 w0
      = [⟨Rect.unit (s := S8x325x128) ![7, 0, 0] S1x325x128.size inb_S8x325x128_S1x325x128_7_0_0, w7⟩, ⟨Rect.unit (s := S8x325x128) ![6, 0, 0] S1x325x128.size inb_S8x325x128_S1x325x128_6_0_0, w6⟩, ⟨Rect.unit (s := S8x325x128) ![5, 0, 0] S1x325x128.size inb_S8x325x128_S1x325x128_5_0_0, w5⟩, ⟨Rect.unit (s := S8x325x128) ![4, 0, 0] S1x325x128.size inb_S8x325x128_S1x325x128_4_0_0, w4⟩, ⟨Rect.unit (s := S8x325x128) ![3, 0, 0] S1x325x128.size inb_S8x325x128_S1x325x128_3_0_0, w3⟩, ⟨Rect.unit (s := S8x325x128) ![2, 0, 0] S1x325x128.size inb_S8x325x128_S1x325x128_2_0_0, w2⟩, ⟨Rect.unit (s := S8x325x128) ![1, 0, 0] S1x325x128.size inb_S8x325x128_S1x325x128_1_0_0, w1⟩]
        ++ (⟨Rect.unit (s := S8x325x128) ![0, 0, 0] S1x325x128.size inb_S8x325x128_S1x325x128_0_0_0, w0⟩ : View.Piece (Elt F) S8x325x128 .f32)
          :: [] := rfl
  rw [e, canon_skip _ _ _ (fun q hq => by
    simp only [List.mem_cons, List.not_mem_nil, or_false] at hq
    rcases hq with rfl | rfl | rfl | rfl | rfl | rfl | rfl
    · exact not_mem_lead inb_S8x325x128_S1x325x128_7_0_0 _ _ _ (by omega)
    · exact not_mem_lead inb_S8x325x128_S1x325x128_6_0_0 _ _ _ (by omega)
    · exact not_mem_lead inb_S8x325x128_S1x325x128_5_0_0 _ _ _ (by omega)
    · exact not_mem_lead inb_S8x325x128_S1x325x128_4_0_0 _ _ _ (by omega)
    · exact not_mem_lead inb_S8x325x128_S1x325x128_3_0_0 _ _ _ (by omega)
    · exact not_mem_lead inb_S8x325x128_S1x325x128_2_0_0 _ _ _ (by omega)
    · exact not_mem_lead inb_S8x325x128_S1x325x128_1_0_0 _ _ _ (by omega)),
    ← emb_lead inb_S8x325x128_S1x325x128_0_0_0 u r c (by omega)]
  exact View.canon_cons_emb _ _ _ _

/-- Leading index `1` holds graph 1's stored block. -/
theorem outPieces_1 :
    View.canon (outPieces w7 w6 w5 w4 w3 w2 w1 w0) (ix3 (⟨1, by omega⟩ : Fin 8) r c) = w1 (ix3 u r c) := by
  have e : outPieces w7 w6 w5 w4 w3 w2 w1 w0
      = [⟨Rect.unit (s := S8x325x128) ![7, 0, 0] S1x325x128.size inb_S8x325x128_S1x325x128_7_0_0, w7⟩, ⟨Rect.unit (s := S8x325x128) ![6, 0, 0] S1x325x128.size inb_S8x325x128_S1x325x128_6_0_0, w6⟩, ⟨Rect.unit (s := S8x325x128) ![5, 0, 0] S1x325x128.size inb_S8x325x128_S1x325x128_5_0_0, w5⟩, ⟨Rect.unit (s := S8x325x128) ![4, 0, 0] S1x325x128.size inb_S8x325x128_S1x325x128_4_0_0, w4⟩, ⟨Rect.unit (s := S8x325x128) ![3, 0, 0] S1x325x128.size inb_S8x325x128_S1x325x128_3_0_0, w3⟩, ⟨Rect.unit (s := S8x325x128) ![2, 0, 0] S1x325x128.size inb_S8x325x128_S1x325x128_2_0_0, w2⟩]
        ++ (⟨Rect.unit (s := S8x325x128) ![1, 0, 0] S1x325x128.size inb_S8x325x128_S1x325x128_1_0_0, w1⟩ : View.Piece (Elt F) S8x325x128 .f32)
          :: [⟨Rect.unit (s := S8x325x128) ![0, 0, 0] S1x325x128.size inb_S8x325x128_S1x325x128_0_0_0, w0⟩] := rfl
  rw [e, canon_skip _ _ _ (fun q hq => by
    simp only [List.mem_cons, List.not_mem_nil, or_false] at hq
    rcases hq with rfl | rfl | rfl | rfl | rfl | rfl
    · exact not_mem_lead inb_S8x325x128_S1x325x128_7_0_0 _ _ _ (by omega)
    · exact not_mem_lead inb_S8x325x128_S1x325x128_6_0_0 _ _ _ (by omega)
    · exact not_mem_lead inb_S8x325x128_S1x325x128_5_0_0 _ _ _ (by omega)
    · exact not_mem_lead inb_S8x325x128_S1x325x128_4_0_0 _ _ _ (by omega)
    · exact not_mem_lead inb_S8x325x128_S1x325x128_3_0_0 _ _ _ (by omega)
    · exact not_mem_lead inb_S8x325x128_S1x325x128_2_0_0 _ _ _ (by omega)),
    ← emb_lead inb_S8x325x128_S1x325x128_1_0_0 u r c (by omega)]
  exact View.canon_cons_emb _ _ _ _

/-- Leading index `2` holds graph 2's stored block. -/
theorem outPieces_2 :
    View.canon (outPieces w7 w6 w5 w4 w3 w2 w1 w0) (ix3 (⟨2, by omega⟩ : Fin 8) r c) = w2 (ix3 u r c) := by
  have e : outPieces w7 w6 w5 w4 w3 w2 w1 w0
      = [⟨Rect.unit (s := S8x325x128) ![7, 0, 0] S1x325x128.size inb_S8x325x128_S1x325x128_7_0_0, w7⟩, ⟨Rect.unit (s := S8x325x128) ![6, 0, 0] S1x325x128.size inb_S8x325x128_S1x325x128_6_0_0, w6⟩, ⟨Rect.unit (s := S8x325x128) ![5, 0, 0] S1x325x128.size inb_S8x325x128_S1x325x128_5_0_0, w5⟩, ⟨Rect.unit (s := S8x325x128) ![4, 0, 0] S1x325x128.size inb_S8x325x128_S1x325x128_4_0_0, w4⟩, ⟨Rect.unit (s := S8x325x128) ![3, 0, 0] S1x325x128.size inb_S8x325x128_S1x325x128_3_0_0, w3⟩]
        ++ (⟨Rect.unit (s := S8x325x128) ![2, 0, 0] S1x325x128.size inb_S8x325x128_S1x325x128_2_0_0, w2⟩ : View.Piece (Elt F) S8x325x128 .f32)
          :: [⟨Rect.unit (s := S8x325x128) ![1, 0, 0] S1x325x128.size inb_S8x325x128_S1x325x128_1_0_0, w1⟩, ⟨Rect.unit (s := S8x325x128) ![0, 0, 0] S1x325x128.size inb_S8x325x128_S1x325x128_0_0_0, w0⟩] := rfl
  rw [e, canon_skip _ _ _ (fun q hq => by
    simp only [List.mem_cons, List.not_mem_nil, or_false] at hq
    rcases hq with rfl | rfl | rfl | rfl | rfl
    · exact not_mem_lead inb_S8x325x128_S1x325x128_7_0_0 _ _ _ (by omega)
    · exact not_mem_lead inb_S8x325x128_S1x325x128_6_0_0 _ _ _ (by omega)
    · exact not_mem_lead inb_S8x325x128_S1x325x128_5_0_0 _ _ _ (by omega)
    · exact not_mem_lead inb_S8x325x128_S1x325x128_4_0_0 _ _ _ (by omega)
    · exact not_mem_lead inb_S8x325x128_S1x325x128_3_0_0 _ _ _ (by omega)),
    ← emb_lead inb_S8x325x128_S1x325x128_2_0_0 u r c (by omega)]
  exact View.canon_cons_emb _ _ _ _

/-- Leading index `3` holds graph 3's stored block. -/
theorem outPieces_3 :
    View.canon (outPieces w7 w6 w5 w4 w3 w2 w1 w0) (ix3 (⟨3, by omega⟩ : Fin 8) r c) = w3 (ix3 u r c) := by
  have e : outPieces w7 w6 w5 w4 w3 w2 w1 w0
      = [⟨Rect.unit (s := S8x325x128) ![7, 0, 0] S1x325x128.size inb_S8x325x128_S1x325x128_7_0_0, w7⟩, ⟨Rect.unit (s := S8x325x128) ![6, 0, 0] S1x325x128.size inb_S8x325x128_S1x325x128_6_0_0, w6⟩, ⟨Rect.unit (s := S8x325x128) ![5, 0, 0] S1x325x128.size inb_S8x325x128_S1x325x128_5_0_0, w5⟩, ⟨Rect.unit (s := S8x325x128) ![4, 0, 0] S1x325x128.size inb_S8x325x128_S1x325x128_4_0_0, w4⟩]
        ++ (⟨Rect.unit (s := S8x325x128) ![3, 0, 0] S1x325x128.size inb_S8x325x128_S1x325x128_3_0_0, w3⟩ : View.Piece (Elt F) S8x325x128 .f32)
          :: [⟨Rect.unit (s := S8x325x128) ![2, 0, 0] S1x325x128.size inb_S8x325x128_S1x325x128_2_0_0, w2⟩, ⟨Rect.unit (s := S8x325x128) ![1, 0, 0] S1x325x128.size inb_S8x325x128_S1x325x128_1_0_0, w1⟩, ⟨Rect.unit (s := S8x325x128) ![0, 0, 0] S1x325x128.size inb_S8x325x128_S1x325x128_0_0_0, w0⟩] := rfl
  rw [e, canon_skip _ _ _ (fun q hq => by
    simp only [List.mem_cons, List.not_mem_nil, or_false] at hq
    rcases hq with rfl | rfl | rfl | rfl
    · exact not_mem_lead inb_S8x325x128_S1x325x128_7_0_0 _ _ _ (by omega)
    · exact not_mem_lead inb_S8x325x128_S1x325x128_6_0_0 _ _ _ (by omega)
    · exact not_mem_lead inb_S8x325x128_S1x325x128_5_0_0 _ _ _ (by omega)
    · exact not_mem_lead inb_S8x325x128_S1x325x128_4_0_0 _ _ _ (by omega)),
    ← emb_lead inb_S8x325x128_S1x325x128_3_0_0 u r c (by omega)]
  exact View.canon_cons_emb _ _ _ _

/-- Leading index `4` holds graph 4's stored block. -/
theorem outPieces_4 :
    View.canon (outPieces w7 w6 w5 w4 w3 w2 w1 w0) (ix3 (⟨4, by omega⟩ : Fin 8) r c) = w4 (ix3 u r c) := by
  have e : outPieces w7 w6 w5 w4 w3 w2 w1 w0
      = [⟨Rect.unit (s := S8x325x128) ![7, 0, 0] S1x325x128.size inb_S8x325x128_S1x325x128_7_0_0, w7⟩, ⟨Rect.unit (s := S8x325x128) ![6, 0, 0] S1x325x128.size inb_S8x325x128_S1x325x128_6_0_0, w6⟩, ⟨Rect.unit (s := S8x325x128) ![5, 0, 0] S1x325x128.size inb_S8x325x128_S1x325x128_5_0_0, w5⟩]
        ++ (⟨Rect.unit (s := S8x325x128) ![4, 0, 0] S1x325x128.size inb_S8x325x128_S1x325x128_4_0_0, w4⟩ : View.Piece (Elt F) S8x325x128 .f32)
          :: [⟨Rect.unit (s := S8x325x128) ![3, 0, 0] S1x325x128.size inb_S8x325x128_S1x325x128_3_0_0, w3⟩, ⟨Rect.unit (s := S8x325x128) ![2, 0, 0] S1x325x128.size inb_S8x325x128_S1x325x128_2_0_0, w2⟩, ⟨Rect.unit (s := S8x325x128) ![1, 0, 0] S1x325x128.size inb_S8x325x128_S1x325x128_1_0_0, w1⟩, ⟨Rect.unit (s := S8x325x128) ![0, 0, 0] S1x325x128.size inb_S8x325x128_S1x325x128_0_0_0, w0⟩] := rfl
  rw [e, canon_skip _ _ _ (fun q hq => by
    simp only [List.mem_cons, List.not_mem_nil, or_false] at hq
    rcases hq with rfl | rfl | rfl
    · exact not_mem_lead inb_S8x325x128_S1x325x128_7_0_0 _ _ _ (by omega)
    · exact not_mem_lead inb_S8x325x128_S1x325x128_6_0_0 _ _ _ (by omega)
    · exact not_mem_lead inb_S8x325x128_S1x325x128_5_0_0 _ _ _ (by omega)),
    ← emb_lead inb_S8x325x128_S1x325x128_4_0_0 u r c (by omega)]
  exact View.canon_cons_emb _ _ _ _

/-- Leading index `5` holds graph 5's stored block. -/
theorem outPieces_5 :
    View.canon (outPieces w7 w6 w5 w4 w3 w2 w1 w0) (ix3 (⟨5, by omega⟩ : Fin 8) r c) = w5 (ix3 u r c) := by
  have e : outPieces w7 w6 w5 w4 w3 w2 w1 w0
      = [⟨Rect.unit (s := S8x325x128) ![7, 0, 0] S1x325x128.size inb_S8x325x128_S1x325x128_7_0_0, w7⟩, ⟨Rect.unit (s := S8x325x128) ![6, 0, 0] S1x325x128.size inb_S8x325x128_S1x325x128_6_0_0, w6⟩]
        ++ (⟨Rect.unit (s := S8x325x128) ![5, 0, 0] S1x325x128.size inb_S8x325x128_S1x325x128_5_0_0, w5⟩ : View.Piece (Elt F) S8x325x128 .f32)
          :: [⟨Rect.unit (s := S8x325x128) ![4, 0, 0] S1x325x128.size inb_S8x325x128_S1x325x128_4_0_0, w4⟩, ⟨Rect.unit (s := S8x325x128) ![3, 0, 0] S1x325x128.size inb_S8x325x128_S1x325x128_3_0_0, w3⟩, ⟨Rect.unit (s := S8x325x128) ![2, 0, 0] S1x325x128.size inb_S8x325x128_S1x325x128_2_0_0, w2⟩, ⟨Rect.unit (s := S8x325x128) ![1, 0, 0] S1x325x128.size inb_S8x325x128_S1x325x128_1_0_0, w1⟩, ⟨Rect.unit (s := S8x325x128) ![0, 0, 0] S1x325x128.size inb_S8x325x128_S1x325x128_0_0_0, w0⟩] := rfl
  rw [e, canon_skip _ _ _ (fun q hq => by
    simp only [List.mem_cons, List.not_mem_nil, or_false] at hq
    rcases hq with rfl | rfl
    · exact not_mem_lead inb_S8x325x128_S1x325x128_7_0_0 _ _ _ (by omega)
    · exact not_mem_lead inb_S8x325x128_S1x325x128_6_0_0 _ _ _ (by omega)),
    ← emb_lead inb_S8x325x128_S1x325x128_5_0_0 u r c (by omega)]
  exact View.canon_cons_emb _ _ _ _

/-- Leading index `6` holds graph 6's stored block. -/
theorem outPieces_6 :
    View.canon (outPieces w7 w6 w5 w4 w3 w2 w1 w0) (ix3 (⟨6, by omega⟩ : Fin 8) r c) = w6 (ix3 u r c) := by
  have e : outPieces w7 w6 w5 w4 w3 w2 w1 w0
      = [⟨Rect.unit (s := S8x325x128) ![7, 0, 0] S1x325x128.size inb_S8x325x128_S1x325x128_7_0_0, w7⟩]
        ++ (⟨Rect.unit (s := S8x325x128) ![6, 0, 0] S1x325x128.size inb_S8x325x128_S1x325x128_6_0_0, w6⟩ : View.Piece (Elt F) S8x325x128 .f32)
          :: [⟨Rect.unit (s := S8x325x128) ![5, 0, 0] S1x325x128.size inb_S8x325x128_S1x325x128_5_0_0, w5⟩, ⟨Rect.unit (s := S8x325x128) ![4, 0, 0] S1x325x128.size inb_S8x325x128_S1x325x128_4_0_0, w4⟩, ⟨Rect.unit (s := S8x325x128) ![3, 0, 0] S1x325x128.size inb_S8x325x128_S1x325x128_3_0_0, w3⟩, ⟨Rect.unit (s := S8x325x128) ![2, 0, 0] S1x325x128.size inb_S8x325x128_S1x325x128_2_0_0, w2⟩, ⟨Rect.unit (s := S8x325x128) ![1, 0, 0] S1x325x128.size inb_S8x325x128_S1x325x128_1_0_0, w1⟩, ⟨Rect.unit (s := S8x325x128) ![0, 0, 0] S1x325x128.size inb_S8x325x128_S1x325x128_0_0_0, w0⟩] := rfl
  rw [e, canon_skip _ _ _ (fun q hq => by
    simp only [List.mem_cons, List.not_mem_nil, or_false] at hq
    rcases hq with rfl
    · exact not_mem_lead inb_S8x325x128_S1x325x128_7_0_0 _ _ _ (by omega)),
    ← emb_lead inb_S8x325x128_S1x325x128_6_0_0 u r c (by omega)]
  exact View.canon_cons_emb _ _ _ _

/-- Leading index `7` holds graph 7's stored block. -/
theorem outPieces_7 :
    View.canon (outPieces w7 w6 w5 w4 w3 w2 w1 w0) (ix3 (⟨7, by omega⟩ : Fin 8) r c) = w7 (ix3 u r c) := by
  have e : outPieces w7 w6 w5 w4 w3 w2 w1 w0
      = []
        ++ (⟨Rect.unit (s := S8x325x128) ![7, 0, 0] S1x325x128.size inb_S8x325x128_S1x325x128_7_0_0, w7⟩ : View.Piece (Elt F) S8x325x128 .f32)
          :: [⟨Rect.unit (s := S8x325x128) ![6, 0, 0] S1x325x128.size inb_S8x325x128_S1x325x128_6_0_0, w6⟩, ⟨Rect.unit (s := S8x325x128) ![5, 0, 0] S1x325x128.size inb_S8x325x128_S1x325x128_5_0_0, w5⟩, ⟨Rect.unit (s := S8x325x128) ![4, 0, 0] S1x325x128.size inb_S8x325x128_S1x325x128_4_0_0, w4⟩, ⟨Rect.unit (s := S8x325x128) ![3, 0, 0] S1x325x128.size inb_S8x325x128_S1x325x128_3_0_0, w3⟩, ⟨Rect.unit (s := S8x325x128) ![2, 0, 0] S1x325x128.size inb_S8x325x128_S1x325x128_2_0_0, w2⟩, ⟨Rect.unit (s := S8x325x128) ![1, 0, 0] S1x325x128.size inb_S8x325x128_S1x325x128_1_0_0, w1⟩, ⟨Rect.unit (s := S8x325x128) ![0, 0, 0] S1x325x128.size inb_S8x325x128_S1x325x128_0_0_0, w0⟩] := rfl
  rw [e, canon_skip _ _ _ (fun q hq => absurd hq List.not_mem_nil),
    ← emb_lead inb_S8x325x128_S1x325x128_7_0_0 u r c (by omega)]
  exact View.canon_cons_emb _ _ _ _

end

end Cert.KPay

end
-- ==== Proof.KPayIdx.lean ====
/-
  The layer's values read at an index, at the ideal floats.

  At the ideal instance a float is an extended real, every operation is the exact one and a change of format is the
  identity, so each value of `KPayDefs.lean` read at row `r`, column `c` is a plain expression in the entries of its
  operands: a matrix product into a zero accumulator is the sum over the contracted coordinate of the products of the
  entries, a slice reads the source at the shifted coordinates, the bias row is read at the column, the literal `2.0`
  is the real number two and the literal `0.0` is zero.
-/
import proofs.«146035_g81071802679316_cont_sun_m_195_36_alg».proof.Proof.KPayDefs
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.KPay

open Idealize.ShloMosaic Idealize.ShloMosaic.ValueIdx Cert.KernelIdeal Cert.KernelIdeal.Gen

/-! ## Literals, slices, products -/

/-- The f32 pattern `0x40000000` is the real number two. -/
theorem ofBits_two_f32 : Ideal.ofBits .f32 0x40000000#32 = ((2 : ℝ) : EReal) := by
  simp [Ideal.ofBits, Ideal.ieee, -EReal.coe_mul]; norm_num

/-- A row of a block cut from row `o0` is inside the source. -/
theorem slice_row_lt {n0 n1 m0 m1 o0 o1 : ℕ} (h : (⟨2, ![n0, n1]⟩ : Shape).Slices ![o0, o1] ⟨2, ![m0, m1]⟩) (r : Fin m0) :
    o0 + r.val < n0 := Nat.lt_of_lt_of_le (Nat.add_lt_add_left r.isLt o0) (h.2 0)

/-- A column of a block cut from column `o1` is inside the source. -/
theorem slice_col_lt {n0 n1 m0 m1 o0 o1 : ℕ} (h : (⟨2, ![n0, n1]⟩ : Shape).Slices ![o0, o1] ⟨2, ![m0, m1]⟩) (c : Fin m1) :
    o1 + c.val < n1 := Nat.lt_of_lt_of_le (Nat.add_lt_add_left c.isLt o1) (h.2 1)

/-- A block cut from a matrix at `(o0, o1)` reads, at `(r, c)`, the matrix at `(o0 + r, o1 + c)`. -/
theorem slice2_apply {α : Type} {n0 n1 m0 m1 : ℕ} (o0 o1 : ℕ) (X : (⟨2, ![n0, n1]⟩ : Shape).Idx → α)
    (h : (⟨2, ![n0, n1]⟩ : Shape).Slices ![o0, o1] ⟨2, ![m0, m1]⟩) (r : Fin m0) (c : Fin m1) :
    extractStridedSlice ⟨2, ![m0, m1]⟩ ![o0, o1] X h (ix2 r c)
      = X (ix2 ⟨o0 + r.val, slice_row_lt h r⟩ ⟨o1 + c.val, slice_col_lt h c⟩) :=
  extractStridedSlice_apply _ _ _ _ _ (fun ax => by
    match ax with
    | ⟨0, _⟩ => rfl
    | ⟨1, _⟩ => rfl)

/-- The same for a block cut from column `0`: the column is unchanged. -/
theorem slice2_col0_apply {α : Type} {n0 n1 m0 m1 : ℕ} (o0 : ℕ) (X : (⟨2, ![n0, n1]⟩ : Shape).Idx → α)
    (h : (⟨2, ![n0, n1]⟩ : Shape).Slices ![o0, 0] ⟨2, ![m0, m1]⟩) (r : Fin m0) (c : Fin m1) :
    extractStridedSlice ⟨2, ![m0, m1]⟩ ![o0, 0] X h (ix2 r c)
      = X (ix2 ⟨o0 + r.val, slice_row_lt h r⟩ ⟨c.val, by have := slice_col_lt h c; omega⟩) :=
  extractStridedSlice_apply _ _ _ _ _ (fun ax => by
    match ax with
    | ⟨0, _⟩ => rfl
    | ⟨1, _⟩ => exact (Nat.zero_add _).symm)

/-- An `m × k` by `k × n` matrix product into a zero accumulator, read at `(a, b)`, is the sum over the contracted
    coordinate of the products of the entries. -/
theorem matmul_plain_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  show FloatOps.matmul _ prec A B _ _ = _
  rw [Ideal.matmul_constant_zero_apply]
  exact (Ideal.dotGeneral_apply (DotDims.plain m k n) prec HostSchedule.single A B (ix2 a b)).symm.trans
    (StackMember.dotGeneral_plain_apply prec A B a b)

/-- The body's five products are plain `m × k` by `k × n` products. -/
theorem dot_lap256_eq : dot_S336x336_S336x256_S336x256_1_0_0_1_n_n = DotDims.plain 336 336 256 := rfl
theorem dot_lap128_eq : dot_S336x336_S336x128_S336x128_1_0_0_1_n_n = DotDims.plain 336 336 128 := rfl
theorem dot_proj1_eq : dot_S2688x384_S384x768_S2688x768_1_0_0_1_n_n = DotDims.plain 2688 384 768 := rfl
theorem dot_proj2_eq : dot_S2688x256_S256x768_S2688x768_1_0_0_1_n_n = DotDims.plain 2688 256 768 := rfl
theorem dot_proj3_eq : dot_S2688x256_S256x384_S2688x384_1_0_0_1_n_n = DotDims.plain 2688 256 384 := rfl

end Cert.KPay

end
-- ==== Proof.KPayHid.lean ====
/-
  A hidden layer's stored block read at an index, at the ideal floats.

  With `p` the stacked projection, `L` a graph's Laplacian, `o` the graph's first row in `p` and `b` the bias, the
  entry at row `r`, column `c` of what a hidden layer stores is

      max (p[o + r, c] + ∑ k, L[r, k] · (p[o + k, 256 + c] + 2 · ∑ j, L[k, j] · p[o + j, 512 + c]) + b[c]) 0,

  sums over the graph's 336 rows.
-/
import proofs.«146035_g81071802679316_cont_sun_m_195_36_alg».proof.Proof.KPayIdx

noncomputable section

open scoped BigOperators

namespace Cert.KPay

open Idealize.ShloMosaic Idealize.ShloMosaic.ValueIdx Cert.KernelIdeal Cert.KernelIdeal.Gen

/-- The bias row copied to every row reads the bias at the column. -/
theorem biasRows_apply (b : FVec Ideal S256 .f32) (r : Fin 336) (c : Fin 256) : biasRows b (ix2 r c) = b (ix1 c) := by
  unfold biasRows
  rw [broadcastTo_1b_ab_apply, shapeCast_a_1a_apply]

section
variable (L : FVec Ideal S336x336 .bf16) (p : FVec Ideal S2688x768 .f32) (b : FVec Ideal S256 .f32) (o : ℕ)
  (h0 : S2688x768.Slices ![o, 0] S336x256) (h1 : S2688x768.Slices ![o, 256] S336x256)
  (h2 : S2688x768.Slices ![o, 512] S336x256) (r : Fin 336) (c : Fin 256)

/-- `L · p[o.., 512..]` at `(r, c)`. -/
theorem prop2_apply :
    prop2 L p o h2 (ix2 r c)
      = ∑ k : Fin 336, L (ix2 r k) * p (ix2 ⟨o + k.val, slice_row_lt h2 k⟩ ⟨512 + c.val, slice_col_lt h2 c⟩) := by
  unfold prop2
  rw [dot_lap256_eq, matmul_plain_apply]
  refine Finset.sum_congr rfl fun k _ => ?_
  rw [truncf_apply, slice2_apply]

/-- `p[o.., 256..] + 2 · (L · p[o.., 512..])` at `(r, c)`. -/
theorem mid_apply :
    mid L p o h1 h2 (ix2 r c)
      = p (ix2 ⟨o + r.val, slice_row_lt h1 r⟩ ⟨256 + c.val, slice_col_lt h1 c⟩)
        + ((2 : ℝ) : EReal)
          * ∑ k : Fin 336, L (ix2 r k) * p (ix2 ⟨o + k.val, slice_row_lt h2 k⟩ ⟨512 + c.val, slice_col_lt h2 c⟩) := by
  unfold mid
  rw [truncf_apply, addf_apply, mulf_apply, broadcast_apply, slice2_apply, prop2_apply]
  show _ + Ideal.ofBits .f32 0x40000000#32 * _ = _
  rw [ofBits_two_f32]

/-- `p[o.., 0..] + L · mid` at `(r, c)`. -/
theorem acc_apply :
    acc L p o h0 h1 h2 (ix2 r c)
      = p (ix2 ⟨o + r.val, slice_row_lt h0 r⟩ ⟨c.val, by have := c.isLt; omega⟩)
        + ∑ k : Fin 336, L (ix2 r k)
            * (p (ix2 ⟨o + k.val, slice_row_lt h1 k⟩ ⟨256 + c.val, slice_col_lt h1 c⟩)
              + ((2 : ℝ) : EReal)
                * ∑ j : Fin 336, L (ix2 k j) * p (ix2 ⟨o + j.val, slice_row_lt h2 j⟩ ⟨512 + c.val, slice_col_lt h2 c⟩)) := by
  unfold acc
  rw [addf_apply, slice2_col0_apply, dot_lap256_eq, matmul_plain_apply]
  refine congrArg _ (Finset.sum_congr rfl fun k _ => ?_)
  rw [mid_apply]

/-- The stored block at `(r, c)`: `max (acc + bias) 0`. -/
theorem hid_apply :
    hid L p b o h0 h1 h2 (ix2 r c) = max (acc L p o h0 h1 h2 (ix2 r c) + b (ix1 c)) 0 := by
  unfold hid hidPre
  rw [shapeCast_self, truncf_apply, maximumf_apply, addf_apply, broadcast_apply, biasRows_apply]
  show max _ (Ideal.ofBits .f32 0x00000000#32) = _
  rw [Ideal.ofBits_zero_f32]

/-- The stored block at `(r, c)`, written out. -/
theorem hid_apply_sum :
    hid L p b o h0 h1 h2 (ix2 r c)
      = max (p (ix2 ⟨o + r.val, slice_row_lt h0 r⟩ ⟨c.val, by have := c.isLt; omega⟩)
          + ∑ k : Fin 336, L (ix2 r k)
              * (p (ix2 ⟨o + k.val, slice_row_lt h1 k⟩ ⟨256 + c.val, slice_col_lt h1 c⟩)
                + ((2 : ℝ) : EReal)
                  * ∑ j : Fin 336, L (ix2 k j) * p (ix2 ⟨o + j.val, slice_row_lt h2 j⟩ ⟨512 + c.val, slice_col_lt h2 c⟩))
          + b (ix1 c)) 0 := by
  rw [hid_apply, acc_apply]

end

end Cert.KPay

end
-- ==== Proof.KPayOut.lean ====
/-
  The last layer's stored block read at an index, at the ideal floats.

  With `p` the stacked projection of the last layer (three column bands of width 128), `L` a graph's Laplacian, `o` the
  graph's first row in `p` and `b` the bias, the entry at node `r < 325`, column `c` of the `[1, 325, 128]` block the layer
  stores is

      p[o + r, c] + ∑ k, L[r, k] · (p[o + k, 128 + c] + 2 · ∑ j, L[k, j] · p[o + j, 256 + c]) + b[c],

  sums over the graph's 336 rows.
-/
import proofs.«146035_g81071802679316_cont_sun_m_195_36_alg».proof.Proof.KPayIdx

noncomputable section

open scoped BigOperators

namespace Cert.KPay

open Idealize.ShloMosaic Idealize.ShloMosaic.ValueIdx Cert.KernelIdeal Cert.KernelIdeal.Gen

/-- The bias row copied to every row reads the bias at the column. -/
theorem biasRowso_apply (b : FVec Ideal S128 .f32) (r : Fin 336) (c : Fin 128) : biasRowso b (ix2 r c) = b (ix1 c) := by
  unfold biasRowso
  rw [broadcastTo_1b_ab_apply, shapeCast_a_1a_apply]

section
variable (L : FVec Ideal S336x336 .bf16) (p : FVec Ideal S2688x384 .f32) (b : FVec Ideal S128 .f32) (o : ℕ)
  (h0 : S2688x384.Slices ![o, 0] S336x128) (h1 : S2688x384.Slices ![o, 128] S336x128)
  (h2 : S2688x384.Slices ![o, 256] S336x128)

/-- `L · p[o.., 256..]` at `(r, c)`. -/
theorem prop2o_apply (r : Fin 336) (c : Fin 128) :
    prop2o L p o h2 (ix2 r c)
      = ∑ k : Fin 336, L (ix2 r k) * p (ix2 ⟨o + k.val, slice_row_lt h2 k⟩ ⟨256 + c.val, slice_col_lt h2 c⟩) := by
  unfold prop2o
  rw [dot_lap128_eq, matmul_plain_apply]
  refine Finset.sum_congr rfl fun k _ => ?_
  rw [truncf_apply, slice2_apply]

/-- `p[o.., 128..] + 2 · (L · p[o.., 256..])` at `(r, c)`. -/
theorem mido_apply (r : Fin 336) (c : Fin 128) :
    mido L p o h1 h2 (ix2 r c)
      = p (ix2 ⟨o + r.val, slice_row_lt h1 r⟩ ⟨128 + c.val, slice_col_lt h1 c⟩)
        + ((2 : ℝ) : EReal)
          * ∑ k : Fin 336, L (ix2 r k) * p (ix2 ⟨o + k.val, slice_row_lt h2 k⟩ ⟨256 + c.val, slice_col_lt h2 c⟩) := by
  unfold mido
  rw [truncf_apply, addf_apply, mulf_apply, broadcast_apply, slice2_apply, prop2o_apply]
  show _ + Ideal.ofBits .f32 0x40000000#32 * _ = _
  rw [ofBits_two_f32]

/-- `p[o.., 0..] + L · mido` at `(r, c)`. -/
theorem acco_apply (r : Fin 336) (c : Fin 128) :
    acco L p o h0 h1 h2 (ix2 r c)
      = p (ix2 ⟨o + r.val, slice_row_lt h0 r⟩ ⟨c.val, by have := c.isLt; omega⟩)
        + ∑ k : Fin 336, L (ix2 r k)
            * (p (ix2 ⟨o + k.val, slice_row_lt h1 k⟩ ⟨128 + c.val, slice_col_lt h1 c⟩)
              + ((2 : ℝ) : EReal)
                * ∑ j : Fin 336, L (ix2 k j) * p (ix2 ⟨o + j.val, slice_row_lt h2 j⟩ ⟨256 + c.val, slice_col_lt h2 c⟩)) := by
  unfold acco
  rw [addf_apply, slice2_col0_apply, dot_lap128_eq, matmul_plain_apply]
  refine congrArg _ (Finset.sum_congr rfl fun k _ => ?_)
  rw [mido_apply]

/-- The stored block at `(u, r, c)`: the first 325 rows of `acco + bias`. -/
theorem out3_apply (u : Fin 1) (r : Fin 325) (c : Fin 128) :
    out3 L p b o h0 h1 h2 (ix3 u r c)
      = acco L p o h0 h1 h2 (ix2 ⟨r.val, by have := r.isLt; omega⟩ c) + b (ix1 c) := by
  unfold out3
  rw [shapeCast_ab_1ab_apply,
    extractStridedSlice_apply ![0, 0] _ slices_S336x128_o0_0_S325x128 (ix2 r c)
      (ix2 ⟨r.val, by have := r.isLt; omega⟩ c) (fun ax => by
        match ax with
        | ⟨0, _⟩ => exact (Nat.zero_add _).symm
        | ⟨1, _⟩ => exact (Nat.zero_add _).symm),
    addf_apply, biasRowso_apply]

/-- The stored block at `(u, r, c)`, written out. -/
theorem out3_apply_sum (u : Fin 1) (r : Fin 325) (c : Fin 128) :
    out3 L p b o h0 h1 h2 (ix3 u r c)
      = p (ix2 ⟨o + r.val, slice_row_lt h0 ⟨r.val, by have := r.isLt; omega⟩⟩ ⟨c.val, by have := c.isLt; omega⟩)
        + ∑ k : Fin 336, L (ix2 ⟨r.val, by have := r.isLt; omega⟩ k)
            * (p (ix2 ⟨o + k.val, slice_row_lt h1 k⟩ ⟨128 + c.val, slice_col_lt h1 c⟩)
              + ((2 : ℝ) : EReal)
                * ∑ j : Fin 336, L (ix2 k j) * p (ix2 ⟨o + j.val, slice_row_lt h2 j⟩ ⟨256 + c.val, slice_col_lt h2 c⟩))
        + b (ix1 c) := by
  rw [out3_apply, acco_apply]

end

end Cert.KPay

end
-- ==== Proof.KPayProj.lean ====
/-
  The three stacked projections read at an index, at the ideal floats.

  Each layer's first step multiplies the stacked node features `x` (2688 rows: eight graphs of 336) by the layer's
  stacked weights `w`.  Read at row `r`, column `c` the product is `∑ k, x[r, k] · w[k, c]`.  The weights reach the product
  through a shape cast to their own shape, which changes nothing.
-/
import proofs.«146035_g81071802679316_cont_sun_m_195_36_alg».proof.Proof.KPayIdx

noncomputable section

open scoped BigOperators

namespace Cert.KPay

open Idealize.ShloMosaic Idealize.ShloMosaic.ValueIdx Cert.KernelIdeal Cert.KernelIdeal.Gen

section AnyInstance
variable {F : FTy → Type} [FloatOps F]

/-- The loaded weights pass through a shape cast to their own shape. -/
theorem pay2_eq (v : Vec F S384x768 .bf16) : k0_pay2 v = v := shapeCast_self v _
theorem pay3_eq (v : Vec F S256x768 .bf16) : k0_pay3 v = v := shapeCast_self v _
theorem pay4_eq (v : Vec F S256x384 .bf16) : k0_pay4 v = v := shapeCast_self v _

end AnyInstance

/-- The first layer's projection at `(r, c)`. -/
theorem proj1_apply (w : FVec Ideal S384x768 .bf16) (x : FVec Ideal S2688x384 .bf16) (r : Fin 2688) (c : Fin 768) :
    k0_pay28 w x (ix2 r c) = ∑ k : Fin 384, x (ix2 r k) * w (ix2 k c) := by
  show matmul dot_S2688x384_S384x768_S2688x768_1_0_0_1_n_n none
      (shapeCast S2688x384 x shapeCasts_S2688x384_S2688x384) w (constant S2688x768 .f32 0x00000000#32) (ix2 r c) = _
  rw [shapeCast_self, dot_proj1_eq, matmul_plain_apply]

/-- The second layer's projection at `(r, c)`. -/
theorem proj2_apply (w : FVec Ideal S256x768 .bf16) (x : FVec Ideal S2688x256 .bf16) (r : Fin 2688) (c : Fin 768) :
    k0_pay43 w x (ix2 r c) = ∑ k : Fin 256, x (ix2 r k) * w (ix2 k c) := by
  show matmul dot_S2688x256_S256x768_S2688x768_1_0_0_1_n_n none x w (constant S2688x768 .f32 0x00000000#32) (ix2 r c) = _
  rw [dot_proj2_eq, matmul_plain_apply]

/-- The last layer's projection at `(r, c)`. -/
theorem proj3_apply (w : FVec Ideal S256x384 .bf16) (x : FVec Ideal S2688x256 .bf16) (r : Fin 2688) (c : Fin 384) :
    k0_pay55 w x (ix2 r c) = ∑ k : Fin 256, x (ix2 r k) * w (ix2 k c) := by
  show matmul dot_S2688x256_S256x384_S2688x384_1_0_0_1_n_n none x w (constant S2688x384 .f32 0x00000000#32) (ix2 r c) = _
  rw [dot_proj3_eq, matmul_plain_apply]

end Cert.KPay

end
-- ==== Proof.LibReal.lean ====
/-
  Arrays of extended reals all of whose entries are real numbers: the predicate under which the ring laws
  (distributivity, moving a factor across a finite sum) hold entry by entry, and its closure under the
  arithmetic that keeps reals real.
-/
import Mathlib.Data.EReal.Basic
import Mathlib.Data.EReal.Operations
import Mathlib.Algebra.BigOperators.Group.Finset.Basic

open scoped BigOperators

namespace LibReal

/-- Every entry of `x` is (the coercion of) a real number. -/
def AllReal {ι : Type} (x : ι → EReal) : Prop := ∀ i, ∃ r : ℝ, x i = (r : EReal)

theorem AllReal.add {ι : Type} {x y : ι → EReal} (hx : AllReal x) (hy : AllReal y) : AllReal (fun i => x i + y i) := fun i => by
  obtain ⟨a, ha⟩ := hx i; obtain ⟨b, hb⟩ := hy i
  exact ⟨a + b, by show x i + y i = _; rw [ha, hb, EReal.coe_add]⟩

theorem AllReal.mul {ι : Type} {x y : ι → EReal} (hx : AllReal x) (hy : AllReal y) : AllReal (fun i => x i * y i) := fun i => by
  obtain ⟨a, ha⟩ := hx i; obtain ⟨b, hb⟩ := hy i
  exact ⟨a * b, by show x i * y i = _; rw [ha, hb, EReal.coe_mul]⟩

/-- A finite sum of coerced reals is the coerced sum. -/
theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real entries is real. -/
theorem exists_real_sum {κ : Type} (s : Finset κ) (f : κ → EReal) (h : ∀ k ∈ s, ∃ r : ℝ, f k = (r : EReal)) :
    ∃ r : ℝ, ∑ k ∈ s, f k = (r : EReal) := by
  classical
  choose! g hg using h
  exact ⟨∑ k ∈ s, g k, by rw [coe_sum]; exact Finset.sum_congr rfl hg⟩

end LibReal
-- ==== Proof.KPayCoe.lean ====
/-
  The layer's values on arrays of real numbers.

  When every entry of the Laplacian, of the projection and of the bias is (the coercion of) a real number, every value
  of the layer is the coercion of the same expression over the reals: sums, products and maxima of coerced reals are
  the coerced sums, products and maxima.
-/
import proofs.«146035_g81071802679316_cont_sun_m_195_36_alg».proof.Proof.KPayHid
import proofs.«146035_g81071802679316_cont_sun_m_195_36_alg».proof.Proof.KPayOut
import proofs.«146035_g81071802679316_cont_sun_m_195_36_alg».proof.Proof.KPayProj
import proofs.«146035_g81071802679316_cont_sun_m_195_36_alg».proof.Proof.LibReal

noncomputable section

open scoped BigOperators

namespace Cert.KPay

open Idealize.ShloMosaic Idealize.ShloMosaic.ValueIdx Cert.KernelIdeal Cert.KernelIdeal.Gen

/-- The maximum of a coerced real and zero is the coerced maximum. -/
theorem coe_max_zero (a : ℝ) : max (a : EReal) 0 = ((max a 0 : ℝ) : EReal) := by
  rw [← EReal.coe_zero]
  exact (EReal.coe_strictMono.monotone.map_max).symm

/-! ## The projections -/

theorem proj1_coe (w : FVec Ideal S384x768 .bf16) (x : FVec Ideal S2688x384 .bf16)
    (wr : Fin 384 → Fin 768 → ℝ) (xr : Fin 2688 → Fin 384 → ℝ)
    (hw : ∀ k c, w (ix2 k c) = (wr k c : EReal)) (hx : ∀ r k, x (ix2 r k) = (xr r k : EReal))
    (r : Fin 2688) (c : Fin 768) : k0_pay28 w x (ix2 r c) = ((∑ k, xr r k * wr k c : ℝ) : EReal) := by
  rw [proj1_apply]
  simp only [hw, hx, ← EReal.coe_mul, ← LibReal.coe_sum]

theorem proj2_coe (w : FVec Ideal S256x768 .bf16) (x : FVec Ideal S2688x256 .bf16)
    (wr : Fin 256 → Fin 768 → ℝ) (xr : Fin 2688 → Fin 256 → ℝ)
    (hw : ∀ k c, w (ix2 k c) = (wr k c : EReal)) (hx : ∀ r k, x (ix2 r k) = (xr r k : EReal))
    (r : Fin 2688) (c : Fin 768) : k0_pay43 w x (ix2 r c) = ((∑ k, xr r k * wr k c : ℝ) : EReal) := by
  rw [proj2_apply]
  simp only [hw, hx, ← EReal.coe_mul, ← LibReal.coe_sum]

theorem proj3_coe (w : FVec Ideal S256x384 .bf16) (x : FVec Ideal S2688x256 .bf16)
    (wr : Fin 256 → Fin 384 → ℝ) (xr : Fin 2688 → Fin 256 → ℝ)
    (hw : ∀ k c, w (ix2 k c) = (wr k c : EReal)) (hx : ∀ r k, x (ix2 r k) = (xr r k : EReal))
    (r : Fin 2688) (c : Fin 384) : k0_pay55 w x (ix2 r c) = ((∑ k, xr r k * wr k c : ℝ) : EReal) := by
  rw [proj3_apply]
  simp only [hw, hx, ← EReal.coe_mul, ← LibReal.coe_sum]

/-! ## A hidden layer's stored block -/

theorem hid_coe (L : FVec Ideal S336x336 .bf16) (p : FVec Ideal S2688x768 .f32) (b : FVec Ideal S256 .f32) (o : ℕ)
    (h0 : S2688x768.Slices ![o, 0] S336x256) (h1 : S2688x768.Slices ![o, 256] S336x256)
    (h2 : S2688x768.Slices ![o, 512] S336x256)
    (Lr : Fin 336 → Fin 336 → ℝ) (pr : Fin 2688 → Fin 768 → ℝ) (br : Fin 256 → ℝ)
    (hL : ∀ r k, L (ix2 r k) = (Lr r k : EReal)) (hp : ∀ r c, p (ix2 r c) = (pr r c : EReal))
    (hb : ∀ c, b (ix1 c) = (br c : EReal)) (r : Fin 336) (c : Fin 256) :
    hid L p b o h0 h1 h2 (ix2 r c)
      = ((max (pr ⟨o + r.val, slice_row_lt h0 r⟩ ⟨c.val, by have := c.isLt; omega⟩
          + ∑ k : Fin 336, Lr r k
              * (pr ⟨o + k.val, slice_row_lt h1 k⟩ ⟨256 + c.val, slice_col_lt h1 c⟩
                + 2 * ∑ j : Fin 336, Lr k j * pr ⟨o + j.val, slice_row_lt h2 j⟩ ⟨512 + c.val, slice_col_lt h2 c⟩)
          + br c) 0 : ℝ) : EReal) := by
  rw [hid_apply_sum]
  simp only [hL, hp, hb, ← EReal.coe_mul, ← LibReal.coe_sum, ← EReal.coe_add]
  exact coe_max_zero _

/-! ## The last layer's stored block -/

theorem out3_coe (L : FVec Ideal S336x336 .bf16) (p : FVec Ideal S2688x384 .f32) (b : FVec Ideal S128 .f32) (o : ℕ)
    (h0 : S2688x384.Slices ![o, 0] S336x128) (h1 : S2688x384.Slices ![o, 128] S336x128)
    (h2 : S2688x384.Slices ![o, 256] S336x128)
    (Lr : Fin 336 → Fin 336 → ℝ) (pr : Fin 2688 → Fin 384 → ℝ) (br : Fin 128 → ℝ)
    (hL : ∀ r k, L (ix2 r k) = (Lr r k : EReal)) (hp : ∀ r c, p (ix2 r c) = (pr r c : EReal))
    (hb : ∀ c, b (ix1 c) = (br c : EReal)) (u : Fin 1) (r : Fin 325) (c : Fin 128) :
    out3 L p b o h0 h1 h2 (ix3 u r c)
      = ((pr ⟨o + r.val, slice_row_lt h0 ⟨r.val, by have := r.isLt; omega⟩⟩ ⟨c.val, by have := c.isLt; omega⟩
          + ∑ k : Fin 336, Lr ⟨r.val, by have := r.isLt; omega⟩ k
              * (pr ⟨o + k.val, slice_row_lt h1 k⟩ ⟨128 + c.val, slice_col_lt h1 c⟩
                + 2 * ∑ j : Fin 336, Lr k j * pr ⟨o + j.val, slice_row_lt h2 j⟩ ⟨256 + c.val, slice_col_lt h2 c⟩)
          + br c : ℝ) : EReal) := by
  rw [out3_apply_sum]
  simp only [hL, hp, hb, ← EReal.coe_mul, ← LibReal.coe_sum, ← EReal.coe_add]

end Cert.KPay

end
-- ==== Proof.KPayRows.lean ====
/-
  A scratch buffer after a hidden layer, on arrays of real numbers.

  When the eight Laplacians, the projection and the bias are (coercions of) real arrays, the scratch buffer the eight
  stores of a hidden layer leave reads, at every row `R` and column `c`, the coercion of the real hidden layer on the
  stacked rows: row `R` is local row `R % 336` of graph `R / 336`.
-/
import proofs.«146035_g81071802679316_cont_sun_m_195_36_alg».proof.Proof.KPayCanon
import proofs.«146035_g81071802679316_cont_sun_m_195_36_alg».proof.Proof.KPayCoe
import proofs.«146035_g81071802679316_cont_sun_m_195_36_alg».proof.Proof.KRealChain

noncomputable section

namespace Cert.KPay

open Idealize.ShloMosaic Idealize.ShloMosaic.ValueIdx Cert.KernelIdeal Cert.KernelIdeal.Gen

theorem rows_hid_coe (L0 L1 L2 L3 L4 L5 L6 L7 : FVec Ideal S336x336 .bf16) (p : FVec Ideal S2688x768 .f32)
    (b : FVec Ideal S256 .f32) (Lr : Fin 8 → Fin 336 → Fin 336 → ℝ) (Pr : Fin 2688 → Fin 768 → ℝ) (br : Fin 256 → ℝ)
    (hL0 : ∀ r k, L0 (ix2 r k) = (Lr 0 r k : EReal))
    (hL1 : ∀ r k, L1 (ix2 r k) = (Lr 1 r k : EReal))
    (hL2 : ∀ r k, L2 (ix2 r k) = (Lr 2 r k : EReal))
    (hL3 : ∀ r k, L3 (ix2 r k) = (Lr 3 r k : EReal))
    (hL4 : ∀ r k, L4 (ix2 r k) = (Lr 4 r k : EReal))
    (hL5 : ∀ r k, L5 (ix2 r k) = (Lr 5 r k : EReal))
    (hL6 : ∀ r k, L6 (ix2 r k) = (Lr 6 r k : EReal))
    (hL7 : ∀ r k, L7 (ix2 r k) = (Lr 7 r k : EReal))
    (hp : ∀ R j, p (ix2 R j) = (Pr R j : EReal)) (hb : ∀ j, b (ix1 j) = (br j : EReal))
    (R : Fin 2688) (c : Fin 256) :
    View.canon (rowPieces
        (hid L7 p b 2352 slices_S2688x768_o2352_0_S336x256 slices_S2688x768_o2352_256_S336x256 slices_S2688x768_o2352_512_S336x256)
        (hid L6 p b 2016 slices_S2688x768_o2016_0_S336x256 slices_S2688x768_o2016_256_S336x256 slices_S2688x768_o2016_512_S336x256)
        (hid L5 p b 1680 slices_S2688x768_o1680_0_S336x256 slices_S2688x768_o1680_256_S336x256 slices_S2688x768_o1680_512_S336x256)
        (hid L4 p b 1344 slices_S2688x768_o1344_0_S336x256 slices_S2688x768_o1344_256_S336x256 slices_S2688x768_o1344_512_S336x256)
        (hid L3 p b 1008 slices_S2688x768_o1008_0_S336x256 slices_S2688x768_o1008_256_S336x256 slices_S2688x768_o1008_512_S336x256)
        (hid L2 p b 672 slices_S2688x768_o672_0_S336x256 slices_S2688x768_o672_256_S336x256 slices_S2688x768_o672_512_S336x256)
        (hid L1 p b 336 slices_S2688x768_o336_0_S336x256 slices_S2688x768_o336_256_S336x256 slices_S2688x768_o336_512_S336x256)
        (hid L0 p b 0 slices_S2688x768_o0_0_S336x256 slices_S2688x768_o0_256_S336x256 slices_S2688x768_o0_512_S336x256))
      (ix2 R c) = ((Cert.KReal.hidR Lr Pr br R c : ℝ) : EReal) := by
  obtain ⟨g, r, rfl⟩ : ∃ (g : Fin 8) (r : Fin 336), R = ⟨336 * g.val + r.val, by omega⟩ :=
    ⟨⟨R.val / 336, by omega⟩, ⟨R.val % 336, by omega⟩, Fin.ext (by show R.val = 336 * (R.val / 336) + R.val % 336; omega)⟩
  rw [Cert.KReal.hidR_row]
  fin_cases g
  · refine (rowPieces_0 _ _ _ _ _ _ _ _ r c (by have := r.isLt; omega)).trans ?_
    exact hid_coe L0 p b 0 slices_S2688x768_o0_0_S336x256 slices_S2688x768_o0_256_S336x256 slices_S2688x768_o0_512_S336x256 (Lr 0) Pr br hL0 hp hb r c
  · refine (rowPieces_1 _ _ _ _ _ _ _ _ r c (by have := r.isLt; omega)).trans ?_
    exact hid_coe L1 p b 336 slices_S2688x768_o336_0_S336x256 slices_S2688x768_o336_256_S336x256 slices_S2688x768_o336_512_S336x256 (Lr 1) Pr br hL1 hp hb r c
  · refine (rowPieces_2 _ _ _ _ _ _ _ _ r c (by have := r.isLt; omega)).trans ?_
    exact hid_coe L2 p b 672 slices_S2688x768_o672_0_S336x256 slices_S2688x768_o672_256_S336x256 slices_S2688x768_o672_512_S336x256 (Lr 2) Pr br hL2 hp hb r c
  · refine (rowPieces_3 _ _ _ _ _ _ _ _ r c (by have := r.isLt; omega)).trans ?_
    exact hid_coe L3 p b 1008 slices_S2688x768_o1008_0_S336x256 slices_S2688x768_o1008_256_S336x256 slices_S2688x768_o1008_512_S336x256 (Lr 3) Pr br hL3 hp hb r c
  · refine (rowPieces_4 _ _ _ _ _ _ _ _ r c (by have := r.isLt; omega)).trans ?_
    exact hid_coe L4 p b 1344 slices_S2688x768_o1344_0_S336x256 slices_S2688x768_o1344_256_S336x256 slices_S2688x768_o1344_512_S336x256 (Lr 4) Pr br hL4 hp hb r c
  · refine (rowPieces_5 _ _ _ _ _ _ _ _ r c (by have := r.isLt; omega)).trans ?_
    exact hid_coe L5 p b 1680 slices_S2688x768_o1680_0_S336x256 slices_S2688x768_o1680_256_S336x256 slices_S2688x768_o1680_512_S336x256 (Lr 5) Pr br hL5 hp hb r c
  · refine (rowPieces_6 _ _ _ _ _ _ _ _ r c (by have := r.isLt; omega)).trans ?_
    exact hid_coe L6 p b 2016 slices_S2688x768_o2016_0_S336x256 slices_S2688x768_o2016_256_S336x256 slices_S2688x768_o2016_512_S336x256 (Lr 6) Pr br hL6 hp hb r c
  · refine (rowPieces_7 _ _ _ _ _ _ _ _ r c (by have := r.isLt; omega)).trans ?_
    exact hid_coe L7 p b 2352 slices_S2688x768_o2352_0_S336x256 slices_S2688x768_o2352_256_S336x256 slices_S2688x768_o2352_512_S336x256 (Lr 7) Pr br hL7 hp hb r c

end Cert.KPay

end
-- ==== Proof.KLapReal.lean ====
/-
  The zero-padded adjacency matrix and its Laplacian, over the reals and as extended reals.

  The kernel works on the 325 × 325 adjacency matrix padded with zeros to 336 × 336.  Padding changes no row sum, a
  padded row has degree zero and so inverse root degree zero, and the scaled Laplacian of the padded matrix is the
  scaled Laplacian padded with zeros.  The inverse root degree is computed as
  `select (d > 0) (rsqrt (select (d > 0) d 1)) 0`, which for a real `d` is `(√d)⁻¹` where `d` is positive and `0`
  elsewhere.
-/
import Idealize.ShloMosaic.PureOps.Ideal.Laws
import Idealize.ShloMosaic.Lib.ValueIdx
import proofs.«146035_g81071802679316_cont_sun_m_195_36_alg».proof.Proof.Spec

noncomputable section

namespace Cert.KLap

open Idealize.ShloMosaic

/-- The adjacency matrix padded with zeros to 336 × 336. -/
def padA (A : Matrix (Fin 325) (Fin 325) ℝ) (r q : Fin 336) : ℝ :=
  if h : r.val < 325 ∧ q.val < 325 then A ⟨r, h.1⟩ ⟨q, h.2⟩ else 0

/-- The degrees, padded with zeros. -/
def padDeg (A : Matrix (Fin 325) (Fin 325) ℝ) (r : Fin 336) : ℝ :=
  if h : r.val < 325 then Cert.Spec.deg A ⟨r, h⟩ else 0

/-- The inverse root degrees, padded with zeros. -/
def padDinv (A : Matrix (Fin 325) (Fin 325) ℝ) (r : Fin 336) : ℝ :=
  if h : r.val < 325 then Cert.Spec.dinv A ⟨r, h⟩ else 0

/-- The scaled Laplacian, padded with zeros. -/
def padLap (A : Matrix (Fin 325) (Fin 325) ℝ) (r q : Fin 336) : ℝ :=
  if h : r.val < 325 ∧ q.val < 325 then Cert.Spec.lap A ⟨r, h.1⟩ ⟨q, h.2⟩ else 0

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A row sum of the padded matrix over all 336 columns is the padded degree. -/
theorem sum_padA (A : Matrix (Fin 325) (Fin 325) ℝ) (r : Fin 336) : ∑ k : Fin 336, padA A r k = padDeg A r := by
  have h := Fin.sum_univ_add (a := 325) (b := 11) (fun k : Fin (325 + 11) => padA A r k)
  refine h.trans ?_
  have h2 : ∀ i : Fin 11, padA A r (Fin.natAdd 325 i) = 0 := fun i => dif_neg (by
    rintro ⟨_, h⟩; simp only [Fin.coe_natAdd] at h; omega)
  rw [Finset.sum_eq_zero (fun i _ => h2 i), add_zero]
  unfold padDeg
  by_cases hr : r.val < 325
  · rw [dif_pos hr]
    unfold Cert.Spec.deg
    refine Finset.sum_congr rfl fun i _ => ?_
    unfold padA
    rw [dif_pos ⟨hr, by simp⟩]
    rfl
  · rw [dif_neg hr]
    exact Finset.sum_eq_zero fun i _ => dif_neg (fun h => hr h.1)

/-- The same row sum, of the coercions. -/
theorem sum_padA_coe (A : Matrix (Fin 325) (Fin 325) ℝ) (r : Fin 336) :
    ∑ k : Fin 336, ((padA A r k : ℝ) : EReal) = ((padDeg A r : ℝ) : EReal) := by
  rw [← coe_sum, sum_padA]

/-- The padded inverse root degree from the padded degree. -/
theorem padDinv_eq (A : Matrix (Fin 325) (Fin 325) ℝ) (r : Fin 336) :
    padDinv A r = if 0 < padDeg A r then (Real.sqrt (padDeg A r))⁻¹ else 0 := by
  unfold padDinv padDeg
  by_cases hr : r.val < 325
  · rw [dif_pos hr, dif_pos hr]; rfl
  · rw [dif_neg hr, dif_neg hr, if_neg (lt_irrefl 0)]

/-- The padded Laplacian from the padded matrix and the padded inverse root degrees. -/
theorem padLap_eq (A : Matrix (Fin 325) (Fin 325) ℝ) (r q : Fin 336) :
    -(padA A r q * padDinv A r * padDinv A q) = padLap A r q := by
  unfold padLap padA
  by_cases h : r.val < 325 ∧ q.val < 325
  · rw [dif_pos h, dif_pos h]
    unfold padDinv
    rw [dif_pos h.1, dif_pos h.2]
    rfl
  · rw [dif_neg h, dif_neg h, zero_mul, zero_mul, neg_zero]

/-- The word `0x3F800000` denotes `1`. -/
theorem ofBits_one : Ideal.ofBits .f32 0x3F800000#32 = (1 : EReal) := by
  simp [Ideal.ofBits, Ideal.ieee, -EReal.coe_mul]; norm_num

/-- The inverse root degree as the kernel computes it from a real degree `d`:
    `select (d > 0) (rsqrt (select (d > 0) d 1)) 0` is `(√d)⁻¹` where `d` is positive and `0` elsewhere. -/
theorem dinv_scalar (d : ℝ) :
    Scalar.select (FloatOps.cmpf (F := Ideal) (φ := .f32) .ogt (d : EReal) (Scalar.ofBits (F := Ideal) .f32 0x00000000#32))
        (FloatOps.rsqrt (F := Ideal) (φ := .f32)
          (Scalar.select (FloatOps.cmpf (F := Ideal) (φ := .f32) .ogt (d : EReal) (Scalar.ofBits (F := Ideal) .f32 0x00000000#32))
            (d : EReal) (Scalar.ofBits (F := Ideal) .f32 0x3F800000#32)))
        (Scalar.ofBits (F := Ideal) .f32 0x00000000#32)
      = ((if 0 < d then (Real.sqrt d)⁻¹ else 0 : ℝ) : EReal) := by
  have hs : ∀ b : BitVec 32, Scalar.ofBits (F := Ideal) .f32 b = Ideal.ofBits .f32 b := fun _ => rfl
  rw [hs, hs, Ideal.ofBits_zero_f32, ofBits_one, Ideal.cmpf_def, Ideal.rsqrt_def]
  by_cases hd : 0 < d
  · have hc : Ideal.cmp .ogt (d : EReal) 0 = 1#1 := by
      simp [Ideal.cmp, hd]
    rw [hc, ValueIdx.select_one, ValueIdx.select_one, if_pos hd, Ideal.rsqrt_coe, if_neg (not_lt.mpr hd.le),
      if_neg hd.ne']
  · have hc : Ideal.cmp .ogt (d : EReal) 0 = 0#1 := by
      simp [Ideal.cmp, hd]
    rw [hc, ValueIdx.select_zero, if_neg hd, EReal.coe_zero]

end Cert.KLap

end
-- ==== Proof.KLap.lean ====
/-
  The kernel's Laplacian of one graph.

  From a [1, 336, 336] block of the zero-padded adjacency the kernel computes, in this order: the row sums over all
  336 columns (the degrees), `select (deg > 0) (rsqrt (select (deg > 0) deg 1)) 0` (the inverse root degrees), the
  product of each entry with its row's and its column's inverse root degree, and the difference of zero and that
  product.  When the block's entries are the coercions of the zero-padded real adjacency matrix, the result at
  `(r, q)` is the coercion of the scaled Laplacian `-(A r q · dinv r · dinv q)`, padded with zeros.
-/
import proofs.«146035_g81071802679316_cont_sun_m_195_36_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«146035_g81071802679316_cont_sun_m_195_36_alg».proof.Proof.KLapReal

noncomputable section

namespace Cert.KLap

open Idealize.ShloMosaic Idealize.ShloMosaic.ValueIdx Cert.KernelIdeal Cert.KernelIdeal.Gen

variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the columns of a 336 × 336 array, read at row `r`. -/
theorem rowsum_apply (x : FVec Ideal S336x336 .f32) (hφ : FKind.Formats .f32)
    (hacc : (0x00000000#32 : BitVec 32) = FKind.add.neutral .f32 hφ) (r : Fin 336) :
    multiReduction .add [1] S336 x 0x00000000#32 reduces_S336x336_S336 hφ hacc (ix1 r) = ∑ k : Fin 336, x (ix2 r k) :=
  (Ideal.multiReduction_add_single x 0x00000000#32 reduces_S336x336_S336 hφ hacc (ix1 r)).trans
    (Finset.sum_congr rfl fun k _ => congrArg x (funext fun a => match a with | ⟨0, _⟩ => rfl | ⟨1, _⟩ => rfl))

/-- The inverse root degrees as the kernel computes them from the vector of degrees. -/
def dinvVec (d : FVec Ideal S336 .f32) : FVec Ideal S336 .f32 :=
  select (cmpf .ogt d (broadcast S336 (Scalar.ofBits (F := Ideal) .f32 0x00000000#32)))
    (rsqrt (select (cmpf .ogt d (broadcast S336 (Scalar.ofBits (F := Ideal) .f32 0x00000000#32))) d
      (broadcast S336 (Scalar.ofBits (F := Ideal) .f32 0x3F800000#32))))
    (broadcast S336 (Scalar.ofBits (F := Ideal) .f32 0x00000000#32))

/-- At a real degree the kernel's inverse root degree is `(√d)⁻¹` where `d` is positive and `0` elsewhere. -/
theorem dinvVec_apply (d : FVec Ideal S336 .f32) (x : ℝ) (i : S336.Idx) (h : d i = (x : EReal)) :
    dinvVec d i = ((if 0 < x then (Real.sqrt x)⁻¹ else 0 : ℝ) : EReal) := by
  have e := dinv_scalar x
  rw [← h] at e
  exact e

/-- The kernel's Laplacian of a [1, 336, 336] block, as one function of the block. -/
def klap (v : FVec Ideal S1x336x336 .bf16) : FVec Ideal S336x336 .bf16 :=
  truncf .bf16
    (subf (broadcast S336x336 (Scalar.ofBits (F := Ideal) .f32 0x00000000#32))
      (mulf
        (mulf (extf .f32 (shapeCast S336x336 v shapeCasts_S1x336x336_S336x336) bitsLt_bf16_f32)
          (broadcastTo S336x336
            (shapeCast S336x1
              (dinvVec (multiReduction .add [1] S336
                (extf .f32 (shapeCast S336x336 v shapeCasts_S1x336x336_S336x336) bitsLt_bf16_f32) 0x00000000#32
                reduces_S336x336_S336 (.inl rfl) rfl))
              shapeCasts_S336_S336x1)
            broadcasts_S336x1_S336x336))
        (broadcastTo S336x336
          (shapeCast S1x336
            (dinvVec (multiReduction .add [1] S336
              (extf .f32 (shapeCast S336x336 v shapeCasts_S1x336x336_S336x336) bitsLt_bf16_f32) 0x00000000#32
              reduces_S336x336_S336 (.inl rfl) rfl))
            shapeCasts_S336_S1x336)
          broadcasts_S1x336_S336x336)))
    bitsLt_bf16_f32

/-- The generated payload of the first graph's Laplacian is that function. -/
theorem k0_pay5_eq_klap (v : Vec Ideal S1x336x336 .bf16) : k0_pay5 (F := Ideal) v = klap v := rfl

/-- The kernel's Laplacian at `(r, q)` of a block holding the zero-padded real adjacency matrix is the zero-padded
    real scaled Laplacian. -/
theorem klap_apply (v : FVec Ideal S1x336x336 .bf16) (A : Matrix (Fin 325) (Fin 325) ℝ)
    (hv : ∀ r q : Fin 336, v (ix3 0 r q) = ((padA A r q : ℝ) : EReal)) (r q : Fin 336) :
    klap v (ix2 r q) = ((padLap A r q : ℝ) : EReal) := by
  have hx : ∀ r q : Fin 336,
      extf .f32 (shapeCast S336x336 v shapeCasts_S1x336x336_S336x336) bitsLt_bf16_f32 (ix2 r q)
        = ((padA A r q : ℝ) : EReal) := fun r q => by
    rw [extf_apply, shapeCast_1ab_ab_apply, hv]
  have hdeg : ∀ r : Fin 336,
      multiReduction .add [1] S336
          (extf .f32 (shapeCast S336x336 v shapeCasts_S1x336x336_S336x336) bitsLt_bf16_f32) 0x00000000#32
          reduces_S336x336_S336 (.inl rfl) rfl (ix1 r)
        = ((padDeg A r : ℝ) : EReal) := fun r => by
    refine (rowsum_apply _ _ _ r).trans ?_
    simp only [hx]
    exact sum_padA_coe A r
  have hdinv : ∀ r : Fin 336,
      dinvVec (multiReduction .add [1] S336
          (extf .f32 (shapeCast S336x336 v shapeCasts_S1x336x336_S336x336) bitsLt_bf16_f32) 0x00000000#32
          reduces_S336x336_S336 (.inl rfl) rfl) (ix1 r)
        = ((padDinv A r : ℝ) : EReal) := fun r => by
    rw [dinvVec_apply _ _ _ (hdeg r), padDinv_eq]
  unfold klap
  rw [truncf_apply, subf_apply, broadcast_apply, mulf_apply, mulf_apply, hx, broadcastTo_a1_ab_apply,
    shapeCast_a_a1_apply, broadcastTo_1b_ab_apply, shapeCast_a_1a_apply, hdinv, hdinv]
  show Ideal.ofBits .f32 0x00000000#32 - _ = _
  rw [Ideal.ofBits_zero_f32, ← EReal.coe_mul, ← EReal.coe_mul, zero_sub, ← EReal.coe_neg, padLap_eq]

/-- The first graph's Laplacian payload, entry by entry. -/
theorem lap_apply (v : Vec Ideal S1x336x336 .bf16) (A : Matrix (Fin 325) (Fin 325) ℝ)
    (hv : ∀ (r q : Fin 336), v (ix3 0 r q)
      = ((if h : r.val < 325 ∧ q.val < 325 then A ⟨r, h.1⟩ ⟨q, h.2⟩ else 0 : ℝ) : EReal)) (r q : Fin 336) :
    k0_pay5 (F := Ideal) v (ix2 r q)
      = ((if h : r.val < 325 ∧ q.val < 325 then Cert.Spec.lap A ⟨r, h.1⟩ ⟨q, h.2⟩ else 0 : ℝ) : EReal) :=
  klap_apply v A hv r q

end Cert.KLap

end
-- ==== Proof.KChain.lean ====
/-
  The block the body leaves, on arrays of real numbers.

  When every entry of the eight input blocks of a grid point is (the coercion of) a real number — the adjacency block
  the zero-padded real adjacency matrices of the eight graphs — the block of results the body leaves is, entry by
  entry, the coercion of the real chain of three stacked layers: each graph's Laplacian is the zero-padded real
  Laplacian, each projection the real projection of the rows before it, each scratch buffer the real hidden layer on
  all 2688 stacked rows, and graph `g`'s block of the result the last layer's propagation on that graph's rows.
-/
import proofs.«146035_g81071802679316_cont_sun_m_195_36_alg».proof.Proof.KIValue
import proofs.«146035_g81071802679316_cont_sun_m_195_36_alg».proof.Proof.KPayStores1
import proofs.«146035_g81071802679316_cont_sun_m_195_36_alg».proof.Proof.KPayStores2
import proofs.«146035_g81071802679316_cont_sun_m_195_36_alg».proof.Proof.KPayStores3
import proofs.«146035_g81071802679316_cont_sun_m_195_36_alg».proof.Proof.KPayRows
import proofs.«146035_g81071802679316_cont_sun_m_195_36_alg».proof.Proof.KLap

noncomputable section

namespace Cert.KPay

open Idealize.ShloMosaic Idealize.ShloMosaic.ValueIdx Cert.KernelIdeal Cert.KernelIdeal.Gen Cert.KernelIdeal.Value

/-- The `g`-th `[1, 336, 336]` slab of the adjacency block reads the block at leading index `g`. -/
theorem slab_apply {g : ℕ} (inb : ∀ a, (![g, 0, 0] : Fin 3 → ℕ) a + S1x336x336.size a ≤ S8x336x336.size a)
    (x2 : Vec Ideal S8x336x336 .bf16) (hg : g < 8) (u : Fin 1) (r q : Fin 336) :
    View.ld (Val := Elt Ideal) x2 (Rect.unit (s := S8x336x336) ![g, 0, 0] S1x336x336.size inb) (ix3 u r q)
      = x2 (ix3 (⟨g, hg⟩ : Fin 8) r q) := by
  show x2 _ = x2 _
  congr 1
  funext a
  refine Fin.ext ?_
  match a with
  | ⟨0, _⟩ => show g + 1 * u.val = g; omega
  | ⟨1, _⟩ => show 0 + 1 * r.val = r.val; omega
  | ⟨2, _⟩ => show 0 + 1 * q.val = q.val; omega

section
variable (x1 : Vec Ideal S2688x384 .bf16) (x2 : Vec Ideal S8x336x336 .bf16) (x3 : Vec Ideal S384x768 .bf16)
  (x4 : Vec Ideal S256 .f32) (x5 : Vec Ideal S256x768 .bf16) (x6 : Vec Ideal S256 .f32) (x7 : Vec Ideal S256x384 .bf16)
  (x8 : Vec Ideal S128 .f32) (xr : Fin 2688 → Fin 384 → ℝ) (Ar : Fin 8 → Matrix (Fin 325) (Fin 325) ℝ)
  (wr1 : Fin 384 → Fin 768 → ℝ) (b1r : Fin 256 → ℝ) (wr2 : Fin 256 → Fin 768 → ℝ) (b2r : Fin 256 → ℝ)
  (wr3 : Fin 256 → Fin 384 → ℝ) (b3r : Fin 128 → ℝ)

/-! ## The eight Laplacians -/

theorem lapK0_coe
    (hx2 : ∀ (g : Fin 8) (r q : Fin 336), x2 (ix3 g r q)
      = ((if h : r.val < 325 ∧ q.val < 325 then Ar g ⟨r, h.1⟩ ⟨q, h.2⟩ else 0 : ℝ) : EReal)) (r q : Fin 336) :
    lapK0 x2 (ix2 r q) = ((Cert.KReal.lapPad (Ar 0) r q : ℝ) : EReal) := by
  show k0_pay5 (F := Ideal) (slab0 x2) (ix2 r q) = _
  exact Cert.KLap.lap_apply (slab0 x2) (Ar 0)
    (fun r q => (slab_apply inb_S8x336x336_S1x336x336_0_0_0 x2 (by omega) 0 r q).trans (hx2 0 r q)) r q

theorem lapK1_coe
    (hx2 : ∀ (g : Fin 8) (r q : Fin 336), x2 (ix3 g r q)
      = ((if h : r.val < 325 ∧ q.val < 325 then Ar g ⟨r, h.1⟩ ⟨q, h.2⟩ else 0 : ℝ) : EReal)) (r q : Fin 336) :
    lapK1 x2 (ix2 r q) = ((Cert.KReal.lapPad (Ar 1) r q : ℝ) : EReal) := by
  show k0_pay5 (F := Ideal) (slab1 x2) (ix2 r q) = _
  exact Cert.KLap.lap_apply (slab1 x2) (Ar 1)
    (fun r q => (slab_apply inb_S8x336x336_S1x336x336_1_0_0 x2 (by omega) 0 r q).trans (hx2 1 r q)) r q

theorem lapK2_coe
    (hx2 : ∀ (g : Fin 8) (r q : Fin 336), x2 (ix3 g r q)
      = ((if h : r.val < 325 ∧ q.val < 325 then Ar g ⟨r, h.1⟩ ⟨q, h.2⟩ else 0 : ℝ) : EReal)) (r q : Fin 336) :
    lapK2 x2 (ix2 r q) = ((Cert.KReal.lapPad (Ar 2) r q : ℝ) : EReal) := by
  show k0_pay5 (F := Ideal) (slab2 x2) (ix2 r q) = _
  exact Cert.KLap.lap_apply (slab2 x2) (Ar 2)
    (fun r q => (slab_apply inb_S8x336x336_S1x336x336_2_0_0 x2 (by omega) 0 r q).trans (hx2 2 r q)) r q

theorem lapK3_coe
    (hx2 : ∀ (g : Fin 8) (r q : Fin 336), x2 (ix3 g r q)
      = ((if h : r.val < 325 ∧ q.val < 325 then Ar g ⟨r, h.1⟩ ⟨q, h.2⟩ else 0 : ℝ) : EReal)) (r q : Fin 336) :
    lapK3 x2 (ix2 r q) = ((Cert.KReal.lapPad (Ar 3) r q : ℝ) : EReal) := by
  show k0_pay5 (F := Ideal) (slab3 x2) (ix2 r q) = _
  exact Cert.KLap.lap_apply (slab3 x2) (Ar 3)
    (fun r q => (slab_apply inb_S8x336x336_S1x336x336_3_0_0 x2 (by omega) 0 r q).trans (hx2 3 r q)) r q

theorem lapK4_coe
    (hx2 : ∀ (g : Fin 8) (r q : Fin 336), x2 (ix3 g r q)
      = ((if h : r.val < 325 ∧ q.val < 325 then Ar g ⟨r, h.1⟩ ⟨q, h.2⟩ else 0 : ℝ) : EReal)) (r q : Fin 336) :
    lapK4 x2 (ix2 r q) = ((Cert.KReal.lapPad (Ar 4) r q : ℝ) : EReal) := by
  show k0_pay5 (F := Ideal) (slab4 x2) (ix2 r q) = _
  exact Cert.KLap.lap_apply (slab4 x2) (Ar 4)
    (fun r q => (slab_apply inb_S8x336x336_S1x336x336_4_0_0 x2 (by omega) 0 r q).trans (hx2 4 r q)) r q

theorem lapK5_coe
    (hx2 : ∀ (g : Fin 8) (r q : Fin 336), x2 (ix3 g r q)
      = ((if h : r.val < 325 ∧ q.val < 325 then Ar g ⟨r, h.1⟩ ⟨q, h.2⟩ else 0 : ℝ) : EReal)) (r q : Fin 336) :
    lapK5 x2 (ix2 r q) = ((Cert.KReal.lapPad (Ar 5) r q : ℝ) : EReal) := by
  show k0_pay5 (F := Ideal) (slab5 x2) (ix2 r q) = _
  exact Cert.KLap.lap_apply (slab5 x2) (Ar 5)
    (fun r q => (slab_apply inb_S8x336x336_S1x336x336_5_0_0 x2 (by omega) 0 r q).trans (hx2 5 r q)) r q

theorem lapK6_coe
    (hx2 : ∀ (g : Fin 8) (r q : Fin 336), x2 (ix3 g r q)
      = ((if h : r.val < 325 ∧ q.val < 325 then Ar g ⟨r, h.1⟩ ⟨q, h.2⟩ else 0 : ℝ) : EReal)) (r q : Fin 336) :
    lapK6 x2 (ix2 r q) = ((Cert.KReal.lapPad (Ar 6) r q : ℝ) : EReal) := by
  show k0_pay5 (F := Ideal) (slab6 x2) (ix2 r q) = _
  exact Cert.KLap.lap_apply (slab6 x2) (Ar 6)
    (fun r q => (slab_apply inb_S8x336x336_S1x336x336_6_0_0 x2 (by omega) 0 r q).trans (hx2 6 r q)) r q

theorem lapK7_coe
    (hx2 : ∀ (g : Fin 8) (r q : Fin 336), x2 (ix3 g r q)
      = ((if h : r.val < 325 ∧ q.val < 325 then Ar g ⟨r, h.1⟩ ⟨q, h.2⟩ else 0 : ℝ) : EReal)) (r q : Fin 336) :
    lapK7 x2 (ix2 r q) = ((Cert.KReal.lapPad (Ar 7) r q : ℝ) : EReal) := by
  show k0_pay5 (F := Ideal) (slab7 x2) (ix2 r q) = _
  exact Cert.KLap.lap_apply (slab7 x2) (Ar 7)
    (fun r q => (slab_apply inb_S8x336x336_S1x336x336_7_0_0 x2 (by omega) 0 r q).trans (hx2 7 r q)) r q

/-! ## The first layer -/

theorem p1_coe (hx1 : ∀ R k, x1 (ix2 R k) = ((xr R k : ℝ) : EReal)) (hx3 : ∀ k j, x3 (ix2 k j) = (wr1 k j : EReal))
    (R : Fin 2688) (j : Fin 768) : p1 x1 x3 (ix2 R j) = ((Cert.KReal.projR xr wr1 R j : ℝ) : EReal) := by
  unfold p1 wK1
  rw [pay2_eq]
  exact proj1_coe x3 x1 wr1 xr hx3 hx1 R j

theorem h1_coe (hx1 : ∀ R k, x1 (ix2 R k) = ((xr R k : ℝ) : EReal))
    (hx2 : ∀ (g : Fin 8) (r q : Fin 336), x2 (ix3 g r q)
      = ((if h : r.val < 325 ∧ q.val < 325 then Ar g ⟨r, h.1⟩ ⟨q, h.2⟩ else 0 : ℝ) : EReal))
    (hx3 : ∀ k j, x3 (ix2 k j) = (wr1 k j : EReal)) (hx4 : ∀ j, x4 (ix1 j) = (b1r j : EReal))
    (R : Fin 2688) (c : Fin 256) :
    h1 x1 x2 x3 x4 (ix2 R c) = ((Cert.KReal.hidR (fun g => Cert.KReal.lapPad (Ar g)) (Cert.KReal.projR xr wr1) b1r R c : ℝ) : EReal) := by
  show View.canon (rowPieces
      (hid (lapK7 x2) (p1 x1 x3) x4 2352 slices_S2688x768_o2352_0_S336x256 slices_S2688x768_o2352_256_S336x256 slices_S2688x768_o2352_512_S336x256)
      (hid (lapK6 x2) (p1 x1 x3) x4 2016 slices_S2688x768_o2016_0_S336x256 slices_S2688x768_o2016_256_S336x256 slices_S2688x768_o2016_512_S336x256)
      (hid (lapK5 x2) (p1 x1 x3) x4 1680 slices_S2688x768_o1680_0_S336x256 slices_S2688x768_o1680_256_S336x256 slices_S2688x768_o1680_512_S336x256)
      (hid (lapK4 x2) (p1 x1 x3) x4 1344 slices_S2688x768_o1344_0_S336x256 slices_S2688x768_o1344_256_S336x256 slices_S2688x768_o1344_512_S336x256)
      (hid (lapK3 x2) (p1 x1 x3) x4 1008 slices_S2688x768_o1008_0_S336x256 slices_S2688x768_o1008_256_S336x256 slices_S2688x768_o1008_512_S336x256)
      (hid (lapK2 x2) (p1 x1 x3) x4 672 slices_S2688x768_o672_0_S336x256 slices_S2688x768_o672_256_S336x256 slices_S2688x768_o672_512_S336x256)
      (hid (lapK1 x2) (p1 x1 x3) x4 336 slices_S2688x768_o336_0_S336x256 slices_S2688x768_o336_256_S336x256 slices_S2688x768_o336_512_S336x256)
      (hid (lapK0 x2) (p1 x1 x3) x4 0 slices_S2688x768_o0_0_S336x256 slices_S2688x768_o0_256_S336x256 slices_S2688x768_o0_512_S336x256))
    (ix2 R c) = _
  exact rows_hid_coe (lapK0 x2) (lapK1 x2) (lapK2 x2) (lapK3 x2) (lapK4 x2) (lapK5 x2) (lapK6 x2) (lapK7 x2) (p1 x1 x3) x4
    (fun g => Cert.KReal.lapPad (Ar g)) (Cert.KReal.projR xr wr1) b1r
    (lapK0_coe x2 Ar hx2) (lapK1_coe x2 Ar hx2) (lapK2_coe x2 Ar hx2) (lapK3_coe x2 Ar hx2) (lapK4_coe x2 Ar hx2) (lapK5_coe x2 Ar hx2) (lapK6_coe x2 Ar hx2) (lapK7_coe x2 Ar hx2)
    (p1_coe x1 x3 xr wr1 hx1 hx3) hx4 R c

/-! ## The second layer -/

theorem p2_coe (hx1 : ∀ R k, x1 (ix2 R k) = ((xr R k : ℝ) : EReal))
    (hx2 : ∀ (g : Fin 8) (r q : Fin 336), x2 (ix3 g r q)
      = ((if h : r.val < 325 ∧ q.val < 325 then Ar g ⟨r, h.1⟩ ⟨q, h.2⟩ else 0 : ℝ) : EReal))
    (hx3 : ∀ k j, x3 (ix2 k j) = (wr1 k j : EReal)) (hx4 : ∀ j, x4 (ix1 j) = (b1r j : EReal))
    (hx5 : ∀ k j, x5 (ix2 k j) = (wr2 k j : EReal)) (R : Fin 2688) (j : Fin 768) :
    p2 x1 x2 x3 x4 x5 (ix2 R j) = ((Cert.KReal.projR (Cert.KReal.hidR (fun g => Cert.KReal.lapPad (Ar g)) (Cert.KReal.projR xr wr1) b1r) wr2 R j : ℝ) : EReal) := by
  unfold p2 wK2
  rw [pay3_eq]
  exact proj2_coe x5 (h1 x1 x2 x3 x4) wr2 (Cert.KReal.hidR (fun g => Cert.KReal.lapPad (Ar g)) (Cert.KReal.projR xr wr1) b1r) hx5
    (h1_coe x1 x2 x3 x4 xr Ar wr1 b1r hx1 hx2 hx3 hx4) R j

theorem h2_coe (hx1 : ∀ R k, x1 (ix2 R k) = ((xr R k : ℝ) : EReal))
    (hx2 : ∀ (g : Fin 8) (r q : Fin 336), x2 (ix3 g r q)
      = ((if h : r.val < 325 ∧ q.val < 325 then Ar g ⟨r, h.1⟩ ⟨q, h.2⟩ else 0 : ℝ) : EReal))
    (hx3 : ∀ k j, x3 (ix2 k j) = (wr1 k j : EReal)) (hx4 : ∀ j, x4 (ix1 j) = (b1r j : EReal))
    (hx5 : ∀ k j, x5 (ix2 k j) = (wr2 k j : EReal)) (hx6 : ∀ j, x6 (ix1 j) = (b2r j : EReal))
    (R : Fin 2688) (c : Fin 256) :
    h2 x1 x2 x3 x4 x5 x6 (ix2 R c) = ((Cert.KReal.hidR (fun g => Cert.KReal.lapPad (Ar g)) (Cert.KReal.projR (Cert.KReal.hidR (fun g => Cert.KReal.lapPad (Ar g)) (Cert.KReal.projR xr wr1) b1r) wr2) b2r R c : ℝ) : EReal) := by
  show View.canon (rowPieces
      (hid (lapK7 x2) (p2 x1 x2 x3 x4 x5) x6 2352 slices_S2688x768_o2352_0_S336x256 slices_S2688x768_o2352_256_S336x256 slices_S2688x768_o2352_512_S336x256)
      (hid (lapK6 x2) (p2 x1 x2 x3 x4 x5) x6 2016 slices_S2688x768_o2016_0_S336x256 slices_S2688x768_o2016_256_S336x256 slices_S2688x768_o2016_512_S336x256)
      (hid (lapK5 x2) (p2 x1 x2 x3 x4 x5) x6 1680 slices_S2688x768_o1680_0_S336x256 slices_S2688x768_o1680_256_S336x256 slices_S2688x768_o1680_512_S336x256)
      (hid (lapK4 x2) (p2 x1 x2 x3 x4 x5) x6 1344 slices_S2688x768_o1344_0_S336x256 slices_S2688x768_o1344_256_S336x256 slices_S2688x768_o1344_512_S336x256)
      (hid (lapK3 x2) (p2 x1 x2 x3 x4 x5) x6 1008 slices_S2688x768_o1008_0_S336x256 slices_S2688x768_o1008_256_S336x256 slices_S2688x768_o1008_512_S336x256)
      (hid (lapK2 x2) (p2 x1 x2 x3 x4 x5) x6 672 slices_S2688x768_o672_0_S336x256 slices_S2688x768_o672_256_S336x256 slices_S2688x768_o672_512_S336x256)
      (hid (lapK1 x2) (p2 x1 x2 x3 x4 x5) x6 336 slices_S2688x768_o336_0_S336x256 slices_S2688x768_o336_256_S336x256 slices_S2688x768_o336_512_S336x256)
      (hid (lapK0 x2) (p2 x1 x2 x3 x4 x5) x6 0 slices_S2688x768_o0_0_S336x256 slices_S2688x768_o0_256_S336x256 slices_S2688x768_o0_512_S336x256))
    (ix2 R c) = _
  exact rows_hid_coe (lapK0 x2) (lapK1 x2) (lapK2 x2) (lapK3 x2) (lapK4 x2) (lapK5 x2) (lapK6 x2) (lapK7 x2) (p2 x1 x2 x3 x4 x5) x6
    (fun g => Cert.KReal.lapPad (Ar g)) (Cert.KReal.projR (Cert.KReal.hidR (fun g => Cert.KReal.lapPad (Ar g)) (Cert.KReal.projR xr wr1) b1r) wr2) b2r
    (lapK0_coe x2 Ar hx2) (lapK1_coe x2 Ar hx2) (lapK2_coe x2 Ar hx2) (lapK3_coe x2 Ar hx2) (lapK4_coe x2 Ar hx2) (lapK5_coe x2 Ar hx2) (lapK6_coe x2 Ar hx2) (lapK7_coe x2 Ar hx2)
    (p2_coe x1 x2 x3 x4 x5 xr Ar wr1 b1r wr2 hx1 hx2 hx3 hx4 hx5) hx6 R c

/-! ## The last layer -/

theorem p3_coe (hx1 : ∀ R k, x1 (ix2 R k) = ((xr R k : ℝ) : EReal))
    (hx2 : ∀ (g : Fin 8) (r q : Fin 336), x2 (ix3 g r q)
      = ((if h : r.val < 325 ∧ q.val < 325 then Ar g ⟨r, h.1⟩ ⟨q, h.2⟩ else 0 : ℝ) : EReal))
    (hx3 : ∀ k j, x3 (ix2 k j) = (wr1 k j : EReal)) (hx4 : ∀ j, x4 (ix1 j) = (b1r j : EReal))
    (hx5 : ∀ k j, x5 (ix2 k j) = (wr2 k j : EReal)) (hx6 : ∀ j, x6 (ix1 j) = (b2r j : EReal))
    (hx7 : ∀ k j, x7 (ix2 k j) = (wr3 k j : EReal)) (R : Fin 2688) (j : Fin 384) :
    p3 x1 x2 x3 x4 x5 x6 x7 (ix2 R j) = ((Cert.KReal.projR (Cert.KReal.hidR (fun g => Cert.KReal.lapPad (Ar g)) (Cert.KReal.projR (Cert.KReal.hidR (fun g => Cert.KReal.lapPad (Ar g)) (Cert.KReal.projR xr wr1) b1r) wr2) b2r) wr3 R j : ℝ) : EReal) := by
  unfold p3 wK3
  rw [pay4_eq]
  exact proj3_coe x7 (h2 x1 x2 x3 x4 x5 x6) wr3 (Cert.KReal.hidR (fun g => Cert.KReal.lapPad (Ar g)) (Cert.KReal.projR (Cert.KReal.hidR (fun g => Cert.KReal.lapPad (Ar g)) (Cert.KReal.projR xr wr1) b1r) wr2) b2r) hx7
    (h2_coe x1 x2 x3 x4 x5 x6 xr Ar wr1 b1r wr2 b2r hx1 hx2 hx3 hx4 hx5 hx6) R j

/-- THE BLOCK: graph `g`'s node `s`, output feature `o` of the block the body leaves is the coercion of the real chain
    of three stacked layers on graph `g`'s rows. -/
theorem outK_coe (hx1 : ∀ R k, x1 (ix2 R k) = ((xr R k : ℝ) : EReal))
    (hx2 : ∀ (g : Fin 8) (r q : Fin 336), x2 (ix3 g r q)
      = ((if h : r.val < 325 ∧ q.val < 325 then Ar g ⟨r, h.1⟩ ⟨q, h.2⟩ else 0 : ℝ) : EReal))
    (hx3 : ∀ k j, x3 (ix2 k j) = (wr1 k j : EReal)) (hx4 : ∀ j, x4 (ix1 j) = (b1r j : EReal))
    (hx5 : ∀ k j, x5 (ix2 k j) = (wr2 k j : EReal)) (hx6 : ∀ j, x6 (ix1 j) = (b2r j : EReal))
    (hx7 : ∀ k j, x7 (ix2 k j) = (wr3 k j : EReal)) (hx8 : ∀ j, x8 (ix1 j) = (b3r j : EReal))
    (g : Fin 8) (s : Fin 325) (o : Fin 128) :
    outK x1 x2 x3 x4 x5 x6 x7 x8 (ix3 g s o)
      = ((Cert.KReal.outG (Cert.KReal.lapPad (Ar g)) (Cert.KReal.projR (Cert.KReal.hidR (fun g => Cert.KReal.lapPad (Ar g)) (Cert.KReal.projR (Cert.KReal.hidR (fun g => Cert.KReal.lapPad (Ar g)) (Cert.KReal.projR xr wr1) b1r) wr2) b2r) wr3) b3r (336 * g.val) (by omega) ⟨s.val, by omega⟩ o : ℝ) : EReal) := by
  have hp3 := p3_coe x1 x2 x3 x4 x5 x6 x7 xr Ar wr1 b1r wr2 b2r wr3 hx1 hx2 hx3 hx4 hx5 hx6 hx7
  show View.canon (outPieces
      (out3 (lapK7 x2) (p3 x1 x2 x3 x4 x5 x6 x7) x8 2352 slices_S2688x384_o2352_0_S336x128 slices_S2688x384_o2352_128_S336x128 slices_S2688x384_o2352_256_S336x128)
      (out3 (lapK6 x2) (p3 x1 x2 x3 x4 x5 x6 x7) x8 2016 slices_S2688x384_o2016_0_S336x128 slices_S2688x384_o2016_128_S336x128 slices_S2688x384_o2016_256_S336x128)
      (out3 (lapK5 x2) (p3 x1 x2 x3 x4 x5 x6 x7) x8 1680 slices_S2688x384_o1680_0_S336x128 slices_S2688x384_o1680_128_S336x128 slices_S2688x384_o1680_256_S336x128)
      (out3 (lapK4 x2) (p3 x1 x2 x3 x4 x5 x6 x7) x8 1344 slices_S2688x384_o1344_0_S336x128 slices_S2688x384_o1344_128_S336x128 slices_S2688x384_o1344_256_S336x128)
      (out3 (lapK3 x2) (p3 x1 x2 x3 x4 x5 x6 x7) x8 1008 slices_S2688x384_o1008_0_S336x128 slices_S2688x384_o1008_128_S336x128 slices_S2688x384_o1008_256_S336x128)
      (out3 (lapK2 x2) (p3 x1 x2 x3 x4 x5 x6 x7) x8 672 slices_S2688x384_o672_0_S336x128 slices_S2688x384_o672_128_S336x128 slices_S2688x384_o672_256_S336x128)
      (out3 (lapK1 x2) (p3 x1 x2 x3 x4 x5 x6 x7) x8 336 slices_S2688x384_o336_0_S336x128 slices_S2688x384_o336_128_S336x128 slices_S2688x384_o336_256_S336x128)
      (out3 (lapK0 x2) (p3 x1 x2 x3 x4 x5 x6 x7) x8 0 slices_S2688x384_o0_0_S336x128 slices_S2688x384_o0_128_S336x128 slices_S2688x384_o0_256_S336x128))
    (ix3 g s o) = _
  fin_cases g
  · refine (outPieces_0 _ _ _ _ _ _ _ _ 0 s o).trans ?_
    exact out3_coe (lapK0 x2) (p3 x1 x2 x3 x4 x5 x6 x7) x8 0 slices_S2688x384_o0_0_S336x128 slices_S2688x384_o0_128_S336x128 slices_S2688x384_o0_256_S336x128
      (Cert.KReal.lapPad (Ar 0)) (Cert.KReal.projR (Cert.KReal.hidR (fun g => Cert.KReal.lapPad (Ar g)) (Cert.KReal.projR (Cert.KReal.hidR (fun g => Cert.KReal.lapPad (Ar g)) (Cert.KReal.projR xr wr1) b1r) wr2) b2r) wr3) b3r (lapK0_coe x2 Ar hx2) hp3 hx8 0 s o
  · refine (outPieces_1 _ _ _ _ _ _ _ _ 0 s o).trans ?_
    exact out3_coe (lapK1 x2) (p3 x1 x2 x3 x4 x5 x6 x7) x8 336 slices_S2688x384_o336_0_S336x128 slices_S2688x384_o336_128_S336x128 slices_S2688x384_o336_256_S336x128
      (Cert.KReal.lapPad (Ar 1)) (Cert.KReal.projR (Cert.KReal.hidR (fun g => Cert.KReal.lapPad (Ar g)) (Cert.KReal.projR (Cert.KReal.hidR (fun g => Cert.KReal.lapPad (Ar g)) (Cert.KReal.projR xr wr1) b1r) wr2) b2r) wr3) b3r (lapK1_coe x2 Ar hx2) hp3 hx8 0 s o
  · refine (outPieces_2 _ _ _ _ _ _ _ _ 0 s o).trans ?_
    exact out3_coe (lapK2 x2) (p3 x1 x2 x3 x4 x5 x6 x7) x8 672 slices_S2688x384_o672_0_S336x128 slices_S2688x384_o672_128_S336x128 slices_S2688x384_o672_256_S336x128
      (Cert.KReal.lapPad (Ar 2)) (Cert.KReal.projR (Cert.KReal.hidR (fun g => Cert.KReal.lapPad (Ar g)) (Cert.KReal.projR (Cert.KReal.hidR (fun g => Cert.KReal.lapPad (Ar g)) (Cert.KReal.projR xr wr1) b1r) wr2) b2r) wr3) b3r (lapK2_coe x2 Ar hx2) hp3 hx8 0 s o
  · refine (outPieces_3 _ _ _ _ _ _ _ _ 0 s o).trans ?_
    exact out3_coe (lapK3 x2) (p3 x1 x2 x3 x4 x5 x6 x7) x8 1008 slices_S2688x384_o1008_0_S336x128 slices_S2688x384_o1008_128_S336x128 slices_S2688x384_o1008_256_S336x128
      (Cert.KReal.lapPad (Ar 3)) (Cert.KReal.projR (Cert.KReal.hidR (fun g => Cert.KReal.lapPad (Ar g)) (Cert.KReal.projR (Cert.KReal.hidR (fun g => Cert.KReal.lapPad (Ar g)) (Cert.KReal.projR xr wr1) b1r) wr2) b2r) wr3) b3r (lapK3_coe x2 Ar hx2) hp3 hx8 0 s o
  · refine (outPieces_4 _ _ _ _ _ _ _ _ 0 s o).trans ?_
    exact out3_coe (lapK4 x2) (p3 x1 x2 x3 x4 x5 x6 x7) x8 1344 slices_S2688x384_o1344_0_S336x128 slices_S2688x384_o1344_128_S336x128 slices_S2688x384_o1344_256_S336x128
      (Cert.KReal.lapPad (Ar 4)) (Cert.KReal.projR (Cert.KReal.hidR (fun g => Cert.KReal.lapPad (Ar g)) (Cert.KReal.projR (Cert.KReal.hidR (fun g => Cert.KReal.lapPad (Ar g)) (Cert.KReal.projR xr wr1) b1r) wr2) b2r) wr3) b3r (lapK4_coe x2 Ar hx2) hp3 hx8 0 s o
  · refine (outPieces_5 _ _ _ _ _ _ _ _ 0 s o).trans ?_
    exact out3_coe (lapK5 x2) (p3 x1 x2 x3 x4 x5 x6 x7) x8 1680 slices_S2688x384_o1680_0_S336x128 slices_S2688x384_o1680_128_S336x128 slices_S2688x384_o1680_256_S336x128
      (Cert.KReal.lapPad (Ar 5)) (Cert.KReal.projR (Cert.KReal.hidR (fun g => Cert.KReal.lapPad (Ar g)) (Cert.KReal.projR (Cert.KReal.hidR (fun g => Cert.KReal.lapPad (Ar g)) (Cert.KReal.projR xr wr1) b1r) wr2) b2r) wr3) b3r (lapK5_coe x2 Ar hx2) hp3 hx8 0 s o
  · refine (outPieces_6 _ _ _ _ _ _ _ _ 0 s o).trans ?_
    exact out3_coe (lapK6 x2) (p3 x1 x2 x3 x4 x5 x6 x7) x8 2016 slices_S2688x384_o2016_0_S336x128 slices_S2688x384_o2016_128_S336x128 slices_S2688x384_o2016_256_S336x128
      (Cert.KReal.lapPad (Ar 6)) (Cert.KReal.projR (Cert.KReal.hidR (fun g => Cert.KReal.lapPad (Ar g)) (Cert.KReal.projR (Cert.KReal.hidR (fun g => Cert.KReal.lapPad (Ar g)) (Cert.KReal.projR xr wr1) b1r) wr2) b2r) wr3) b3r (lapK6_coe x2 Ar hx2) hp3 hx8 0 s o
  · refine (outPieces_7 _ _ _ _ _ _ _ _ 0 s o).trans ?_
    exact out3_coe (lapK7 x2) (p3 x1 x2 x3 x4 x5 x6 x7) x8 2352 slices_S2688x384_o2352_0_S336x128 slices_S2688x384_o2352_128_S336x128 slices_S2688x384_o2352_256_S336x128
      (Cert.KReal.lapPad (Ar 7)) (Cert.KReal.projR (Cert.KReal.hidR (fun g => Cert.KReal.lapPad (Ar g)) (Cert.KReal.projR (Cert.KReal.hidR (fun g => Cert.KReal.lapPad (Ar g)) (Cert.KReal.projR xr wr1) b1r) wr2) b2r) wr3) b3r (lapK7_coe x2 Ar hx2) hp3 hx8 0 s o

end

end Cert.KPay

end
-- ==== Proof.KIGlue.lean ====
/-
  From the window blocks to the specification.

  At grid point `t` the body finds in its eight input windows the zero-padded node features, the zero-padded
  adjacency matrices, the stacked weights `[W₀ − W₂ | W₁ | W₂]` and the biases of the eight graphs `8 t … 8 t + 7`,
  each entry the coercion of a real number.  The block it leaves in the output window is then, entry by entry, the
  coercion of the real chain of three stacked layers, which on the row of a node is the network of that node's graph.
-/
import proofs.«146035_g81071802679316_cont_sun_m_195_36_alg».proof.Proof.KIFrame
import proofs.«146035_g81071802679316_cont_sun_m_195_36_alg».proof.Proof.KIValue
import proofs.«146035_g81071802679316_cont_sun_m_195_36_alg».proof.Proof.KHost
import proofs.«146035_g81071802679316_cont_sun_m_195_36_alg».proof.Proof.KHostW1
import proofs.«146035_g81071802679316_cont_sun_m_195_36_alg».proof.Proof.KHostW2
import proofs.«146035_g81071802679316_cont_sun_m_195_36_alg».proof.Proof.KHostW3
import proofs.«146035_g81071802679316_cont_sun_m_195_36_alg».proof.Proof.KRealChain
import proofs.«146035_g81071802679316_cont_sun_m_195_36_alg».proof.Proof.KChain

set_option maxRecDepth 16384

noncomputable section

namespace Cert.KernelIdeal.Glue

open Cert.KernelIdeal Cert.KernelIdeal.Gen Cert.KernelIdeal.Kit
open Idealize.ShloMosaic Idealize.ShloMosaic.TcCoe

/-- The real node features of the stacked rows of grid point `t`: row `R` is node `R % 336` of graph
    `8 t + R / 336`, a zero row in the padding. -/
def featR (t : Fin cfg0.N) (X : Cert.Spec.SX.Idx → ℝ) (R : Fin 2688) (k : Fin 384) : ℝ :=
  if h : R.val % 336 < 325 then
    Cert.Spec.xmat X ⟨8 * t.val + R.val / 336, by have := Cert.KHost.point_lt t; have := R.isLt; omega⟩ ⟨R.val % 336, h⟩ k
  else 0

/-- The real adjacency matrices of the eight graphs of grid point `t`. -/
def adjR (t : Fin cfg0.N) (A : Cert.Spec.SA.Idx → ℝ) (g : Fin 8) : Matrix (Fin 325) (Fin 325) ℝ :=
  Cert.Spec.amat A ⟨8 * t.val + g.val, by have := Cert.KHost.point_lt t; omega⟩

/-- The rows of graph `g` among the stacked rows are that graph's node features. -/
theorem featR_rows (t : Fin cfg0.N) (X : Cert.Spec.SX.Idx → ℝ) (g : Fin 8) :
    (fun (s : Fin 325) (k : Fin 384) => featR t X ⟨336 * g.val + s.val, by omega⟩ k)
      = Cert.Spec.xmat X ⟨8 * t.val + g.val, by have := Cert.KHost.point_lt t; omega⟩ := by
  funext s k
  have hm : (336 * g.val + s.val) % 336 = s.val := by have := s.isLt; omega
  have hq : (336 * g.val + s.val) / 336 = g.val := by have := s.isLt; omega
  unfold featR
  rw [dif_pos (show (336 * g.val + s.val) % 336 < 325 by rw [hm]; exact s.isLt)]
  exact congrArg₂ (fun a b => Cert.Spec.xmat X a b k) (Fin.ext (congrArg (fun z => 8 * t.val + z) hq)) (Fin.ext hm)

/-- THE GLUE: the block the body leaves in the output window at grid point `t`, read at `(g, s, o)`, is the
    network's result for graph `8 t + g` at node `s`, output feature `o`. -/
theorem outBlk_apply (m : (ℓ : Loc nD τ sig) → Buf (Elt Ideal) ℓ) (c : Dev nD) (t : Fin cfg0.N)
    (X : Cert.Spec.SX.Idx → ℝ) (A : Cert.Spec.SA.Idx → ℝ)
    (W1 : (⟨3, ![3, 384, 256]⟩ : Shape).Idx → ℝ) (b1 : (⟨1, ![256]⟩ : Shape).Idx → ℝ)
    (W2 : (⟨3, ![3, 256, 256]⟩ : Shape).Idx → ℝ) (b2 : (⟨1, ![256]⟩ : Shape).Idx → ℝ)
    (W3 : (⟨3, ![3, 256, 128]⟩ : Shape).Idx → ℝ) (b3 : (⟨1, ![128]⟩ : Shape).Idx → ℝ)
    (h0 : m ((c.tc : Thread nD τ).loc main_arg0) = fun i => ((X i : ℝ) : EReal))
    (h1 : m ((c.tc : Thread nD τ).loc main_arg1) = fun i => ((A i : ℝ) : EReal))
    (h2 : m ((c.tc : Thread nD τ).loc main_arg2) = fun i => ((W1 i : ℝ) : EReal))
    (h3 : m ((c.tc : Thread nD τ).loc main_arg3) = fun i => ((b1 i : ℝ) : EReal))
    (h4 : m ((c.tc : Thread nD τ).loc main_arg4) = fun i => ((W2 i : ℝ) : EReal))
    (h5 : m ((c.tc : Thread nD τ).loc main_arg5) = fun i => ((b2 i : ℝ) : EReal))
    (h6 : m ((c.tc : Thread nD τ).loc main_arg6) = fun i => ((W3 i : ℝ) : EReal))
    (h7 : m ((c.tc : Thread nD τ).loc main_arg7) = fun i => ((b3 i : ℝ) : EReal))
    (g : Fin 8) (s : Fin 325) (o : Fin 128) :
    Cert.KernelIdeal.Frame.outBlk (F := Ideal) m c t (ValueIdx.ix3 g s o)
      = Cert.Spec.outArr X A W1 b1 W2 b2 W3 b3
          (ValueIdx.ix3 (⟨8 * t.val + g.val, by have := Cert.KHost.point_lt t; omega⟩ : Fin 16) s o) := by
  unfold Cert.KernelIdeal.Frame.outBlk Cert.KernelIdeal.Frame.runAt
  rw [Cert.KernelIdeal.Value.witness_eq]
  rw [Cert.KPay.outK_coe (iblk m c 0 t) (iblk m c 1 t) (iblk m c 2 t) (iblk m c 3 t) (iblk m c 4 t) (iblk m c 5 t)
    (iblk m c 6 t) (iblk m c 7 t)
    (featR t X) (adjR t A)
    (Cert.KReal.wStack (fo := 256) (Cert.Spec.wmat W1)) (Cert.Spec.bvec b1)
    (Cert.KReal.wStack (fo := 256) (Cert.Spec.wmat W2)) (Cert.Spec.bvec b2)
    (Cert.KReal.wStack (fo := 128) (Cert.Spec.wmat W3)) (Cert.Spec.bvec b3)
    (fun R k => Cert.KHost.feat_blk m c t X h0 R k)
    (fun g r q => Cert.KHost.adj_blk m c t A h1 g r q)
    (fun k j => Cert.KHost.wstack1_blk m c t W1 h2 k j)
    (fun j => Cert.KHost.bias1_blk m c t b1 h3 j)
    (fun k j => Cert.KHost.wstack2_blk m c t W2 h4 k j)
    (fun j => Cert.KHost.bias2_blk m c t b2 h5 j)
    (fun k j => Cert.KHost.wstack3_blk m c t W3 h6 k j)
    (fun j => Cert.KHost.bias3_blk m c t b3 h7 j) g s o]
  unfold Cert.Spec.outArr
  refine congrArg (fun z : ℝ => (z : EReal)) ?_
  refine (Cert.KReal.chain_eq_net (adjR t A) (featR t X) (Cert.Spec.wmat W1) (Cert.Spec.bvec b1)
    (Cert.Spec.wmat W2) (Cert.Spec.bvec b2) (Cert.Spec.wmat W3) (Cert.Spec.bvec b3) g (by have := g.isLt; omega) s
    (by have := s.isLt; omega) o).trans ?_
  rw [featR_rows t X g]
  rfl

end Cert.KernelIdeal.Glue

end
-- ==== Proof.Finite.lean ====
/-
  Finiteness of the inputs.

  The precondition states, for each of the eight argument arrays, that every entry's absolute value is strictly
  below `+∞`.  An extended real with that property is (the coercion of) a real number, so each argument array is
  the entrywise coercion of a real-valued function of its index.
-/
import Idealize.ShloMosaic.Lib.ReduceAll
import Idealize.ShloMosaic.Lib.ValueIdx
import Idealize.ShloMosaic.PureOps.Ideal
import proofs.«146035_g81071802679316_cont_sun_m_195_36_alg».proof.Pre_finite_inputs

noncomputable section

namespace Cert.Finite

open Idealize.ShloMosaic

/-- The rank-zero shape has one index. -/
instance subsingleton_scalar_idx : Subsingleton Cert.Pre_finite_inputs.S_.Idx :=
  ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value compares strictly below `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf] at h'
  induction x using EReal.rec with
  | bot => simp [Ideal.cmp] at h'
  | coe r => exact ⟨r, rfl⟩
  | top => simp [Ideal.cmp] at h'

/-- An array all of whose entries have absolute value strictly below `+∞` (the conjunction over all its entries,
    taken from `true`, is `true`) is the entrywise coercion of a real-valued function of its index. -/
theorem real_of_all {s : Shape} (x : FVec Ideal s .f32)
    (bc : Cert.Pre_finite_inputs.S_.BroadcastsInDim s (![] : Fin 0 → Fin s.rank))
    {axes : List (Fin s.rank)} (red : s.ReducesTo axes Cert.Pre_finite_inputs.S_)
    (hS : 0 < Cert.Pre_finite_inputs.S_.numel)
    (e : Host.reduce IntOp.andi
        (cmpf .olt (Host.absf x)
          (broadcastInDim s ![] bc (constant (F := Ideal) Cert.Pre_finite_inputs.S_ .f32 0x7F800000#32)))
        (constantI Cert.Pre_finite_inputs.S_ 1 1#1) red hS ValueIdx.ix0 = 1#1) :
    ∃ X : s.Idx → ℝ, x = fun i => ((X i : ℝ) : EReal) := by
  have hall : ∀ i, ∃ r : ℝ, x i = (r : EReal) := fun i =>
    real_of_abs_lt (x i) (Host.reduce_andi_all _ _ red hS _ e i)
  choose X hX using hall
  exact ⟨X, funext hX⟩

end Cert.Finite

end
-- ==== Proof.FinPre.lean ====
/-
  The precondition, read back: under it every argument array is the entrywise coercion of a real-valued function.

  The printed precondition is the conjunction, over the eight argument arrays, of "every entry's absolute value is
  strictly below `+∞`"; each conjunct gives the real-valued function by the lemma on one array.
-/
import proofs.«146035_g81071802679316_cont_sun_m_195_36_alg».proof.Proof.Finite
import proofs.«146035_g81071802679316_cont_sun_m_195_36_alg».proof.Proof.SpecIdx

noncomputable section

namespace Cert.Finite

open Idealize.ShloMosaic Cert.Pre_finite_inputs

variable [Cert.Pre_finite_inputs.Facts]

/-- Under the precondition the eight argument arrays are (coercions of) real arrays. -/
theorem real_of_pre
    (x0 : (⟨S16x325x12x32, .f32⟩ : BufTy).Contents (Elt Ideal))
    (x1 : (⟨S16x325x325, .f32⟩ : BufTy).Contents (Elt Ideal))
    (x2 : (⟨S3x384x256, .f32⟩ : BufTy).Contents (Elt Ideal))
    (x3 : (⟨S256, .f32⟩ : BufTy).Contents (Elt Ideal))
    (x4 : (⟨S3x256x256, .f32⟩ : BufTy).Contents (Elt Ideal))
    (x5 : (⟨S256, .f32⟩ : BufTy).Contents (Elt Ideal))
    (x6 : (⟨S3x256x128, .f32⟩ : BufTy).Contents (Elt Ideal))
    (x7 : (⟨S128, .f32⟩ : BufTy).Contents (Elt Ideal))
    (h : Cert.Pre_finite_inputs.fn (F := Ideal) x0 x1 x2 x3 x4 x5 x6 x7 = (fun _ => 1#1)) :
    ∃ (X : Cert.Spec.SX.Idx → ℝ) (A : Cert.Spec.SA.Idx → ℝ)
      (W1 : (⟨3, ![3, 384, 256]⟩ : Shape).Idx → ℝ) (b1 : (⟨1, ![256]⟩ : Shape).Idx → ℝ)
      (W2 : (⟨3, ![3, 256, 256]⟩ : Shape).Idx → ℝ) (b2 : (⟨1, ![256]⟩ : Shape).Idx → ℝ)
      (W3 : (⟨3, ![3, 256, 128]⟩ : Shape).Idx → ℝ) (b3 : (⟨1, ![128]⟩ : Shape).Idx → ℝ),
      x0 = (fun i => ((X i : ℝ) : EReal)) ∧ x1 = (fun i => ((A i : ℝ) : EReal))
      ∧ x2 = (fun i => ((W1 i : ℝ) : EReal)) ∧ x3 = (fun i => ((b1 i : ℝ) : EReal))
      ∧ x4 = (fun i => ((W2 i : ℝ) : EReal)) ∧ x5 = (fun i => ((b2 i : ℝ) : EReal))
      ∧ x6 = (fun i => ((W3 i : ℝ) : EReal)) ∧ x7 = (fun i => ((b3 i : ℝ) : EReal)) := by
  have h0 := congrFun h ValueIdx.ix0
  dsimp only [fn, fn_part1, fn_part2, andi] at h0
  simp only [IntOp.andi_eq_one] at h0
  obtain ⟨⟨⟨⟨⟨⟨⟨e0, e1⟩, e2⟩, e3⟩, e4⟩, e5⟩, e6⟩, e7⟩ := h0
  obtain ⟨X, hX⟩ := real_of_all x0 _ _ _ e0
  obtain ⟨A, hA⟩ := real_of_all x1 _ _ _ e1
  obtain ⟨W1, hW1⟩ := real_of_all x2 _ _ _ e2
  obtain ⟨b1, hb1⟩ := real_of_all x3 _ _ _ e3
  obtain ⟨W2, hW2⟩ := real_of_all x4 _ _ _ e4
  obtain ⟨b2, hb2⟩ := real_of_all x5 _ _ _ e5
  obtain ⟨W3, hW3⟩ := real_of_all x6 _ _ _ e6
  obtain ⟨b3, hb3⟩ := real_of_all x7 _ _ _ e7
  exact ⟨X, A, W1, b1, W2, b2, W3, b3, hX, hA, hW1, hb1, hW2, hb2, hW3, hb3⟩

end Cert.Finite

end
-- ==== Proof.RefCoe.lean ====
/-
  Arithmetic of real numbers read as extended reals, for the reference network.

  Every entry the reference computes is a real number read as an extended real.  This file collects the scalar facts that
  carry that reading through the network's operations: a finite sum of products of reals is the real dot product; the
  32-bit float patterns of zero, one and two denote 0, 1 and 2; the maximum of two reals is the real maximum; and the
  reference's guarded inverse root degree — take the degree where it is positive and 1 elsewhere, take its square root,
  divide 1 by it, and keep the quotient where the degree is positive and 0 elsewhere — is the real number
  `(√d)⁻¹` for `0 < d` and `0` otherwise.
-/
import Mathlib.Analysis.SpecialFunctions.Sqrt
import Idealize.ShloMosaic.PureOps.Ideal.Laws
import Idealize.ShloMosaic.Lib.IdealHost
import Idealize.ShloMosaic.Lib.ValueIdx
import proofs.«146035_g81071802679316_cont_sun_m_195_36_alg».proof.Proof.LibReal

open scoped BigOperators

namespace Cert.RefValue

open Idealize.ShloMosaic

/-- A real-valued array read as an array of extended reals, entry by entry. -/
abbrev co {ι : Type} (f : ι → ℝ) : ι → EReal := fun i => ((f i : ℝ) : EReal)

/-- A finite sum of products of reals, each factor read as an extended real, is the real sum of products. -/
theorem coe_dot {n : ℕ} (f g : Fin n → ℝ) :
    ∑ k : Fin n, ((f k : ℝ) : EReal) * ((g k : ℝ) : EReal) = ((∑ k : Fin n, f k * g k : ℝ) : EReal) := by
  rw [LibReal.coe_sum]
  exact Finset.sum_congr rfl fun k _ => (EReal.coe_mul _ _).symm

/-- A finite sum of reals read as extended reals is the real sum. -/
theorem coe_fsum {n : ℕ} (f : Fin n → ℝ) :
    ∑ k : Fin n, ((f k : ℝ) : EReal) = ((∑ k : Fin n, f k : ℝ) : EReal) := (LibReal.coe_sum _ _).symm

/-- The maximum of two reals read as extended reals is the real maximum. -/
theorem coe_max (a b : ℝ) : max ((a : ℝ) : EReal) ((b : ℝ) : EReal) = ((max a b : ℝ) : EReal) :=
  (EReal.coe_strictMono.monotone.map_max).symm

/-- The 32-bit float pattern `0x40000000` denotes two. -/
theorem ofBits_two_f32 : Ideal.ofBits .f32 0x40000000#32 = (((2 : ℝ) : ℝ) : EReal) := by
  simp [Ideal.ofBits, Ideal.ieee, -EReal.coe_mul]; norm_num

/-- The 32-bit float pattern `0x3F800000` denotes the real one. -/
theorem ofBits_one_f32' : Ideal.ofBits .f32 0x3F800000#32 = (((1 : ℝ) : ℝ) : EReal) := by
  rw [Ideal.ofBits_one_f32]; rfl

/-- The 32-bit float pattern of zero denotes the real zero. -/
theorem ofBits_zero_f32' : Ideal.ofBits .f32 0x00000000#32 = (((0 : ℝ) : ℝ) : EReal) := by
  rw [Ideal.ofBits_zero_f32]; rfl

/-- Comparing a real against zero on the extended reals: the answer bit is one exactly when the real is positive. -/
theorem cmp_ogt_zero_pos {d : ℝ} (h : 0 < d) : Ideal.cmp .ogt ((d : ℝ) : EReal) ((0 : ℝ) : EReal) = 1#1 := by
  simp [Ideal.cmp, h]

theorem cmp_ogt_zero_nonpos {d : ℝ} (h : ¬ 0 < d) : Ideal.cmp .ogt ((d : ℝ) : EReal) ((0 : ℝ) : EReal) = 0#1 := by
  simp [Ideal.cmp, h]

/-- The guarded inverse root degree: with `g = d` where `0 < d` and `1` elsewhere, the value `1 / √g` where `0 < d`
    and `0` elsewhere is the real number `(√d)⁻¹` for positive `d` and `0` otherwise. -/
theorem guarded_inv_sqrt (d : ℝ) :
    Scalar.select (Ideal.cmp .ogt ((d : ℝ) : EReal) ((0 : ℝ) : EReal))
        (Ideal.div (((1 : ℝ) : ℝ) : EReal)
          (Ideal.sqrt (Scalar.select (Ideal.cmp .ogt ((d : ℝ) : EReal) ((0 : ℝ) : EReal)) ((d : ℝ) : EReal) (((1 : ℝ) : ℝ) : EReal))))
        (((0 : ℝ) : ℝ) : EReal)
      = (((if 0 < d then (Real.sqrt d)⁻¹ else 0 : ℝ) : ℝ) : EReal) := by
  by_cases h : 0 < d
  · rw [cmp_ogt_zero_pos h, ValueIdx.select_one, ValueIdx.select_one, if_pos h, Ideal.sqrt_coe,
      if_neg (not_lt.mpr h.le), Ideal.div_coe (ne_of_gt (Real.sqrt_pos.mpr h)), ← EReal.coe_mul, one_mul, one_div]
  · rw [cmp_ogt_zero_nonpos h, ValueIdx.select_zero, if_neg h]

end Cert.RefValue
-- ==== Proof.RefLap.lean ====
/-
  The reference's scaled Laplacian, entry by entry.

  With every entry of the adjacency array a real number, the reference's first stages compute, for graph `b`: the
  node features `X[b, s, ·, ·]` flattened row-major into 384 columns; the degree of node `s`, the sum of row `s` of
  `A[b]`; the inverse root degree, `(√deg)⁻¹` where the degree is positive and `0` elsewhere; and the scaled Laplacian
  `-(A[b, s, m] · dinv s · dinv m)`.  Each is shown to be the real number of the same name in the specification, read
  as an extended real.
-/
import proofs.«146035_g81071802679316_cont_sun_m_195_36_alg».proof.Proof.RefReadP
import proofs.«146035_g81071802679316_cont_sun_m_195_36_alg».proof.Proof.SpecIdx
import proofs.«146035_g81071802679316_cont_sun_m_195_36_alg».proof.Proof.RefCoe

open scoped BigOperators

noncomputable section

namespace Cert.RefValue

open Cert.ReferenceIdeal Cert.ReferenceIdeal.Gen Cert.ReferenceIdeal.ReadP Idealize.ShloMosaic Idealize.ShloMosaic.ValueIdx Cert.Spec

variable (X : SX.Idx → ℝ) (A : SA.Idx → ℝ)

/-- Row-major flattening of the two trailing axes `[12, 32]` into `384` columns: column `f` is `(f / 32, f % 32)`. -/
theorem feat_idx (i : S16x325x384.Idx) :
    idx_main_v0 i = ix4 (i 0) (i 1) ⟨(i 2).val / 32, by have h2 : (i 2).val < 384 := (i 2).isLt; omega⟩ ⟨(i 2).val % 32, Nat.mod_lt _ (by norm_num)⟩ :=
  funext fun a => Fin.ext (by
    have h0 : (i 0).val < 16 := (i 0).isLt
    have h1 : (i 1).val < 325 := (i 1).isLt
    have h2 : (i 2).val < 384 := (i 2).isLt
    match a with
    | ⟨0, _⟩ => show (((i 0).val * 325 + (i 1).val) * 384 + (i 2).val) / 124800 = (i 0).val; omega
    | ⟨1, _⟩ => show (((i 0).val * 325 + (i 1).val) * 384 + (i 2).val) / 384 % 325 = (i 1).val; omega
    | ⟨2, _⟩ => show (((i 0).val * 325 + (i 1).val) * 384 + (i 2).val) / 32 % 12 = (i 2).val / 32; omega
    | ⟨3, _⟩ => show (((i 0).val * 325 + (i 1).val) * 384 + (i 2).val) % 32 = (i 2).val % 32; omega)

/-- The flattened node features of graph `i 0`. -/
theorem feat_eq (i : S16x325x384.Idx) :
    val_main_v0 (F := Ideal) (co X) i = ((xmat X (i 0) (i 1) (i 2) : ℝ) : EReal) := by
  rw [val_main_v0_apply]
  exact congrArg (fun t => ((X t : ℝ) : EReal)) (feat_idx i)

/-- The degree: the sum of a row of the adjacency matrix. -/
theorem deg_eq (i : S16x325.Idx) :
    val_main_v1 (F := Ideal) (co A) i = ((deg (amat A (i 0)) (i 1) : ℝ) : EReal) := by
  rw [val_main_v1_apply, val_main_cst_apply, Ideal.ofBits_def, Ideal.ofBits_zero_f32, zero_add]
  have e : ∀ k : Fin 325, idx_main_v1 i k = ix3 (i 0) (i 1) k := fun k =>
    funext fun a => Fin.ext (by match a with | ⟨0, _⟩ => rfl | ⟨1, _⟩ => rfl | ⟨2, _⟩ => rfl)
  refine Eq.trans (Finset.sum_congr rfl fun k _ => ?_) (coe_fsum (fun k : Fin 325 => A (ix3 (i 0) (i 1) k)))
  exact congrArg (fun t => ((A t : ℝ) : EReal)) (e k)

/-- The inverse root degree, `0` where the degree is not positive. -/
theorem dinv_eq (i : S16x325.Idx) :
    val_main_v10 (F := Ideal) (co A) i = ((dinv (amat A (i 0)) (i 1) : ℝ) : EReal) := by
  rw [val_main_v10_apply, val_main_v3_apply, val_main_v9_apply, val_main_v8_apply, val_main_cst_3_apply,
    val_main_v7_apply, val_main_v6_apply, val_main_v5_apply, val_main_call0_v1_apply, val_main_call0_v0_apply,
    val_main_cst_2_apply, val_main_call1_v1_apply, val_main_call1_v0_apply, val_main_cst_4_apply,
    val_main_v2_apply, val_main_cst_0_apply, val_main_v4_apply, val_main_cst_1_apply, deg_eq]
  simp only [Ideal.cmpf_def, Ideal.hostDivf_def, Ideal.hostUnary_sqrt_def, Ideal.ofBits_def, ofBits_zero_f32', ofBits_one_f32']
  exact guarded_inv_sqrt _

/-- The scaled Laplacian `-(A · dinv_row · dinv_col)`. -/
theorem lap_eq (i : S16x325x325.Idx) :
    val_main_v17 (F := Ideal) (co A) i = ((lap (amat A (i 0)) (i 1) (i 2) : ℝ) : EReal) := by
  rw [val_main_v17_apply, val_main_v16_apply, val_main_v13_apply, val_main_v12_apply, val_main_v11_apply,
    val_main_v15_apply, val_main_v14_apply, dinv_eq, dinv_eq]
  have hA : co A i = ((amat A (i 0) (i 1) (i 2) : ℝ) : EReal) :=
    congrArg (fun t => ((A t : ℝ) : EReal)) (eq_ix3 i)
  simp only [Ideal.hostNegf_def, Ideal.negf_def, Ideal.mulf_def]
  rw [hA, ← EReal.coe_mul, ← EReal.coe_mul, ← EReal.coe_neg]
  rfl

end Cert.RefValue

end
-- ==== Proof.RefLayer1.lean ====
/-
  Layer 1 of the reference network, entry by entry.

  With `L` the scaled Laplacian of graph `b` and `x` the layer's real input on that graph, the reference computes
  `x·W₀`, `T₁ = L·x`, `T₁·W₁`, `T₂ = 2·L·T₁ − x`, `T₂·W₂`, adds the three products and the bias, and takes `max(·, 0)`.
  Each product is a finite sum of products of reals, so each stage is the real matrix expression of the specification
  read as an extended real; the sum of the stages is the specification's Chebyshev layer.
-/
import proofs.«146035_g81071802679316_cont_sun_m_195_36_alg».proof.Proof.RefLap

open scoped BigOperators

noncomputable section

namespace Cert.RefValue

open Cert.ReferenceIdeal Cert.ReferenceIdeal.Gen Cert.ReferenceIdeal.ReadP Idealize.ShloMosaic Idealize.ShloMosaic.ValueIdx Cert.Spec

variable (X : SX.Idx → ℝ) (A : SA.Idx → ℝ) (W1 : (⟨3, ![3, 384, 256]⟩ : Shape).Idx → ℝ) (b1 : (⟨1, ![256]⟩ : Shape).Idx → ℝ)

/-- The layer's weight matrix `W1[0, ·, ·]`. -/
theorem l1_w0 (j : S384x256.Idx) :
    val_main_v19 (F := Ideal) (co W1) j = ((wmat W1 0 (j 0) (j 1) : ℝ) : EReal) := by
  rw [val_main_v19_apply, val_main_v18_apply]
  have e : idx_main_v18 (idx_main_v19 j) = ix3 (0 : Fin 3) (j 0) (j 1) := funext fun a => Fin.ext (by
    have h0 : (j 0).val < 384 := (j 0).isLt
    have h1 : (j 1).val < 256 := (j 1).isLt
    match a with
    | ⟨0, _⟩ => rfl
    | ⟨1, _⟩ => show ((j 0).val * 256 + (j 1).val) / 256 % 384 = (j 0).val; omega
    | ⟨2, _⟩ => show ((j 0).val * 256 + (j 1).val) % 256 = (j 1).val; omega)
  exact congrArg (fun t => ((W1 t : ℝ) : EReal)) e

/-- The layer's weight matrix `W1[1, ·, ·]`. -/
theorem l1_w1 (j : S384x256.Idx) :
    val_main_v23 (F := Ideal) (co W1) j = ((wmat W1 1 (j 0) (j 1) : ℝ) : EReal) := by
  rw [val_main_v23_apply, val_main_v22_apply]
  have e : idx_main_v22 (idx_main_v23 j) = ix3 (1 : Fin 3) (j 0) (j 1) := funext fun a => Fin.ext (by
    have h0 : (j 0).val < 384 := (j 0).isLt
    have h1 : (j 1).val < 256 := (j 1).isLt
    match a with
    | ⟨0, _⟩ => rfl
    | ⟨1, _⟩ => show ((j 0).val * 256 + (j 1).val) / 256 % 384 = (j 0).val; omega
    | ⟨2, _⟩ => show ((j 0).val * 256 + (j 1).val) % 256 = (j 1).val; omega)
  exact congrArg (fun t => ((W1 t : ℝ) : EReal)) e

/-- The layer's weight matrix `W1[2, ·, ·]`. -/
theorem l1_w2 (j : S384x256.Idx) :
    val_main_v31 (F := Ideal) (co W1) j = ((wmat W1 2 (j 0) (j 1) : ℝ) : EReal) := by
  rw [val_main_v31_apply, val_main_v30_apply]
  have e : idx_main_v30 (idx_main_v31 j) = ix3 (2 : Fin 3) (j 0) (j 1) := funext fun a => Fin.ext (by
    have h0 : (j 0).val < 384 := (j 0).isLt
    have h1 : (j 1).val < 256 := (j 1).isLt
    match a with
    | ⟨0, _⟩ => rfl
    | ⟨1, _⟩ => show ((j 0).val * 256 + (j 1).val) / 256 % 384 = (j 0).val; omega
    | ⟨2, _⟩ => show ((j 0).val * 256 + (j 1).val) % 256 = (j 1).val; omega)
  exact congrArg (fun t => ((W1 t : ℝ) : EReal)) e

/-- `x·W₀`. -/
theorem l1_xw0 (i : S16x325x256.Idx) :
    val_main_v20 (F := Ideal) (co X) (co W1) i = ((((xmat X (i 0)) * wmat W1 0) (i 1) (i 2) : ℝ) : EReal) := by
  rw [val_main_v20_apply]
  refine Eq.trans (Finset.sum_congr rfl fun k _ => ?_)
    (coe_dot (fun k : Fin 384 => (xmat X (i 0)) (i 1) k) (fun k => wmat W1 0 k (i 2)))
  exact congrArg₂ (· * ·) (feat_eq X (lidx_main_v20 i k)) (l1_w0 W1 (ridx_main_v20 i k))

/-- `T₁ = L·x`. -/
theorem l1_lx (i : S16x325x384.Idx) :
    val_main_v21 (F := Ideal) (co X) (co A) i = ((((lap (amat A (i 0))) * (xmat X (i 0))) (i 1) (i 2) : ℝ) : EReal) := by
  rw [val_main_v21_apply]
  refine Eq.trans (Finset.sum_congr rfl fun k _ => ?_)
    (coe_dot (fun k : Fin 325 => (lap (amat A (i 0))) (i 1) k) (fun k => (xmat X (i 0)) k (i 2)))
  exact congrArg₂ (· * ·) (lap_eq A (lidx_main_v21 i k)) (feat_eq X (ridx_main_v21 i k))

/-- `T₁·W₁`. -/
theorem l1_lxw1 (i : S16x325x256.Idx) :
    val_main_v24 (F := Ideal) (co X) (co A) (co W1) i = (((((lap (amat A (i 0))) * (xmat X (i 0))) * wmat W1 1) (i 1) (i 2) : ℝ) : EReal) := by
  rw [val_main_v24_apply]
  refine Eq.trans (Finset.sum_congr rfl fun k _ => ?_)
    (coe_dot (fun k : Fin 384 => ((lap (amat A (i 0))) * (xmat X (i 0))) (i 1) k) (fun k => wmat W1 1 k (i 2)))
  exact congrArg₂ (· * ·) (l1_lx X A (lidx_main_v24 i k)) (l1_w1 W1 (ridx_main_v24 i k))

/-- `x·W₀ + T₁·W₁`. -/
theorem l1_sum01 (i : S16x325x256.Idx) :
    val_main_v25 (F := Ideal) (co X) (co A) (co W1) i
      = (((((xmat X (i 0)) * wmat W1 0) (i 1) (i 2) + (((lap (amat A (i 0))) * (xmat X (i 0))) * wmat W1 1) (i 1) (i 2) : ℝ) : ℝ) : EReal) := by
  rw [val_main_v25_apply, l1_xw0, l1_lxw1, Ideal.addf_def]
  exact (EReal.coe_add _ _).symm

/-- `L·T₁`. -/
theorem l1_llx (i : S16x325x384.Idx) :
    val_main_v26 (F := Ideal) (co X) (co A) i = ((((lap (amat A (i 0))) * ((lap (amat A (i 0))) * (xmat X (i 0)))) (i 1) (i 2) : ℝ) : EReal) := by
  rw [val_main_v26_apply]
  refine Eq.trans (Finset.sum_congr rfl fun k _ => ?_)
    (coe_dot (fun k : Fin 325 => (lap (amat A (i 0))) (i 1) k) (fun k => ((lap (amat A (i 0))) * (xmat X (i 0))) k (i 2)))
  exact congrArg₂ (· * ·) (lap_eq A (lidx_main_v26 i k)) (l1_lx X A (ridx_main_v26 i k))

/-- `2·L·T₁`. -/
theorem l1_2llx (i : S16x325x384.Idx) :
    val_main_v28 (F := Ideal) (co X) (co A) i = (((2 : ℝ) * ((lap (amat A (i 0))) * ((lap (amat A (i 0))) * (xmat X (i 0)))) (i 1) (i 2) : ℝ) : EReal) := by
  rw [val_main_v28_apply, val_main_v27_apply, val_main_cst_5_apply, Ideal.ofBits_def, ofBits_two_f32,
    l1_llx, Ideal.mulf_def]
  exact (EReal.coe_mul _ _).symm

/-- `T₂ = 2·L·T₁ − x`. -/
theorem l1_t2 (i : S16x325x384.Idx) :
    val_main_v29 (F := Ideal) (co X) (co A) i = (((((2 : ℝ) • ((lap (amat A (i 0))) * ((lap (amat A (i 0))) * (xmat X (i 0)))) - (xmat X (i 0))) (i 1) (i 2) : ℝ) : ℝ) : EReal) := by
  rw [val_main_v29_apply, l1_2llx, feat_eq, Ideal.subf_def]
  exact (EReal.coe_sub _ _).symm

/-- `T₂·W₂`. -/
theorem l1_t2w2 (i : S16x325x256.Idx) :
    val_main_v32 (F := Ideal) (co X) (co A) (co W1) i = (((((2 : ℝ) • ((lap (amat A (i 0))) * ((lap (amat A (i 0))) * (xmat X (i 0)))) - (xmat X (i 0))) * wmat W1 2) (i 1) (i 2) : ℝ) : EReal) := by
  rw [val_main_v32_apply]
  refine Eq.trans (Finset.sum_congr rfl fun k _ => ?_)
    (coe_dot (fun k : Fin 384 => ((2 : ℝ) • ((lap (amat A (i 0))) * ((lap (amat A (i 0))) * (xmat X (i 0)))) - (xmat X (i 0))) (i 1) k) (fun k => wmat W1 2 k (i 2)))
  exact congrArg₂ (· * ·) (l1_t2 X A (lidx_main_v32 i k)) (l1_w2 W1 (ridx_main_v32 i k))

/-- `x·W₀ + T₁·W₁ + T₂·W₂`. -/
theorem l1_sum012 (i : S16x325x256.Idx) :
    val_main_v33 (F := Ideal) (co X) (co A) (co W1) i
      = (((((xmat X (i 0)) * wmat W1 0) (i 1) (i 2) + (((lap (amat A (i 0))) * (xmat X (i 0))) * wmat W1 1) (i 1) (i 2)
          + (((2 : ℝ) • ((lap (amat A (i 0))) * ((lap (amat A (i 0))) * (xmat X (i 0)))) - (xmat X (i 0))) * wmat W1 2) (i 1) (i 2) : ℝ) : ℝ) : EReal) := by
  rw [val_main_v33_apply, l1_sum01, l1_t2w2, Ideal.addf_def]
  exact (EReal.coe_add _ _).symm

/-- The bias, the same on every graph and node. -/
theorem l1_bias (i : S16x325x256.Idx) :
    val_main_v35 (F := Ideal) (co b1) i = ((bvec b1 (i 2) : ℝ) : EReal) := by
  rw [val_main_v35_apply, val_main_v34_apply]
  exact congrArg (fun t => ((b1 t : ℝ) : EReal))
    (funext fun a => Fin.ext (by match a with | ⟨0, _⟩ => rfl) : idx_main_v34 (idx_main_v35 i) = ix1 (i 2))

/-- The Chebyshev layer `x·W₀ + T₁·W₁ + T₂·W₂ + b`. -/
theorem l1_pre (i : S16x325x256.Idx) :
    val_main_v36 (F := Ideal) (co X) (co A) (co W1) (co b1) i
      = ((cheb (lap (amat A (i 0))) (xmat X (i 0)) (wmat W1) (bvec b1) (i 1) (i 2) : ℝ) : EReal) := by
  rw [val_main_v36_apply, l1_sum012, l1_bias, Ideal.addf_def]
  exact (EReal.coe_add _ _).symm

/-- The layer's result on graph `b`: the Chebyshev layer followed by `max(·, 0)`. -/
def h1 (X : SX.Idx → ℝ) (A : SA.Idx → ℝ) (W1 : (⟨3, ![3, 384, 256]⟩ : Shape).Idx → ℝ) (b1 : (⟨1, ![256]⟩ : Shape).Idx → ℝ) (b : Fin 16) : Matrix (Fin 325) (Fin 256) ℝ :=
  relu (cheb (lap (amat A b)) (xmat X (b)) (wmat W1) (bvec b1))

/-- `max(·, 0)` of the layer. -/
theorem l1_out (i : S16x325x256.Idx) :
    val_main_v37 (F := Ideal) (co X) (co A) (co W1) (co b1) i = ((h1 X A W1 b1 (i 0) (i 1) (i 2) : ℝ) : EReal) := by
  rw [val_main_v37_apply, l1_pre, val_main_call2_v0_apply, val_main_call2_cst_apply, Ideal.ofBits_def,
    ofBits_zero_f32', Ideal.maximumf_def]
  exact coe_max _ _

end Cert.RefValue

end
-- ==== Proof.RefLayer2.lean ====
/-
  Layer 2 of the reference network, entry by entry.

  With `L` the scaled Laplacian of graph `b` and `x` the layer's real input on that graph, the reference computes
  `x·W₀`, `T₁ = L·x`, `T₁·W₁`, `T₂ = 2·L·T₁ − x`, `T₂·W₂`, adds the three products and the bias, and takes `max(·, 0)`.
  Each product is a finite sum of products of reals, so each stage is the real matrix expression of the specification
  read as an extended real; the sum of the stages is the specification's Chebyshev layer.
-/
import proofs.«146035_g81071802679316_cont_sun_m_195_36_alg».proof.Proof.RefLayer1

open scoped BigOperators

noncomputable section

namespace Cert.RefValue

open Cert.ReferenceIdeal Cert.ReferenceIdeal.Gen Cert.ReferenceIdeal.ReadP Idealize.ShloMosaic Idealize.ShloMosaic.ValueIdx Cert.Spec

variable (X : SX.Idx → ℝ) (A : SA.Idx → ℝ) (W1 : (⟨3, ![3, 384, 256]⟩ : Shape).Idx → ℝ) (b1 : (⟨1, ![256]⟩ : Shape).Idx → ℝ) (W2 : (⟨3, ![3, 256, 256]⟩ : Shape).Idx → ℝ) (b2 : (⟨1, ![256]⟩ : Shape).Idx → ℝ)

/-- The layer's weight matrix `W2[0, ·, ·]`. -/
theorem l2_w0 (j : S256x256.Idx) :
    val_main_v39 (F := Ideal) (co W2) j = ((wmat W2 0 (j 0) (j 1) : ℝ) : EReal) := by
  rw [val_main_v39_apply, val_main_v38_apply]
  have e : idx_main_v38 (idx_main_v39 j) = ix3 (0 : Fin 3) (j 0) (j 1) := funext fun a => Fin.ext (by
    have h0 : (j 0).val < 256 := (j 0).isLt
    have h1 : (j 1).val < 256 := (j 1).isLt
    match a with
    | ⟨0, _⟩ => rfl
    | ⟨1, _⟩ => show ((j 0).val * 256 + (j 1).val) / 256 % 256 = (j 0).val; omega
    | ⟨2, _⟩ => show ((j 0).val * 256 + (j 1).val) % 256 = (j 1).val; omega)
  exact congrArg (fun t => ((W2 t : ℝ) : EReal)) e

/-- The layer's weight matrix `W2[1, ·, ·]`. -/
theorem l2_w1 (j : S256x256.Idx) :
    val_main_v43 (F := Ideal) (co W2) j = ((wmat W2 1 (j 0) (j 1) : ℝ) : EReal) := by
  rw [val_main_v43_apply, val_main_v42_apply]
  have e : idx_main_v42 (idx_main_v43 j) = ix3 (1 : Fin 3) (j 0) (j 1) := funext fun a => Fin.ext (by
    have h0 : (j 0).val < 256 := (j 0).isLt
    have h1 : (j 1).val < 256 := (j 1).isLt
    match a with
    | ⟨0, _⟩ => rfl
    | ⟨1, _⟩ => show ((j 0).val * 256 + (j 1).val) / 256 % 256 = (j 0).val; omega
    | ⟨2, _⟩ => show ((j 0).val * 256 + (j 1).val) % 256 = (j 1).val; omega)
  exact congrArg (fun t => ((W2 t : ℝ) : EReal)) e

/-- The layer's weight matrix `W2[2, ·, ·]`. -/
theorem l2_w2 (j : S256x256.Idx) :
    val_main_v51 (F := Ideal) (co W2) j = ((wmat W2 2 (j 0) (j 1) : ℝ) : EReal) := by
  rw [val_main_v51_apply, val_main_v50_apply]
  have e : idx_main_v50 (idx_main_v51 j) = ix3 (2 : Fin 3) (j 0) (j 1) := funext fun a => Fin.ext (by
    have h0 : (j 0).val < 256 := (j 0).isLt
    have h1 : (j 1).val < 256 := (j 1).isLt
    match a with
    | ⟨0, _⟩ => rfl
    | ⟨1, _⟩ => show ((j 0).val * 256 + (j 1).val) / 256 % 256 = (j 0).val; omega
    | ⟨2, _⟩ => show ((j 0).val * 256 + (j 1).val) % 256 = (j 1).val; omega)
  exact congrArg (fun t => ((W2 t : ℝ) : EReal)) e

/-- `x·W₀`. -/
theorem l2_xw0 (i : S16x325x256.Idx) :
    val_main_v40 (F := Ideal) (co X) (co A) (co W1) (co b1) (co W2) i = ((((h1 X A W1 b1 (i 0)) * wmat W2 0) (i 1) (i 2) : ℝ) : EReal) := by
  rw [val_main_v40_apply]
  refine Eq.trans (Finset.sum_congr rfl fun k _ => ?_)
    (coe_dot (fun k : Fin 256 => (h1 X A W1 b1 (i 0)) (i 1) k) (fun k => wmat W2 0 k (i 2)))
  exact congrArg₂ (· * ·) (l1_out X A W1 b1 (lidx_main_v40 i k)) (l2_w0 W2 (ridx_main_v40 i k))

/-- `T₁ = L·x`. -/
theorem l2_lx (i : S16x325x256.Idx) :
    val_main_v41 (F := Ideal) (co X) (co A) (co W1) (co b1) i = ((((lap (amat A (i 0))) * (h1 X A W1 b1 (i 0))) (i 1) (i 2) : ℝ) : EReal) := by
  rw [val_main_v41_apply]
  refine Eq.trans (Finset.sum_congr rfl fun k _ => ?_)
    (coe_dot (fun k : Fin 325 => (lap (amat A (i 0))) (i 1) k) (fun k => (h1 X A W1 b1 (i 0)) k (i 2)))
  exact congrArg₂ (· * ·) (lap_eq A (lidx_main_v41 i k)) (l1_out X A W1 b1 (ridx_main_v41 i k))

/-- `T₁·W₁`. -/
theorem l2_lxw1 (i : S16x325x256.Idx) :
    val_main_v44 (F := Ideal) (co X) (co A) (co W1) (co b1) (co W2) i = (((((lap (amat A (i 0))) * (h1 X A W1 b1 (i 0))) * wmat W2 1) (i 1) (i 2) : ℝ) : EReal) := by
  rw [val_main_v44_apply]
  refine Eq.trans (Finset.sum_congr rfl fun k _ => ?_)
    (coe_dot (fun k : Fin 256 => ((lap (amat A (i 0))) * (h1 X A W1 b1 (i 0))) (i 1) k) (fun k => wmat W2 1 k (i 2)))
  exact congrArg₂ (· * ·) (l2_lx X A W1 b1 (lidx_main_v44 i k)) (l2_w1 W2 (ridx_main_v44 i k))

/-- `x·W₀ + T₁·W₁`. -/
theorem l2_sum01 (i : S16x325x256.Idx) :
    val_main_v45 (F := Ideal) (co X) (co A) (co W1) (co b1) (co W2) i
      = (((((h1 X A W1 b1 (i 0)) * wmat W2 0) (i 1) (i 2) + (((lap (amat A (i 0))) * (h1 X A W1 b1 (i 0))) * wmat W2 1) (i 1) (i 2) : ℝ) : ℝ) : EReal) := by
  rw [val_main_v45_apply, l2_xw0, l2_lxw1, Ideal.addf_def]
  exact (EReal.coe_add _ _).symm

/-- `L·T₁`. -/
theorem l2_llx (i : S16x325x256.Idx) :
    val_main_v46 (F := Ideal) (co X) (co A) (co W1) (co b1) i = ((((lap (amat A (i 0))) * ((lap (amat A (i 0))) * (h1 X A W1 b1 (i 0)))) (i 1) (i 2) : ℝ) : EReal) := by
  rw [val_main_v46_apply]
  refine Eq.trans (Finset.sum_congr rfl fun k _ => ?_)
    (coe_dot (fun k : Fin 325 => (lap (amat A (i 0))) (i 1) k) (fun k => ((lap (amat A (i 0))) * (h1 X A W1 b1 (i 0))) k (i 2)))
  exact congrArg₂ (· * ·) (lap_eq A (lidx_main_v46 i k)) (l2_lx X A W1 b1 (ridx_main_v46 i k))

/-- `2·L·T₁`. -/
theorem l2_2llx (i : S16x325x256.Idx) :
    val_main_v48 (F := Ideal) (co X) (co A) (co W1) (co b1) i = (((2 : ℝ) * ((lap (amat A (i 0))) * ((lap (amat A (i 0))) * (h1 X A W1 b1 (i 0)))) (i 1) (i 2) : ℝ) : EReal) := by
  rw [val_main_v48_apply, val_main_v47_apply, val_main_cst_6_apply, Ideal.ofBits_def, ofBits_two_f32,
    l2_llx, Ideal.mulf_def]
  exact (EReal.coe_mul _ _).symm

/-- `T₂ = 2·L·T₁ − x`. -/
theorem l2_t2 (i : S16x325x256.Idx) :
    val_main_v49 (F := Ideal) (co X) (co A) (co W1) (co b1) i = (((((2 : ℝ) • ((lap (amat A (i 0))) * ((lap (amat A (i 0))) * (h1 X A W1 b1 (i 0)))) - (h1 X A W1 b1 (i 0))) (i 1) (i 2) : ℝ) : ℝ) : EReal) := by
  rw [val_main_v49_apply, l2_2llx, l1_out, Ideal.subf_def]
  exact (EReal.coe_sub _ _).symm

/-- `T₂·W₂`. -/
theorem l2_t2w2 (i : S16x325x256.Idx) :
    val_main_v52 (F := Ideal) (co X) (co A) (co W1) (co b1) (co W2) i = (((((2 : ℝ) • ((lap (amat A (i 0))) * ((lap (amat A (i 0))) * (h1 X A W1 b1 (i 0)))) - (h1 X A W1 b1 (i 0))) * wmat W2 2) (i 1) (i 2) : ℝ) : EReal) := by
  rw [val_main_v52_apply]
  refine Eq.trans (Finset.sum_congr rfl fun k _ => ?_)
    (coe_dot (fun k : Fin 256 => ((2 : ℝ) • ((lap (amat A (i 0))) * ((lap (amat A (i 0))) * (h1 X A W1 b1 (i 0)))) - (h1 X A W1 b1 (i 0))) (i 1) k) (fun k => wmat W2 2 k (i 2)))
  exact congrArg₂ (· * ·) (l2_t2 X A W1 b1 (lidx_main_v52 i k)) (l2_w2 W2 (ridx_main_v52 i k))

/-- `x·W₀ + T₁·W₁ + T₂·W₂`. -/
theorem l2_sum012 (i : S16x325x256.Idx) :
    val_main_v53 (F := Ideal) (co X) (co A) (co W1) (co b1) (co W2) i
      = (((((h1 X A W1 b1 (i 0)) * wmat W2 0) (i 1) (i 2) + (((lap (amat A (i 0))) * (h1 X A W1 b1 (i 0))) * wmat W2 1) (i 1) (i 2)
          + (((2 : ℝ) • ((lap (amat A (i 0))) * ((lap (amat A (i 0))) * (h1 X A W1 b1 (i 0)))) - (h1 X A W1 b1 (i 0))) * wmat W2 2) (i 1) (i 2) : ℝ) : ℝ) : EReal) := by
  rw [val_main_v53_apply, l2_sum01, l2_t2w2, Ideal.addf_def]
  exact (EReal.coe_add _ _).symm

/-- The bias, the same on every graph and node. -/
theorem l2_bias (i : S16x325x256.Idx) :
    val_main_v55 (F := Ideal) (co b2) i = ((bvec b2 (i 2) : ℝ) : EReal) := by
  rw [val_main_v55_apply, val_main_v54_apply]
  exact congrArg (fun t => ((b2 t : ℝ) : EReal))
    (funext fun a => Fin.ext (by match a with | ⟨0, _⟩ => rfl) : idx_main_v54 (idx_main_v55 i) = ix1 (i 2))

/-- The Chebyshev layer `x·W₀ + T₁·W₁ + T₂·W₂ + b`. -/
theorem l2_pre (i : S16x325x256.Idx) :
    val_main_v56 (F := Ideal) (co X) (co A) (co W1) (co b1) (co W2) (co b2) i
      = ((cheb (lap (amat A (i 0))) (h1 X A W1 b1 (i 0)) (wmat W2) (bvec b2) (i 1) (i 2) : ℝ) : EReal) := by
  rw [val_main_v56_apply, l2_sum012, l2_bias, Ideal.addf_def]
  exact (EReal.coe_add _ _).symm

/-- The layer's result on graph `b`: the Chebyshev layer followed by `max(·, 0)`. -/
def h2 (X : SX.Idx → ℝ) (A : SA.Idx → ℝ) (W1 : (⟨3, ![3, 384, 256]⟩ : Shape).Idx → ℝ) (b1 : (⟨1, ![256]⟩ : Shape).Idx → ℝ) (W2 : (⟨3, ![3, 256, 256]⟩ : Shape).Idx → ℝ) (b2 : (⟨1, ![256]⟩ : Shape).Idx → ℝ) (b : Fin 16) : Matrix (Fin 325) (Fin 256) ℝ :=
  relu (cheb (lap (amat A b)) (h1 X A W1 b1 (b)) (wmat W2) (bvec b2))

/-- `max(·, 0)` of the layer. -/
theorem l2_out (i : S16x325x256.Idx) :
    val_main_v57 (F := Ideal) (co X) (co A) (co W1) (co b1) (co W2) (co b2) i = ((h2 X A W1 b1 W2 b2 (i 0) (i 1) (i 2) : ℝ) : EReal) := by
  rw [val_main_v57_apply, l2_pre, val_main_call3_v0_apply, val_main_call3_cst_apply, Ideal.ofBits_def,
    ofBits_zero_f32', Ideal.maximumf_def]
  exact coe_max _ _

end Cert.RefValue

end
-- ==== Proof.RefLayer3.lean ====
/-
  Layer 3 of the reference network, entry by entry.

  With `L` the scaled Laplacian of graph `b` and `x` the layer's real input on that graph, the reference computes
  `x·W₀`, `T₁ = L·x`, `T₁·W₁`, `T₂ = 2·L·T₁ − x`, `T₂·W₂`, adds the three products and the bias.
  Each product is a finite sum of products of reals, so each stage is the real matrix expression of the specification
  read as an extended real; the sum of the stages is the specification's Chebyshev layer.
-/
import proofs.«146035_g81071802679316_cont_sun_m_195_36_alg».proof.Proof.RefLayer2

open scoped BigOperators

noncomputable section

namespace Cert.RefValue

open Cert.ReferenceIdeal Cert.ReferenceIdeal.Gen Cert.ReferenceIdeal.ReadP Idealize.ShloMosaic Idealize.ShloMosaic.ValueIdx Cert.Spec

variable (X : SX.Idx → ℝ) (A : SA.Idx → ℝ) (W1 : (⟨3, ![3, 384, 256]⟩ : Shape).Idx → ℝ) (b1 : (⟨1, ![256]⟩ : Shape).Idx → ℝ) (W2 : (⟨3, ![3, 256, 256]⟩ : Shape).Idx → ℝ) (b2 : (⟨1, ![256]⟩ : Shape).Idx → ℝ) (W3 : (⟨3, ![3, 256, 128]⟩ : Shape).Idx → ℝ) (b3 : (⟨1, ![128]⟩ : Shape).Idx → ℝ)

/-- The layer's weight matrix `W3[0, ·, ·]`. -/
theorem l3_w0 (j : S256x128.Idx) :
    val_main_v59 (F := Ideal) (co W3) j = ((wmat W3 0 (j 0) (j 1) : ℝ) : EReal) := by
  rw [val_main_v59_apply, val_main_v58_apply]
  have e : idx_main_v58 (idx_main_v59 j) = ix3 (0 : Fin 3) (j 0) (j 1) := funext fun a => Fin.ext (by
    have h0 : (j 0).val < 256 := (j 0).isLt
    have h1 : (j 1).val < 128 := (j 1).isLt
    match a with
    | ⟨0, _⟩ => rfl
    | ⟨1, _⟩ => show ((j 0).val * 128 + (j 1).val) / 128 % 256 = (j 0).val; omega
    | ⟨2, _⟩ => show ((j 0).val * 128 + (j 1).val) % 128 = (j 1).val; omega)
  exact congrArg (fun t => ((W3 t : ℝ) : EReal)) e

/-- The layer's weight matrix `W3[1, ·, ·]`. -/
theorem l3_w1 (j : S256x128.Idx) :
    val_main_v63 (F := Ideal) (co W3) j = ((wmat W3 1 (j 0) (j 1) : ℝ) : EReal) := by
  rw [val_main_v63_apply, val_main_v62_apply]
  have e : idx_main_v62 (idx_main_v63 j) = ix3 (1 : Fin 3) (j 0) (j 1) := funext fun a => Fin.ext (by
    have h0 : (j 0).val < 256 := (j 0).isLt
    have h1 : (j 1).val < 128 := (j 1).isLt
    match a with
    | ⟨0, _⟩ => rfl
    | ⟨1, _⟩ => show ((j 0).val * 128 + (j 1).val) / 128 % 256 = (j 0).val; omega
    | ⟨2, _⟩ => show ((j 0).val * 128 + (j 1).val) % 128 = (j 1).val; omega)
  exact congrArg (fun t => ((W3 t : ℝ) : EReal)) e

/-- The layer's weight matrix `W3[2, ·, ·]`. -/
theorem l3_w2 (j : S256x128.Idx) :
    val_main_v71 (F := Ideal) (co W3) j = ((wmat W3 2 (j 0) (j 1) : ℝ) : EReal) := by
  rw [val_main_v71_apply, val_main_v70_apply]
  have e : idx_main_v70 (idx_main_v71 j) = ix3 (2 : Fin 3) (j 0) (j 1) := funext fun a => Fin.ext (by
    have h0 : (j 0).val < 256 := (j 0).isLt
    have h1 : (j 1).val < 128 := (j 1).isLt
    match a with
    | ⟨0, _⟩ => rfl
    | ⟨1, _⟩ => show ((j 0).val * 128 + (j 1).val) / 128 % 256 = (j 0).val; omega
    | ⟨2, _⟩ => show ((j 0).val * 128 + (j 1).val) % 128 = (j 1).val; omega)
  exact congrArg (fun t => ((W3 t : ℝ) : EReal)) e

/-- `x·W₀`. -/
theorem l3_xw0 (i : S16x325x128.Idx) :
    val_main_v60 (F := Ideal) (co X) (co A) (co W1) (co b1) (co W2) (co b2) (co W3) i = ((((h2 X A W1 b1 W2 b2 (i 0)) * wmat W3 0) (i 1) (i 2) : ℝ) : EReal) := by
  rw [val_main_v60_apply]
  refine Eq.trans (Finset.sum_congr rfl fun k _ => ?_)
    (coe_dot (fun k : Fin 256 => (h2 X A W1 b1 W2 b2 (i 0)) (i 1) k) (fun k => wmat W3 0 k (i 2)))
  exact congrArg₂ (· * ·) (l2_out X A W1 b1 W2 b2 (lidx_main_v60 i k)) (l3_w0 W3 (ridx_main_v60 i k))

/-- `T₁ = L·x`. -/
theorem l3_lx (i : S16x325x256.Idx) :
    val_main_v61 (F := Ideal) (co X) (co A) (co W1) (co b1) (co W2) (co b2) i = ((((lap (amat A (i 0))) * (h2 X A W1 b1 W2 b2 (i 0))) (i 1) (i 2) : ℝ) : EReal) := by
  rw [val_main_v61_apply]
  refine Eq.trans (Finset.sum_congr rfl fun k _ => ?_)
    (coe_dot (fun k : Fin 325 => (lap (amat A (i 0))) (i 1) k) (fun k => (h2 X A W1 b1 W2 b2 (i 0)) k (i 2)))
  exact congrArg₂ (· * ·) (lap_eq A (lidx_main_v61 i k)) (l2_out X A W1 b1 W2 b2 (ridx_main_v61 i k))

/-- `T₁·W₁`. -/
theorem l3_lxw1 (i : S16x325x128.Idx) :
    val_main_v64 (F := Ideal) (co X) (co A) (co W1) (co b1) (co W2) (co b2) (co W3) i = (((((lap (amat A (i 0))) * (h2 X A W1 b1 W2 b2 (i 0))) * wmat W3 1) (i 1) (i 2) : ℝ) : EReal) := by
  rw [val_main_v64_apply]
  refine Eq.trans (Finset.sum_congr rfl fun k _ => ?_)
    (coe_dot (fun k : Fin 256 => ((lap (amat A (i 0))) * (h2 X A W1 b1 W2 b2 (i 0))) (i 1) k) (fun k => wmat W3 1 k (i 2)))
  exact congrArg₂ (· * ·) (l3_lx X A W1 b1 W2 b2 (lidx_main_v64 i k)) (l3_w1 W3 (ridx_main_v64 i k))

/-- `x·W₀ + T₁·W₁`. -/
theorem l3_sum01 (i : S16x325x128.Idx) :
    val_main_v65 (F := Ideal) (co X) (co A) (co W1) (co b1) (co W2) (co b2) (co W3) i
      = (((((h2 X A W1 b1 W2 b2 (i 0)) * wmat W3 0) (i 1) (i 2) + (((lap (amat A (i 0))) * (h2 X A W1 b1 W2 b2 (i 0))) * wmat W3 1) (i 1) (i 2) : ℝ) : ℝ) : EReal) := by
  rw [val_main_v65_apply, l3_xw0, l3_lxw1, Ideal.addf_def]
  exact (EReal.coe_add _ _).symm

/-- `L·T₁`. -/
theorem l3_llx (i : S16x325x256.Idx) :
    val_main_v66 (F := Ideal) (co X) (co A) (co W1) (co b1) (co W2) (co b2) i = ((((lap (amat A (i 0))) * ((lap (amat A (i 0))) * (h2 X A W1 b1 W2 b2 (i 0)))) (i 1) (i 2) : ℝ) : EReal) := by
  rw [val_main_v66_apply]
  refine Eq.trans (Finset.sum_congr rfl fun k _ => ?_)
    (coe_dot (fun k : Fin 325 => (lap (amat A (i 0))) (i 1) k) (fun k => ((lap (amat A (i 0))) * (h2 X A W1 b1 W2 b2 (i 0))) k (i 2)))
  exact congrArg₂ (· * ·) (lap_eq A (lidx_main_v66 i k)) (l3_lx X A W1 b1 W2 b2 (ridx_main_v66 i k))

/-- `2·L·T₁`. -/
theorem l3_2llx (i : S16x325x256.Idx) :
    val_main_v68 (F := Ideal) (co X) (co A) (co W1) (co b1) (co W2) (co b2) i = (((2 : ℝ) * ((lap (amat A (i 0))) * ((lap (amat A (i 0))) * (h2 X A W1 b1 W2 b2 (i 0)))) (i 1) (i 2) : ℝ) : EReal) := by
  rw [val_main_v68_apply, val_main_v67_apply, val_main_cst_7_apply, Ideal.ofBits_def, ofBits_two_f32,
    l3_llx, Ideal.mulf_def]
  exact (EReal.coe_mul _ _).symm

/-- `T₂ = 2·L·T₁ − x`. -/
theorem l3_t2 (i : S16x325x256.Idx) :
    val_main_v69 (F := Ideal) (co X) (co A) (co W1) (co b1) (co W2) (co b2) i = (((((2 : ℝ) • ((lap (amat A (i 0))) * ((lap (amat A (i 0))) * (h2 X A W1 b1 W2 b2 (i 0)))) - (h2 X A W1 b1 W2 b2 (i 0))) (i 1) (i 2) : ℝ) : ℝ) : EReal) := by
  rw [val_main_v69_apply, l3_2llx, l2_out, Ideal.subf_def]
  exact (EReal.coe_sub _ _).symm

/-- `T₂·W₂`. -/
theorem l3_t2w2 (i : S16x325x128.Idx) :
    val_main_v72 (F := Ideal) (co X) (co A) (co W1) (co b1) (co W2) (co b2) (co W3) i = (((((2 : ℝ) • ((lap (amat A (i 0))) * ((lap (amat A (i 0))) * (h2 X A W1 b1 W2 b2 (i 0)))) - (h2 X A W1 b1 W2 b2 (i 0))) * wmat W3 2) (i 1) (i 2) : ℝ) : EReal) := by
  rw [val_main_v72_apply]
  refine Eq.trans (Finset.sum_congr rfl fun k _ => ?_)
    (coe_dot (fun k : Fin 256 => ((2 : ℝ) • ((lap (amat A (i 0))) * ((lap (amat A (i 0))) * (h2 X A W1 b1 W2 b2 (i 0)))) - (h2 X A W1 b1 W2 b2 (i 0))) (i 1) k) (fun k => wmat W3 2 k (i 2)))
  exact congrArg₂ (· * ·) (l3_t2 X A W1 b1 W2 b2 (lidx_main_v72 i k)) (l3_w2 W3 (ridx_main_v72 i k))

/-- `x·W₀ + T₁·W₁ + T₂·W₂`. -/
theorem l3_sum012 (i : S16x325x128.Idx) :
    val_main_v73 (F := Ideal) (co X) (co A) (co W1) (co b1) (co W2) (co b2) (co W3) i
      = (((((h2 X A W1 b1 W2 b2 (i 0)) * wmat W3 0) (i 1) (i 2) + (((lap (amat A (i 0))) * (h2 X A W1 b1 W2 b2 (i 0))) * wmat W3 1) (i 1) (i 2)
          + (((2 : ℝ) • ((lap (amat A (i 0))) * ((lap (amat A (i 0))) * (h2 X A W1 b1 W2 b2 (i 0)))) - (h2 X A W1 b1 W2 b2 (i 0))) * wmat W3 2) (i 1) (i 2) : ℝ) : ℝ) : EReal) := by
  rw [val_main_v73_apply, l3_sum01, l3_t2w2, Ideal.addf_def]
  exact (EReal.coe_add _ _).symm

/-- The bias, the same on every graph and node. -/
theorem l3_bias (i : S16x325x128.Idx) :
    val_main_v75 (F := Ideal) (co b3) i = ((bvec b3 (i 2) : ℝ) : EReal) := by
  rw [val_main_v75_apply, val_main_v74_apply]
  exact congrArg (fun t => ((b3 t : ℝ) : EReal))
    (funext fun a => Fin.ext (by match a with | ⟨0, _⟩ => rfl) : idx_main_v74 (idx_main_v75 i) = ix1 (i 2))

/-- The Chebyshev layer `x·W₀ + T₁·W₁ + T₂·W₂ + b`. -/
theorem l3_pre (i : S16x325x128.Idx) :
    val_main_v76 (F := Ideal) (co X) (co A) (co W1) (co b1) (co W2) (co b2) (co W3) (co b3) i
      = ((cheb (lap (amat A (i 0))) (h2 X A W1 b1 W2 b2 (i 0)) (wmat W3) (bvec b3) (i 1) (i 2) : ℝ) : EReal) := by
  rw [val_main_v76_apply, l3_sum012, l3_bias, Ideal.addf_def]
  exact (EReal.coe_add _ _).symm

end Cert.RefValue

end
-- ==== Proof.RefValue.lean ====
/-
  The reference computes the specification's network.

  When every input entry is a real number, the reference's result `[16, 325, 128]` is, entry by entry, the real
  three-layer Chebyshev network of the specification on graph `i 0` at node `i 1` and output feature `i 2`, read as
  an extended real: the third layer's stages applied to the second layer's result, itself the second layer applied to
  the first layer's result.
-/
import proofs.«146035_g81071802679316_cont_sun_m_195_36_alg».proof.Proof.RefLayer3

open scoped BigOperators

noncomputable section

namespace Cert.RefValue

open Cert.ReferenceIdeal Cert.ReferenceIdeal.Gen Cert.ReferenceIdeal.ReadP Idealize.ShloMosaic Idealize.ShloMosaic.ValueIdx Cert.Spec

/-- The reference's result is the network of the specification. -/
theorem ref_eq (X : SX.Idx → ℝ)
    (A : SA.Idx → ℝ)
    (W1 : (⟨3, ![3, 384, 256]⟩ : Shape).Idx → ℝ)
    (b1 : (⟨1, ![256]⟩ : Shape).Idx → ℝ)
    (W2 : (⟨3, ![3, 256, 256]⟩ : Shape).Idx → ℝ)
    (b2 : (⟨1, ![256]⟩ : Shape).Idx → ℝ)
    (W3 : (⟨3, ![3, 256, 128]⟩ : Shape).Idx → ℝ)
    (b3 : (⟨1, ![128]⟩ : Shape).Idx → ℝ) :
    Cert.ReferenceIdeal.ReadP.val_main_v76 (F := Ideal) (fun i => ((X i : ℝ) : EReal)) (fun i => ((A i : ℝ) : EReal))
        (fun i => ((W1 i : ℝ) : EReal)) (fun i => ((b1 i : ℝ) : EReal)) (fun i => ((W2 i : ℝ) : EReal))
        (fun i => ((b2 i : ℝ) : EReal)) (fun i => ((W3 i : ℝ) : EReal)) (fun i => ((b3 i : ℝ) : EReal))
      = Cert.Spec.outArr X A W1 b1 W2 b2 W3 b3 :=
  funext fun i => l3_pre X A W1 b1 W2 b2 W3 b3 i

end Cert.RefValue

end
-- ==== Proof.lean ====
/-
  The certificate's five claims, assembled.

  Both programs with the kernel run to the end, fault nowhere and leave their arguments unchanged: the body is run
  once at symbolic operands, the two scratch buffers are written before they are read at every grid point, and no
  host operation before the region writes an argument.  The reference is a straight line of host operations.
  The idealization rewrote nothing, so the kernel's idealization is its own text read over the extended reals.

  Over the extended reals, on finite inputs, both programs compute the three-layer Chebyshev network of `Spec.lean`:
  every input entry is the coercion of a real, so every intermediate value is, and the kernel's arrangement —
  rows zero-padded to 336, weights stacked as `[W₀ − W₂ | W₁ | W₂]`, projection before propagation, eight graphs per
  grid point — agrees with the reference's by associativity and distributivity of real matrix products, the padded
  rows and columns of the Laplacian being zero.
-/
import proofs.«146035_g81071802679316_cont_sun_m_195_36_alg».proof.Defs
import proofs.«146035_g81071802679316_cont_sun_m_195_36_alg».proof.Proof.Gen.Kernel
import proofs.«146035_g81071802679316_cont_sun_m_195_36_alg».proof.Proof.Gen.KernelIdeal
import proofs.«146035_g81071802679316_cont_sun_m_195_36_alg».proof.Proof.Gen.ReferenceIdeal
import proofs.«146035_g81071802679316_cont_sun_m_195_36_alg».proof.Proof.Gen.Pre_finite_inputs
import proofs.«146035_g81071802679316_cont_sun_m_195_36_alg».proof.Proof.KFrame
import proofs.«146035_g81071802679316_cont_sun_m_195_36_alg».proof.Proof.KIFrame
import proofs.«146035_g81071802679316_cont_sun_m_195_36_alg».proof.Proof.KIAlg
import proofs.«146035_g81071802679316_cont_sun_m_195_36_alg».proof.Proof.KIGlue
import proofs.«146035_g81071802679316_cont_sun_m_195_36_alg».proof.Proof.FinPre
import proofs.«146035_g81071802679316_cont_sun_m_195_36_alg».proof.Proof.RefValue
import proofs.«146035_g81071802679316_cont_sun_m_195_36_alg».proof.Proof.RefRunP
import Idealize.ShloMosaic.Adequacy
import Idealize.ShloMosaic.Init

noncomputable section

namespace Cert.Proof

open Idealize.ShloMosaic Idealize.SL.Sem

theorem frame_k : Cert.frame_Kernel := fun m ρ _ => Cert.Kernel.Frame.frame (F := Bits) m ρ
theorem frame_ki : Cert.frame_KernelIdeal := fun m ρ _ => Cert.KernelIdeal.Frame.frame (F := Ideal) m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- On every device the inputs are real arrays (the precondition); the kernel's result array ends at the network of
    those arrays block by block, and the reference's at the same network. -/
theorem algebraic : Cert.algebraic_KernelIdeal_ReferenceIdeal := by
  intro m ρ m' ρ' hpre hagree
  have hr := fun c => Cert.Finite.real_of_pre _ _ _ _ _ _ _ _ (hpre c)
  choose X A W1 b1 W2 b2 W3 b3 hreal using hr
  refine ⟨fun c => Cert.Spec.outArr (X c) (A c) (W1 c) (b1 c) (W2 c) (b2 c) (W3 c) (b3 c), ?_, ?_⟩
  · exact Cert.KernelIdeal.Alg.kernel_run m ρ X A W1 b1 W2 b2 W3 b3 (fun c t g s o =>
      Cert.KernelIdeal.Glue.outBlk_apply m c t (X c) (A c) (W1 c) (b1 c) (W2 c) (b2 c) (W3 c) (b3 c)
        (hreal c).1 (hreal c).2.1 (hreal c).2.2.1 (hreal c).2.2.2.1 (hreal c).2.2.2.2.1 (hreal c).2.2.2.2.2.1
        (hreal c).2.2.2.2.2.2.1 (hreal c).2.2.2.2.2.2.2 g s o)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7⟩ := hagree c
    obtain ⟨h0, h1, h2, h3, h4, h5, h6, h7⟩ := hreal c
    rw [Cert.ReferenceIdeal.ReadP.val_main_v76_eq, e0, e1, e2, e3, e4, e5, e6, e7, h0, h1, h2, h3, h4, h5, h6, h7]
    exact Cert.RefValue.ref_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
